-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S100000 : Shape := ⟨1, ![100000]⟩
abbrev S2000 : Shape := ⟨1, ![2000]⟩
abbrev S2x128 : Shape := ⟨2, ![2, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg10 : FVec F S128x2 .f32) (main_arg11 : FVec F S2 .f32) (main_v33 : IVec S_ 1) : IVec S_ 1 :=
  let main_v34 : FVec F S128x2 .f32 := Host.absf main_arg10
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg11
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg7 : FVec F S3x128 .f32) (main_arg8 : FVec F S128x128 .f32) (main_arg9 : FVec F S128 .f32) (main_arg10 : FVec F S128x2 .f32) (main_arg11 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S100000x2 .f32) (main_arg1 : IVec S2x1600000 32) (main_arg2 : IVec S100000 32) (main_arg3 : IVec S2000 32) (main_arg4 : FVec F S2x128 .f32) (main_arg5 : FVec F S128 .f32) (main_arg6 : FVec F S3x128x128 .f32) (main_arg7 : FVec F S3x128 .f32) (main_arg8 : FVec F S128x128 .f32) (main_arg9 : FVec F S128 .f32) (main_arg10 : FVec F S128x2 .f32) (main_arg11 : FVec F S2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x128 .f32 := Host.absf main_arg4
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_arg10 main_arg11 main_v13 main_v16
-- ==== Kernel.lean ====
abbrev S100000x2 : Shape := ⟨2, ![100000, 2]⟩
abbrev S2x1600000 : Shape := ⟨2, ![2, 1600000]⟩
abbrev S100000 : Shape := ⟨1, ![100000]⟩
abbrev S2000 : Shape := ⟨1, ![2000]⟩
abbrev S2x128 : Shape := ⟨2, ![2, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x2 : Shape := ⟨2, ![5000, 2]⟩
abbrev S5000x128 : Shape := ⟨2, ![5000, 128]⟩
abbrev S1700000x128 : Shape := ⟨2, ![1700000, 128]⟩
abbrev S1x128 : Shape := ⟨2, ![1, 128]⟩
abbrev S1x128x128 : Shape := ⟨3, ![1, 128, 128]⟩
abbrev S2000x128 : Shape := ⟨2, ![2000, 128]⟩
abbrev S100000x1 : Shape := ⟨2, ![100000, 1]⟩
abbrev S64x128 : Shape := ⟨2, ![64, 128]⟩
abbrev S2000x1 : Shape := ⟨2, ![2000, 1]⟩
abbrev S1x2 : Shape := ⟨2, ![1, 2]⟩
abbrev S64x2 : Shape := ⟨2, ![64, 2]⟩
abbrev S64 : Shape := ⟨1, ![64]⟩
abbrev S64x1 : Shape := ⟨2, ![64, 1]⟩

abbrev nBuf : Space → Nat
  | .hbm => 155
  | .vmem => 26
  | .smem => 0
  | _ => 0

abbrev hbmTy0_0 (i : Nat) : BufTy := match i % 128 with
  | 0 => ⟨S100000x2, .f32⟩
  | 1 => ⟨S2x1600000, .i32⟩
  | 2 => ⟨S100000, .i32⟩
  | 3 => ⟨S2000, .i32⟩
  | 4 => ⟨S2x128, .f32⟩
  | 5 => ⟨S128, .f32⟩
  | 6 => ⟨S3x128x128, .f32⟩
  | 7 => ⟨S3x128, .f32⟩
  | 8 => ⟨S128x128, .f32⟩
  | 9 => ⟨S128, .f32⟩
  | 10 => ⟨S128x2, .f32⟩
  | 11 => ⟨S2, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S1x128x128, .f32⟩
  | 73 => ⟨S128x128, .f32⟩
  | 74 => ⟨S1x128, .f32⟩
  | 75 => ⟨S128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S1x128x128, .f32⟩
  | 97 => ⟨S128x128, .f32⟩
  | 98 => ⟨S1x128, .f32⟩
  | 99 => ⟨S128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S1x128x128, .f32⟩
  | 121 => ⟨S128x128, .f32⟩
  | 122 => ⟨S1x128, .f32⟩
  | 123 => ⟨S128, .f32⟩
  | 124 => ⟨S100000x128, .f32⟩
  | 125 => ⟨S_, .i32⟩
  | 126 => ⟨S1700000, .i32⟩
  | 127 => ⟨S1700000, .i1⟩
  | _ => ⟨S100000x2, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x128, .f32⟩
  | 6 => ⟨S1700000x1, .f32⟩
  | 7 => ⟨S1700000x128, .f32⟩
  | 8 => ⟨S1700000x128, .f32⟩
  | 9 => ⟨S_, .f32⟩
  | 10 => ⟨S100000x128, .f32⟩
  | 11 => ⟨S1700000x1, .i32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S2000x128, .f32⟩
  | 18 => ⟨S100000x1, .i32⟩
  | 19 => ⟨S2000x128, .f32⟩
  | 20 => ⟨S_, .f32⟩
  | 21 => ⟨S64x128, .f32⟩
  | 22 => ⟨S2000x1, .i32⟩
  | 23 => ⟨S64x128, .f32⟩
  | 24 => ⟨S1x128, .f32⟩
  | 25 => ⟨S1x2, .f32⟩
  | 26 => ⟨S64x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S5000x2, .f32⟩
  | .local _ .vmem, ⟨1, _⟩ => ⟨S5000x2, .f32⟩
  | .local _ .vmem, ⟨2, _⟩ => ⟨S2x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S64x128, .f32⟩
  | .local _ .vmem, ⟨21, _⟩ => ⟨S128x128, .f32⟩
  | .local _ .vmem, ⟨22, _⟩ => ⟨S1x128, .f32⟩
  | .local _ .vmem, ⟨23, _⟩ => ⟨S128x2, .f32⟩
  | .local _ .vmem, ⟨24, _⟩ => ⟨S1x2, .f32⟩
  | .local _ .vmem, ⟨25, _⟩ => ⟨S64x2, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_15 : Ref sig .tc := ⟨.hbm, 125, rfl⟩
abbrev main_v94 : Ref sig .tc := ⟨.hbm, 126, rfl⟩
abbrev main_v95 : Ref sig .tc := ⟨.hbm, 127, rfl⟩
abbrev main_c_16 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_17 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_18 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_19 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S2000_S2000x1_0 : S2000.BroadcastsInDim S2000x1 (![0] : Fin 1 → Fin S2000x1.rank)
  shapeCasts_S128_S1x128 : S128.ShapeCasts S1x128
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  reduces_S64x2_S64 : S64x2.Reduces [1] S64
  shapeCasts_S64_S64x1 : S64.ShapeCasts S64x1
  broadcasts_S64x1_S64x2 : S64x1.Broadcasts S64x2
  inb_S64x2_S64x2_0_0 : ∀ a, (![0, 0] : Fin 2 → Nat) a + S64x2.size a ≤ S64x2.size a
  h_S64x2 : 0 < S64x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x2_S2x128_S5000x128_1_0_0_1_n_n_wf : DotDims.WF S5000x2 S2x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S2000x128_S100000x1_S100000x128_1_0_0_1_wf : ScatterDims.WF S2000x128 S100000x1 S100000x128 [1] [0] [0] 1
  scatter_S64x128_S2000x1_S2000x128_1_0_0_1_wf : ScatterDims.WF S64x128 S2000x1 S2000x128 [1] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x2.size a ≤ S128x2.size a
  hwx4_3 : ∀ i : grid4.Coords, EltTy.bits .f32 = 32 ∨ (Rect.block (s := S128x2) S128x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x2.size a ≤ S64x2.size a
  hwx4_5 : ∀ i : grid4.Coords, EltTy.bits .f32 = 32 ∨ (Rect.block (s := S64x2) S64x2.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x2_S2x128_S5000x128_1_0_0_1_n_n : DotDims S5000x2 S2x128 S5000x128 where
  lhsContracting := [1]
  rhsContracting := [0]
  lhsNonContracting := [0]
  rhsNonContracting := [1]
  lhsBatch := []
  rhsBatch := []
  wf := dot_S5000x2_S2x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S64x128_S2000x1_S2000x128_1_0_0_1 : ScatterDims S64x128 S2000x1 S2000x128 where
  updateWindowDims := [1]
  insertedWindowDims := [0]
  scatterDimsToOperandDims := [0]
  indexVectorDim := 1
  wf := scatter_S64x128_S2000x1_S2000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v115) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v117) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v118) S64x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S100000 : Shape := ⟨1, ![100000]⟩
abbrev S2000 : Shape := ⟨1, ![2000]⟩
abbrev S2x128 : Shape := ⟨2, ![2, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1x128x128 : Shape := ⟨3, ![1, 128, 128]⟩
abbrev S2000x128 : Shape := ⟨2, ![2000, 128]⟩
abbrev S100000x1 : Shape := ⟨2, ![100000, 1]⟩
abbrev S64x128 : Shape := ⟨2, ![64, 128]⟩
abbrev S2000x1 : Shape := ⟨2, ![2000, 1]⟩
abbrev S64x2 : Shape := ⟨2, ![64, 2]⟩
abbrev S1x2 : Shape := ⟨2, ![1, 2]⟩
abbrev S64 : Shape := ⟨1, ![64]⟩
abbrev S64x1 : Shape := ⟨2, ![64, 1]⟩

abbrev nBuf : Space → Nat
  | .hbm => 178
  | .vmem => 0
  | .smem => 0
  | _ => 0

abbrev hbmTy0_0 (i : Nat) : BufTy := match i % 128 with
  | 0 => ⟨S100000x2, .f32⟩
  | 1 => ⟨S2x1600000, .i32⟩
  | 2 => ⟨S100000, .i32⟩
  | 3 => ⟨S2000, .i32⟩
  | 4 => ⟨S2x128, .f32⟩
  | 5 => ⟨S128, .f32⟩
  | 6 => ⟨S3x128x128, .f32⟩
  | 7 => ⟨S3x128, .f32⟩
  | 8 => ⟨S128x128, .f32⟩
  | 9 => ⟨S128, .f32⟩
  | 10 => ⟨S128x2, .f32⟩
  | 11 => ⟨S2, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S1x128x128, .f32⟩
  | 73 => ⟨S128x128, .f32⟩
  | 74 => ⟨S1x128, .f32⟩
  | 75 => ⟨S128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S1x128x128, .f32⟩
  | 97 => ⟨S128x128, .f32⟩
  | 98 => ⟨S1x128, .f32⟩
  | 99 => ⟨S128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S1x128x128, .f32⟩
  | 121 => ⟨S128x128, .f32⟩
  | 122 => ⟨S1x128, .f32⟩
  | 123 => ⟨S128, .f32⟩
  | 124 => ⟨S100000x128, .f32⟩
  | 125 => ⟨S_, .i32⟩
  | 126 => ⟨S1700000, .i32⟩
  | 127 => ⟨S1700000, .i1⟩
  | _ => ⟨S100000x2, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x128, .f32⟩
  | 6 => ⟨S1700000x1, .f32⟩
  | 7 => ⟨S1700000x128, .f32⟩
  | 8 => ⟨S1700000x128, .f32⟩
  | 9 => ⟨S_, .f32⟩
  | 10 => ⟨S100000x128, .f32⟩
  | 11 => ⟨S1700000x1, .i32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S2000x128, .f32⟩
  | 18 => ⟨S100000x1, .i32⟩
  | 19 => ⟨S2000x128, .f32⟩
  | 20 => ⟨S_, .f32⟩
  | 21 => ⟨S64x128, .f32⟩
  | 22 => ⟨S2000x1, .i32⟩
  | 23 => ⟨S64x128, .f32⟩
  | 24 => ⟨S64x128, .f32⟩
  | 25 => ⟨S1x128, .f32⟩
  | 26 => ⟨S64x128, .f32⟩
  | 27 => ⟨S64x128, .f32⟩
  | 28 => ⟨S_, .f32⟩
  | 29 => ⟨S64x128, .f32⟩
  | 30 => ⟨S64x128, .f32⟩
  | 31 => ⟨S64x2, .f32⟩
  | 32 => ⟨S1x2, .f32⟩
  | 33 => ⟨S64x2, .f32⟩
  | 34 => ⟨S64x2, .f32⟩
  | 35 => ⟨S_, .f32⟩
  | 36 => ⟨S64, .f32⟩
  | 37 => ⟨S_, .f32⟩
  | 38 => ⟨S64, .f32⟩
  | 39 => ⟨S64, .f32⟩
  | 40 => ⟨S64x1, .f32⟩
  | 41 => ⟨S64x2, .f32⟩
  | 42 => ⟨S64x2, .f32⟩
  | 43 => ⟨S64x2, .f32⟩
  | 44 => ⟨S_, .f32⟩
  | 45 => ⟨S64, .f32⟩
  | 46 => ⟨S64x1, .f32⟩
  | 47 => ⟨S64x1, .f32⟩
  | 48 => ⟨S64x2, .f32⟩
  | 49 => ⟨S64x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_15 : Ref sig .tc := ⟨.hbm, 125, rfl⟩
abbrev main_v94 : Ref sig .tc := ⟨.hbm, 126, rfl⟩
abbrev main_v95 : Ref sig .tc := ⟨.hbm, 127, rfl⟩
abbrev main_c_16 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_17 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_18 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_19 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_call1_cst : Ref sig .tc := ⟨.hbm, 156, rfl⟩
abbrev main_call1_v0 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_call2_cst : Ref sig .tc := ⟨.hbm, 163, rfl⟩
abbrev main_call2_v0 : Ref sig .tc := ⟨.hbm, 164, rfl⟩
abbrev main_call2_cst_0 : Ref sig .tc := ⟨.hbm, 165, rfl⟩
abbrev main_call2_v1 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_v6 : Ref sig .tc := ⟨.hbm, 171, rfl⟩
abbrev main_call2_cst_1 : Ref sig .tc := ⟨.hbm, 172, rfl⟩
abbrev main_call2_v7 : Ref sig .tc := ⟨.hbm, 173, rfl⟩
abbrev main_call2_v8 : Ref sig .tc := ⟨.hbm, 174, rfl⟩
abbrev main_call2_v9 : Ref sig .tc := ⟨.hbm, 175, rfl⟩
abbrev main_call2_v10 : Ref sig .tc := ⟨.hbm, 176, rfl⟩
abbrev main_v125 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S2000_S2000x1_0 : S2000.BroadcastsInDim S2000x1 (![0] : Fin 1 → Fin S2000x1.rank)
  bcast_S1x128_S64x128_0_1 : S1x128.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x2_S2x128_S100000x128_1_0_0_1_n_n_wf : DotDims.WF S100000x2 S2x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S2000x128_S100000x1_S100000x128_1_0_0_1_wf : ScatterDims.WF S2000x128 S100000x1 S100000x128 [1] [0] [0] 1
  scatter_S64x128_S2000x1_S2000x128_1_0_0_1_wf : ScatterDims.WF S64x128 S2000x1 S2000x128 [1] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S64x128_S2000x1_S2000x128_1_0_0_1 : ScatterDims S64x128 S2000x1 S2000x128 where
  updateWindowDims := [1]
  insertedWindowDims := [0]
  scatterDimsToOperandDims := [0]
  indexVectorDim := 1
  wf := scatter_S64x128_S2000x1_S2000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KernelRun.lean ====
/-
  The idealized kernel's run with its RESULT kept.

  @main is five launches among stretches of host operations. The buffer contents at each boundary are a fold
  from the launch memory: a stretch of host operations applies its operations in order; a launch replaces its
  output array by what its grid points wrote back and leaves every other buffer alone. The thread state carried
  from segment to segment says that every buffer not scoped to a launch holds the current boundary's contents.
  At the return it says so of the last boundary, and reading it against the final memory gives the contents of
  every such buffer at once (`run_of_final`). Read at the result buffer, which is the last launch's output
  array, and at the twelve argument arrays, that is `run_result`. What the last boundary holds at the result
  buffer is then a matter of the fold alone; the other modules open it one boundary at a time.
-/
import proofs.«144633_j4887672783292_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every core holds when @main starts: its unscoped buffers at the launch contents, its generator register,
    and nothing owed. -/
abbrev first (c : Dev nD) : sProp 𝕄 :=
  iprop(StableHlo.held (c : Thread nD τ) (Pipeline.ucRefs τ sig) (W0 m ρ c) ∗ R c)

/-- A final memory agrees with the last boundary on every unscoped buffer of core `c`. -/
abbrev atLast (c : Dev nD) (s : MemSt nD τ sig (Elt F)) : Prop :=
  ∀ b ∈ Pipeline.ucRefs τ sig, s.mem (((c : Thread nD τ)).1, b) = W12 m ρ c b

-- the library theorem's implicit arguments are found by unifying its conclusion with this one, which unfolds plain
-- definitions inside a type still to be determined
set_option backward.isDefEq.respectTransparency.types false in
/-- Every weakly fair execution of @main terminates without a fault, and any property that follows from the final
    memory agreeing with the last boundary on the unscoped buffers holds of it. -/
theorem run_of_final {Q : PUnit × MemSt nD τ sig (Elt F) → Prop}
    (hQ : ∀ s : MemSt nD τ sig (Elt F), (∀ c : Dev nD, atLast m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    -- @main is the run of its twelve segments
    (fun c Q => by rw [main_run m ρ c])
    -- each of the five launches is entered once
    (by simp only [segs, Pipeline.Seg.pipes_host, Pipeline.Seg.pipes_region, Pipeline.Seg.pipes_nil]; decide)
    -- no core owes another anything at launch, and no level is assigned
    (O₀ := 0) (hL := fun _ _ => rfl) (G := fun _ => iprop(emp))
    (u₀ := initOf (Pipeline.cells cfgs cellOf_inj) (Pipeline.launchToks cfgs cellOf_inj))
    -- the launch's ghost element is the staging cells' initial one; no further ghost resource is asked for
    (hu₀ := by
      have fill : (BI.emp : sProp 𝕄) ⊢ bigSep Finset.univ (fun _ : Dev nD => (BI.emp : sProp 𝕄)) := by
        rw [BI.bigSep_emp_const]
      -- owning the launch element IS owning its image in the combined algebra
      have same : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hown
      imodintro
      isplitl [Hown]
      · iapply same
        iexact Hown
      · iapply fill
        iempintro)
    (T₀ := first m ρ) (Tₙ := Tₙ m ρ)
    -- each segment is entered from exactly what the one before it leaves
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    -- the first state, core by core, out of what the launch deals
    (hinit := by
      refine Pipeline.initEach L lv fun c => ?_
      rw [Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      · iexists ∅; iexact Howes)
    (QY := atLast m ρ)
    -- the last state read against a final memory: each buffer it holds is there with the contents it names
    (hfin := fun c s' => by
      iintro ⟨⟨Hbufs, -⟩, HSI⟩
      unfold StableHlo.held
      imodintro
      iapply (pointsTo_read_all (Pipeline.ucRefs τ sig) (fun b => (((c : Thread nD τ)).1, b)) (W12 m ρ c) s')
      isplitl [Hbufs]
      · iexact Hbufs
      · iexact HSI)
    (hQ := hQ)

/-- The run, read at the result and at the arguments: the result buffer holds the last boundary's contents at the
    last launch's output array, and the arguments are as launched (no host operation and no launch writes one). -/
theorem run_result : θ_run defs (onTc (τ := τ) (main (F := F))) ⟨m, fun _ => 0, ρ⟩ (fun r => ∀ c : Dev nD,
      r.2.mem ((c.tc : Thread nD τ).loc main_v118) = W12 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_of_final m ρ fun s h c =>
    ⟨h c _ (mem_uc main_v118 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c)⟩

end Cert.KernelIdeal.Whole

end
-- ==== Proof.RefRun.lean ====
/-
  The reference's run, read as a fold.

  The reference's @main is a straight line of 166 host operations (the three functions it calls stand in their
  calls' places). Every weakly fair execution of such a program terminates, and every buffer then holds the fold
  of the operations' results over the launch contents. The line is cut here where the kernel program's launches
  sit — before and after each of the four dense products, and before the perceptron — so that the two programs'
  folds can be compared one stretch at a time: between two cuts both programs apply the same operations.
-/
import proofs.«144633_j4887672783292_1_alg».proof.ReferenceIdeal
import proofs.«144633_j4887672783292_1_alg».proof.Proof.Gen.ReferenceIdeal
import Idealize.ShloMosaic.Lib.StableHlo.Run

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- The edge lists with self loops, the ones, and the in-degree with its reciprocal square root. -/
abbrev opsA0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

/-- The degree's guard: the reciprocal square root where the degree is positive, zero elsewhere. -/
abbrev opsA1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v13 : StableHlo.TRef sig ⟨S100000, .f32⟩) (.of main_call0_v1 : StableHlo.TRef sig ⟨S100000, .f32⟩) (.of main_v14 : StableHlo.TRef sig ⟨S100000, .f32⟩) select ]

/-- The edge weights: the guarded value at each edge's source times that at its destination. -/
abbrev opsA2 : List (HloOp τ sig (Elt F)) :=
  [ StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first layer's dense product. -/
abbrev opsD0 : List (HloOp τ sig (Elt F)) :=
  [ StableHlo.binary main_arg0 main_arg4 main_v30 ((fun l r => Host.dotGeneral dot_S100000x2_S2x128_S100000x128_1_0_0_1_n_n none l r) : (⟨S100000x2, .f32⟩ : BufTy).Contents (Elt F) → (⟨S2x128, .f32⟩ : BufTy).Contents (Elt F) → (⟨S100000x128, .f32⟩ : BufTy).Contents (Elt F)) ]

/-- The first layer's edge sum and bias, and the second layer's weights and bias cut out. -/
abbrev opsB1 : List (HloOp τ sig (Elt F)) :=
  [ StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg5 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.unary main_arg6 main_v47 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v47 main_v48 rfl shapeCasts_S1x128x128_S128x128,
    StableHlo.unary main_arg7 main_v49 ((extractStridedSlice S1x128 ![0, 0] · slices_S3x128_S1x128_0_0) : (⟨S3x128, .f32⟩ : BufTy).Contents (Elt F) → (⟨S1x128, .f32⟩ : BufTy).Contents (Elt F)),
    StableHlo.reshape main_v49 main_v50 rfl shapeCasts_S1x128_S128 ]

/-- The second layer's dense product. -/
abbrev opsD1 : List (HloOp τ sig (Elt F)) :=
  [ StableHlo.binary main_v46 main_v48 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The second layer's edge sum and bias, and the third layer's weights and bias cut out. -/
abbrev opsB2 : List (HloOp τ sig (Elt F)) :=
  [ StableHlo.nullary main_c_9 (constantI S_ 32 0#32),
    StableHlo.unary main_c_9 main_v52 (broadcastInDim S1700000 ![] bcast_S_S1700000 : (⟨S_, .i32⟩ : BufTy).Contents (Elt F) → (⟨S1700000, .i32⟩ : BufTy).Contents (Elt F)),
    StableHlo.binary main_v3 main_v52 main_v53 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v54 (broadcastInDim S1700000 ![] bcast_S_S1700000 : (⟨S_, .i32⟩ : BufTy).Contents (Elt F) → (⟨S1700000, .i32⟩ : BufTy).Contents (Elt F)),
    StableHlo.binary main_v3 main_v54 main_v55 (addi : (⟨S1700000, .i32⟩ : BufTy).Contents (Elt F) → (⟨S1700000, .i32⟩ : BufTy).Contents (Elt F) → (⟨S1700000, .i32⟩ : BufTy).Contents (Elt F)),
    StableHlo.ternary main_v53 main_v55 main_v3 main_v56 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v56 main_v57 (broadcastInDim S1700000x1 ![0] bcast_S1700000_S1700000x1_0 : (⟨S1700000, .i32⟩ : BufTy).Contents (Elt F) → (⟨S1700000x1, .i32⟩ : BufTy).Contents (Elt F)),
    StableHlo.binary main_v51 main_v57 main_v58 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v59 (broadcastInDim S1700000x1 ![0] bcast_S1700000_S1700000x1_0 : (⟨S1700000, .f32⟩ : BufTy).Contents (Elt F) → (⟨S1700000x1, .f32⟩ : BufTy).Contents (Elt F)),
    StableHlo.unary main_v59 main_v60 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v58 main_v60 main_v61 (mulf : (⟨S1700000x128, .f32⟩ : BufTy).Contents (Elt F) → (⟨S1700000x128, .f32⟩ : BufTy).Contents (Elt F) → (⟨S1700000x128, .f32⟩ : BufTy).Contents (Elt F)),
    StableHlo.nullary main_cst_11 (constant S_ .f32 0x00000000#32),
    StableHlo.unary main_cst_11 main_v62 (broadcastInDim S100000x128 ![] bcast_S_S100000x128 : (⟨S_, .f32⟩ : BufTy).Contents (Elt F) → (⟨S100000x128, .f32⟩ : BufTy).Contents (Elt F)),
    StableHlo.unary main_v6 main_v63 (broadcastInDim S1700000x1 ![0] bcast_S1700000_S1700000x1_0 : (⟨S1700000, .i32⟩ : BufTy).Contents (Elt F) → (⟨S1700000x1, .i32⟩ : BufTy).Contents (Elt F)),
    StableHlo.ternary main_v62 main_v63 main_v61 main_v64 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v50 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.unary main_arg6 main_v68 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v68 main_v69 rfl shapeCasts_S1x128x128_S128x128,
    StableHlo.unary main_arg7 main_v70 ((extractStridedSlice S1x128 ![1, 0] · slices_S3x128_S1x128_1_0) : (⟨S3x128, .f32⟩ : BufTy).Contents (Elt F) → (⟨S1x128, .f32⟩ : BufTy).Contents (Elt F)),
    StableHlo.reshape main_v70 main_v71 rfl shapeCasts_S1x128_S128 ]

/-- The third layer's dense product. -/
abbrev opsD2 : List (HloOp τ sig (Elt F)) :=
  [ StableHlo.binary main_v67 main_v69 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The third layer's edge sum and bias, and the fourth layer's weights and bias cut out. -/
abbrev opsB3 : List (HloOp τ sig (Elt F)) :=
  [ StableHlo.nullary main_c_12 (constantI S_ 32 0#32),
    StableHlo.unary main_c_12 main_v73 (broadcastInDim S1700000 ![] bcast_S_S1700000 : (⟨S_, .i32⟩ : BufTy).Contents (Elt F) → (⟨S1700000, .i32⟩ : BufTy).Contents (Elt F)),
    StableHlo.binary main_v3 main_v73 main_v74 (cmpi .slt : (⟨S1700000, .i32⟩ : BufTy).Contents (Elt F) → (⟨S1700000, .i32⟩ : BufTy).Contents (Elt F) → (⟨S1700000, .i1⟩ : BufTy).Contents (Elt F)),
    StableHlo.nullary main_c_13 (constantI S_ 32 100000#32),
    StableHlo.unary main_c_13 main_v75 (broadcastInDim S1700000 ![] bcast_S_S1700000 : (⟨S_, .i32⟩ : BufTy).Contents (Elt F) → (⟨S1700000, .i32⟩ : BufTy).Contents (Elt F)),
    StableHlo.binary main_v3 main_v75 main_v76 (addi : (⟨S1700000, .i32⟩ : BufTy).Contents (Elt F) → (⟨S1700000, .i32⟩ : BufTy).Contents (Elt F) → (⟨S1700000, .i32⟩ : BufTy).Contents (Elt F)),
    StableHlo.ternary main_v74 main_v76 main_v3 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v77 main_v78 (broadcastInDim S1700000x1 ![0] bcast_S1700000_S1700000x1_0 : (⟨S1700000, .i32⟩ : BufTy).Contents (Elt F) → (⟨S1700000x1, .i32⟩ : BufTy).Contents (Elt F)),
    StableHlo.binary main_v72 main_v78 main_v79 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v80 (broadcastInDim S1700000x1 ![0] bcast_S1700000_S1700000x1_0 : (⟨S1700000, .f32⟩ : BufTy).Contents (Elt F) → (⟨S1700000x1, .f32⟩ : BufTy).Contents (Elt F)),
    StableHlo.unary main_v80 main_v81 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v79 main_v81 main_v82 (mulf : (⟨S1700000x128, .f32⟩ : BufTy).Contents (Elt F) → (⟨S1700000x128, .f32⟩ : BufTy).Contents (Elt F) → (⟨S1700000x128, .f32⟩ : BufTy).Contents (Elt F)),
    StableHlo.nullary main_cst_14 (constant S_ .f32 0x00000000#32),
    StableHlo.unary main_cst_14 main_v83 (broadcastInDim S100000x128 ![] bcast_S_S100000x128 : (⟨S_, .f32⟩ : BufTy).Contents (Elt F) → (⟨S100000x128, .f32⟩ : BufTy).Contents (Elt F)),
    StableHlo.unary main_v6 main_v84 (broadcastInDim S1700000x1 ![0] bcast_S1700000_S1700000x1_0 : (⟨S1700000, .i32⟩ : BufTy).Contents (Elt F) → (⟨S1700000x1, .i32⟩ : BufTy).Contents (Elt F)),
    StableHlo.ternary main_v83 main_v84 main_v82 main_v85 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v71 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v87 main_v88 (addf : (⟨S100000x128, .f32⟩ : BufTy).Contents (Elt F) → (⟨S100000x128, .f32⟩ : BufTy).Contents (Elt F) → (⟨S100000x128, .f32⟩ : BufTy).Contents (Elt F)),
    StableHlo.unary main_arg6 main_v89 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v89 main_v90 rfl shapeCasts_S1x128x128_S128x128,
    StableHlo.unary main_arg7 main_v91 ((extractStridedSlice S1x128 ![2, 0] · slices_S3x128_S1x128_2_0) : (⟨S3x128, .f32⟩ : BufTy).Contents (Elt F) → (⟨S1x128, .f32⟩ : BufTy).Contents (Elt F)),
    StableHlo.reshape main_v91 main_v92 rfl shapeCasts_S1x128_S128 ]

/-- The fourth layer's dense product. -/
abbrev opsD3 : List (HloOp τ sig (Elt F)) :=
  [ StableHlo.binary main_v88 main_v90 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The fourth layer's edge sum and bias, then the sums per subgraph and per graph. -/
abbrev opsB4 : List (HloOp τ sig (Elt F)) :=
  [ StableHlo.nullary main_c_15 (constantI S_ 32 0#32),
    StableHlo.unary main_c_15 main_v94 (broadcastInDim S1700000 ![] bcast_S_S1700000 : (⟨S_, .i32⟩ : BufTy).Contents (Elt F) → (⟨S1700000, .i32⟩ : BufTy).Contents (Elt F)),
    StableHlo.binary main_v3 main_v94 main_v95 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v96 (broadcastInDim S1700000 ![] bcast_S_S1700000 : (⟨S_, .i32⟩ : BufTy).Contents (Elt F) → (⟨S1700000, .i32⟩ : BufTy).Contents (Elt F)),
    StableHlo.binary main_v3 main_v96 main_v97 (addi : (⟨S1700000, .i32⟩ : BufTy).Contents (Elt F) → (⟨S1700000, .i32⟩ : BufTy).Contents (Elt F) → (⟨S1700000, .i32⟩ : BufTy).Contents (Elt F)),
    StableHlo.ternary main_v95 main_v97 main_v3 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v98 main_v99 (broadcastInDim S1700000x1 ![0] bcast_S1700000_S1700000x1_0 : (⟨S1700000, .i32⟩ : BufTy).Contents (Elt F) → (⟨S1700000x1, .i32⟩ : BufTy).Contents (Elt F)),
    StableHlo.binary main_v93 main_v99 main_v100 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v101 (broadcastInDim S1700000x1 ![0] bcast_S1700000_S1700000x1_0 : (⟨S1700000, .f32⟩ : BufTy).Contents (Elt F) → (⟨S1700000x1, .f32⟩ : BufTy).Contents (Elt F)),
    StableHlo.unary main_v101 main_v102 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v100 main_v102 main_v103 (mulf : (⟨S1700000x128, .f32⟩ : BufTy).Contents (Elt F) → (⟨S1700000x128, .f32⟩ : BufTy).Contents (Elt F) → (⟨S1700000x128, .f32⟩ : BufTy).Contents (Elt F)),
    StableHlo.nullary main_cst_17 (constant S_ .f32 0x00000000#32),
    StableHlo.unary main_cst_17 main_v104 (broadcastInDim S100000x128 ![] bcast_S_S100000x128 : (⟨S_, .f32⟩ : BufTy).Contents (Elt F) → (⟨S100000x128, .f32⟩ : BufTy).Contents (Elt F)),
    StableHlo.unary main_v6 main_v105 (broadcastInDim S1700000x1 ![0] bcast_S1700000_S1700000x1_0 : (⟨S1700000, .i32⟩ : BufTy).Contents (Elt F) → (⟨S1700000x1, .i32⟩ : BufTy).Contents (Elt F)),
    StableHlo.ternary main_v104 main_v105 main_v103 main_v106 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v92 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v108 main_v109 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x00000000#32),
    StableHlo.unary main_cst_18 main_v110 (broadcastInDim S2000x128 ![] bcast_S_S2000x128 : (⟨S_, .f32⟩ : BufTy).Contents (Elt F) → (⟨S2000x128, .f32⟩ : BufTy).Contents (Elt F)),
    StableHlo.unary main_arg2 main_v111 (broadcastInDim S100000x1 ![0] bcast_S100000_S100000x1_0 : (⟨S100000, .i32⟩ : BufTy).Contents (Elt F) → (⟨S100000x1, .i32⟩ : BufTy).Contents (Elt F)),
    StableHlo.ternary main_v110 main_v111 main_v109 main_v112 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    StableHlo.nullary main_cst_19 (constant S_ .f32 0x00000000#32),
    StableHlo.unary main_cst_19 main_v113 (broadcastInDim S64x128 ![] bcast_S_S64x128 : (⟨S_, .f32⟩ : BufTy).Contents (Elt F) → (⟨S64x128, .f32⟩ : BufTy).Contents (Elt F)),
    StableHlo.unary main_arg3 main_v114 (broadcastInDim S2000x1 ![0] bcast_S2000_S2000x1_0 : (⟨S2000, .i32⟩ : BufTy).Contents (Elt F) → (⟨S2000x1, .i32⟩ : BufTy).Contents (Elt F)),
    StableHlo.ternary main_v113 main_v114 main_v112 main_v115 ((fun x i u => Host.scatterAdd scatter_S64x128_S2000x1_S2000x128_1_0_0_1 x i u) : (⟨S64x128, .f32⟩ : BufTy).Contents (Elt F) → (⟨S2000x1, .i32⟩ : BufTy).Contents (Elt F) → (⟨S2000x128, .f32⟩ : BufTy).Contents (Elt F) → (⟨S64x128, .f32⟩ : BufTy).Contents (Elt F)) ]

/-- The perceptron with its log-softmax. -/
abbrev opsM : List (HloOp τ sig (Elt F)) :=
  [ StableHlo.binary main_v115 main_arg8 main_v116 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg9 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S64x128 ![0, 1] bcast_S1x128_S64x128_0_1 : (⟨S1x128, .f32⟩ : BufTy).Contents (Elt F) → (⟨S64x128, .f32⟩ : BufTy).Contents (Elt F)),
    StableHlo.binary main_v116 main_v118 main_v119 (addf : (⟨S64x128, .f32⟩ : BufTy).Contents (Elt F) → (⟨S64x128, .f32⟩ : BufTy).Contents (Elt F) → (⟨S64x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S64x128, .f32⟩) (broadcastInDim S64x128 ![] bcast_S_S64x128),
    StableHlo.TRef.binary (.of main_v119 : StableHlo.TRef sig ⟨S64x128, .f32⟩) (.of main_call1_v0 : StableHlo.TRef sig ⟨S64x128, .f32⟩) (.of main_v120 : StableHlo.TRef sig ⟨S64x128, .f32⟩) maximumf,
    StableHlo.binary main_v120 main_arg10 main_v121 ((fun l r => Host.dotGeneral dot_S64x128_S128x2_S64x2_1_0_0_1_n_n none l r) : (⟨S64x128, .f32⟩ : BufTy).Contents (Elt F) → (⟨S128x2, .f32⟩ : BufTy).Contents (Elt F) → (⟨S64x2, .f32⟩ : BufTy).Contents (Elt F)),
    StableHlo.unary main_arg11 main_v122 (broadcastInDim S1x2 ![1] bcast_S2_S1x2_1 : (⟨S2, .f32⟩ : BufTy).Contents (Elt F) → (⟨S1x2, .f32⟩ : BufTy).Contents (Elt F)),
    StableHlo.unary main_v122 main_v123 (broadcastInDim S64x2 ![0, 1] bcast_S1x2_S64x2_0_1 : (⟨S1x2, .f32⟩ : BufTy).Contents (Elt F) → (⟨S64x2, .f32⟩ : BufTy).Contents (Elt F)),
    StableHlo.binary main_v121 main_v123 main_v124 (addf : (⟨S64x2, .f32⟩ : BufTy).Contents (Elt F) → (⟨S64x2, .f32⟩ : BufTy).Contents (Elt F) → (⟨S64x2, .f32⟩ : BufTy).Contents (Elt F)),
    StableHlo.TRef.nullary (.of main_call2_cst : StableHlo.TRef sig ⟨S_, .f32⟩) (constant S_ .f32 0xFF800000#32),
    StableHlo.TRef.binary (.of main_v124 : StableHlo.TRef sig ⟨S64x2, .f32⟩) (.of main_call2_cst : StableHlo.TRef sig ⟨S_, .f32⟩) (.of main_call2_v0 : StableHlo.TRef sig ⟨S64, .f32⟩) (fun x v => Host.reduce FloatOps.maximumf x v reducesTo_S64x2_S64_d1 h_S_),
    StableHlo.TRef.nullary (.of main_call2_cst_0 : StableHlo.TRef sig ⟨S_, .f32⟩) (constant S_ .f32 0xFF800000#32),
    StableHlo.TRef.unary (.of main_call2_cst_0 : StableHlo.TRef sig ⟨S_, .f32⟩) (.of main_call2_v1 : StableHlo.TRef sig ⟨S64, .f32⟩) (broadcastInDim S64 ![] bcast_S_S64),
    StableHlo.TRef.binary (.of main_call2_v1 : StableHlo.TRef sig ⟨S64, .f32⟩) (.of main_call2_v0 : StableHlo.TRef sig ⟨S64, .f32⟩) (.of main_call2_v2 : StableHlo.TRef sig ⟨S64, .f32⟩) maximumf,
    StableHlo.TRef.unary (.of main_call2_v2 : StableHlo.TRef sig ⟨S64, .f32⟩) (.of main_call2_v3 : StableHlo.TRef sig ⟨S64x1, .f32⟩) (broadcastInDim S64x1 ![0] bcast_S64_S64x1_0),
    StableHlo.TRef.unary (.of main_call2_v3 : StableHlo.TRef sig ⟨S64x1, .f32⟩) (.of main_call2_v4 : StableHlo.TRef sig ⟨S64x2, .f32⟩) (broadcastInDim S64x2 ![0, 1] bcast_S64x1_S64x2_0_1),
    StableHlo.TRef.binary (.of main_v124 : StableHlo.TRef sig ⟨S64x2, .f32⟩) (.of main_call2_v4 : StableHlo.TRef sig ⟨S64x2, .f32⟩) (.of main_call2_v5 : StableHlo.TRef sig ⟨S64x2, .f32⟩) subf,
    StableHlo.TRef.unary (.of main_call2_v5 : StableHlo.TRef sig ⟨S64x2, .f32⟩) (.of main_call2_v6 : StableHlo.TRef sig ⟨S64x2, .f32⟩) Host.exp,
    StableHlo.TRef.nullary (.of main_call2_cst_1 : StableHlo.TRef sig ⟨S_, .f32⟩) (constant S_ .f32 0x00000000#32),
    StableHlo.TRef.binary (.of main_call2_v6 : StableHlo.TRef sig ⟨S64x2, .f32⟩) (.of main_call2_cst_1 : StableHlo.TRef sig ⟨S_, .f32⟩) (.of main_call2_v7 : StableHlo.TRef sig ⟨S64, .f32⟩) (fun x v => Host.reduceAdd x v reducesTo_S64x2_S64_d1 h_S_),
    StableHlo.TRef.unary (.of main_call2_v7 : StableHlo.TRef sig ⟨S64, .f32⟩) (.of main_call2_v8 : StableHlo.TRef sig ⟨S64x1, .f32⟩) (broadcastInDim S64x1 ![0] bcast_S64_S64x1_0),
    StableHlo.TRef.unary (.of main_call2_v8 : StableHlo.TRef sig ⟨S64x1, .f32⟩) (.of main_call2_v9 : StableHlo.TRef sig ⟨S64x1, .f32⟩) Host.log,
    StableHlo.TRef.unary (.of main_call2_v9 : StableHlo.TRef sig ⟨S64x1, .f32⟩) (.of main_call2_v10 : StableHlo.TRef sig ⟨S64x2, .f32⟩) (broadcastInDim S64x2 ![0, 1] bcast_S64x1_S64x2_0_1),
    StableHlo.TRef.binary (.of main_call2_v5 : StableHlo.TRef sig ⟨S64x2, .f32⟩) (.of main_call2_v10 : StableHlo.TRef sig ⟨S64x2, .f32⟩) (.of main_v125 : StableHlo.TRef sig ⟨S64x2, .f32⟩) subf ]

/-- The whole line. -/
abbrev ops : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v13 : StableHlo.TRef sig ⟨S100000, .f32⟩) (.of main_call0_v1 : StableHlo.TRef sig ⟨S100000, .f32⟩) (.of main_v14 : StableHlo.TRef sig ⟨S100000, .f32⟩) select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)),
    StableHlo.binary main_arg0 main_arg4 main_v30 ((fun l r => Host.dotGeneral dot_S100000x2_S2x128_S100000x128_1_0_0_1_n_n none l r) : (⟨S100000x2, .f32⟩ : BufTy).Contents (Elt F) → (⟨S2x128, .f32⟩ : BufTy).Contents (Elt F) → (⟨S100000x128, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg5 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.unary main_arg6 main_v47 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v47 main_v48 rfl shapeCasts_S1x128x128_S128x128,
    StableHlo.unary main_arg7 main_v49 ((extractStridedSlice S1x128 ![0, 0] · slices_S3x128_S1x128_0_0) : (⟨S3x128, .f32⟩ : BufTy).Contents (Elt F) → (⟨S1x128, .f32⟩ : BufTy).Contents (Elt F)),
    StableHlo.reshape main_v49 main_v50 rfl shapeCasts_S1x128_S128,
    StableHlo.binary main_v46 main_v48 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_9 (constantI S_ 32 0#32),
    StableHlo.unary main_c_9 main_v52 (broadcastInDim S1700000 ![] bcast_S_S1700000 : (⟨S_, .i32⟩ : BufTy).Contents (Elt F) → (⟨S1700000, .i32⟩ : BufTy).Contents (Elt F)),
    StableHlo.binary main_v3 main_v52 main_v53 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v54 (broadcastInDim S1700000 ![] bcast_S_S1700000 : (⟨S_, .i32⟩ : BufTy).Contents (Elt F) → (⟨S1700000, .i32⟩ : BufTy).Contents (Elt F)),
    StableHlo.binary main_v3 main_v54 main_v55 (addi : (⟨S1700000, .i32⟩ : BufTy).Contents (Elt F) → (⟨S1700000, .i32⟩ : BufTy).Contents (Elt F) → (⟨S1700000, .i32⟩ : BufTy).Contents (Elt F)),
    StableHlo.ternary main_v53 main_v55 main_v3 main_v56 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v56 main_v57 (broadcastInDim S1700000x1 ![0] bcast_S1700000_S1700000x1_0 : (⟨S1700000, .i32⟩ : BufTy).Contents (Elt F) → (⟨S1700000x1, .i32⟩ : BufTy).Contents (Elt F)),
    StableHlo.binary main_v51 main_v57 main_v58 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v59 (broadcastInDim S1700000x1 ![0] bcast_S1700000_S1700000x1_0 : (⟨S1700000, .f32⟩ : BufTy).Contents (Elt F) → (⟨S1700000x1, .f32⟩ : BufTy).Contents (Elt F)),
    StableHlo.unary main_v59 main_v60 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v58 main_v60 main_v61 (mulf : (⟨S1700000x128, .f32⟩ : BufTy).Contents (Elt F) → (⟨S1700000x128, .f32⟩ : BufTy).Contents (Elt F) → (⟨S1700000x128, .f32⟩ : BufTy).Contents (Elt F)),
    StableHlo.nullary main_cst_11 (constant S_ .f32 0x00000000#32),
    StableHlo.unary main_cst_11 main_v62 (broadcastInDim S100000x128 ![] bcast_S_S100000x128 : (⟨S_, .f32⟩ : BufTy).Contents (Elt F) → (⟨S100000x128, .f32⟩ : BufTy).Contents (Elt F)),
    StableHlo.unary main_v6 main_v63 (broadcastInDim S1700000x1 ![0] bcast_S1700000_S1700000x1_0 : (⟨S1700000, .i32⟩ : BufTy).Contents (Elt F) → (⟨S1700000x1, .i32⟩ : BufTy).Contents (Elt F)),
    StableHlo.ternary main_v62 main_v63 main_v61 main_v64 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v50 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.unary main_arg6 main_v68 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v68 main_v69 rfl shapeCasts_S1x128x128_S128x128,
    StableHlo.unary main_arg7 main_v70 ((extractStridedSlice S1x128 ![1, 0] · slices_S3x128_S1x128_1_0) : (⟨S3x128, .f32⟩ : BufTy).Contents (Elt F) → (⟨S1x128, .f32⟩ : BufTy).Contents (Elt F)),
    StableHlo.reshape main_v70 main_v71 rfl shapeCasts_S1x128_S128,
    StableHlo.binary main_v67 main_v69 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_12 (constantI S_ 32 0#32),
    StableHlo.unary main_c_12 main_v73 (broadcastInDim S1700000 ![] bcast_S_S1700000 : (⟨S_, .i32⟩ : BufTy).Contents (Elt F) → (⟨S1700000, .i32⟩ : BufTy).Contents (Elt F)),
    StableHlo.binary main_v3 main_v73 main_v74 (cmpi .slt : (⟨S1700000, .i32⟩ : BufTy).Contents (Elt F) → (⟨S1700000, .i32⟩ : BufTy).Contents (Elt F) → (⟨S1700000, .i1⟩ : BufTy).Contents (Elt F)),
    StableHlo.nullary main_c_13 (constantI S_ 32 100000#32),
    StableHlo.unary main_c_13 main_v75 (broadcastInDim S1700000 ![] bcast_S_S1700000 : (⟨S_, .i32⟩ : BufTy).Contents (Elt F) → (⟨S1700000, .i32⟩ : BufTy).Contents (Elt F)),
    StableHlo.binary main_v3 main_v75 main_v76 (addi : (⟨S1700000, .i32⟩ : BufTy).Contents (Elt F) → (⟨S1700000, .i32⟩ : BufTy).Contents (Elt F) → (⟨S1700000, .i32⟩ : BufTy).Contents (Elt F)),
    StableHlo.ternary main_v74 main_v76 main_v3 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v77 main_v78 (broadcastInDim S1700000x1 ![0] bcast_S1700000_S1700000x1_0 : (⟨S1700000, .i32⟩ : BufTy).Contents (Elt F) → (⟨S1700000x1, .i32⟩ : BufTy).Contents (Elt F)),
    StableHlo.binary main_v72 main_v78 main_v79 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v80 (broadcastInDim S1700000x1 ![0] bcast_S1700000_S1700000x1_0 : (⟨S1700000, .f32⟩ : BufTy).Contents (Elt F) → (⟨S1700000x1, .f32⟩ : BufTy).Contents (Elt F)),
    StableHlo.unary main_v80 main_v81 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v79 main_v81 main_v82 (mulf : (⟨S1700000x128, .f32⟩ : BufTy).Contents (Elt F) → (⟨S1700000x128, .f32⟩ : BufTy).Contents (Elt F) → (⟨S1700000x128, .f32⟩ : BufTy).Contents (Elt F)),
    StableHlo.nullary main_cst_14 (constant S_ .f32 0x00000000#32),
    StableHlo.unary main_cst_14 main_v83 (broadcastInDim S100000x128 ![] bcast_S_S100000x128 : (⟨S_, .f32⟩ : BufTy).Contents (Elt F) → (⟨S100000x128, .f32⟩ : BufTy).Contents (Elt F)),
    StableHlo.unary main_v6 main_v84 (broadcastInDim S1700000x1 ![0] bcast_S1700000_S1700000x1_0 : (⟨S1700000, .i32⟩ : BufTy).Contents (Elt F) → (⟨S1700000x1, .i32⟩ : BufTy).Contents (Elt F)),
    StableHlo.ternary main_v83 main_v84 main_v82 main_v85 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v71 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v87 main_v88 (addf : (⟨S100000x128, .f32⟩ : BufTy).Contents (Elt F) → (⟨S100000x128, .f32⟩ : BufTy).Contents (Elt F) → (⟨S100000x128, .f32⟩ : BufTy).Contents (Elt F)),
    StableHlo.unary main_arg6 main_v89 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v89 main_v90 rfl shapeCasts_S1x128x128_S128x128,
    StableHlo.unary main_arg7 main_v91 ((extractStridedSlice S1x128 ![2, 0] · slices_S3x128_S1x128_2_0) : (⟨S3x128, .f32⟩ : BufTy).Contents (Elt F) → (⟨S1x128, .f32⟩ : BufTy).Contents (Elt F)),
    StableHlo.reshape main_v91 main_v92 rfl shapeCasts_S1x128_S128,
    StableHlo.binary main_v88 main_v90 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_15 (constantI S_ 32 0#32),
    StableHlo.unary main_c_15 main_v94 (broadcastInDim S1700000 ![] bcast_S_S1700000 : (⟨S_, .i32⟩ : BufTy).Contents (Elt F) → (⟨S1700000, .i32⟩ : BufTy).Contents (Elt F)),
    StableHlo.binary main_v3 main_v94 main_v95 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v96 (broadcastInDim S1700000 ![] bcast_S_S1700000 : (⟨S_, .i32⟩ : BufTy).Contents (Elt F) → (⟨S1700000, .i32⟩ : BufTy).Contents (Elt F)),
    StableHlo.binary main_v3 main_v96 main_v97 (addi : (⟨S1700000, .i32⟩ : BufTy).Contents (Elt F) → (⟨S1700000, .i32⟩ : BufTy).Contents (Elt F) → (⟨S1700000, .i32⟩ : BufTy).Contents (Elt F)),
    StableHlo.ternary main_v95 main_v97 main_v3 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v98 main_v99 (broadcastInDim S1700000x1 ![0] bcast_S1700000_S1700000x1_0 : (⟨S1700000, .i32⟩ : BufTy).Contents (Elt F) → (⟨S1700000x1, .i32⟩ : BufTy).Contents (Elt F)),
    StableHlo.binary main_v93 main_v99 main_v100 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v101 (broadcastInDim S1700000x1 ![0] bcast_S1700000_S1700000x1_0 : (⟨S1700000, .f32⟩ : BufTy).Contents (Elt F) → (⟨S1700000x1, .f32⟩ : BufTy).Contents (Elt F)),
    StableHlo.unary main_v101 main_v102 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v100 main_v102 main_v103 (mulf : (⟨S1700000x128, .f32⟩ : BufTy).Contents (Elt F) → (⟨S1700000x128, .f32⟩ : BufTy).Contents (Elt F) → (⟨S1700000x128, .f32⟩ : BufTy).Contents (Elt F)),
    StableHlo.nullary main_cst_17 (constant S_ .f32 0x00000000#32),
    StableHlo.unary main_cst_17 main_v104 (broadcastInDim S100000x128 ![] bcast_S_S100000x128 : (⟨S_, .f32⟩ : BufTy).Contents (Elt F) → (⟨S100000x128, .f32⟩ : BufTy).Contents (Elt F)),
    StableHlo.unary main_v6 main_v105 (broadcastInDim S1700000x1 ![0] bcast_S1700000_S1700000x1_0 : (⟨S1700000, .i32⟩ : BufTy).Contents (Elt F) → (⟨S1700000x1, .i32⟩ : BufTy).Contents (Elt F)),
    StableHlo.ternary main_v104 main_v105 main_v103 main_v106 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v92 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v108 main_v109 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x00000000#32),
    StableHlo.unary main_cst_18 main_v110 (broadcastInDim S2000x128 ![] bcast_S_S2000x128 : (⟨S_, .f32⟩ : BufTy).Contents (Elt F) → (⟨S2000x128, .f32⟩ : BufTy).Contents (Elt F)),
    StableHlo.unary main_arg2 main_v111 (broadcastInDim S100000x1 ![0] bcast_S100000_S100000x1_0 : (⟨S100000, .i32⟩ : BufTy).Contents (Elt F) → (⟨S100000x1, .i32⟩ : BufTy).Contents (Elt F)),
    StableHlo.ternary main_v110 main_v111 main_v109 main_v112 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    StableHlo.nullary main_cst_19 (constant S_ .f32 0x00000000#32),
    StableHlo.unary main_cst_19 main_v113 (broadcastInDim S64x128 ![] bcast_S_S64x128 : (⟨S_, .f32⟩ : BufTy).Contents (Elt F) → (⟨S64x128, .f32⟩ : BufTy).Contents (Elt F)),
    StableHlo.unary main_arg3 main_v114 (broadcastInDim S2000x1 ![0] bcast_S2000_S2000x1_0 : (⟨S2000, .i32⟩ : BufTy).Contents (Elt F) → (⟨S2000x1, .i32⟩ : BufTy).Contents (Elt F)),
    StableHlo.ternary main_v113 main_v114 main_v112 main_v115 ((fun x i u => Host.scatterAdd scatter_S64x128_S2000x1_S2000x128_1_0_0_1 x i u) : (⟨S64x128, .f32⟩ : BufTy).Contents (Elt F) → (⟨S2000x1, .i32⟩ : BufTy).Contents (Elt F) → (⟨S2000x128, .f32⟩ : BufTy).Contents (Elt F) → (⟨S64x128, .f32⟩ : BufTy).Contents (Elt F)),
    StableHlo.binary main_v115 main_arg8 main_v116 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg9 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S64x128 ![0, 1] bcast_S1x128_S64x128_0_1 : (⟨S1x128, .f32⟩ : BufTy).Contents (Elt F) → (⟨S64x128, .f32⟩ : BufTy).Contents (Elt F)),
    StableHlo.binary main_v116 main_v118 main_v119 (addf : (⟨S64x128, .f32⟩ : BufTy).Contents (Elt F) → (⟨S64x128, .f32⟩ : BufTy).Contents (Elt F) → (⟨S64x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S64x128, .f32⟩) (broadcastInDim S64x128 ![] bcast_S_S64x128),
    StableHlo.TRef.binary (.of main_v119 : StableHlo.TRef sig ⟨S64x128, .f32⟩) (.of main_call1_v0 : StableHlo.TRef sig ⟨S64x128, .f32⟩) (.of main_v120 : StableHlo.TRef sig ⟨S64x128, .f32⟩) maximumf,
    StableHlo.binary main_v120 main_arg10 main_v121 ((fun l r => Host.dotGeneral dot_S64x128_S128x2_S64x2_1_0_0_1_n_n none l r) : (⟨S64x128, .f32⟩ : BufTy).Contents (Elt F) → (⟨S128x2, .f32⟩ : BufTy).Contents (Elt F) → (⟨S64x2, .f32⟩ : BufTy).Contents (Elt F)),
    StableHlo.unary main_arg11 main_v122 (broadcastInDim S1x2 ![1] bcast_S2_S1x2_1 : (⟨S2, .f32⟩ : BufTy).Contents (Elt F) → (⟨S1x2, .f32⟩ : BufTy).Contents (Elt F)),
    StableHlo.unary main_v122 main_v123 (broadcastInDim S64x2 ![0, 1] bcast_S1x2_S64x2_0_1 : (⟨S1x2, .f32⟩ : BufTy).Contents (Elt F) → (⟨S64x2, .f32⟩ : BufTy).Contents (Elt F)),
    StableHlo.binary main_v121 main_v123 main_v124 (addf : (⟨S64x2, .f32⟩ : BufTy).Contents (Elt F) → (⟨S64x2, .f32⟩ : BufTy).Contents (Elt F) → (⟨S64x2, .f32⟩ : BufTy).Contents (Elt F)),
    StableHlo.TRef.nullary (.of main_call2_cst : StableHlo.TRef sig ⟨S_, .f32⟩) (constant S_ .f32 0xFF800000#32),
    StableHlo.TRef.binary (.of main_v124 : StableHlo.TRef sig ⟨S64x2, .f32⟩) (.of main_call2_cst : StableHlo.TRef sig ⟨S_, .f32⟩) (.of main_call2_v0 : StableHlo.TRef sig ⟨S64, .f32⟩) (fun x v => Host.reduce FloatOps.maximumf x v reducesTo_S64x2_S64_d1 h_S_),
    StableHlo.TRef.nullary (.of main_call2_cst_0 : StableHlo.TRef sig ⟨S_, .f32⟩) (constant S_ .f32 0xFF800000#32),
    StableHlo.TRef.unary (.of main_call2_cst_0 : StableHlo.TRef sig ⟨S_, .f32⟩) (.of main_call2_v1 : StableHlo.TRef sig ⟨S64, .f32⟩) (broadcastInDim S64 ![] bcast_S_S64),
    StableHlo.TRef.binary (.of main_call2_v1 : StableHlo.TRef sig ⟨S64, .f32⟩) (.of main_call2_v0 : StableHlo.TRef sig ⟨S64, .f32⟩) (.of main_call2_v2 : StableHlo.TRef sig ⟨S64, .f32⟩) maximumf,
    StableHlo.TRef.unary (.of main_call2_v2 : StableHlo.TRef sig ⟨S64, .f32⟩) (.of main_call2_v3 : StableHlo.TRef sig ⟨S64x1, .f32⟩) (broadcastInDim S64x1 ![0] bcast_S64_S64x1_0),
    StableHlo.TRef.unary (.of main_call2_v3 : StableHlo.TRef sig ⟨S64x1, .f32⟩) (.of main_call2_v4 : StableHlo.TRef sig ⟨S64x2, .f32⟩) (broadcastInDim S64x2 ![0, 1] bcast_S64x1_S64x2_0_1),
    StableHlo.TRef.binary (.of main_v124 : StableHlo.TRef sig ⟨S64x2, .f32⟩) (.of main_call2_v4 : StableHlo.TRef sig ⟨S64x2, .f32⟩) (.of main_call2_v5 : StableHlo.TRef sig ⟨S64x2, .f32⟩) subf,
    StableHlo.TRef.unary (.of main_call2_v5 : StableHlo.TRef sig ⟨S64x2, .f32⟩) (.of main_call2_v6 : StableHlo.TRef sig ⟨S64x2, .f32⟩) Host.exp,
    StableHlo.TRef.nullary (.of main_call2_cst_1 : StableHlo.TRef sig ⟨S_, .f32⟩) (constant S_ .f32 0x00000000#32),
    StableHlo.TRef.binary (.of main_call2_v6 : StableHlo.TRef sig ⟨S64x2, .f32⟩) (.of main_call2_cst_1 : StableHlo.TRef sig ⟨S_, .f32⟩) (.of main_call2_v7 : StableHlo.TRef sig ⟨S64, .f32⟩) (fun x v => Host.reduceAdd x v reducesTo_S64x2_S64_d1 h_S_),
    StableHlo.TRef.unary (.of main_call2_v7 : StableHlo.TRef sig ⟨S64, .f32⟩) (.of main_call2_v8 : StableHlo.TRef sig ⟨S64x1, .f32⟩) (broadcastInDim S64x1 ![0] bcast_S64_S64x1_0),
    StableHlo.TRef.unary (.of main_call2_v8 : StableHlo.TRef sig ⟨S64x1, .f32⟩) (.of main_call2_v9 : StableHlo.TRef sig ⟨S64x1, .f32⟩) Host.log,
    StableHlo.TRef.unary (.of main_call2_v9 : StableHlo.TRef sig ⟨S64x1, .f32⟩) (.of main_call2_v10 : StableHlo.TRef sig ⟨S64x2, .f32⟩) (broadcastInDim S64x2 ![0, 1] bcast_S64x1_S64x2_0_1),
    StableHlo.TRef.binary (.of main_call2_v5 : StableHlo.TRef sig ⟨S64x2, .f32⟩) (.of main_call2_v10 : StableHlo.TRef sig ⟨S64x2, .f32⟩) (.of main_v125 : StableHlo.TRef sig ⟨S64x2, .f32⟩) subf ]

/-- The whole line is its stretches one after the other. -/
theorem ops_cut : (ops : List (HloOp τ sig (Elt F))) = opsA0 ++ (opsA1 ++ (opsA2 ++ (opsD0 ++ (opsB1 ++ (opsD1 ++ (opsB2 ++ (opsD2 ++ (opsB3 ++ (opsD3 ++ (opsB4 ++ (opsM))))))))))) := rfl

set_option maxRecDepth 8192 in
set_option maxHeartbeats 4000000 in
/-- @main is that line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Two stretches run one after the other fold as their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- Every weakly fair execution of @main terminates, and every buffer ends at the fold of the line over the launch
    contents. -/
theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

end Cert.ReferenceIdeal.Fold

end
-- ==== Proof.KeepR.lean ====
/-
  The reference's fold, cut where the kernel program's launches sit, and what each stretch leaves alone.

  `U0` is the launch memory of a core; `U(k+1)` is `Uk` after the next stretch of the line. The whole fold is `U12`.
  As on the kernel program's side, a stretch writes only the buffers its operations name as results.
-/
import proofs.«144633_j4887672783292_1_alg».proof.Proof.RefRun

set_option maxRecDepth 16384

noncomputable section

namespace Cert.ReferenceIdeal.Fold

open Cert.ReferenceIdeal Cert.ReferenceIdeal.Gen Idealize.ShloMosaic Idealize.ShloMosaic.TcCoe Idealize.SL.Sem

variable {F : FTy → Type} [FloatOps F]

/-- The references `opsA0`'s operations write. -/
abbrev opsA0_W : List (Ref sig .tc) := [main_v0, main_v1, main_v2, main_v3, main_v4, main_v5, main_v6, main_cst, main_v7, main_cst_0, main_v8, main_v9, main_v10, main_cst_1, main_v11, main_v12, main_v13, main_cst_2]
theorem opsA0_writes : (opsA0 : List (HloOp τ sig (Elt F))).Forall fun op => op.writes ⊆ (opsA0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem opsA0_keeps (V : Valuation τ sig (Elt F)) (r : Ref sig .tc) (h : r ∉ opsA0_W) :
    StableHlo.after opsA0 V (Proc.devRef .tc r) = V (Proc.devRef .tc r) :=
  StableHlo.after_of_writes_sub opsA0 V opsA0_writes h

/-- The references `opsA1`'s operations write. -/
abbrev opsA1_W : List (Ref sig .tc) := [main_call0_v0, main_call0_v1, main_v14]
theorem opsA1_writes : (opsA1 : List (HloOp τ sig (Elt F))).Forall fun op => op.writes ⊆ (opsA1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_⟩
  all_goals exact List.mem_map_of_mem (by decide)
/-- A buffer none of them writes holds after the stretch what it held before. -/
theorem opsA1_keeps (V : Valuation τ sig (Elt F)) (r : Ref sig .tc) (h : r ∉ opsA1_W) :
    StableHlo.after opsA1 V (Proc.devRef .tc r) = V (Proc.devRef .tc r) :=
  StableHlo.after_of_writes_sub opsA1 V opsA1_writes h

/-- The references `opsA2`'s operations write. -/
abbrev opsA2_W : List (Ref sig .tc) := [main_c, main_v15, main_v16, main_c_3, main_v17, main_v18, main_v19, main_v20, main_v21, main_c_4, main_v22, main_v23, main_c_5, main_v24, main_v25, main_v26, main_v27, main_v28, main_v29]
theorem opsA2_writes : (opsA2 : List (HloOp τ sig (Elt F))).Forall fun op => op.writes ⊆ (opsA2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem opsA2_keeps (V : Valuation τ sig (Elt F)) (r : Ref sig .tc) (h : r ∉ opsA2_W) :
    StableHlo.after opsA2 V (Proc.devRef .tc r) = V (Proc.devRef .tc r) :=
  StableHlo.after_of_writes_sub opsA2 V opsA2_writes h

/-- The references `opsD0`'s operations write. -/
abbrev opsD0_W : List (Ref sig .tc) := [main_v30]
theorem opsD0_writes : (opsD0 : List (HloOp τ sig (Elt F))).Forall fun op => op.writes ⊆ (opsD0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)
/-- A buffer none of them writes holds after the stretch what it held before. -/
theorem opsD0_keeps (V : Valuation τ sig (Elt F)) (r : Ref sig .tc) (h : r ∉ opsD0_W) :
    StableHlo.after opsD0 V (Proc.devRef .tc r) = V (Proc.devRef .tc r) :=
  StableHlo.after_of_writes_sub opsD0 V opsD0_writes h

/-- The references `opsB1`'s operations write. -/
abbrev opsB1_W : List (Ref sig .tc) := [main_c_6, main_v31, main_v32, main_c_7, main_v33, main_v34, main_v35, main_v36, main_v37, main_v38, main_v39, main_v40, main_cst_8, main_v41, main_v42, main_v43, main_v44, main_v45, main_v46, main_v47, main_v48, main_v49, main_v50]
theorem opsB1_writes : (opsB1 : List (HloOp τ sig (Elt F))).Forall fun op => op.writes ⊆ (opsB1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem opsB1_keeps (V : Valuation τ sig (Elt F)) (r : Ref sig .tc) (h : r ∉ opsB1_W) :
    StableHlo.after opsB1 V (Proc.devRef .tc r) = V (Proc.devRef .tc r) :=
  StableHlo.after_of_writes_sub opsB1 V opsB1_writes h

/-- The references `opsD1`'s operations write. -/
abbrev opsD1_W : List (Ref sig .tc) := [main_v51]
theorem opsD1_writes : (opsD1 : List (HloOp τ sig (Elt F))).Forall fun op => op.writes ⊆ (opsD1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)
/-- A buffer none of them writes holds after the stretch what it held before. -/
theorem opsD1_keeps (V : Valuation τ sig (Elt F)) (r : Ref sig .tc) (h : r ∉ opsD1_W) :
    StableHlo.after opsD1 V (Proc.devRef .tc r) = V (Proc.devRef .tc r) :=
  StableHlo.after_of_writes_sub opsD1 V opsD1_writes h

/-- The references `opsB2`'s operations write. -/
abbrev opsB2_W : List (Ref sig .tc) := [main_c_9, main_v52, main_v53, main_c_10, main_v54, main_v55, main_v56, main_v57, main_v58, main_v59, main_v60, main_v61, main_cst_11, main_v62, main_v63, main_v64, main_v65, main_v66, main_v67, main_v68, main_v69, main_v70, main_v71]
theorem opsB2_writes : (opsB2 : List (HloOp τ sig (Elt F))).Forall fun op => op.writes ⊆ (opsB2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem opsB2_keeps (V : Valuation τ sig (Elt F)) (r : Ref sig .tc) (h : r ∉ opsB2_W) :
    StableHlo.after opsB2 V (Proc.devRef .tc r) = V (Proc.devRef .tc r) :=
  StableHlo.after_of_writes_sub opsB2 V opsB2_writes h

/-- The references `opsD2`'s operations write. -/
abbrev opsD2_W : List (Ref sig .tc) := [main_v72]
theorem opsD2_writes : (opsD2 : List (HloOp τ sig (Elt F))).Forall fun op => op.writes ⊆ (opsD2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)
/-- A buffer none of them writes holds after the stretch what it held before. -/
theorem opsD2_keeps (V : Valuation τ sig (Elt F)) (r : Ref sig .tc) (h : r ∉ opsD2_W) :
    StableHlo.after opsD2 V (Proc.devRef .tc r) = V (Proc.devRef .tc r) :=
  StableHlo.after_of_writes_sub opsD2 V opsD2_writes h

/-- The references `opsB3`'s operations write. -/
abbrev opsB3_W : List (Ref sig .tc) := [main_c_12, main_v73, main_v74, main_c_13, main_v75, main_v76, main_v77, main_v78, main_v79, main_v80, main_v81, main_v82, main_cst_14, main_v83, main_v84, main_v85, main_v86, main_v87, main_v88, main_v89, main_v90, main_v91, main_v92]
theorem opsB3_writes : (opsB3 : List (HloOp τ sig (Elt F))).Forall fun op => op.writes ⊆ (opsB3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem opsB3_keeps (V : Valuation τ sig (Elt F)) (r : Ref sig .tc) (h : r ∉ opsB3_W) :
    StableHlo.after opsB3 V (Proc.devRef .tc r) = V (Proc.devRef .tc r) :=
  StableHlo.after_of_writes_sub opsB3 V opsB3_writes h

/-- The references `opsD3`'s operations write. -/
abbrev opsD3_W : List (Ref sig .tc) := [main_v93]
theorem opsD3_writes : (opsD3 : List (HloOp τ sig (Elt F))).Forall fun op => op.writes ⊆ (opsD3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)
/-- A buffer none of them writes holds after the stretch what it held before. -/
theorem opsD3_keeps (V : Valuation τ sig (Elt F)) (r : Ref sig .tc) (h : r ∉ opsD3_W) :
    StableHlo.after opsD3 V (Proc.devRef .tc r) = V (Proc.devRef .tc r) :=
  StableHlo.after_of_writes_sub opsD3 V opsD3_writes h

/-- The references `opsB4`'s operations write. -/
abbrev opsB4_W : List (Ref sig .tc) := [main_c_15, main_v94, main_v95, main_c_16, main_v96, main_v97, main_v98, main_v99, main_v100, main_v101, main_v102, main_v103, main_cst_17, main_v104, main_v105, main_v106, main_v107, main_v108, main_v109, main_cst_18, main_v110, main_v111, main_v112, main_cst_19, main_v113, main_v114, main_v115]
theorem opsB4_writes : (opsB4 : List (HloOp τ sig (Elt F))).Forall fun op => op.writes ⊆ (opsB4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem opsB4_keeps (V : Valuation τ sig (Elt F)) (r : Ref sig .tc) (h : r ∉ opsB4_W) :
    StableHlo.after opsB4 V (Proc.devRef .tc r) = V (Proc.devRef .tc r) :=
  StableHlo.after_of_writes_sub opsB4 V opsB4_writes h

/-- The references `opsM`'s operations write. -/
abbrev opsM_W : List (Ref sig .tc) := [main_v116, main_v117, main_v118, main_v119, main_call1_cst, main_call1_v0, main_v120, main_v121, main_v122, main_v123, main_v124, main_call2_cst, main_call2_v0, main_call2_cst_0, main_call2_v1, main_call2_v2, main_call2_v3, main_call2_v4, main_call2_v5, main_call2_v6, main_call2_cst_1, main_call2_v7, main_call2_v8, main_call2_v9, main_call2_v10, main_v125]
theorem opsM_writes : (opsM : List (HloOp τ sig (Elt F))).Forall fun op => op.writes ⊆ (opsM_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem opsM_keeps (V : Valuation τ sig (Elt F)) (r : Ref sig .tc) (h : r ∉ opsM_W) :
    StableHlo.after opsM V (Proc.devRef .tc r) = V (Proc.devRef .tc r) :=
  StableHlo.after_of_writes_sub opsM V opsM_writes h

variable (m : (ℓ : Loc nD τ sig) → Buf (Elt F) ℓ)

/-- A core's buffers at launch. -/
def U0 (c : Dev nD) : Valuation τ sig (Elt F) := StableHlo.launchContents m c
/-- The reference's buffers after the edge lists with self loops, the ones, and the in-degree with its reciprocal square root. -/
def U1 (c : Dev nD) : Valuation τ sig (Elt F) := StableHlo.after opsA0 (U0 m c)
/-- The reference's buffers after the degree's guard: the reciprocal square root where the degree is positive, zero elsewhere. -/
def U2 (c : Dev nD) : Valuation τ sig (Elt F) := StableHlo.after opsA1 (U1 m c)
/-- The reference's buffers after the edge weights: the guarded value at each edge's source times that at its destination. -/
def U3 (c : Dev nD) : Valuation τ sig (Elt F) := StableHlo.after opsA2 (U2 m c)
/-- The reference's buffers after the first layer's dense product. -/
def U4 (c : Dev nD) : Valuation τ sig (Elt F) := StableHlo.after opsD0 (U3 m c)
/-- The reference's buffers after the first layer's edge sum and bias, and the second layer's weights and bias cut out. -/
def U5 (c : Dev nD) : Valuation τ sig (Elt F) := StableHlo.after opsB1 (U4 m c)
/-- The reference's buffers after the second layer's dense product. -/
def U6 (c : Dev nD) : Valuation τ sig (Elt F) := StableHlo.after opsD1 (U5 m c)
/-- The reference's buffers after the second layer's edge sum and bias, and the third layer's weights and bias cut out. -/
def U7 (c : Dev nD) : Valuation τ sig (Elt F) := StableHlo.after opsB2 (U6 m c)
/-- The reference's buffers after the third layer's dense product. -/
def U8 (c : Dev nD) : Valuation τ sig (Elt F) := StableHlo.after opsD2 (U7 m c)
/-- The reference's buffers after the third layer's edge sum and bias, and the fourth layer's weights and bias cut out. -/
def U9 (c : Dev nD) : Valuation τ sig (Elt F) := StableHlo.after opsB3 (U8 m c)
/-- The reference's buffers after the fourth layer's dense product. -/
def U10 (c : Dev nD) : Valuation τ sig (Elt F) := StableHlo.after opsD3 (U9 m c)
/-- The reference's buffers after the fourth layer's edge sum and bias, then the sums per subgraph and per graph. -/
def U11 (c : Dev nD) : Valuation τ sig (Elt F) := StableHlo.after opsB4 (U10 m c)
/-- The reference's buffers after the perceptron with its log-softmax. -/
def U12 (c : Dev nD) : Valuation τ sig (Elt F) := StableHlo.after opsM (U11 m c)

/-- The fold of the whole line is the last of these. -/
theorem fold_eq (c : Dev nD) : StableHlo.after ops (StableHlo.launchContents m c) = U12 m c := by
  rw [ops_cut]
  simp only [after_append]
  rfl

end Cert.ReferenceIdeal.Fold

end
-- ==== Proof.RefArgs.lean ====
/-
  The reference leaves its arguments as launched.

  No operation of the reference's line writes an argument, so the fold of the whole line holds, at each argument's
  buffer, the launch contents: stretch by stretch, the buffer is among those the stretch leaves alone.
-/
import proofs.«144633_j4887672783292_1_alg».proof.Proof.KeepR

set_option maxRecDepth 16384

noncomputable section

namespace Cert.ReferenceIdeal.Fold

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (c : Dev nD)

theorem arg0_kept : StableHlo.after ops (StableHlo.launchContents m c) (Proc.devRef .tc main_arg0) = m ((c.tc : Thread nD τ).loc main_arg0) :=
  (congrFun (fold_eq m c) (Proc.devRef .tc main_arg0)).trans (((Cert.ReferenceIdeal.Fold.opsM_keeps (Cert.ReferenceIdeal.Fold.U11 m c) Cert.ReferenceIdeal.main_arg0 (by decide) : Cert.ReferenceIdeal.Fold.U12 m c (Proc.devRef .tc Cert.ReferenceIdeal.main_arg0) = Cert.ReferenceIdeal.Fold.U11 m c (Proc.devRef .tc Cert.ReferenceIdeal.main_arg0))).trans (((Cert.ReferenceIdeal.Fold.opsB4_keeps (Cert.ReferenceIdeal.Fold.U10 m c) Cert.ReferenceIdeal.main_arg0 (by decide) : Cert.ReferenceIdeal.Fold.U11 m c (Proc.devRef .tc Cert.ReferenceIdeal.main_arg0) = Cert.ReferenceIdeal.Fold.U10 m c (Proc.devRef .tc Cert.ReferenceIdeal.main_arg0))).trans (((Cert.ReferenceIdeal.Fold.opsD3_keeps (Cert.ReferenceIdeal.Fold.U9 m c) Cert.ReferenceIdeal.main_arg0 (by decide) : Cert.ReferenceIdeal.Fold.U10 m c (Proc.devRef .tc Cert.ReferenceIdeal.main_arg0) = Cert.ReferenceIdeal.Fold.U9 m c (Proc.devRef .tc Cert.ReferenceIdeal.main_arg0))).trans (((Cert.ReferenceIdeal.Fold.opsB3_keeps (Cert.ReferenceIdeal.Fold.U8 m c) Cert.ReferenceIdeal.main_arg0 (by decide) : Cert.ReferenceIdeal.Fold.U9 m c (Proc.devRef .tc Cert.ReferenceIdeal.main_arg0) = Cert.ReferenceIdeal.Fold.U8 m c (Proc.devRef .tc Cert.ReferenceIdeal.main_arg0))).trans (((Cert.ReferenceIdeal.Fold.opsD2_keeps (Cert.ReferenceIdeal.Fold.U7 m c) Cert.ReferenceIdeal.main_arg0 (by decide) : Cert.ReferenceIdeal.Fold.U8 m c (Proc.devRef .tc Cert.ReferenceIdeal.main_arg0) = Cert.ReferenceIdeal.Fold.U7 m c (Proc.devRef .tc Cert.ReferenceIdeal.main_arg0))).trans (((Cert.ReferenceIdeal.Fold.opsB2_keeps (Cert.ReferenceIdeal.Fold.U6 m c) Cert.ReferenceIdeal.main_arg0 (by decide) : Cert.ReferenceIdeal.Fold.U7 m c (Proc.devRef .tc Cert.ReferenceIdeal.main_arg0) = Cert.ReferenceIdeal.Fold.U6 m c (Proc.devRef .tc Cert.ReferenceIdeal.main_arg0))).trans (((Cert.ReferenceIdeal.Fold.opsD1_keeps (Cert.ReferenceIdeal.Fold.U5 m c) Cert.ReferenceIdeal.main_arg0 (by decide) : Cert.ReferenceIdeal.Fold.U6 m c (Proc.devRef .tc Cert.ReferenceIdeal.main_arg0) = Cert.ReferenceIdeal.Fold.U5 m c (Proc.devRef .tc Cert.ReferenceIdeal.main_arg0))).trans (((Cert.ReferenceIdeal.Fold.opsB1_keeps (Cert.ReferenceIdeal.Fold.U4 m c) Cert.ReferenceIdeal.main_arg0 (by decide) : Cert.ReferenceIdeal.Fold.U5 m c (Proc.devRef .tc Cert.ReferenceIdeal.main_arg0) = Cert.ReferenceIdeal.Fold.U4 m c (Proc.devRef .tc Cert.ReferenceIdeal.main_arg0))).trans (((Cert.ReferenceIdeal.Fold.opsD0_keeps (Cert.ReferenceIdeal.Fold.U3 m c) Cert.ReferenceIdeal.main_arg0 (by decide) : Cert.ReferenceIdeal.Fold.U4 m c (Proc.devRef .tc Cert.ReferenceIdeal.main_arg0) = Cert.ReferenceIdeal.Fold.U3 m c (Proc.devRef .tc Cert.ReferenceIdeal.main_arg0))).trans (((Cert.ReferenceIdeal.Fold.opsA2_keeps (Cert.ReferenceIdeal.Fold.U2 m c) Cert.ReferenceIdeal.main_arg0 (by decide) : Cert.ReferenceIdeal.Fold.U3 m c (Proc.devRef .tc Cert.ReferenceIdeal.main_arg0) = Cert.ReferenceIdeal.Fold.U2 m c (Proc.devRef .tc Cert.ReferenceIdeal.main_arg0))).trans (((Cert.ReferenceIdeal.Fold.opsA1_keeps (Cert.ReferenceIdeal.Fold.U1 m c) Cert.ReferenceIdeal.main_arg0 (by decide) : Cert.ReferenceIdeal.Fold.U2 m c (Proc.devRef .tc Cert.ReferenceIdeal.main_arg0) = Cert.ReferenceIdeal.Fold.U1 m c (Proc.devRef .tc Cert.ReferenceIdeal.main_arg0))).trans ((Cert.ReferenceIdeal.Fold.opsA0_keeps (Cert.ReferenceIdeal.Fold.U0 m c) Cert.ReferenceIdeal.main_arg0 (by decide) : Cert.ReferenceIdeal.Fold.U1 m c (Proc.devRef .tc Cert.ReferenceIdeal.main_arg0) = Cert.ReferenceIdeal.Fold.U0 m c (Proc.devRef .tc Cert.ReferenceIdeal.main_arg0))))))))))))))
theorem arg1_kept : StableHlo.after ops (StableHlo.launchContents m c) (Proc.devRef .tc main_arg1) = m ((c.tc : Thread nD τ).loc main_arg1) :=
  (congrFun (fold_eq m c) (Proc.devRef .tc main_arg1)).trans (((Cert.ReferenceIdeal.Fold.opsM_keeps (Cert.ReferenceIdeal.Fold.U11 m c) Cert.ReferenceIdeal.main_arg1 (by decide) : Cert.ReferenceIdeal.Fold.U12 m c (Proc.devRef .tc Cert.ReferenceIdeal.main_arg1) = Cert.ReferenceIdeal.Fold.U11 m c (Proc.devRef .tc Cert.ReferenceIdeal.main_arg1))).trans (((Cert.ReferenceIdeal.Fold.opsB4_keeps (Cert.ReferenceIdeal.Fold.U10 m c) Cert.ReferenceIdeal.main_arg1 (by decide) : Cert.ReferenceIdeal.Fold.U11 m c (Proc.devRef .tc Cert.ReferenceIdeal.main_arg1) = Cert.ReferenceIdeal.Fold.U10 m c (Proc.devRef .tc Cert.ReferenceIdeal.main_arg1))).trans (((Cert.ReferenceIdeal.Fold.opsD3_keeps (Cert.ReferenceIdeal.Fold.U9 m c) Cert.ReferenceIdeal.main_arg1 (by decide) : Cert.ReferenceIdeal.Fold.U10 m c (Proc.devRef .tc Cert.ReferenceIdeal.main_arg1) = Cert.ReferenceIdeal.Fold.U9 m c (Proc.devRef .tc Cert.ReferenceIdeal.main_arg1))).trans (((Cert.ReferenceIdeal.Fold.opsB3_keeps (Cert.ReferenceIdeal.Fold.U8 m c) Cert.ReferenceIdeal.main_arg1 (by decide) : Cert.ReferenceIdeal.Fold.U9 m c (Proc.devRef .tc Cert.ReferenceIdeal.main_arg1) = Cert.ReferenceIdeal.Fold.U8 m c (Proc.devRef .tc Cert.ReferenceIdeal.main_arg1))).trans (((Cert.ReferenceIdeal.Fold.opsD2_keeps (Cert.ReferenceIdeal.Fold.U7 m c) Cert.ReferenceIdeal.main_arg1 (by decide) : Cert.ReferenceIdeal.Fold.U8 m c (Proc.devRef .tc Cert.ReferenceIdeal.main_arg1) = Cert.ReferenceIdeal.Fold.U7 m c (Proc.devRef .tc Cert.ReferenceIdeal.main_arg1))).trans (((Cert.ReferenceIdeal.Fold.opsB2_keeps (Cert.ReferenceIdeal.Fold.U6 m c) Cert.ReferenceIdeal.main_arg1 (by decide) : Cert.ReferenceIdeal.Fold.U7 m c (Proc.devRef .tc Cert.ReferenceIdeal.main_arg1) = Cert.ReferenceIdeal.Fold.U6 m c (Proc.devRef .tc Cert.ReferenceIdeal.main_arg1))).trans (((Cert.ReferenceIdeal.Fold.opsD1_keeps (Cert.ReferenceIdeal.Fold.U5 m c) Cert.ReferenceIdeal.main_arg1 (by decide) : Cert.ReferenceIdeal.Fold.U6 m c (Proc.devRef .tc Cert.ReferenceIdeal.main_arg1) = Cert.ReferenceIdeal.Fold.U5 m c (Proc.devRef .tc Cert.ReferenceIdeal.main_arg1))).trans (((Cert.ReferenceIdeal.Fold.opsB1_keeps (Cert.ReferenceIdeal.Fold.U4 m c) Cert.ReferenceIdeal.main_arg1 (by decide) : Cert.ReferenceIdeal.Fold.U5 m c (Proc.devRef .tc Cert.ReferenceIdeal.main_arg1) = Cert.ReferenceIdeal.Fold.U4 m c (Proc.devRef .tc Cert.ReferenceIdeal.main_arg1))).trans (((Cert.ReferenceIdeal.Fold.opsD0_keeps (Cert.ReferenceIdeal.Fold.U3 m c) Cert.ReferenceIdeal.main_arg1 (by decide) : Cert.ReferenceIdeal.Fold.U4 m c (Proc.devRef .tc Cert.ReferenceIdeal.main_arg1) = Cert.ReferenceIdeal.Fold.U3 m c (Proc.devRef .tc Cert.ReferenceIdeal.main_arg1))).trans (((Cert.ReferenceIdeal.Fold.opsA2_keeps (Cert.ReferenceIdeal.Fold.U2 m c) Cert.ReferenceIdeal.main_arg1 (by decide) : Cert.ReferenceIdeal.Fold.U3 m c (Proc.devRef .tc Cert.ReferenceIdeal.main_arg1) = Cert.ReferenceIdeal.Fold.U2 m c (Proc.devRef .tc Cert.ReferenceIdeal.main_arg1))).trans (((Cert.ReferenceIdeal.Fold.opsA1_keeps (Cert.ReferenceIdeal.Fold.U1 m c) Cert.ReferenceIdeal.main_arg1 (by decide) : Cert.ReferenceIdeal.Fold.U2 m c (Proc.devRef .tc Cert.ReferenceIdeal.main_arg1) = Cert.ReferenceIdeal.Fold.U1 m c (Proc.devRef .tc Cert.ReferenceIdeal.main_arg1))).trans ((Cert.ReferenceIdeal.Fold.opsA0_keeps (Cert.ReferenceIdeal.Fold.U0 m c) Cert.ReferenceIdeal.main_arg1 (by decide) : Cert.ReferenceIdeal.Fold.U1 m c (Proc.devRef .tc Cert.ReferenceIdeal.main_arg1) = Cert.ReferenceIdeal.Fold.U0 m c (Proc.devRef .tc Cert.ReferenceIdeal.main_arg1))))))))))))))
theorem arg2_kept : StableHlo.after ops (StableHlo.launchContents m c) (Proc.devRef .tc main_arg2) = m ((c.tc : Thread nD τ).loc main_arg2) :=
  (congrFun (fold_eq m c) (Proc.devRef .tc main_arg2)).trans (((Cert.ReferenceIdeal.Fold.opsM_keeps (Cert.ReferenceIdeal.Fold.U11 m c) Cert.ReferenceIdeal.main_arg2 (by decide) : Cert.ReferenceIdeal.Fold.U12 m c (Proc.devRef .tc Cert.ReferenceIdeal.main_arg2) = Cert.ReferenceIdeal.Fold.U11 m c (Proc.devRef .tc Cert.ReferenceIdeal.main_arg2))).trans (((Cert.ReferenceIdeal.Fold.opsB4_keeps (Cert.ReferenceIdeal.Fold.U10 m c) Cert.ReferenceIdeal.main_arg2 (by decide) : Cert.ReferenceIdeal.Fold.U11 m c (Proc.devRef .tc Cert.ReferenceIdeal.main_arg2) = Cert.ReferenceIdeal.Fold.U10 m c (Proc.devRef .tc Cert.ReferenceIdeal.main_arg2))).trans (((Cert.ReferenceIdeal.Fold.opsD3_keeps (Cert.ReferenceIdeal.Fold.U9 m c) Cert.ReferenceIdeal.main_arg2 (by decide) : Cert.ReferenceIdeal.Fold.U10 m c (Proc.devRef .tc Cert.ReferenceIdeal.main_arg2) = Cert.ReferenceIdeal.Fold.U9 m c (Proc.devRef .tc Cert.ReferenceIdeal.main_arg2))).trans (((Cert.ReferenceIdeal.Fold.opsB3_keeps (Cert.ReferenceIdeal.Fold.U8 m c) Cert.ReferenceIdeal.main_arg2 (by decide) : Cert.ReferenceIdeal.Fold.U9 m c (Proc.devRef .tc Cert.ReferenceIdeal.main_arg2) = Cert.ReferenceIdeal.Fold.U8 m c (Proc.devRef .tc Cert.ReferenceIdeal.main_arg2))).trans (((Cert.ReferenceIdeal.Fold.opsD2_keeps (Cert.ReferenceIdeal.Fold.U7 m c) Cert.ReferenceIdeal.main_arg2 (by decide) : Cert.ReferenceIdeal.Fold.U8 m c (Proc.devRef .tc Cert.ReferenceIdeal.main_arg2) = Cert.ReferenceIdeal.Fold.U7 m c (Proc.devRef .tc Cert.ReferenceIdeal.main_arg2))).trans (((Cert.ReferenceIdeal.Fold.opsB2_keeps (Cert.ReferenceIdeal.Fold.U6 m c) Cert.ReferenceIdeal.main_arg2 (by decide) : Cert.ReferenceIdeal.Fold.U7 m c (Proc.devRef .tc Cert.ReferenceIdeal.main_arg2) = Cert.ReferenceIdeal.Fold.U6 m c (Proc.devRef .tc Cert.ReferenceIdeal.main_arg2))).trans (((Cert.ReferenceIdeal.Fold.opsD1_keeps (Cert.ReferenceIdeal.Fold.U5 m c) Cert.ReferenceIdeal.main_arg2 (by decide) : Cert.ReferenceIdeal.Fold.U6 m c (Proc.devRef .tc Cert.ReferenceIdeal.main_arg2) = Cert.ReferenceIdeal.Fold.U5 m c (Proc.devRef .tc Cert.ReferenceIdeal.main_arg2))).trans (((Cert.ReferenceIdeal.Fold.opsB1_keeps (Cert.ReferenceIdeal.Fold.U4 m c) Cert.ReferenceIdeal.main_arg2 (by decide) : Cert.ReferenceIdeal.Fold.U5 m c (Proc.devRef .tc Cert.ReferenceIdeal.main_arg2) = Cert.ReferenceIdeal.Fold.U4 m c (Proc.devRef .tc Cert.ReferenceIdeal.main_arg2))).trans (((Cert.ReferenceIdeal.Fold.opsD0_keeps (Cert.ReferenceIdeal.Fold.U3 m c) Cert.ReferenceIdeal.main_arg2 (by decide) : Cert.ReferenceIdeal.Fold.U4 m c (Proc.devRef .tc Cert.ReferenceIdeal.main_arg2) = Cert.ReferenceIdeal.Fold.U3 m c (Proc.devRef .tc Cert.ReferenceIdeal.main_arg2))).trans (((Cert.ReferenceIdeal.Fold.opsA2_keeps (Cert.ReferenceIdeal.Fold.U2 m c) Cert.ReferenceIdeal.main_arg2 (by decide) : Cert.ReferenceIdeal.Fold.U3 m c (Proc.devRef .tc Cert.ReferenceIdeal.main_arg2) = Cert.ReferenceIdeal.Fold.U2 m c (Proc.devRef .tc Cert.ReferenceIdeal.main_arg2))).trans (((Cert.ReferenceIdeal.Fold.opsA1_keeps (Cert.ReferenceIdeal.Fold.U1 m c) Cert.ReferenceIdeal.main_arg2 (by decide) : Cert.ReferenceIdeal.Fold.U2 m c (Proc.devRef .tc Cert.ReferenceIdeal.main_arg2) = Cert.ReferenceIdeal.Fold.U1 m c (Proc.devRef .tc Cert.ReferenceIdeal.main_arg2))).trans ((Cert.ReferenceIdeal.Fold.opsA0_keeps (Cert.ReferenceIdeal.Fold.U0 m c) Cert.ReferenceIdeal.main_arg2 (by decide) : Cert.ReferenceIdeal.Fold.U1 m c (Proc.devRef .tc Cert.ReferenceIdeal.main_arg2) = Cert.ReferenceIdeal.Fold.U0 m c (Proc.devRef .tc Cert.ReferenceIdeal.main_arg2))))))))))))))
theorem arg3_kept : StableHlo.after ops (StableHlo.launchContents m c) (Proc.devRef .tc main_arg3) = m ((c.tc : Thread nD τ).loc main_arg3) :=
  (congrFun (fold_eq m c) (Proc.devRef .tc main_arg3)).trans (((Cert.ReferenceIdeal.Fold.opsM_keeps (Cert.ReferenceIdeal.Fold.U11 m c) Cert.ReferenceIdeal.main_arg3 (by decide) : Cert.ReferenceIdeal.Fold.U12 m c (Proc.devRef .tc Cert.ReferenceIdeal.main_arg3) = Cert.ReferenceIdeal.Fold.U11 m c (Proc.devRef .tc Cert.ReferenceIdeal.main_arg3))).trans (((Cert.ReferenceIdeal.Fold.opsB4_keeps (Cert.ReferenceIdeal.Fold.U10 m c) Cert.ReferenceIdeal.main_arg3 (by decide) : Cert.ReferenceIdeal.Fold.U11 m c (Proc.devRef .tc Cert.ReferenceIdeal.main_arg3) = Cert.ReferenceIdeal.Fold.U10 m c (Proc.devRef .tc Cert.ReferenceIdeal.main_arg3))).trans (((Cert.ReferenceIdeal.Fold.opsD3_keeps (Cert.ReferenceIdeal.Fold.U9 m c) Cert.ReferenceIdeal.main_arg3 (by decide) : Cert.ReferenceIdeal.Fold.U10 m c (Proc.devRef .tc Cert.ReferenceIdeal.main_arg3) = Cert.ReferenceIdeal.Fold.U9 m c (Proc.devRef .tc Cert.ReferenceIdeal.main_arg3))).trans (((Cert.ReferenceIdeal.Fold.opsB3_keeps (Cert.ReferenceIdeal.Fold.U8 m c) Cert.ReferenceIdeal.main_arg3 (by decide) : Cert.ReferenceIdeal.Fold.U9 m c (Proc.devRef .tc Cert.ReferenceIdeal.main_arg3) = Cert.ReferenceIdeal.Fold.U8 m c (Proc.devRef .tc Cert.ReferenceIdeal.main_arg3))).trans (((Cert.ReferenceIdeal.Fold.opsD2_keeps (Cert.ReferenceIdeal.Fold.U7 m c) Cert.ReferenceIdeal.main_arg3 (by decide) : Cert.ReferenceIdeal.Fold.U8 m c (Proc.devRef .tc Cert.ReferenceIdeal.main_arg3) = Cert.ReferenceIdeal.Fold.U7 m c (Proc.devRef .tc Cert.ReferenceIdeal.main_arg3))).trans (((Cert.ReferenceIdeal.Fold.opsB2_keeps (Cert.ReferenceIdeal.Fold.U6 m c) Cert.ReferenceIdeal.main_arg3 (by decide) : Cert.ReferenceIdeal.Fold.U7 m c (Proc.devRef .tc Cert.ReferenceIdeal.main_arg3) = Cert.ReferenceIdeal.Fold.U6 m c (Proc.devRef .tc Cert.ReferenceIdeal.main_arg3))).trans (((Cert.ReferenceIdeal.Fold.opsD1_keeps (Cert.ReferenceIdeal.Fold.U5 m c) Cert.ReferenceIdeal.main_arg3 (by decide) : Cert.ReferenceIdeal.Fold.U6 m c (Proc.devRef .tc Cert.ReferenceIdeal.main_arg3) = Cert.ReferenceIdeal.Fold.U5 m c (Proc.devRef .tc Cert.ReferenceIdeal.main_arg3))).trans (((Cert.ReferenceIdeal.Fold.opsB1_keeps (Cert.ReferenceIdeal.Fold.U4 m c) Cert.ReferenceIdeal.main_arg3 (by decide) : Cert.ReferenceIdeal.Fold.U5 m c (Proc.devRef .tc Cert.ReferenceIdeal.main_arg3) = Cert.ReferenceIdeal.Fold.U4 m c (Proc.devRef .tc Cert.ReferenceIdeal.main_arg3))).trans (((Cert.ReferenceIdeal.Fold.opsD0_keeps (Cert.ReferenceIdeal.Fold.U3 m c) Cert.ReferenceIdeal.main_arg3 (by decide) : Cert.ReferenceIdeal.Fold.U4 m c (Proc.devRef .tc Cert.ReferenceIdeal.main_arg3) = Cert.ReferenceIdeal.Fold.U3 m c (Proc.devRef .tc Cert.ReferenceIdeal.main_arg3))).trans (((Cert.ReferenceIdeal.Fold.opsA2_keeps (Cert.ReferenceIdeal.Fold.U2 m c) Cert.ReferenceIdeal.main_arg3 (by decide) : Cert.ReferenceIdeal.Fold.U3 m c (Proc.devRef .tc Cert.ReferenceIdeal.main_arg3) = Cert.ReferenceIdeal.Fold.U2 m c (Proc.devRef .tc Cert.ReferenceIdeal.main_arg3))).trans (((Cert.ReferenceIdeal.Fold.opsA1_keeps (Cert.ReferenceIdeal.Fold.U1 m c) Cert.ReferenceIdeal.main_arg3 (by decide) : Cert.ReferenceIdeal.Fold.U2 m c (Proc.devRef .tc Cert.ReferenceIdeal.main_arg3) = Cert.ReferenceIdeal.Fold.U1 m c (Proc.devRef .tc Cert.ReferenceIdeal.main_arg3))).trans ((Cert.ReferenceIdeal.Fold.opsA0_keeps (Cert.ReferenceIdeal.Fold.U0 m c) Cert.ReferenceIdeal.main_arg3 (by decide) : Cert.ReferenceIdeal.Fold.U1 m c (Proc.devRef .tc Cert.ReferenceIdeal.main_arg3) = Cert.ReferenceIdeal.Fold.U0 m c (Proc.devRef .tc Cert.ReferenceIdeal.main_arg3))))))))))))))
theorem arg4_kept : StableHlo.after ops (StableHlo.launchContents m c) (Proc.devRef .tc main_arg4) = m ((c.tc : Thread nD τ).loc main_arg4) :=
  (congrFun (fold_eq m c) (Proc.devRef .tc main_arg4)).trans (((Cert.ReferenceIdeal.Fold.opsM_keeps (Cert.ReferenceIdeal.Fold.U11 m c) Cert.ReferenceIdeal.main_arg4 (by decide) : Cert.ReferenceIdeal.Fold.U12 m c (Proc.devRef .tc Cert.ReferenceIdeal.main_arg4) = Cert.ReferenceIdeal.Fold.U11 m c (Proc.devRef .tc Cert.ReferenceIdeal.main_arg4))).trans (((Cert.ReferenceIdeal.Fold.opsB4_keeps (Cert.ReferenceIdeal.Fold.U10 m c) Cert.ReferenceIdeal.main_arg4 (by decide) : Cert.ReferenceIdeal.Fold.U11 m c (Proc.devRef .tc Cert.ReferenceIdeal.main_arg4) = Cert.ReferenceIdeal.Fold.U10 m c (Proc.devRef .tc Cert.ReferenceIdeal.main_arg4))).trans (((Cert.ReferenceIdeal.Fold.opsD3_keeps (Cert.ReferenceIdeal.Fold.U9 m c) Cert.ReferenceIdeal.main_arg4 (by decide) : Cert.ReferenceIdeal.Fold.U10 m c (Proc.devRef .tc Cert.ReferenceIdeal.main_arg4) = Cert.ReferenceIdeal.Fold.U9 m c (Proc.devRef .tc Cert.ReferenceIdeal.main_arg4))).trans (((Cert.ReferenceIdeal.Fold.opsB3_keeps (Cert.ReferenceIdeal.Fold.U8 m c) Cert.ReferenceIdeal.main_arg4 (by decide) : Cert.ReferenceIdeal.Fold.U9 m c (Proc.devRef .tc Cert.ReferenceIdeal.main_arg4) = Cert.ReferenceIdeal.Fold.U8 m c (Proc.devRef .tc Cert.ReferenceIdeal.main_arg4))).trans (((Cert.ReferenceIdeal.Fold.opsD2_keeps (Cert.ReferenceIdeal.Fold.U7 m c) Cert.ReferenceIdeal.main_arg4 (by decide) : Cert.ReferenceIdeal.Fold.U8 m c (Proc.devRef .tc Cert.ReferenceIdeal.main_arg4) = Cert.ReferenceIdeal.Fold.U7 m c (Proc.devRef .tc Cert.ReferenceIdeal.main_arg4))).trans (((Cert.ReferenceIdeal.Fold.opsB2_keeps (Cert.ReferenceIdeal.Fold.U6 m c) Cert.ReferenceIdeal.main_arg4 (by decide) : Cert.ReferenceIdeal.Fold.U7 m c (Proc.devRef .tc Cert.ReferenceIdeal.main_arg4) = Cert.ReferenceIdeal.Fold.U6 m c (Proc.devRef .tc Cert.ReferenceIdeal.main_arg4))).trans (((Cert.ReferenceIdeal.Fold.opsD1_keeps (Cert.ReferenceIdeal.Fold.U5 m c) Cert.ReferenceIdeal.main_arg4 (by decide) : Cert.ReferenceIdeal.Fold.U6 m c (Proc.devRef .tc Cert.ReferenceIdeal.main_arg4) = Cert.ReferenceIdeal.Fold.U5 m c (Proc.devRef .tc Cert.ReferenceIdeal.main_arg4))).trans (((Cert.ReferenceIdeal.Fold.opsB1_keeps (Cert.ReferenceIdeal.Fold.U4 m c) Cert.ReferenceIdeal.main_arg4 (by decide) : Cert.ReferenceIdeal.Fold.U5 m c (Proc.devRef .tc Cert.ReferenceIdeal.main_arg4) = Cert.ReferenceIdeal.Fold.U4 m c (Proc.devRef .tc Cert.ReferenceIdeal.main_arg4))).trans (((Cert.ReferenceIdeal.Fold.opsD0_keeps (Cert.ReferenceIdeal.Fold.U3 m c) Cert.ReferenceIdeal.main_arg4 (by decide) : Cert.ReferenceIdeal.Fold.U4 m c (Proc.devRef .tc Cert.ReferenceIdeal.main_arg4) = Cert.ReferenceIdeal.Fold.U3 m c (Proc.devRef .tc Cert.ReferenceIdeal.main_arg4))).trans (((Cert.ReferenceIdeal.Fold.opsA2_keeps (Cert.ReferenceIdeal.Fold.U2 m c) Cert.ReferenceIdeal.main_arg4 (by decide) : Cert.ReferenceIdeal.Fold.U3 m c (Proc.devRef .tc Cert.ReferenceIdeal.main_arg4) = Cert.ReferenceIdeal.Fold.U2 m c (Proc.devRef .tc Cert.ReferenceIdeal.main_arg4))).trans (((Cert.ReferenceIdeal.Fold.opsA1_keeps (Cert.ReferenceIdeal.Fold.U1 m c) Cert.ReferenceIdeal.main_arg4 (by decide) : Cert.ReferenceIdeal.Fold.U2 m c (Proc.devRef .tc Cert.ReferenceIdeal.main_arg4) = Cert.ReferenceIdeal.Fold.U1 m c (Proc.devRef .tc Cert.ReferenceIdeal.main_arg4))).trans ((Cert.ReferenceIdeal.Fold.opsA0_keeps (Cert.ReferenceIdeal.Fold.U0 m c) Cert.ReferenceIdeal.main_arg4 (by decide) : Cert.ReferenceIdeal.Fold.U1 m c (Proc.devRef .tc Cert.ReferenceIdeal.main_arg4) = Cert.ReferenceIdeal.Fold.U0 m c (Proc.devRef .tc Cert.ReferenceIdeal.main_arg4))))))))))))))
theorem arg5_kept : StableHlo.after ops (StableHlo.launchContents m c) (Proc.devRef .tc main_arg5) = m ((c.tc : Thread nD τ).loc main_arg5) :=
  (congrFun (fold_eq m c) (Proc.devRef .tc main_arg5)).trans (((Cert.ReferenceIdeal.Fold.opsM_keeps (Cert.ReferenceIdeal.Fold.U11 m c) Cert.ReferenceIdeal.main_arg5 (by decide) : Cert.ReferenceIdeal.Fold.U12 m c (Proc.devRef .tc Cert.ReferenceIdeal.main_arg5) = Cert.ReferenceIdeal.Fold.U11 m c (Proc.devRef .tc Cert.ReferenceIdeal.main_arg5))).trans (((Cert.ReferenceIdeal.Fold.opsB4_keeps (Cert.ReferenceIdeal.Fold.U10 m c) Cert.ReferenceIdeal.main_arg5 (by decide) : Cert.ReferenceIdeal.Fold.U11 m c (Proc.devRef .tc Cert.ReferenceIdeal.main_arg5) = Cert.ReferenceIdeal.Fold.U10 m c (Proc.devRef .tc Cert.ReferenceIdeal.main_arg5))).trans (((Cert.ReferenceIdeal.Fold.opsD3_keeps (Cert.ReferenceIdeal.Fold.U9 m c) Cert.ReferenceIdeal.main_arg5 (by decide) : Cert.ReferenceIdeal.Fold.U10 m c (Proc.devRef .tc Cert.ReferenceIdeal.main_arg5) = Cert.ReferenceIdeal.Fold.U9 m c (Proc.devRef .tc Cert.ReferenceIdeal.main_arg5))).trans (((Cert.ReferenceIdeal.Fold.opsB3_keeps (Cert.ReferenceIdeal.Fold.U8 m c) Cert.ReferenceIdeal.main_arg5 (by decide) : Cert.ReferenceIdeal.Fold.U9 m c (Proc.devRef .tc Cert.ReferenceIdeal.main_arg5) = Cert.ReferenceIdeal.Fold.U8 m c (Proc.devRef .tc Cert.ReferenceIdeal.main_arg5))).trans (((Cert.ReferenceIdeal.Fold.opsD2_keeps (Cert.ReferenceIdeal.Fold.U7 m c) Cert.ReferenceIdeal.main_arg5 (by decide) : Cert.ReferenceIdeal.Fold.U8 m c (Proc.devRef .tc Cert.ReferenceIdeal.main_arg5) = Cert.ReferenceIdeal.Fold.U7 m c (Proc.devRef .tc Cert.ReferenceIdeal.main_arg5))).trans (((Cert.ReferenceIdeal.Fold.opsB2_keeps (Cert.ReferenceIdeal.Fold.U6 m c) Cert.ReferenceIdeal.main_arg5 (by decide) : Cert.ReferenceIdeal.Fold.U7 m c (Proc.devRef .tc Cert.ReferenceIdeal.main_arg5) = Cert.ReferenceIdeal.Fold.U6 m c (Proc.devRef .tc Cert.ReferenceIdeal.main_arg5))).trans (((Cert.ReferenceIdeal.Fold.opsD1_keeps (Cert.ReferenceIdeal.Fold.U5 m c) Cert.ReferenceIdeal.main_arg5 (by decide) : Cert.ReferenceIdeal.Fold.U6 m c (Proc.devRef .tc Cert.ReferenceIdeal.main_arg5) = Cert.ReferenceIdeal.Fold.U5 m c (Proc.devRef .tc Cert.ReferenceIdeal.main_arg5))).trans (((Cert.ReferenceIdeal.Fold.opsB1_keeps (Cert.ReferenceIdeal.Fold.U4 m c) Cert.ReferenceIdeal.main_arg5 (by decide) : Cert.ReferenceIdeal.Fold.U5 m c (Proc.devRef .tc Cert.ReferenceIdeal.main_arg5) = Cert.ReferenceIdeal.Fold.U4 m c (Proc.devRef .tc Cert.ReferenceIdeal.main_arg5))).trans (((Cert.ReferenceIdeal.Fold.opsD0_keeps (Cert.ReferenceIdeal.Fold.U3 m c) Cert.ReferenceIdeal.main_arg5 (by decide) : Cert.ReferenceIdeal.Fold.U4 m c (Proc.devRef .tc Cert.ReferenceIdeal.main_arg5) = Cert.ReferenceIdeal.Fold.U3 m c (Proc.devRef .tc Cert.ReferenceIdeal.main_arg5))).trans (((Cert.ReferenceIdeal.Fold.opsA2_keeps (Cert.ReferenceIdeal.Fold.U2 m c) Cert.ReferenceIdeal.main_arg5 (by decide) : Cert.ReferenceIdeal.Fold.U3 m c (Proc.devRef .tc Cert.ReferenceIdeal.main_arg5) = Cert.ReferenceIdeal.Fold.U2 m c (Proc.devRef .tc Cert.ReferenceIdeal.main_arg5))).trans (((Cert.ReferenceIdeal.Fold.opsA1_keeps (Cert.ReferenceIdeal.Fold.U1 m c) Cert.ReferenceIdeal.main_arg5 (by decide) : Cert.ReferenceIdeal.Fold.U2 m c (Proc.devRef .tc Cert.ReferenceIdeal.main_arg5) = Cert.ReferenceIdeal.Fold.U1 m c (Proc.devRef .tc Cert.ReferenceIdeal.main_arg5))).trans ((Cert.ReferenceIdeal.Fold.opsA0_keeps (Cert.ReferenceIdeal.Fold.U0 m c) Cert.ReferenceIdeal.main_arg5 (by decide) : Cert.ReferenceIdeal.Fold.U1 m c (Proc.devRef .tc Cert.ReferenceIdeal.main_arg5) = Cert.ReferenceIdeal.Fold.U0 m c (Proc.devRef .tc Cert.ReferenceIdeal.main_arg5))))))))))))))
theorem arg6_kept : StableHlo.after ops (StableHlo.launchContents m c) (Proc.devRef .tc main_arg6) = m ((c.tc : Thread nD τ).loc main_arg6) :=
  (congrFun (fold_eq m c) (Proc.devRef .tc main_arg6)).trans (((Cert.ReferenceIdeal.Fold.opsM_keeps (Cert.ReferenceIdeal.Fold.U11 m c) Cert.ReferenceIdeal.main_arg6 (by decide) : Cert.ReferenceIdeal.Fold.U12 m c (Proc.devRef .tc Cert.ReferenceIdeal.main_arg6) = Cert.ReferenceIdeal.Fold.U11 m c (Proc.devRef .tc Cert.ReferenceIdeal.main_arg6))).trans (((Cert.ReferenceIdeal.Fold.opsB4_keeps (Cert.ReferenceIdeal.Fold.U10 m c) Cert.ReferenceIdeal.main_arg6 (by decide) : Cert.ReferenceIdeal.Fold.U11 m c (Proc.devRef .tc Cert.ReferenceIdeal.main_arg6) = Cert.ReferenceIdeal.Fold.U10 m c (Proc.devRef .tc Cert.ReferenceIdeal.main_arg6))).trans (((Cert.ReferenceIdeal.Fold.opsD3_keeps (Cert.ReferenceIdeal.Fold.U9 m c) Cert.ReferenceIdeal.main_arg6 (by decide) : Cert.ReferenceIdeal.Fold.U10 m c (Proc.devRef .tc Cert.ReferenceIdeal.main_arg6) = Cert.ReferenceIdeal.Fold.U9 m c (Proc.devRef .tc Cert.ReferenceIdeal.main_arg6))).trans (((Cert.ReferenceIdeal.Fold.opsB3_keeps (Cert.ReferenceIdeal.Fold.U8 m c) Cert.ReferenceIdeal.main_arg6 (by decide) : Cert.ReferenceIdeal.Fold.U9 m c (Proc.devRef .tc Cert.ReferenceIdeal.main_arg6) = Cert.ReferenceIdeal.Fold.U8 m c (Proc.devRef .tc Cert.ReferenceIdeal.main_arg6))).trans (((Cert.ReferenceIdeal.Fold.opsD2_keeps (Cert.ReferenceIdeal.Fold.U7 m c) Cert.ReferenceIdeal.main_arg6 (by decide) : Cert.ReferenceIdeal.Fold.U8 m c (Proc.devRef .tc Cert.ReferenceIdeal.main_arg6) = Cert.ReferenceIdeal.Fold.U7 m c (Proc.devRef .tc Cert.ReferenceIdeal.main_arg6))).trans (((Cert.ReferenceIdeal.Fold.opsB2_keeps (Cert.ReferenceIdeal.Fold.U6 m c) Cert.ReferenceIdeal.main_arg6 (by decide) : Cert.ReferenceIdeal.Fold.U7 m c (Proc.devRef .tc Cert.ReferenceIdeal.main_arg6) = Cert.ReferenceIdeal.Fold.U6 m c (Proc.devRef .tc Cert.ReferenceIdeal.main_arg6))).trans (((Cert.ReferenceIdeal.Fold.opsD1_keeps (Cert.ReferenceIdeal.Fold.U5 m c) Cert.ReferenceIdeal.main_arg6 (by decide) : Cert.ReferenceIdeal.Fold.U6 m c (Proc.devRef .tc Cert.ReferenceIdeal.main_arg6) = Cert.ReferenceIdeal.Fold.U5 m c (Proc.devRef .tc Cert.ReferenceIdeal.main_arg6))).trans (((Cert.ReferenceIdeal.Fold.opsB1_keeps (Cert.ReferenceIdeal.Fold.U4 m c) Cert.ReferenceIdeal.main_arg6 (by decide) : Cert.ReferenceIdeal.Fold.U5 m c (Proc.devRef .tc Cert.ReferenceIdeal.main_arg6) = Cert.ReferenceIdeal.Fold.U4 m c (Proc.devRef .tc Cert.ReferenceIdeal.main_arg6))).trans (((Cert.ReferenceIdeal.Fold.opsD0_keeps (Cert.ReferenceIdeal.Fold.U3 m c) Cert.ReferenceIdeal.main_arg6 (by decide) : Cert.ReferenceIdeal.Fold.U4 m c (Proc.devRef .tc Cert.ReferenceIdeal.main_arg6) = Cert.ReferenceIdeal.Fold.U3 m c (Proc.devRef .tc Cert.ReferenceIdeal.main_arg6))).trans (((Cert.ReferenceIdeal.Fold.opsA2_keeps (Cert.ReferenceIdeal.Fold.U2 m c) Cert.ReferenceIdeal.main_arg6 (by decide) : Cert.ReferenceIdeal.Fold.U3 m c (Proc.devRef .tc Cert.ReferenceIdeal.main_arg6) = Cert.ReferenceIdeal.Fold.U2 m c (Proc.devRef .tc Cert.ReferenceIdeal.main_arg6))).trans (((Cert.ReferenceIdeal.Fold.opsA1_keeps (Cert.ReferenceIdeal.Fold.U1 m c) Cert.ReferenceIdeal.main_arg6 (by decide) : Cert.ReferenceIdeal.Fold.U2 m c (Proc.devRef .tc Cert.ReferenceIdeal.main_arg6) = Cert.ReferenceIdeal.Fold.U1 m c (Proc.devRef .tc Cert.ReferenceIdeal.main_arg6))).trans ((Cert.ReferenceIdeal.Fold.opsA0_keeps (Cert.ReferenceIdeal.Fold.U0 m c) Cert.ReferenceIdeal.main_arg6 (by decide) : Cert.ReferenceIdeal.Fold.U1 m c (Proc.devRef .tc Cert.ReferenceIdeal.main_arg6) = Cert.ReferenceIdeal.Fold.U0 m c (Proc.devRef .tc Cert.ReferenceIdeal.main_arg6))))))))))))))
theorem arg7_kept : StableHlo.after ops (StableHlo.launchContents m c) (Proc.devRef .tc main_arg7) = m ((c.tc : Thread nD τ).loc main_arg7) :=
  (congrFun (fold_eq m c) (Proc.devRef .tc main_arg7)).trans (((Cert.ReferenceIdeal.Fold.opsM_keeps (Cert.ReferenceIdeal.Fold.U11 m c) Cert.ReferenceIdeal.main_arg7 (by decide) : Cert.ReferenceIdeal.Fold.U12 m c (Proc.devRef .tc Cert.ReferenceIdeal.main_arg7) = Cert.ReferenceIdeal.Fold.U11 m c (Proc.devRef .tc Cert.ReferenceIdeal.main_arg7))).trans (((Cert.ReferenceIdeal.Fold.opsB4_keeps (Cert.ReferenceIdeal.Fold.U10 m c) Cert.ReferenceIdeal.main_arg7 (by decide) : Cert.ReferenceIdeal.Fold.U11 m c (Proc.devRef .tc Cert.ReferenceIdeal.main_arg7) = Cert.ReferenceIdeal.Fold.U10 m c (Proc.devRef .tc Cert.ReferenceIdeal.main_arg7))).trans (((Cert.ReferenceIdeal.Fold.opsD3_keeps (Cert.ReferenceIdeal.Fold.U9 m c) Cert.ReferenceIdeal.main_arg7 (by decide) : Cert.ReferenceIdeal.Fold.U10 m c (Proc.devRef .tc Cert.ReferenceIdeal.main_arg7) = Cert.ReferenceIdeal.Fold.U9 m c (Proc.devRef .tc Cert.ReferenceIdeal.main_arg7))).trans (((Cert.ReferenceIdeal.Fold.opsB3_keeps (Cert.ReferenceIdeal.Fold.U8 m c) Cert.ReferenceIdeal.main_arg7 (by decide) : Cert.ReferenceIdeal.Fold.U9 m c (Proc.devRef .tc Cert.ReferenceIdeal.main_arg7) = Cert.ReferenceIdeal.Fold.U8 m c (Proc.devRef .tc Cert.ReferenceIdeal.main_arg7))).trans (((Cert.ReferenceIdeal.Fold.opsD2_keeps (Cert.ReferenceIdeal.Fold.U7 m c) Cert.ReferenceIdeal.main_arg7 (by decide) : Cert.ReferenceIdeal.Fold.U8 m c (Proc.devRef .tc Cert.ReferenceIdeal.main_arg7) = Cert.ReferenceIdeal.Fold.U7 m c (Proc.devRef .tc Cert.ReferenceIdeal.main_arg7))).trans (((Cert.ReferenceIdeal.Fold.opsB2_keeps (Cert.ReferenceIdeal.Fold.U6 m c) Cert.ReferenceIdeal.main_arg7 (by decide) : Cert.ReferenceIdeal.Fold.U7 m c (Proc.devRef .tc Cert.ReferenceIdeal.main_arg7) = Cert.ReferenceIdeal.Fold.U6 m c (Proc.devRef .tc Cert.ReferenceIdeal.main_arg7))).trans (((Cert.ReferenceIdeal.Fold.opsD1_keeps (Cert.ReferenceIdeal.Fold.U5 m c) Cert.ReferenceIdeal.main_arg7 (by decide) : Cert.ReferenceIdeal.Fold.U6 m c (Proc.devRef .tc Cert.ReferenceIdeal.main_arg7) = Cert.ReferenceIdeal.Fold.U5 m c (Proc.devRef .tc Cert.ReferenceIdeal.main_arg7))).trans (((Cert.ReferenceIdeal.Fold.opsB1_keeps (Cert.ReferenceIdeal.Fold.U4 m c) Cert.ReferenceIdeal.main_arg7 (by decide) : Cert.ReferenceIdeal.Fold.U5 m c (Proc.devRef .tc Cert.ReferenceIdeal.main_arg7) = Cert.ReferenceIdeal.Fold.U4 m c (Proc.devRef .tc Cert.ReferenceIdeal.main_arg7))).trans (((Cert.ReferenceIdeal.Fold.opsD0_keeps (Cert.ReferenceIdeal.Fold.U3 m c) Cert.ReferenceIdeal.main_arg7 (by decide) : Cert.ReferenceIdeal.Fold.U4 m c (Proc.devRef .tc Cert.ReferenceIdeal.main_arg7) = Cert.ReferenceIdeal.Fold.U3 m c (Proc.devRef .tc Cert.ReferenceIdeal.main_arg7))).trans (((Cert.ReferenceIdeal.Fold.opsA2_keeps (Cert.ReferenceIdeal.Fold.U2 m c) Cert.ReferenceIdeal.main_arg7 (by decide) : Cert.ReferenceIdeal.Fold.U3 m c (Proc.devRef .tc Cert.ReferenceIdeal.main_arg7) = Cert.ReferenceIdeal.Fold.U2 m c (Proc.devRef .tc Cert.ReferenceIdeal.main_arg7))).trans (((Cert.ReferenceIdeal.Fold.opsA1_keeps (Cert.ReferenceIdeal.Fold.U1 m c) Cert.ReferenceIdeal.main_arg7 (by decide) : Cert.ReferenceIdeal.Fold.U2 m c (Proc.devRef .tc Cert.ReferenceIdeal.main_arg7) = Cert.ReferenceIdeal.Fold.U1 m c (Proc.devRef .tc Cert.ReferenceIdeal.main_arg7))).trans ((Cert.ReferenceIdeal.Fold.opsA0_keeps (Cert.ReferenceIdeal.Fold.U0 m c) Cert.ReferenceIdeal.main_arg7 (by decide) : Cert.ReferenceIdeal.Fold.U1 m c (Proc.devRef .tc Cert.ReferenceIdeal.main_arg7) = Cert.ReferenceIdeal.Fold.U0 m c (Proc.devRef .tc Cert.ReferenceIdeal.main_arg7))))))))))))))
theorem arg8_kept : StableHlo.after ops (StableHlo.launchContents m c) (Proc.devRef .tc main_arg8) = m ((c.tc : Thread nD τ).loc main_arg8) :=
  (congrFun (fold_eq m c) (Proc.devRef .tc main_arg8)).trans (((Cert.ReferenceIdeal.Fold.opsM_keeps (Cert.ReferenceIdeal.Fold.U11 m c) Cert.ReferenceIdeal.main_arg8 (by decide) : Cert.ReferenceIdeal.Fold.U12 m c (Proc.devRef .tc Cert.ReferenceIdeal.main_arg8) = Cert.ReferenceIdeal.Fold.U11 m c (Proc.devRef .tc Cert.ReferenceIdeal.main_arg8))).trans (((Cert.ReferenceIdeal.Fold.opsB4_keeps (Cert.ReferenceIdeal.Fold.U10 m c) Cert.ReferenceIdeal.main_arg8 (by decide) : Cert.ReferenceIdeal.Fold.U11 m c (Proc.devRef .tc Cert.ReferenceIdeal.main_arg8) = Cert.ReferenceIdeal.Fold.U10 m c (Proc.devRef .tc Cert.ReferenceIdeal.main_arg8))).trans (((Cert.ReferenceIdeal.Fold.opsD3_keeps (Cert.ReferenceIdeal.Fold.U9 m c) Cert.ReferenceIdeal.main_arg8 (by decide) : Cert.ReferenceIdeal.Fold.U10 m c (Proc.devRef .tc Cert.ReferenceIdeal.main_arg8) = Cert.ReferenceIdeal.Fold.U9 m c (Proc.devRef .tc Cert.ReferenceIdeal.main_arg8))).trans (((Cert.ReferenceIdeal.Fold.opsB3_keeps (Cert.ReferenceIdeal.Fold.U8 m c) Cert.ReferenceIdeal.main_arg8 (by decide) : Cert.ReferenceIdeal.Fold.U9 m c (Proc.devRef .tc Cert.ReferenceIdeal.main_arg8) = Cert.ReferenceIdeal.Fold.U8 m c (Proc.devRef .tc Cert.ReferenceIdeal.main_arg8))).trans (((Cert.ReferenceIdeal.Fold.opsD2_keeps (Cert.ReferenceIdeal.Fold.U7 m c) Cert.ReferenceIdeal.main_arg8 (by decide) : Cert.ReferenceIdeal.Fold.U8 m c (Proc.devRef .tc Cert.ReferenceIdeal.main_arg8) = Cert.ReferenceIdeal.Fold.U7 m c (Proc.devRef .tc Cert.ReferenceIdeal.main_arg8))).trans (((Cert.ReferenceIdeal.Fold.opsB2_keeps (Cert.ReferenceIdeal.Fold.U6 m c) Cert.ReferenceIdeal.main_arg8 (by decide) : Cert.ReferenceIdeal.Fold.U7 m c (Proc.devRef .tc Cert.ReferenceIdeal.main_arg8) = Cert.ReferenceIdeal.Fold.U6 m c (Proc.devRef .tc Cert.ReferenceIdeal.main_arg8))).trans (((Cert.ReferenceIdeal.Fold.opsD1_keeps (Cert.ReferenceIdeal.Fold.U5 m c) Cert.ReferenceIdeal.main_arg8 (by decide) : Cert.ReferenceIdeal.Fold.U6 m c (Proc.devRef .tc Cert.ReferenceIdeal.main_arg8) = Cert.ReferenceIdeal.Fold.U5 m c (Proc.devRef .tc Cert.ReferenceIdeal.main_arg8))).trans (((Cert.ReferenceIdeal.Fold.opsB1_keeps (Cert.ReferenceIdeal.Fold.U4 m c) Cert.ReferenceIdeal.main_arg8 (by decide) : Cert.ReferenceIdeal.Fold.U5 m c (Proc.devRef .tc Cert.ReferenceIdeal.main_arg8) = Cert.ReferenceIdeal.Fold.U4 m c (Proc.devRef .tc Cert.ReferenceIdeal.main_arg8))).trans (((Cert.ReferenceIdeal.Fold.opsD0_keeps (Cert.ReferenceIdeal.Fold.U3 m c) Cert.ReferenceIdeal.main_arg8 (by decide) : Cert.ReferenceIdeal.Fold.U4 m c (Proc.devRef .tc Cert.ReferenceIdeal.main_arg8) = Cert.ReferenceIdeal.Fold.U3 m c (Proc.devRef .tc Cert.ReferenceIdeal.main_arg8))).trans (((Cert.ReferenceIdeal.Fold.opsA2_keeps (Cert.ReferenceIdeal.Fold.U2 m c) Cert.ReferenceIdeal.main_arg8 (by decide) : Cert.ReferenceIdeal.Fold.U3 m c (Proc.devRef .tc Cert.ReferenceIdeal.main_arg8) = Cert.ReferenceIdeal.Fold.U2 m c (Proc.devRef .tc Cert.ReferenceIdeal.main_arg8))).trans (((Cert.ReferenceIdeal.Fold.opsA1_keeps (Cert.ReferenceIdeal.Fold.U1 m c) Cert.ReferenceIdeal.main_arg8 (by decide) : Cert.ReferenceIdeal.Fold.U2 m c (Proc.devRef .tc Cert.ReferenceIdeal.main_arg8) = Cert.ReferenceIdeal.Fold.U1 m c (Proc.devRef .tc Cert.ReferenceIdeal.main_arg8))).trans ((Cert.ReferenceIdeal.Fold.opsA0_keeps (Cert.ReferenceIdeal.Fold.U0 m c) Cert.ReferenceIdeal.main_arg8 (by decide) : Cert.ReferenceIdeal.Fold.U1 m c (Proc.devRef .tc Cert.ReferenceIdeal.main_arg8) = Cert.ReferenceIdeal.Fold.U0 m c (Proc.devRef .tc Cert.ReferenceIdeal.main_arg8))))))))))))))
theorem arg9_kept : StableHlo.after ops (StableHlo.launchContents m c) (Proc.devRef .tc main_arg9) = m ((c.tc : Thread nD τ).loc main_arg9) :=
  (congrFun (fold_eq m c) (Proc.devRef .tc main_arg9)).trans (((Cert.ReferenceIdeal.Fold.opsM_keeps (Cert.ReferenceIdeal.Fold.U11 m c) Cert.ReferenceIdeal.main_arg9 (by decide) : Cert.ReferenceIdeal.Fold.U12 m c (Proc.devRef .tc Cert.ReferenceIdeal.main_arg9) = Cert.ReferenceIdeal.Fold.U11 m c (Proc.devRef .tc Cert.ReferenceIdeal.main_arg9))).trans (((Cert.ReferenceIdeal.Fold.opsB4_keeps (Cert.ReferenceIdeal.Fold.U10 m c) Cert.ReferenceIdeal.main_arg9 (by decide) : Cert.ReferenceIdeal.Fold.U11 m c (Proc.devRef .tc Cert.ReferenceIdeal.main_arg9) = Cert.ReferenceIdeal.Fold.U10 m c (Proc.devRef .tc Cert.ReferenceIdeal.main_arg9))).trans (((Cert.ReferenceIdeal.Fold.opsD3_keeps (Cert.ReferenceIdeal.Fold.U9 m c) Cert.ReferenceIdeal.main_arg9 (by decide) : Cert.ReferenceIdeal.Fold.U10 m c (Proc.devRef .tc Cert.ReferenceIdeal.main_arg9) = Cert.ReferenceIdeal.Fold.U9 m c (Proc.devRef .tc Cert.ReferenceIdeal.main_arg9))).trans (((Cert.ReferenceIdeal.Fold.opsB3_keeps (Cert.ReferenceIdeal.Fold.U8 m c) Cert.ReferenceIdeal.main_arg9 (by decide) : Cert.ReferenceIdeal.Fold.U9 m c (Proc.devRef .tc Cert.ReferenceIdeal.main_arg9) = Cert.ReferenceIdeal.Fold.U8 m c (Proc.devRef .tc Cert.ReferenceIdeal.main_arg9))).trans (((Cert.ReferenceIdeal.Fold.opsD2_keeps (Cert.ReferenceIdeal.Fold.U7 m c) Cert.ReferenceIdeal.main_arg9 (by decide) : Cert.ReferenceIdeal.Fold.U8 m c (Proc.devRef .tc Cert.ReferenceIdeal.main_arg9) = Cert.ReferenceIdeal.Fold.U7 m c (Proc.devRef .tc Cert.ReferenceIdeal.main_arg9))).trans (((Cert.ReferenceIdeal.Fold.opsB2_keeps (Cert.ReferenceIdeal.Fold.U6 m c) Cert.ReferenceIdeal.main_arg9 (by decide) : Cert.ReferenceIdeal.Fold.U7 m c (Proc.devRef .tc Cert.ReferenceIdeal.main_arg9) = Cert.ReferenceIdeal.Fold.U6 m c (Proc.devRef .tc Cert.ReferenceIdeal.main_arg9))).trans (((Cert.ReferenceIdeal.Fold.opsD1_keeps (Cert.ReferenceIdeal.Fold.U5 m c) Cert.ReferenceIdeal.main_arg9 (by decide) : Cert.ReferenceIdeal.Fold.U6 m c (Proc.devRef .tc Cert.ReferenceIdeal.main_arg9) = Cert.ReferenceIdeal.Fold.U5 m c (Proc.devRef .tc Cert.ReferenceIdeal.main_arg9))).trans (((Cert.ReferenceIdeal.Fold.opsB1_keeps (Cert.ReferenceIdeal.Fold.U4 m c) Cert.ReferenceIdeal.main_arg9 (by decide) : Cert.ReferenceIdeal.Fold.U5 m c (Proc.devRef .tc Cert.ReferenceIdeal.main_arg9) = Cert.ReferenceIdeal.Fold.U4 m c (Proc.devRef .tc Cert.ReferenceIdeal.main_arg9))).trans (((Cert.ReferenceIdeal.Fold.opsD0_keeps (Cert.ReferenceIdeal.Fold.U3 m c) Cert.ReferenceIdeal.main_arg9 (by decide) : Cert.ReferenceIdeal.Fold.U4 m c (Proc.devRef .tc Cert.ReferenceIdeal.main_arg9) = Cert.ReferenceIdeal.Fold.U3 m c (Proc.devRef .tc Cert.ReferenceIdeal.main_arg9))).trans (((Cert.ReferenceIdeal.Fold.opsA2_keeps (Cert.ReferenceIdeal.Fold.U2 m c) Cert.ReferenceIdeal.main_arg9 (by decide) : Cert.ReferenceIdeal.Fold.U3 m c (Proc.devRef .tc Cert.ReferenceIdeal.main_arg9) = Cert.ReferenceIdeal.Fold.U2 m c (Proc.devRef .tc Cert.ReferenceIdeal.main_arg9))).trans (((Cert.ReferenceIdeal.Fold.opsA1_keeps (Cert.ReferenceIdeal.Fold.U1 m c) Cert.ReferenceIdeal.main_arg9 (by decide) : Cert.ReferenceIdeal.Fold.U2 m c (Proc.devRef .tc Cert.ReferenceIdeal.main_arg9) = Cert.ReferenceIdeal.Fold.U1 m c (Proc.devRef .tc Cert.ReferenceIdeal.main_arg9))).trans ((Cert.ReferenceIdeal.Fold.opsA0_keeps (Cert.ReferenceIdeal.Fold.U0 m c) Cert.ReferenceIdeal.main_arg9 (by decide) : Cert.ReferenceIdeal.Fold.U1 m c (Proc.devRef .tc Cert.ReferenceIdeal.main_arg9) = Cert.ReferenceIdeal.Fold.U0 m c (Proc.devRef .tc Cert.ReferenceIdeal.main_arg9))))))))))))))
theorem arg10_kept : StableHlo.after ops (StableHlo.launchContents m c) (Proc.devRef .tc main_arg10) = m ((c.tc : Thread nD τ).loc main_arg10) :=
  (congrFun (fold_eq m c) (Proc.devRef .tc main_arg10)).trans (((Cert.ReferenceIdeal.Fold.opsM_keeps (Cert.ReferenceIdeal.Fold.U11 m c) Cert.ReferenceIdeal.main_arg10 (by decide) : Cert.ReferenceIdeal.Fold.U12 m c (Proc.devRef .tc Cert.ReferenceIdeal.main_arg10) = Cert.ReferenceIdeal.Fold.U11 m c (Proc.devRef .tc Cert.ReferenceIdeal.main_arg10))).trans (((Cert.ReferenceIdeal.Fold.opsB4_keeps (Cert.ReferenceIdeal.Fold.U10 m c) Cert.ReferenceIdeal.main_arg10 (by decide) : Cert.ReferenceIdeal.Fold.U11 m c (Proc.devRef .tc Cert.ReferenceIdeal.main_arg10) = Cert.ReferenceIdeal.Fold.U10 m c (Proc.devRef .tc Cert.ReferenceIdeal.main_arg10))).trans (((Cert.ReferenceIdeal.Fold.opsD3_keeps (Cert.ReferenceIdeal.Fold.U9 m c) Cert.ReferenceIdeal.main_arg10 (by decide) : Cert.ReferenceIdeal.Fold.U10 m c (Proc.devRef .tc Cert.ReferenceIdeal.main_arg10) = Cert.ReferenceIdeal.Fold.U9 m c (Proc.devRef .tc Cert.ReferenceIdeal.main_arg10))).trans (((Cert.ReferenceIdeal.Fold.opsB3_keeps (Cert.ReferenceIdeal.Fold.U8 m c) Cert.ReferenceIdeal.main_arg10 (by decide) : Cert.ReferenceIdeal.Fold.U9 m c (Proc.devRef .tc Cert.ReferenceIdeal.main_arg10) = Cert.ReferenceIdeal.Fold.U8 m c (Proc.devRef .tc Cert.ReferenceIdeal.main_arg10))).trans (((Cert.ReferenceIdeal.Fold.opsD2_keeps (Cert.ReferenceIdeal.Fold.U7 m c) Cert.ReferenceIdeal.main_arg10 (by decide) : Cert.ReferenceIdeal.Fold.U8 m c (Proc.devRef .tc Cert.ReferenceIdeal.main_arg10) = Cert.ReferenceIdeal.Fold.U7 m c (Proc.devRef .tc Cert.ReferenceIdeal.main_arg10))).trans (((Cert.ReferenceIdeal.Fold.opsB2_keeps (Cert.ReferenceIdeal.Fold.U6 m c) Cert.ReferenceIdeal.main_arg10 (by decide) : Cert.ReferenceIdeal.Fold.U7 m c (Proc.devRef .tc Cert.ReferenceIdeal.main_arg10) = Cert.ReferenceIdeal.Fold.U6 m c (Proc.devRef .tc Cert.ReferenceIdeal.main_arg10))).trans (((Cert.ReferenceIdeal.Fold.opsD1_keeps (Cert.ReferenceIdeal.Fold.U5 m c) Cert.ReferenceIdeal.main_arg10 (by decide) : Cert.ReferenceIdeal.Fold.U6 m c (Proc.devRef .tc Cert.ReferenceIdeal.main_arg10) = Cert.ReferenceIdeal.Fold.U5 m c (Proc.devRef .tc Cert.ReferenceIdeal.main_arg10))).trans (((Cert.ReferenceIdeal.Fold.opsB1_keeps (Cert.ReferenceIdeal.Fold.U4 m c) Cert.ReferenceIdeal.main_arg10 (by decide) : Cert.ReferenceIdeal.Fold.U5 m c (Proc.devRef .tc Cert.ReferenceIdeal.main_arg10) = Cert.ReferenceIdeal.Fold.U4 m c (Proc.devRef .tc Cert.ReferenceIdeal.main_arg10))).trans (((Cert.ReferenceIdeal.Fold.opsD0_keeps (Cert.ReferenceIdeal.Fold.U3 m c) Cert.ReferenceIdeal.main_arg10 (by decide) : Cert.ReferenceIdeal.Fold.U4 m c (Proc.devRef .tc Cert.ReferenceIdeal.main_arg10) = Cert.ReferenceIdeal.Fold.U3 m c (Proc.devRef .tc Cert.ReferenceIdeal.main_arg10))).trans (((Cert.ReferenceIdeal.Fold.opsA2_keeps (Cert.ReferenceIdeal.Fold.U2 m c) Cert.ReferenceIdeal.main_arg10 (by decide) : Cert.ReferenceIdeal.Fold.U3 m c (Proc.devRef .tc Cert.ReferenceIdeal.main_arg10) = Cert.ReferenceIdeal.Fold.U2 m c (Proc.devRef .tc Cert.ReferenceIdeal.main_arg10))).trans (((Cert.ReferenceIdeal.Fold.opsA1_keeps (Cert.ReferenceIdeal.Fold.U1 m c) Cert.ReferenceIdeal.main_arg10 (by decide) : Cert.ReferenceIdeal.Fold.U2 m c (Proc.devRef .tc Cert.ReferenceIdeal.main_arg10) = Cert.ReferenceIdeal.Fold.U1 m c (Proc.devRef .tc Cert.ReferenceIdeal.main_arg10))).trans ((Cert.ReferenceIdeal.Fold.opsA0_keeps (Cert.ReferenceIdeal.Fold.U0 m c) Cert.ReferenceIdeal.main_arg10 (by decide) : Cert.ReferenceIdeal.Fold.U1 m c (Proc.devRef .tc Cert.ReferenceIdeal.main_arg10) = Cert.ReferenceIdeal.Fold.U0 m c (Proc.devRef .tc Cert.ReferenceIdeal.main_arg10))))))))))))))
theorem arg11_kept : StableHlo.after ops (StableHlo.launchContents m c) (Proc.devRef .tc main_arg11) = m ((c.tc : Thread nD τ).loc main_arg11) :=
  (congrFun (fold_eq m c) (Proc.devRef .tc main_arg11)).trans (((Cert.ReferenceIdeal.Fold.opsM_keeps (Cert.ReferenceIdeal.Fold.U11 m c) Cert.ReferenceIdeal.main_arg11 (by decide) : Cert.ReferenceIdeal.Fold.U12 m c (Proc.devRef .tc Cert.ReferenceIdeal.main_arg11) = Cert.ReferenceIdeal.Fold.U11 m c (Proc.devRef .tc Cert.ReferenceIdeal.main_arg11))).trans (((Cert.ReferenceIdeal.Fold.opsB4_keeps (Cert.ReferenceIdeal.Fold.U10 m c) Cert.ReferenceIdeal.main_arg11 (by decide) : Cert.ReferenceIdeal.Fold.U11 m c (Proc.devRef .tc Cert.ReferenceIdeal.main_arg11) = Cert.ReferenceIdeal.Fold.U10 m c (Proc.devRef .tc Cert.ReferenceIdeal.main_arg11))).trans (((Cert.ReferenceIdeal.Fold.opsD3_keeps (Cert.ReferenceIdeal.Fold.U9 m c) Cert.ReferenceIdeal.main_arg11 (by decide) : Cert.ReferenceIdeal.Fold.U10 m c (Proc.devRef .tc Cert.ReferenceIdeal.main_arg11) = Cert.ReferenceIdeal.Fold.U9 m c (Proc.devRef .tc Cert.ReferenceIdeal.main_arg11))).trans (((Cert.ReferenceIdeal.Fold.opsB3_keeps (Cert.ReferenceIdeal.Fold.U8 m c) Cert.ReferenceIdeal.main_arg11 (by decide) : Cert.ReferenceIdeal.Fold.U9 m c (Proc.devRef .tc Cert.ReferenceIdeal.main_arg11) = Cert.ReferenceIdeal.Fold.U8 m c (Proc.devRef .tc Cert.ReferenceIdeal.main_arg11))).trans (((Cert.ReferenceIdeal.Fold.opsD2_keeps (Cert.ReferenceIdeal.Fold.U7 m c) Cert.ReferenceIdeal.main_arg11 (by decide) : Cert.ReferenceIdeal.Fold.U8 m c (Proc.devRef .tc Cert.ReferenceIdeal.main_arg11) = Cert.ReferenceIdeal.Fold.U7 m c (Proc.devRef .tc Cert.ReferenceIdeal.main_arg11))).trans (((Cert.ReferenceIdeal.Fold.opsB2_keeps (Cert.ReferenceIdeal.Fold.U6 m c) Cert.ReferenceIdeal.main_arg11 (by decide) : Cert.ReferenceIdeal.Fold.U7 m c (Proc.devRef .tc Cert.ReferenceIdeal.main_arg11) = Cert.ReferenceIdeal.Fold.U6 m c (Proc.devRef .tc Cert.ReferenceIdeal.main_arg11))).trans (((Cert.ReferenceIdeal.Fold.opsD1_keeps (Cert.ReferenceIdeal.Fold.U5 m c) Cert.ReferenceIdeal.main_arg11 (by decide) : Cert.ReferenceIdeal.Fold.U6 m c (Proc.devRef .tc Cert.ReferenceIdeal.main_arg11) = Cert.ReferenceIdeal.Fold.U5 m c (Proc.devRef .tc Cert.ReferenceIdeal.main_arg11))).trans (((Cert.ReferenceIdeal.Fold.opsB1_keeps (Cert.ReferenceIdeal.Fold.U4 m c) Cert.ReferenceIdeal.main_arg11 (by decide) : Cert.ReferenceIdeal.Fold.U5 m c (Proc.devRef .tc Cert.ReferenceIdeal.main_arg11) = Cert.ReferenceIdeal.Fold.U4 m c (Proc.devRef .tc Cert.ReferenceIdeal.main_arg11))).trans (((Cert.ReferenceIdeal.Fold.opsD0_keeps (Cert.ReferenceIdeal.Fold.U3 m c) Cert.ReferenceIdeal.main_arg11 (by decide) : Cert.ReferenceIdeal.Fold.U4 m c (Proc.devRef .tc Cert.ReferenceIdeal.main_arg11) = Cert.ReferenceIdeal.Fold.U3 m c (Proc.devRef .tc Cert.ReferenceIdeal.main_arg11))).trans (((Cert.ReferenceIdeal.Fold.opsA2_keeps (Cert.ReferenceIdeal.Fold.U2 m c) Cert.ReferenceIdeal.main_arg11 (by decide) : Cert.ReferenceIdeal.Fold.U3 m c (Proc.devRef .tc Cert.ReferenceIdeal.main_arg11) = Cert.ReferenceIdeal.Fold.U2 m c (Proc.devRef .tc Cert.ReferenceIdeal.main_arg11))).trans (((Cert.ReferenceIdeal.Fold.opsA1_keeps (Cert.ReferenceIdeal.Fold.U1 m c) Cert.ReferenceIdeal.main_arg11 (by decide) : Cert.ReferenceIdeal.Fold.U2 m c (Proc.devRef .tc Cert.ReferenceIdeal.main_arg11) = Cert.ReferenceIdeal.Fold.U1 m c (Proc.devRef .tc Cert.ReferenceIdeal.main_arg11))).trans ((Cert.ReferenceIdeal.Fold.opsA0_keeps (Cert.ReferenceIdeal.Fold.U0 m c) Cert.ReferenceIdeal.main_arg11 (by decide) : Cert.ReferenceIdeal.Fold.U1 m c (Proc.devRef .tc Cert.ReferenceIdeal.main_arg11) = Cert.ReferenceIdeal.Fold.U0 m c (Proc.devRef .tc Cert.ReferenceIdeal.main_arg11))))))))))))))

end Cert.ReferenceIdeal.Fold

end
-- ==== Proof.KeepK.lean ====
/-
  What each stretch of the kernel program's host operations leaves alone.

  A stretch writes the buffers its operations name as results and no other; a launch writes its output array
  and no other buffer outside its own arrays. So a buffer computed early (the edge lists, the edge weights, a
  layer's bias cut out of the stacked biases) or never written (an argument) can be read at any later boundary
  as what it was when it was last written: the chain of these facts from one boundary back to an earlier one.
-/
import proofs.«144633_j4887672783292_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]

/-- The references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem hostOps0_keeps (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The references `hostOps0_1`'s operations write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_⟩
  all_goals exact List.mem_map_of_mem (by decide)
/-- A buffer none of them writes holds after the stretch what it held before. -/
theorem hostOps0_1_keeps (V : Valuation τ sig (Elt F)) (r : Ref sig .tc) (h : r ∉ hostOps0_1_W) :
    StableHlo.after hostOps0_1 V (Proc.devRef .tc r) = V (Proc.devRef .tc r) :=
  StableHlo.after_of_writes_sub hostOps0_1 V hostOps0_1_writes h

/-- The references `hostOps0_2`'s operations write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem hostOps0_2_keeps (V : Valuation τ sig (Elt F)) (r : Ref sig .tc) (h : r ∉ hostOps0_2_W) :
    StableHlo.after hostOps0_2 V (Proc.devRef .tc r) = V (Proc.devRef .tc r) :=
  StableHlo.after_of_writes_sub hostOps0_2 V hostOps0_2_writes h

/-- The references `hostOps1`'s operations write. -/
abbrev hostOps1_W : List (Ref sig .tc) := [main_c_6, main_v31, main_v32, main_c_7, main_v33, main_v34, main_v35, main_v36, main_v37, main_v38, main_v39, main_v40, main_cst_8, main_v41, main_v42, main_v43, main_v44, main_v45, main_v46, main_v47, main_v48, main_v49, main_v50]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem hostOps1_keeps (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The references `hostOps2`'s operations write. -/
abbrev hostOps2_W : List (Ref sig .tc) := [main_c_9, main_v52, main_v53, main_c_10, main_v54, main_v55, main_v56, main_v57, main_v58, main_v59, main_v60, main_v61, main_cst_11, main_v62, main_v63, main_v64, main_v65, main_v66, main_v67, main_v68, main_v69, main_v70, main_v71]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem hostOps2_keeps (V : Valuation τ sig (Elt F)) (r : Ref sig .tc) (h : r ∉ hostOps2_W) :
    StableHlo.after hostOps2 V (Proc.devRef .tc r) = V (Proc.devRef .tc r) :=
  StableHlo.after_of_writes_sub hostOps2 V hostOps2_writes h

/-- The references `hostOps3`'s operations write. -/
abbrev hostOps3_W : List (Ref sig .tc) := [main_c_12, main_v73, main_v74, main_c_13, main_v75, main_v76, main_v77, main_v78, main_v79, main_v80, main_v81, main_v82, main_cst_14, main_v83, main_v84, main_v85, main_v86, main_v87, main_v88, main_v89, main_v90, main_v91, main_v92]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem hostOps3_keeps (V : Valuation τ sig (Elt F)) (r : Ref sig .tc) (h : r ∉ hostOps3_W) :
    StableHlo.after hostOps3 V (Proc.devRef .tc r) = V (Proc.devRef .tc r) :=
  StableHlo.after_of_writes_sub hostOps3 V hostOps3_writes h

/-- The references `hostOps4`'s operations write. -/
abbrev hostOps4_W : List (Ref sig .tc) := [main_c_15, main_v94, main_v95, main_c_16, main_v96, main_v97, main_v98, main_v99, main_v100, main_v101, main_v102, main_v103, main_cst_17, main_v104, main_v105, main_v106, main_v107, main_v108, main_v109, main_cst_18, main_v110, main_v111, main_v112, main_cst_19, main_v113, main_v114, main_v115, main_v116, main_v117]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact List.mem_map_of_mem (by decide)
/-- A buffer none of them writes holds after the stretch what it held before. -/
theorem hostOps4_keeps (V : Valuation τ sig (Elt F)) (r : Ref sig .tc) (h : r ∉ hostOps4_W) :
    StableHlo.after hostOps4 V (Proc.devRef .tc r) = V (Proc.devRef .tc r) :=
  StableHlo.after_of_writes_sub hostOps4 V hostOps4_writes h

end Cert.KernelIdeal.Keep

end
-- ==== Proof.Spec.lean ====
/-
  What the network computes, as plain functions over the extended reals, index by index.

  A graph-convolution layer is `x ↦ A · (x · W) + b`: a dense product with the layer's weights, then a
  normalised sum over each node's incoming edges (a gather by source, a scaling by the edge's weight and a
  scatter-add by destination), then the bias. After four layers the node rows are summed per subgraph and the
  subgraph rows per graph, and a two-layer perceptron with a log-softmax over the two classes gives the result.
  Only the dense products and the perceptron are computed differently by the two programs (one tiles the
  product over blocks of 5000 rows and runs it on the matrix unit after a change of float format, the other
  states one whole product; the perceptron is one launch against a dozen host operations), so only those are
  specified here. The edge sums are the same operations of both programs and are never opened.
-/
import Idealize.ShloMosaic.PureOps.Ideal
import Idealize.ShloMosaic.Lib.ValueIdx

noncomputable section

namespace Cert.Gcn

open Idealize.ShloMosaic Idealize.ShloMosaic.ValueIdx

/-- A matrix of extended reals with `r` rows and `c` columns, indexed as the programs index a rank-2 array. -/
abbrev Mat (r c : Nat) : Type := (⟨2, ![r, c]⟩ : Shape).Idx → EReal

/-- The row of an index. -/
abbrev row {r c : Nat} (i : (⟨2, ![r, c]⟩ : Shape).Idx) : Fin r := ⟨(i 0).val, idx2_lt0 i⟩
/-- The column of an index. -/
abbrev col {r c : Nat} (i : (⟨2, ![r, c]⟩ : Shape).Idx) : Fin c := ⟨(i 1).val, idx2_lt1 i⟩

/-- An index is the pair of its row and column. -/
theorem eq_row_col {r c : Nat} (i : (⟨2, ![r, c]⟩ : Shape).Idx) : i = ix2 (row i) (col i) := by
  funext a; match a with | ⟨0, _⟩ => rfl | ⟨1, _⟩ => rfl

/-- The first layer's dense product: 100000 node rows of 2 features against a 2 × 128 weight matrix. -/
def prodIn (x : Mat 100000 2) (w : Mat 2 128) : Mat 100000 128 :=
  fun i => ∑ q : Fin 2, x (ix2 (row i) q) * w (ix2 q (col i))

/-- A later layer's dense product: 100000 node rows of 128 features against a 128 × 128 weight matrix. -/
def prodHid (x : Mat 100000 128) (w : Mat 128 128) : Mat 100000 128 :=
  fun i => ∑ q : Fin 128, x (ix2 (row i) q) * w (ix2 q (col i))

theorem prodIn_apply (x : Mat 100000 2) (w : Mat 2 128) (r : Fin 100000) (c : Fin 128) :
    prodIn x w (ix2 r c) = ∑ q : Fin 2, x (ix2 r q) * w (ix2 q c) := rfl

theorem prodHid_apply (x : Mat 100000 128) (w : Mat 128 128) (r : Fin 100000) (c : Fin 128) :
    prodHid x w (ix2 r c) = ∑ q : Fin 128, x (ix2 r q) * w (ix2 q c) := rfl

/-! ## The perceptron on the 64 pooled graph rows -/

/-- The hidden layer: `max (h · W₁ + b₁) 0`. -/
def hidden (h : Mat 64 128) (w1 : Mat 128 128) (b1 : Fin 128 → EReal) : Mat 64 128 :=
  fun i => max ((∑ q : Fin 128, h (ix2 (row i) q) * w1 (ix2 q (col i))) + b1 (col i)) 0

/-- The two class scores of a graph: `y · W₂ + b₂`. -/
def scores (y : Mat 64 128) (w2 : Mat 128 2) (b2 : Fin 2 → EReal) : Mat 64 2 :=
  fun i => (∑ q : Fin 128, y (ix2 (row i) q) * w2 (ix2 q (col i))) + b2 (col i)

/-- A graph's scores shifted by the larger of the two. -/
def shifted (s : Mat 64 2) : Mat 64 2 :=
  fun i => s i - max (s (ix2 (row i) 0)) (s (ix2 (row i) 1))

/-- The log-softmax over the two classes: the shifted score less the logarithm of the sum of the two shifted
    scores' exponentials. `ex` and `lg` are the exponential and the logarithm as the float operations read them on
    the extended reals (both programs apply the same two functions). -/
def logSoftmax (ex lg : EReal → EReal) (s : Mat 64 2) : Mat 64 2 :=
  fun i => shifted s i - lg (ex (shifted s (ix2 (row i) 0)) + ex (shifted s (ix2 (row i) 1)))

/-- The whole perceptron. -/
def perceptron (ex lg : EReal → EReal) (h : Mat 64 128) (w1 : Mat 128 128) (b1 : Fin 128 → EReal)
    (w2 : Mat 128 2) (b2 : Fin 2 → EReal) : Mat 64 2 :=
  logSoftmax ex lg (scores (hidden h w1 b1) w2 b2)

end Cert.Gcn

end
-- ==== Proof.Carry.lean ====
/-
  Bookkeeping for the comparison of the two folds.

  Write `Wn` for the kernel program's buffers at its n-th boundary and `Un` for the reference's at the same place
  in its line (0: launch; 3: before the first dense product; 4, 6, 8, 10: after a dense product; 5, 7, 9, 11:
  after the stretch that follows it; 12: the end). Here: an argument holds its launch contents at every boundary
  where it is read, on both sides, so the two sides agree on it there; and a buffer computed once and read
  again later (edge sources, destinations and weights; a bias cut out one stretch before it is added) holds at
  the later boundary what it held when it was computed.
-/
import proofs.«144633_j4887672783292_1_alg».proof.Proof.Gen.KernelIdeal.Frame
import proofs.«144633_j4887672783292_1_alg».proof.Proof.KeepK
import proofs.«144633_j4887672783292_1_alg».proof.Proof.KeepR
import proofs.«144633_j4887672783292_1_alg».proof.Proof.Spec

set_option maxRecDepth 16384

noncomputable section

namespace Cert.Gcn.Carry

open Idealize.ShloMosaic Idealize.ShloMosaic.TcCoe Idealize.SL.Sem Idealize.ShloMosaic.StableHlo

/-- An array of the given shape and element type, at the extended reals. -/
abbrev Arr (s : Shape) (e : EltTy) : Type := (⟨s, e⟩ : BufTy).Contents (Elt Ideal)

/-- The two launch memories agree on the twelve arguments, on core `c`. -/
abbrev Agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The arguments -/

/-- At launch the two sides hold the same argument 0. -/
theorem arg0_at0 (hag : Agrees m m' c) : (Cert.KernelIdeal.Gen.W0 m ρ c (Proc.devRef .tc Cert.KernelIdeal.main_arg0) : Cert.Gcn.Mat 100000 2) = Cert.ReferenceIdeal.Fold.U0 m' c (Proc.devRef .tc Cert.ReferenceIdeal.main_arg0) :=
  (hag.1).symm
/-- At launch the two sides hold the same argument 1. -/
theorem arg1_at0 (hag : Agrees m m' c) : (Cert.KernelIdeal.Gen.W0 m ρ c (Proc.devRef .tc Cert.KernelIdeal.main_arg1) : Arr ⟨2, ![2, 1600000]⟩ .i32) = Cert.ReferenceIdeal.Fold.U0 m' c (Proc.devRef .tc Cert.ReferenceIdeal.main_arg1) :=
  (hag.2.1).symm
/-- At launch the two sides hold the same argument 2. -/
theorem arg2_at0 (hag : Agrees m m' c) : (Cert.KernelIdeal.Gen.W0 m ρ c (Proc.devRef .tc Cert.KernelIdeal.main_arg2) : Arr ⟨1, ![100000]⟩ .i32) = Cert.ReferenceIdeal.Fold.U0 m' c (Proc.devRef .tc Cert.ReferenceIdeal.main_arg2) :=
  (hag.2.2.1).symm
/-- At launch the two sides hold the same argument 3. -/
theorem arg3_at0 (hag : Agrees m m' c) : (Cert.KernelIdeal.Gen.W0 m ρ c (Proc.devRef .tc Cert.KernelIdeal.main_arg3) : Arr ⟨1, ![2000]⟩ .i32) = Cert.ReferenceIdeal.Fold.U0 m' c (Proc.devRef .tc Cert.ReferenceIdeal.main_arg3) :=
  (hag.2.2.2.1).symm
/-- At launch the two sides hold the same argument 4. -/
theorem arg4_at0 (hag : Agrees m m' c) : (Cert.KernelIdeal.Gen.W0 m ρ c (Proc.devRef .tc Cert.KernelIdeal.main_arg4) : Cert.Gcn.Mat 2 128) = Cert.ReferenceIdeal.Fold.U0 m' c (Proc.devRef .tc Cert.ReferenceIdeal.main_arg4) :=
  (hag.2.2.2.2.1).symm
/-- At launch the two sides hold the same argument 5. -/
theorem arg5_at0 (hag : Agrees m m' c) : (Cert.KernelIdeal.Gen.W0 m ρ c (Proc.devRef .tc Cert.KernelIdeal.main_arg5) : Arr ⟨1, ![128]⟩ .f32) = Cert.ReferenceIdeal.Fold.U0 m' c (Proc.devRef .tc Cert.ReferenceIdeal.main_arg5) :=
  (hag.2.2.2.2.2.1).symm
/-- At launch the two sides hold the same argument 6. -/
theorem arg6_at0 (hag : Agrees m m' c) : (Cert.KernelIdeal.Gen.W0 m ρ c (Proc.devRef .tc Cert.KernelIdeal.main_arg6) : Arr ⟨3, ![3, 128, 128]⟩ .f32) = Cert.ReferenceIdeal.Fold.U0 m' c (Proc.devRef .tc Cert.ReferenceIdeal.main_arg6) :=
  (hag.2.2.2.2.2.2.1).symm
/-- At launch the two sides hold the same argument 7. -/
theorem arg7_at0 (hag : Agrees m m' c) : (Cert.KernelIdeal.Gen.W0 m ρ c (Proc.devRef .tc Cert.KernelIdeal.main_arg7) : Arr ⟨2, ![3, 128]⟩ .f32) = Cert.ReferenceIdeal.Fold.U0 m' c (Proc.devRef .tc Cert.ReferenceIdeal.main_arg7) :=
  (hag.2.2.2.2.2.2.2.1).symm
/-- At launch the two sides hold the same argument 8. -/
theorem arg8_at0 (hag : Agrees m m' c) : (Cert.KernelIdeal.Gen.W0 m ρ c (Proc.devRef .tc Cert.KernelIdeal.main_arg8) : Cert.Gcn.Mat 128 128) = Cert.ReferenceIdeal.Fold.U0 m' c (Proc.devRef .tc Cert.ReferenceIdeal.main_arg8) :=
  (hag.2.2.2.2.2.2.2.2.1).symm
/-- At launch the two sides hold the same argument 9. -/
theorem arg9_at0 (hag : Agrees m m' c) : (Cert.KernelIdeal.Gen.W0 m ρ c (Proc.devRef .tc Cert.KernelIdeal.main_arg9) : Arr ⟨1, ![128]⟩ .f32) = Cert.ReferenceIdeal.Fold.U0 m' c (Proc.devRef .tc Cert.ReferenceIdeal.main_arg9) :=
  (hag.2.2.2.2.2.2.2.2.2.1).symm
/-- At launch the two sides hold the same argument 10. -/
theorem arg10_at0 (hag : Agrees m m' c) : (Cert.KernelIdeal.Gen.W0 m ρ c (Proc.devRef .tc Cert.KernelIdeal.main_arg10) : Cert.Gcn.Mat 128 2) = Cert.ReferenceIdeal.Fold.U0 m' c (Proc.devRef .tc Cert.ReferenceIdeal.main_arg10) :=
  (hag.2.2.2.2.2.2.2.2.2.2.1).symm
/-- At launch the two sides hold the same argument 11. -/
theorem arg11_at0 (hag : Agrees m m' c) : (Cert.KernelIdeal.Gen.W0 m ρ c (Proc.devRef .tc Cert.KernelIdeal.main_arg11) : Arr ⟨1, ![2]⟩ .f32) = Cert.ReferenceIdeal.Fold.U0 m' c (Proc.devRef .tc Cert.ReferenceIdeal.main_arg11) :=
  (hag.2.2.2.2.2.2.2.2.2.2.2).symm

theorem arg0_at3 (hag : Agrees m m' c) : (Cert.KernelIdeal.Gen.W3 m ρ c (Proc.devRef .tc Cert.KernelIdeal.main_arg0) : Cert.Gcn.Mat 100000 2) = Cert.ReferenceIdeal.Fold.U3 m' c (Proc.devRef .tc Cert.ReferenceIdeal.main_arg0) :=
  (((Cert.KernelIdeal.Keep.hostOps0_2_keeps (Cert.KernelIdeal.Gen.W2 m ρ c) Cert.KernelIdeal.main_arg0 (by decide) : Cert.KernelIdeal.Gen.W3 m ρ c (Proc.devRef .tc Cert.KernelIdeal.main_arg0) = Cert.KernelIdeal.Gen.W2 m ρ c (Proc.devRef .tc Cert.KernelIdeal.main_arg0))).trans (((Cert.KernelIdeal.Keep.hostOps0_1_keeps (Cert.KernelIdeal.Gen.W1 m ρ c) Cert.KernelIdeal.main_arg0 (by decide) : Cert.KernelIdeal.Gen.W2 m ρ c (Proc.devRef .tc Cert.KernelIdeal.main_arg0) = Cert.KernelIdeal.Gen.W1 m ρ c (Proc.devRef .tc Cert.KernelIdeal.main_arg0))).trans ((Cert.KernelIdeal.Keep.hostOps0_keeps (Cert.KernelIdeal.Gen.W0 m ρ c) Cert.KernelIdeal.main_arg0 (by decide) : Cert.KernelIdeal.Gen.W1 m ρ c (Proc.devRef .tc Cert.KernelIdeal.main_arg0) = Cert.KernelIdeal.Gen.W0 m ρ c (Proc.devRef .tc Cert.KernelIdeal.main_arg0))))).trans ((arg0_at0 m ρ m' c hag).trans (((Cert.ReferenceIdeal.Fold.opsA2_keeps (Cert.ReferenceIdeal.Fold.U2 m' c) Cert.ReferenceIdeal.main_arg0 (by decide) : Cert.ReferenceIdeal.Fold.U3 m' c (Proc.devRef .tc Cert.ReferenceIdeal.main_arg0) = Cert.ReferenceIdeal.Fold.U2 m' c (Proc.devRef .tc Cert.ReferenceIdeal.main_arg0))).trans (((Cert.ReferenceIdeal.Fold.opsA1_keeps (Cert.ReferenceIdeal.Fold.U1 m' c) Cert.ReferenceIdeal.main_arg0 (by decide) : Cert.ReferenceIdeal.Fold.U2 m' c (Proc.devRef .tc Cert.ReferenceIdeal.main_arg0) = Cert.ReferenceIdeal.Fold.U1 m' c (Proc.devRef .tc Cert.ReferenceIdeal.main_arg0))).trans ((Cert.ReferenceIdeal.Fold.opsA0_keeps (Cert.ReferenceIdeal.Fold.U0 m' c) Cert.ReferenceIdeal.main_arg0 (by decide) : Cert.ReferenceIdeal.Fold.U1 m' c (Proc.devRef .tc Cert.ReferenceIdeal.main_arg0) = Cert.ReferenceIdeal.Fold.U0 m' c (Proc.devRef .tc Cert.ReferenceIdeal.main_arg0))))).symm)
theorem arg4_at3 (hag : Agrees m m' c) : (Cert.KernelIdeal.Gen.W3 m ρ c (Proc.devRef .tc Cert.KernelIdeal.main_arg4) : Cert.Gcn.Mat 2 128) = Cert.ReferenceIdeal.Fold.U3 m' c (Proc.devRef .tc Cert.ReferenceIdeal.main_arg4) :=
  (((Cert.KernelIdeal.Keep.hostOps0_2_keeps (Cert.KernelIdeal.Gen.W2 m ρ c) Cert.KernelIdeal.main_arg4 (by decide) : Cert.KernelIdeal.Gen.W3 m ρ c (Proc.devRef .tc Cert.KernelIdeal.main_arg4) = Cert.KernelIdeal.Gen.W2 m ρ c (Proc.devRef .tc Cert.KernelIdeal.main_arg4))).trans (((Cert.KernelIdeal.Keep.hostOps0_1_keeps (Cert.KernelIdeal.Gen.W1 m ρ c) Cert.KernelIdeal.main_arg4 (by decide) : Cert.KernelIdeal.Gen.W2 m ρ c (Proc.devRef .tc Cert.KernelIdeal.main_arg4) = Cert.KernelIdeal.Gen.W1 m ρ c (Proc.devRef .tc Cert.KernelIdeal.main_arg4))).trans ((Cert.KernelIdeal.Keep.hostOps0_keeps (Cert.KernelIdeal.Gen.W0 m ρ c) Cert.KernelIdeal.main_arg4 (by decide) : Cert.KernelIdeal.Gen.W1 m ρ c (Proc.devRef .tc Cert.KernelIdeal.main_arg4) = Cert.KernelIdeal.Gen.W0 m ρ c (Proc.devRef .tc Cert.KernelIdeal.main_arg4))))).trans ((arg4_at0 m ρ m' c hag).trans (((Cert.ReferenceIdeal.Fold.opsA2_keeps (Cert.ReferenceIdeal.Fold.U2 m' c) Cert.ReferenceIdeal.main_arg4 (by decide) : Cert.ReferenceIdeal.Fold.U3 m' c (Proc.devRef .tc Cert.ReferenceIdeal.main_arg4) = Cert.ReferenceIdeal.Fold.U2 m' c (Proc.devRef .tc Cert.ReferenceIdeal.main_arg4))).trans (((Cert.ReferenceIdeal.Fold.opsA1_keeps (Cert.ReferenceIdeal.Fold.U1 m' c) Cert.ReferenceIdeal.main_arg4 (by decide) : Cert.ReferenceIdeal.Fold.U2 m' c (Proc.devRef .tc Cert.ReferenceIdeal.main_arg4) = Cert.ReferenceIdeal.Fold.U1 m' c (Proc.devRef .tc Cert.ReferenceIdeal.main_arg4))).trans ((Cert.ReferenceIdeal.Fold.opsA0_keeps (Cert.ReferenceIdeal.Fold.U0 m' c) Cert.ReferenceIdeal.main_arg4 (by decide) : Cert.ReferenceIdeal.Fold.U1 m' c (Proc.devRef .tc Cert.ReferenceIdeal.main_arg4) = Cert.ReferenceIdeal.Fold.U0 m' c (Proc.devRef .tc Cert.ReferenceIdeal.main_arg4))))).symm)
theorem arg5_at4 (hag : Agrees m m' c) : (Cert.KernelIdeal.Gen.W4 m ρ c (Proc.devRef .tc Cert.KernelIdeal.main_arg5) : Arr ⟨1, ![128]⟩ .f32) = Cert.ReferenceIdeal.Fold.U4 m' c (Proc.devRef .tc Cert.ReferenceIdeal.main_arg5) :=
  (((Cert.KernelIdeal.Gen.W4_of_ne m ρ c Cert.KernelIdeal.main_arg5 (by decide) : Cert.KernelIdeal.Gen.W4 m ρ c (Proc.devRef .tc Cert.KernelIdeal.main_arg5) = Cert.KernelIdeal.Gen.W3 m ρ c (Proc.devRef .tc Cert.KernelIdeal.main_arg5))).trans (((Cert.KernelIdeal.Keep.hostOps0_2_keeps (Cert.KernelIdeal.Gen.W2 m ρ c) Cert.KernelIdeal.main_arg5 (by decide) : Cert.KernelIdeal.Gen.W3 m ρ c (Proc.devRef .tc Cert.KernelIdeal.main_arg5) = Cert.KernelIdeal.Gen.W2 m ρ c (Proc.devRef .tc Cert.KernelIdeal.main_arg5))).trans (((Cert.KernelIdeal.Keep.hostOps0_1_keeps (Cert.KernelIdeal.Gen.W1 m ρ c) Cert.KernelIdeal.main_arg5 (by decide) : Cert.KernelIdeal.Gen.W2 m ρ c (Proc.devRef .tc Cert.KernelIdeal.main_arg5) = Cert.KernelIdeal.Gen.W1 m ρ c (Proc.devRef .tc Cert.KernelIdeal.main_arg5))).trans ((Cert.KernelIdeal.Keep.hostOps0_keeps (Cert.KernelIdeal.Gen.W0 m ρ c) Cert.KernelIdeal.main_arg5 (by decide) : Cert.KernelIdeal.Gen.W1 m ρ c (Proc.devRef .tc Cert.KernelIdeal.main_arg5) = Cert.KernelIdeal.Gen.W0 m ρ c (Proc.devRef .tc Cert.KernelIdeal.main_arg5)))))).trans ((arg5_at0 m ρ m' c hag).trans (((Cert.ReferenceIdeal.Fold.opsD0_keeps (Cert.ReferenceIdeal.Fold.U3 m' c) Cert.ReferenceIdeal.main_arg5 (by decide) : Cert.ReferenceIdeal.Fold.U4 m' c (Proc.devRef .tc Cert.ReferenceIdeal.main_arg5) = Cert.ReferenceIdeal.Fold.U3 m' c (Proc.devRef .tc Cert.ReferenceIdeal.main_arg5))).trans (((Cert.ReferenceIdeal.Fold.opsA2_keeps (Cert.ReferenceIdeal.Fold.U2 m' c) Cert.ReferenceIdeal.main_arg5 (by decide) : Cert.ReferenceIdeal.Fold.U3 m' c (Proc.devRef .tc Cert.ReferenceIdeal.main_arg5) = Cert.ReferenceIdeal.Fold.U2 m' c (Proc.devRef .tc Cert.ReferenceIdeal.main_arg5))).trans (((Cert.ReferenceIdeal.Fold.opsA1_keeps (Cert.ReferenceIdeal.Fold.U1 m' c) Cert.ReferenceIdeal.main_arg5 (by decide) : Cert.ReferenceIdeal.Fold.U2 m' c (Proc.devRef .tc Cert.ReferenceIdeal.main_arg5) = Cert.ReferenceIdeal.Fold.U1 m' c (Proc.devRef .tc Cert.ReferenceIdeal.main_arg5))).trans ((Cert.ReferenceIdeal.Fold.opsA0_keeps (Cert.ReferenceIdeal.Fold.U0 m' c) Cert.ReferenceIdeal.main_arg5 (by decide) : Cert.ReferenceIdeal.Fold.U1 m' c (Proc.devRef .tc Cert.ReferenceIdeal.main_arg5) = Cert.ReferenceIdeal.Fold.U0 m' c (Proc.devRef .tc Cert.ReferenceIdeal.main_arg5)))))).symm)
theorem arg6_at4 (hag : Agrees m m' c) : (Cert.KernelIdeal.Gen.W4 m ρ c (Proc.devRef .tc Cert.KernelIdeal.main_arg6) : Arr ⟨3, ![3, 128, 128]⟩ .f32) = Cert.ReferenceIdeal.Fold.U4 m' c (Proc.devRef .tc Cert.ReferenceIdeal.main_arg6) :=
  (((Cert.KernelIdeal.Gen.W4_of_ne m ρ c Cert.KernelIdeal.main_arg6 (by decide) : Cert.KernelIdeal.Gen.W4 m ρ c (Proc.devRef .tc Cert.KernelIdeal.main_arg6) = Cert.KernelIdeal.Gen.W3 m ρ c (Proc.devRef .tc Cert.KernelIdeal.main_arg6))).trans (((Cert.KernelIdeal.Keep.hostOps0_2_keeps (Cert.KernelIdeal.Gen.W2 m ρ c) Cert.KernelIdeal.main_arg6 (by decide) : Cert.KernelIdeal.Gen.W3 m ρ c (Proc.devRef .tc Cert.KernelIdeal.main_arg6) = Cert.KernelIdeal.Gen.W2 m ρ c (Proc.devRef .tc Cert.KernelIdeal.main_arg6))).trans (((Cert.KernelIdeal.Keep.hostOps0_1_keeps (Cert.KernelIdeal.Gen.W1 m ρ c) Cert.KernelIdeal.main_arg6 (by decide) : Cert.KernelIdeal.Gen.W2 m ρ c (Proc.devRef .tc Cert.KernelIdeal.main_arg6) = Cert.KernelIdeal.Gen.W1 m ρ c (Proc.devRef .tc Cert.KernelIdeal.main_arg6))).trans ((Cert.KernelIdeal.Keep.hostOps0_keeps (Cert.KernelIdeal.Gen.W0 m ρ c) Cert.KernelIdeal.main_arg6 (by decide) : Cert.KernelIdeal.Gen.W1 m ρ c (Proc.devRef .tc Cert.KernelIdeal.main_arg6) = Cert.KernelIdeal.Gen.W0 m ρ c (Proc.devRef .tc Cert.KernelIdeal.main_arg6)))))).trans ((arg6_at0 m ρ m' c hag).trans (((Cert.ReferenceIdeal.Fold.opsD0_keeps (Cert.ReferenceIdeal.Fold.U3 m' c) Cert.ReferenceIdeal.main_arg6 (by decide) : Cert.ReferenceIdeal.Fold.U4 m' c (Proc.devRef .tc Cert.ReferenceIdeal.main_arg6) = Cert.ReferenceIdeal.Fold.U3 m' c (Proc.devRef .tc Cert.ReferenceIdeal.main_arg6))).trans (((Cert.ReferenceIdeal.Fold.opsA2_keeps (Cert.ReferenceIdeal.Fold.U2 m' c) Cert.ReferenceIdeal.main_arg6 (by decide) : Cert.ReferenceIdeal.Fold.U3 m' c (Proc.devRef .tc Cert.ReferenceIdeal.main_arg6) = Cert.ReferenceIdeal.Fold.U2 m' c (Proc.devRef .tc Cert.ReferenceIdeal.main_arg6))).trans (((Cert.ReferenceIdeal.Fold.opsA1_keeps (Cert.ReferenceIdeal.Fold.U1 m' c) Cert.ReferenceIdeal.main_arg6 (by decide) : Cert.ReferenceIdeal.Fold.U2 m' c (Proc.devRef .tc Cert.ReferenceIdeal.main_arg6) = Cert.ReferenceIdeal.Fold.U1 m' c (Proc.devRef .tc Cert.ReferenceIdeal.main_arg6))).trans ((Cert.ReferenceIdeal.Fold.opsA0_keeps (Cert.ReferenceIdeal.Fold.U0 m' c) Cert.ReferenceIdeal.main_arg6 (by decide) : Cert.ReferenceIdeal.Fold.U1 m' c (Proc.devRef .tc Cert.ReferenceIdeal.main_arg6) = Cert.ReferenceIdeal.Fold.U0 m' c (Proc.devRef .tc Cert.ReferenceIdeal.main_arg6)))))).symm)
theorem arg7_at4 (hag : Agrees m m' c) : (Cert.KernelIdeal.Gen.W4 m ρ c (Proc.devRef .tc Cert.KernelIdeal.main_arg7) : Arr ⟨2, ![3, 128]⟩ .f32) = Cert.ReferenceIdeal.Fold.U4 m' c (Proc.devRef .tc Cert.ReferenceIdeal.main_arg7) :=
  (((Cert.KernelIdeal.Gen.W4_of_ne m ρ c Cert.KernelIdeal.main_arg7 (by decide) : Cert.KernelIdeal.Gen.W4 m ρ c (Proc.devRef .tc Cert.KernelIdeal.main_arg7) = Cert.KernelIdeal.Gen.W3 m ρ c (Proc.devRef .tc Cert.KernelIdeal.main_arg7))).trans (((Cert.KernelIdeal.Keep.hostOps0_2_keeps (Cert.KernelIdeal.Gen.W2 m ρ c) Cert.KernelIdeal.main_arg7 (by decide) : Cert.KernelIdeal.Gen.W3 m ρ c (Proc.devRef .tc Cert.KernelIdeal.main_arg7) = Cert.KernelIdeal.Gen.W2 m ρ c (Proc.devRef .tc Cert.KernelIdeal.main_arg7))).trans (((Cert.KernelIdeal.Keep.hostOps0_1_keeps (Cert.KernelIdeal.Gen.W1 m ρ c) Cert.KernelIdeal.main_arg7 (by decide) : Cert.KernelIdeal.Gen.W2 m ρ c (Proc.devRef .tc Cert.KernelIdeal.main_arg7) = Cert.KernelIdeal.Gen.W1 m ρ c (Proc.devRef .tc Cert.KernelIdeal.main_arg7))).trans ((Cert.KernelIdeal.Keep.hostOps0_keeps (Cert.KernelIdeal.Gen.W0 m ρ c) Cert.KernelIdeal.main_arg7 (by decide) : Cert.KernelIdeal.Gen.W1 m ρ c (Proc.devRef .tc Cert.KernelIdeal.main_arg7) = Cert.KernelIdeal.Gen.W0 m ρ c (Proc.devRef .tc Cert.KernelIdeal.main_arg7)))))).trans ((arg7_at0 m ρ m' c hag).trans (((Cert.ReferenceIdeal.Fold.opsD0_keeps (Cert.ReferenceIdeal.Fold.U3 m' c) Cert.ReferenceIdeal.main_arg7 (by decide) : Cert.ReferenceIdeal.Fold.U4 m' c (Proc.devRef .tc Cert.ReferenceIdeal.main_arg7) = Cert.ReferenceIdeal.Fold.U3 m' c (Proc.devRef .tc Cert.ReferenceIdeal.main_arg7))).trans (((Cert.ReferenceIdeal.Fold.opsA2_keeps (Cert.ReferenceIdeal.Fold.U2 m' c) Cert.ReferenceIdeal.main_arg7 (by decide) : Cert.ReferenceIdeal.Fold.U3 m' c (Proc.devRef .tc Cert.ReferenceIdeal.main_arg7) = Cert.ReferenceIdeal.Fold.U2 m' c (Proc.devRef .tc Cert.ReferenceIdeal.main_arg7))).trans (((Cert.ReferenceIdeal.Fold.opsA1_keeps (Cert.ReferenceIdeal.Fold.U1 m' c) Cert.ReferenceIdeal.main_arg7 (by decide) : Cert.ReferenceIdeal.Fold.U2 m' c (Proc.devRef .tc Cert.ReferenceIdeal.main_arg7) = Cert.ReferenceIdeal.Fold.U1 m' c (Proc.devRef .tc Cert.ReferenceIdeal.main_arg7))).trans ((Cert.ReferenceIdeal.Fold.opsA0_keeps (Cert.ReferenceIdeal.Fold.U0 m' c) Cert.ReferenceIdeal.main_arg7 (by decide) : Cert.ReferenceIdeal.Fold.U1 m' c (Proc.devRef .tc Cert.ReferenceIdeal.main_arg7) = Cert.ReferenceIdeal.Fold.U0 m' c (Proc.devRef .tc Cert.ReferenceIdeal.main_arg7)))))).symm)
theorem arg6_at6 (hag : Agrees m m' c) : (Cert.KernelIdeal.Gen.W6 m ρ c (Proc.devRef .tc Cert.KernelIdeal.main_arg6) : Arr ⟨3, ![3, 128, 128]⟩ .f32) = Cert.ReferenceIdeal.Fold.U6 m' c (Proc.devRef .tc Cert.ReferenceIdeal.main_arg6) :=
  (((Cert.KernelIdeal.Gen.W6_of_ne m ρ c Cert.KernelIdeal.main_arg6 (by decide) : Cert.KernelIdeal.Gen.W6 m ρ c (Proc.devRef .tc Cert.KernelIdeal.main_arg6) = Cert.KernelIdeal.Gen.W5 m ρ c (Proc.devRef .tc Cert.KernelIdeal.main_arg6))).trans (((Cert.KernelIdeal.Keep.hostOps1_keeps (Cert.KernelIdeal.Gen.W4 m ρ c) Cert.KernelIdeal.main_arg6 (by decide) : Cert.KernelIdeal.Gen.W5 m ρ c (Proc.devRef .tc Cert.KernelIdeal.main_arg6) = Cert.KernelIdeal.Gen.W4 m ρ c (Proc.devRef .tc Cert.KernelIdeal.main_arg6))).trans (((Cert.KernelIdeal.Gen.W4_of_ne m ρ c Cert.KernelIdeal.main_arg6 (by decide) : Cert.KernelIdeal.Gen.W4 m ρ c (Proc.devRef .tc Cert.KernelIdeal.main_arg6) = Cert.KernelIdeal.Gen.W3 m ρ c (Proc.devRef .tc Cert.KernelIdeal.main_arg6))).trans (((Cert.KernelIdeal.Keep.hostOps0_2_keeps (Cert.KernelIdeal.Gen.W2 m ρ c) Cert.KernelIdeal.main_arg6 (by decide) : Cert.KernelIdeal.Gen.W3 m ρ c (Proc.devRef .tc Cert.KernelIdeal.main_arg6) = Cert.KernelIdeal.Gen.W2 m ρ c (Proc.devRef .tc Cert.KernelIdeal.main_arg6))).trans (((Cert.KernelIdeal.Keep.hostOps0_1_keeps (Cert.KernelIdeal.Gen.W1 m ρ c) Cert.KernelIdeal.main_arg6 (by decide) : Cert.KernelIdeal.Gen.W2 m ρ c (Proc.devRef .tc Cert.KernelIdeal.main_arg6) = Cert.KernelIdeal.Gen.W1 m ρ c (Proc.devRef .tc Cert.KernelIdeal.main_arg6))).trans ((Cert.KernelIdeal.Keep.hostOps0_keeps (Cert.KernelIdeal.Gen.W0 m ρ c) Cert.KernelIdeal.main_arg6 (by decide) : Cert.KernelIdeal.Gen.W1 m ρ c (Proc.devRef .tc Cert.KernelIdeal.main_arg6) = Cert.KernelIdeal.Gen.W0 m ρ c (Proc.devRef .tc Cert.KernelIdeal.main_arg6)))))))).trans ((arg6_at0 m ρ m' c hag).trans (((Cert.ReferenceIdeal.Fold.opsD1_keeps (Cert.ReferenceIdeal.Fold.U5 m' c) Cert.ReferenceIdeal.main_arg6 (by decide) : Cert.ReferenceIdeal.Fold.U6 m' c (Proc.devRef .tc Cert.ReferenceIdeal.main_arg6) = Cert.ReferenceIdeal.Fold.U5 m' c (Proc.devRef .tc Cert.ReferenceIdeal.main_arg6))).trans (((Cert.ReferenceIdeal.Fold.opsB1_keeps (Cert.ReferenceIdeal.Fold.U4 m' c) Cert.ReferenceIdeal.main_arg6 (by decide) : Cert.ReferenceIdeal.Fold.U5 m' c (Proc.devRef .tc Cert.ReferenceIdeal.main_arg6) = Cert.ReferenceIdeal.Fold.U4 m' c (Proc.devRef .tc Cert.ReferenceIdeal.main_arg6))).trans (((Cert.ReferenceIdeal.Fold.opsD0_keeps (Cert.ReferenceIdeal.Fold.U3 m' c) Cert.ReferenceIdeal.main_arg6 (by decide) : Cert.ReferenceIdeal.Fold.U4 m' c (Proc.devRef .tc Cert.ReferenceIdeal.main_arg6) = Cert.ReferenceIdeal.Fold.U3 m' c (Proc.devRef .tc Cert.ReferenceIdeal.main_arg6))).trans (((Cert.ReferenceIdeal.Fold.opsA2_keeps (Cert.ReferenceIdeal.Fold.U2 m' c) Cert.ReferenceIdeal.main_arg6 (by decide) : Cert.ReferenceIdeal.Fold.U3 m' c (Proc.devRef .tc Cert.ReferenceIdeal.main_arg6) = Cert.ReferenceIdeal.Fold.U2 m' c (Proc.devRef .tc Cert.ReferenceIdeal.main_arg6))).trans (((Cert.ReferenceIdeal.Fold.opsA1_keeps (Cert.ReferenceIdeal.Fold.U1 m' c) Cert.ReferenceIdeal.main_arg6 (by decide) : Cert.ReferenceIdeal.Fold.U2 m' c (Proc.devRef .tc Cert.ReferenceIdeal.main_arg6) = Cert.ReferenceIdeal.Fold.U1 m' c (Proc.devRef .tc Cert.ReferenceIdeal.main_arg6))).trans ((Cert.ReferenceIdeal.Fold.opsA0_keeps (Cert.ReferenceIdeal.Fold.U0 m' c) Cert.ReferenceIdeal.main_arg6 (by decide) : Cert.ReferenceIdeal.Fold.U1 m' c (Proc.devRef .tc Cert.ReferenceIdeal.main_arg6) = Cert.ReferenceIdeal.Fold.U0 m' c (Proc.devRef .tc Cert.ReferenceIdeal.main_arg6)))))))).symm)
theorem arg7_at6 (hag : Agrees m m' c) : (Cert.KernelIdeal.Gen.W6 m ρ c (Proc.devRef .tc Cert.KernelIdeal.main_arg7) : Arr ⟨2, ![3, 128]⟩ .f32) = Cert.ReferenceIdeal.Fold.U6 m' c (Proc.devRef .tc Cert.ReferenceIdeal.main_arg7) :=
  (((Cert.KernelIdeal.Gen.W6_of_ne m ρ c Cert.KernelIdeal.main_arg7 (by decide) : Cert.KernelIdeal.Gen.W6 m ρ c (Proc.devRef .tc Cert.KernelIdeal.main_arg7) = Cert.KernelIdeal.Gen.W5 m ρ c (Proc.devRef .tc Cert.KernelIdeal.main_arg7))).trans (((Cert.KernelIdeal.Keep.hostOps1_keeps (Cert.KernelIdeal.Gen.W4 m ρ c) Cert.KernelIdeal.main_arg7 (by decide) : Cert.KernelIdeal.Gen.W5 m ρ c (Proc.devRef .tc Cert.KernelIdeal.main_arg7) = Cert.KernelIdeal.Gen.W4 m ρ c (Proc.devRef .tc Cert.KernelIdeal.main_arg7))).trans (((Cert.KernelIdeal.Gen.W4_of_ne m ρ c Cert.KernelIdeal.main_arg7 (by decide) : Cert.KernelIdeal.Gen.W4 m ρ c (Proc.devRef .tc Cert.KernelIdeal.main_arg7) = Cert.KernelIdeal.Gen.W3 m ρ c (Proc.devRef .tc Cert.KernelIdeal.main_arg7))).trans (((Cert.KernelIdeal.Keep.hostOps0_2_keeps (Cert.KernelIdeal.Gen.W2 m ρ c) Cert.KernelIdeal.main_arg7 (by decide) : Cert.KernelIdeal.Gen.W3 m ρ c (Proc.devRef .tc Cert.KernelIdeal.main_arg7) = Cert.KernelIdeal.Gen.W2 m ρ c (Proc.devRef .tc Cert.KernelIdeal.main_arg7))).trans (((Cert.KernelIdeal.Keep.hostOps0_1_keeps (Cert.KernelIdeal.Gen.W1 m ρ c) Cert.KernelIdeal.main_arg7 (by decide) : Cert.KernelIdeal.Gen.W2 m ρ c (Proc.devRef .tc Cert.KernelIdeal.main_arg7) = Cert.KernelIdeal.Gen.W1 m ρ c (Proc.devRef .tc Cert.KernelIdeal.main_arg7))).trans ((Cert.KernelIdeal.Keep.hostOps0_keeps (Cert.KernelIdeal.Gen.W0 m ρ c) Cert.KernelIdeal.main_arg7 (by decide) : Cert.KernelIdeal.Gen.W1 m ρ c (Proc.devRef .tc Cert.KernelIdeal.main_arg7) = Cert.KernelIdeal.Gen.W0 m ρ c (Proc.devRef .tc Cert.KernelIdeal.main_arg7)))))))).trans ((arg7_at0 m ρ m' c hag).trans (((Cert.ReferenceIdeal.Fold.opsD1_keeps (Cert.ReferenceIdeal.Fold.U5 m' c) Cert.ReferenceIdeal.main_arg7 (by decide) : Cert.ReferenceIdeal.Fold.U6 m' c (Proc.devRef .tc Cert.ReferenceIdeal.main_arg7) = Cert.ReferenceIdeal.Fold.U5 m' c (Proc.devRef .tc Cert.ReferenceIdeal.main_arg7))).trans (((Cert.ReferenceIdeal.Fold.opsB1_keeps (Cert.ReferenceIdeal.Fold.U4 m' c) Cert.ReferenceIdeal.main_arg7 (by decide) : Cert.ReferenceIdeal.Fold.U5 m' c (Proc.devRef .tc Cert.ReferenceIdeal.main_arg7) = Cert.ReferenceIdeal.Fold.U4 m' c (Proc.devRef .tc Cert.ReferenceIdeal.main_arg7))).trans (((Cert.ReferenceIdeal.Fold.opsD0_keeps (Cert.ReferenceIdeal.Fold.U3 m' c) Cert.ReferenceIdeal.main_arg7 (by decide) : Cert.ReferenceIdeal.Fold.U4 m' c (Proc.devRef .tc Cert.ReferenceIdeal.main_arg7) = Cert.ReferenceIdeal.Fold.U3 m' c (Proc.devRef .tc Cert.ReferenceIdeal.main_arg7))).trans (((Cert.ReferenceIdeal.Fold.opsA2_keeps (Cert.ReferenceIdeal.Fold.U2 m' c) Cert.ReferenceIdeal.main_arg7 (by decide) : Cert.ReferenceIdeal.Fold.U3 m' c (Proc.devRef .tc Cert.ReferenceIdeal.main_arg7) = Cert.ReferenceIdeal.Fold.U2 m' c (Proc.devRef .tc Cert.ReferenceIdeal.main_arg7))).trans (((Cert.ReferenceIdeal.Fold.opsA1_keeps (Cert.ReferenceIdeal.Fold.U1 m' c) Cert.ReferenceIdeal.main_arg7 (by decide) : Cert.ReferenceIdeal.Fold.U2 m' c (Proc.devRef .tc Cert.ReferenceIdeal.main_arg7) = Cert.ReferenceIdeal.Fold.U1 m' c (Proc.devRef .tc Cert.ReferenceIdeal.main_arg7))).trans ((Cert.ReferenceIdeal.Fold.opsA0_keeps (Cert.ReferenceIdeal.Fold.U0 m' c) Cert.ReferenceIdeal.main_arg7 (by decide) : Cert.ReferenceIdeal.Fold.U1 m' c (Proc.devRef .tc Cert.ReferenceIdeal.main_arg7) = Cert.ReferenceIdeal.Fold.U0 m' c (Proc.devRef .tc Cert.ReferenceIdeal.main_arg7)))))))).symm)
theorem arg6_at8 (hag : Agrees m m' c) : (Cert.KernelIdeal.Gen.W8 m ρ c (Proc.devRef .tc Cert.KernelIdeal.main_arg6) : Arr ⟨3, ![3, 128, 128]⟩ .f32) = Cert.ReferenceIdeal.Fold.U8 m' c (Proc.devRef .tc Cert.ReferenceIdeal.main_arg6) :=
  (((Cert.KernelIdeal.Gen.W8_of_ne m ρ c Cert.KernelIdeal.main_arg6 (by decide) : Cert.KernelIdeal.Gen.W8 m ρ c (Proc.devRef .tc Cert.KernelIdeal.main_arg6) = Cert.KernelIdeal.Gen.W7 m ρ c (Proc.devRef .tc Cert.KernelIdeal.main_arg6))).trans (((Cert.KernelIdeal.Keep.hostOps2_keeps (Cert.KernelIdeal.Gen.W6 m ρ c) Cert.KernelIdeal.main_arg6 (by decide) : Cert.KernelIdeal.Gen.W7 m ρ c (Proc.devRef .tc Cert.KernelIdeal.main_arg6) = Cert.KernelIdeal.Gen.W6 m ρ c (Proc.devRef .tc Cert.KernelIdeal.main_arg6))).trans (((Cert.KernelIdeal.Gen.W6_of_ne m ρ c Cert.KernelIdeal.main_arg6 (by decide) : Cert.KernelIdeal.Gen.W6 m ρ c (Proc.devRef .tc Cert.KernelIdeal.main_arg6) = Cert.KernelIdeal.Gen.W5 m ρ c (Proc.devRef .tc Cert.KernelIdeal.main_arg6))).trans (((Cert.KernelIdeal.Keep.hostOps1_keeps (Cert.KernelIdeal.Gen.W4 m ρ c) Cert.KernelIdeal.main_arg6 (by decide) : Cert.KernelIdeal.Gen.W5 m ρ c (Proc.devRef .tc Cert.KernelIdeal.main_arg6) = Cert.KernelIdeal.Gen.W4 m ρ c (Proc.devRef .tc Cert.KernelIdeal.main_arg6))).trans (((Cert.KernelIdeal.Gen.W4_of_ne m ρ c Cert.KernelIdeal.main_arg6 (by decide) : Cert.KernelIdeal.Gen.W4 m ρ c (Proc.devRef .tc Cert.KernelIdeal.main_arg6) = Cert.KernelIdeal.Gen.W3 m ρ c (Proc.devRef .tc Cert.KernelIdeal.main_arg6))).trans (((Cert.KernelIdeal.Keep.hostOps0_2_keeps (Cert.KernelIdeal.Gen.W2 m ρ c) Cert.KernelIdeal.main_arg6 (by decide) : Cert.KernelIdeal.Gen.W3 m ρ c (Proc.devRef .tc Cert.KernelIdeal.main_arg6) = Cert.KernelIdeal.Gen.W2 m ρ c (Proc.devRef .tc Cert.KernelIdeal.main_arg6))).trans (((Cert.KernelIdeal.Keep.hostOps0_1_keeps (Cert.KernelIdeal.Gen.W1 m ρ c) Cert.KernelIdeal.main_arg6 (by decide) : Cert.KernelIdeal.Gen.W2 m ρ c (Proc.devRef .tc Cert.KernelIdeal.main_arg6) = Cert.KernelIdeal.Gen.W1 m ρ c (Proc.devRef .tc Cert.KernelIdeal.main_arg6))).trans ((Cert.KernelIdeal.Keep.hostOps0_keeps (Cert.KernelIdeal.Gen.W0 m ρ c) Cert.KernelIdeal.main_arg6 (by decide) : Cert.KernelIdeal.Gen.W1 m ρ c (Proc.devRef .tc Cert.KernelIdeal.main_arg6) = Cert.KernelIdeal.Gen.W0 m ρ c (Proc.devRef .tc Cert.KernelIdeal.main_arg6)))))))))).trans ((arg6_at0 m ρ m' c hag).trans (((Cert.ReferenceIdeal.Fold.opsD2_keeps (Cert.ReferenceIdeal.Fold.U7 m' c) Cert.ReferenceIdeal.main_arg6 (by decide) : Cert.ReferenceIdeal.Fold.U8 m' c (Proc.devRef .tc Cert.ReferenceIdeal.main_arg6) = Cert.ReferenceIdeal.Fold.U7 m' c (Proc.devRef .tc Cert.ReferenceIdeal.main_arg6))).trans (((Cert.ReferenceIdeal.Fold.opsB2_keeps (Cert.ReferenceIdeal.Fold.U6 m' c) Cert.ReferenceIdeal.main_arg6 (by decide) : Cert.ReferenceIdeal.Fold.U7 m' c (Proc.devRef .tc Cert.ReferenceIdeal.main_arg6) = Cert.ReferenceIdeal.Fold.U6 m' c (Proc.devRef .tc Cert.ReferenceIdeal.main_arg6))).trans (((Cert.ReferenceIdeal.Fold.opsD1_keeps (Cert.ReferenceIdeal.Fold.U5 m' c) Cert.ReferenceIdeal.main_arg6 (by decide) : Cert.ReferenceIdeal.Fold.U6 m' c (Proc.devRef .tc Cert.ReferenceIdeal.main_arg6) = Cert.ReferenceIdeal.Fold.U5 m' c (Proc.devRef .tc Cert.ReferenceIdeal.main_arg6))).trans (((Cert.ReferenceIdeal.Fold.opsB1_keeps (Cert.ReferenceIdeal.Fold.U4 m' c) Cert.ReferenceIdeal.main_arg6 (by decide) : Cert.ReferenceIdeal.Fold.U5 m' c (Proc.devRef .tc Cert.ReferenceIdeal.main_arg6) = Cert.ReferenceIdeal.Fold.U4 m' c (Proc.devRef .tc Cert.ReferenceIdeal.main_arg6))).trans (((Cert.ReferenceIdeal.Fold.opsD0_keeps (Cert.ReferenceIdeal.Fold.U3 m' c) Cert.ReferenceIdeal.main_arg6 (by decide) : Cert.ReferenceIdeal.Fold.U4 m' c (Proc.devRef .tc Cert.ReferenceIdeal.main_arg6) = Cert.ReferenceIdeal.Fold.U3 m' c (Proc.devRef .tc Cert.ReferenceIdeal.main_arg6))).trans (((Cert.ReferenceIdeal.Fold.opsA2_keeps (Cert.ReferenceIdeal.Fold.U2 m' c) Cert.ReferenceIdeal.main_arg6 (by decide) : Cert.ReferenceIdeal.Fold.U3 m' c (Proc.devRef .tc Cert.ReferenceIdeal.main_arg6) = Cert.ReferenceIdeal.Fold.U2 m' c (Proc.devRef .tc Cert.ReferenceIdeal.main_arg6))).trans (((Cert.ReferenceIdeal.Fold.opsA1_keeps (Cert.ReferenceIdeal.Fold.U1 m' c) Cert.ReferenceIdeal.main_arg6 (by decide) : Cert.ReferenceIdeal.Fold.U2 m' c (Proc.devRef .tc Cert.ReferenceIdeal.main_arg6) = Cert.ReferenceIdeal.Fold.U1 m' c (Proc.devRef .tc Cert.ReferenceIdeal.main_arg6))).trans ((Cert.ReferenceIdeal.Fold.opsA0_keeps (Cert.ReferenceIdeal.Fold.U0 m' c) Cert.ReferenceIdeal.main_arg6 (by decide) : Cert.ReferenceIdeal.Fold.U1 m' c (Proc.devRef .tc Cert.ReferenceIdeal.main_arg6) = Cert.ReferenceIdeal.Fold.U0 m' c (Proc.devRef .tc Cert.ReferenceIdeal.main_arg6)))))))))).symm)
theorem arg7_at8 (hag : Agrees m m' c) : (Cert.KernelIdeal.Gen.W8 m ρ c (Proc.devRef .tc Cert.KernelIdeal.main_arg7) : Arr ⟨2, ![3, 128]⟩ .f32) = Cert.ReferenceIdeal.Fold.U8 m' c (Proc.devRef .tc Cert.ReferenceIdeal.main_arg7) :=
  (((Cert.KernelIdeal.Gen.W8_of_ne m ρ c Cert.KernelIdeal.main_arg7 (by decide) : Cert.KernelIdeal.Gen.W8 m ρ c (Proc.devRef .tc Cert.KernelIdeal.main_arg7) = Cert.KernelIdeal.Gen.W7 m ρ c (Proc.devRef .tc Cert.KernelIdeal.main_arg7))).trans (((Cert.KernelIdeal.Keep.hostOps2_keeps (Cert.KernelIdeal.Gen.W6 m ρ c) Cert.KernelIdeal.main_arg7 (by decide) : Cert.KernelIdeal.Gen.W7 m ρ c (Proc.devRef .tc Cert.KernelIdeal.main_arg7) = Cert.KernelIdeal.Gen.W6 m ρ c (Proc.devRef .tc Cert.KernelIdeal.main_arg7))).trans (((Cert.KernelIdeal.Gen.W6_of_ne m ρ c Cert.KernelIdeal.main_arg7 (by decide) : Cert.KernelIdeal.Gen.W6 m ρ c (Proc.devRef .tc Cert.KernelIdeal.main_arg7) = Cert.KernelIdeal.Gen.W5 m ρ c (Proc.devRef .tc Cert.KernelIdeal.main_arg7))).trans (((Cert.KernelIdeal.Keep.hostOps1_keeps (Cert.KernelIdeal.Gen.W4 m ρ c) Cert.KernelIdeal.main_arg7 (by decide) : Cert.KernelIdeal.Gen.W5 m ρ c (Proc.devRef .tc Cert.KernelIdeal.main_arg7) = Cert.KernelIdeal.Gen.W4 m ρ c (Proc.devRef .tc Cert.KernelIdeal.main_arg7))).trans (((Cert.KernelIdeal.Gen.W4_of_ne m ρ c Cert.KernelIdeal.main_arg7 (by decide) : Cert.KernelIdeal.Gen.W4 m ρ c (Proc.devRef .tc Cert.KernelIdeal.main_arg7) = Cert.KernelIdeal.Gen.W3 m ρ c (Proc.devRef .tc Cert.KernelIdeal.main_arg7))).trans (((Cert.KernelIdeal.Keep.hostOps0_2_keeps (Cert.KernelIdeal.Gen.W2 m ρ c) Cert.KernelIdeal.main_arg7 (by decide) : Cert.KernelIdeal.Gen.W3 m ρ c (Proc.devRef .tc Cert.KernelIdeal.main_arg7) = Cert.KernelIdeal.Gen.W2 m ρ c (Proc.devRef .tc Cert.KernelIdeal.main_arg7))).trans (((Cert.KernelIdeal.Keep.hostOps0_1_keeps (Cert.KernelIdeal.Gen.W1 m ρ c) Cert.KernelIdeal.main_arg7 (by decide) : Cert.KernelIdeal.Gen.W2 m ρ c (Proc.devRef .tc Cert.KernelIdeal.main_arg7) = Cert.KernelIdeal.Gen.W1 m ρ c (Proc.devRef .tc Cert.KernelIdeal.main_arg7))).trans ((Cert.KernelIdeal.Keep.hostOps0_keeps (Cert.KernelIdeal.Gen.W0 m ρ c) Cert.KernelIdeal.main_arg7 (by decide) : Cert.KernelIdeal.Gen.W1 m ρ c (Proc.devRef .tc Cert.KernelIdeal.main_arg7) = Cert.KernelIdeal.Gen.W0 m ρ c (Proc.devRef .tc Cert.KernelIdeal.main_arg7)))))))))).trans ((arg7_at0 m ρ m' c hag).trans (((Cert.ReferenceIdeal.Fold.opsD2_keeps (Cert.ReferenceIdeal.Fold.U7 m' c) Cert.ReferenceIdeal.main_arg7 (by decide) : Cert.ReferenceIdeal.Fold.U8 m' c (Proc.devRef .tc Cert.ReferenceIdeal.main_arg7) = Cert.ReferenceIdeal.Fold.U7 m' c (Proc.devRef .tc Cert.ReferenceIdeal.main_arg7))).trans (((Cert.ReferenceIdeal.Fold.opsB2_keeps (Cert.ReferenceIdeal.Fold.U6 m' c) Cert.ReferenceIdeal.main_arg7 (by decide) : Cert.ReferenceIdeal.Fold.U7 m' c (Proc.devRef .tc Cert.ReferenceIdeal.main_arg7) = Cert.ReferenceIdeal.Fold.U6 m' c (Proc.devRef .tc Cert.ReferenceIdeal.main_arg7))).trans (((Cert.ReferenceIdeal.Fold.opsD1_keeps (Cert.ReferenceIdeal.Fold.U5 m' c) Cert.ReferenceIdeal.main_arg7 (by decide) : Cert.ReferenceIdeal.Fold.U6 m' c (Proc.devRef .tc Cert.ReferenceIdeal.main_arg7) = Cert.ReferenceIdeal.Fold.U5 m' c (Proc.devRef .tc Cert.ReferenceIdeal.main_arg7))).trans (((Cert.ReferenceIdeal.Fold.opsB1_keeps (Cert.ReferenceIdeal.Fold.U4 m' c) Cert.ReferenceIdeal.main_arg7 (by decide) : Cert.ReferenceIdeal.Fold.U5 m' c (Proc.devRef .tc Cert.ReferenceIdeal.main_arg7) = Cert.ReferenceIdeal.Fold.U4 m' c (Proc.devRef .tc Cert.ReferenceIdeal.main_arg7))).trans (((Cert.ReferenceIdeal.Fold.opsD0_keeps (Cert.ReferenceIdeal.Fold.U3 m' c) Cert.ReferenceIdeal.main_arg7 (by decide) : Cert.ReferenceIdeal.Fold.U4 m' c (Proc.devRef .tc Cert.ReferenceIdeal.main_arg7) = Cert.ReferenceIdeal.Fold.U3 m' c (Proc.devRef .tc Cert.ReferenceIdeal.main_arg7))).trans (((Cert.ReferenceIdeal.Fold.opsA2_keeps (Cert.ReferenceIdeal.Fold.U2 m' c) Cert.ReferenceIdeal.main_arg7 (by decide) : Cert.ReferenceIdeal.Fold.U3 m' c (Proc.devRef .tc Cert.ReferenceIdeal.main_arg7) = Cert.ReferenceIdeal.Fold.U2 m' c (Proc.devRef .tc Cert.ReferenceIdeal.main_arg7))).trans (((Cert.ReferenceIdeal.Fold.opsA1_keeps (Cert.ReferenceIdeal.Fold.U1 m' c) Cert.ReferenceIdeal.main_arg7 (by decide) : Cert.ReferenceIdeal.Fold.U2 m' c (Proc.devRef .tc Cert.ReferenceIdeal.main_arg7) = Cert.ReferenceIdeal.Fold.U1 m' c (Proc.devRef .tc Cert.ReferenceIdeal.main_arg7))).trans ((Cert.ReferenceIdeal.Fold.opsA0_keeps (Cert.ReferenceIdeal.Fold.U0 m' c) Cert.ReferenceIdeal.main_arg7 (by decide) : Cert.ReferenceIdeal.Fold.U1 m' c (Proc.devRef .tc Cert.ReferenceIdeal.main_arg7) = Cert.ReferenceIdeal.Fold.U0 m' c (Proc.devRef .tc Cert.ReferenceIdeal.main_arg7)))))))))).symm)
theorem arg2_at10 (hag : Agrees m m' c) : (Cert.KernelIdeal.Gen.W10 m ρ c (Proc.devRef .tc Cert.KernelIdeal.main_arg2) : Arr ⟨1, ![100000]⟩ .i32) = Cert.ReferenceIdeal.Fold.U10 m' c (Proc.devRef .tc Cert.ReferenceIdeal.main_arg2) :=
  (((Cert.KernelIdeal.Gen.W10_of_ne m ρ c Cert.KernelIdeal.main_arg2 (by decide) : Cert.KernelIdeal.Gen.W10 m ρ c (Proc.devRef .tc Cert.KernelIdeal.main_arg2) = Cert.KernelIdeal.Gen.W9 m ρ c (Proc.devRef .tc Cert.KernelIdeal.main_arg2))).trans (((Cert.KernelIdeal.Keep.hostOps3_keeps (Cert.KernelIdeal.Gen.W8 m ρ c) Cert.KernelIdeal.main_arg2 (by decide) : Cert.KernelIdeal.Gen.W9 m ρ c (Proc.devRef .tc Cert.KernelIdeal.main_arg2) = Cert.KernelIdeal.Gen.W8 m ρ c (Proc.devRef .tc Cert.KernelIdeal.main_arg2))).trans (((Cert.KernelIdeal.Gen.W8_of_ne m ρ c Cert.KernelIdeal.main_arg2 (by decide) : Cert.KernelIdeal.Gen.W8 m ρ c (Proc.devRef .tc Cert.KernelIdeal.main_arg2) = Cert.KernelIdeal.Gen.W7 m ρ c (Proc.devRef .tc Cert.KernelIdeal.main_arg2))).trans (((Cert.KernelIdeal.Keep.hostOps2_keeps (Cert.KernelIdeal.Gen.W6 m ρ c) Cert.KernelIdeal.main_arg2 (by decide) : Cert.KernelIdeal.Gen.W7 m ρ c (Proc.devRef .tc Cert.KernelIdeal.main_arg2) = Cert.KernelIdeal.Gen.W6 m ρ c (Proc.devRef .tc Cert.KernelIdeal.main_arg2))).trans (((Cert.KernelIdeal.Gen.W6_of_ne m ρ c Cert.KernelIdeal.main_arg2 (by decide) : Cert.KernelIdeal.Gen.W6 m ρ c (Proc.devRef .tc Cert.KernelIdeal.main_arg2) = Cert.KernelIdeal.Gen.W5 m ρ c (Proc.devRef .tc Cert.KernelIdeal.main_arg2))).trans (((Cert.KernelIdeal.Keep.hostOps1_keeps (Cert.KernelIdeal.Gen.W4 m ρ c) Cert.KernelIdeal.main_arg2 (by decide) : Cert.KernelIdeal.Gen.W5 m ρ c (Proc.devRef .tc Cert.KernelIdeal.main_arg2) = Cert.KernelIdeal.Gen.W4 m ρ c (Proc.devRef .tc Cert.KernelIdeal.main_arg2))).trans (((Cert.KernelIdeal.Gen.W4_of_ne m ρ c Cert.KernelIdeal.main_arg2 (by decide) : Cert.KernelIdeal.Gen.W4 m ρ c (Proc.devRef .tc Cert.KernelIdeal.main_arg2) = Cert.KernelIdeal.Gen.W3 m ρ c (Proc.devRef .tc Cert.KernelIdeal.main_arg2))).trans (((Cert.KernelIdeal.Keep.hostOps0_2_keeps (Cert.KernelIdeal.Gen.W2 m ρ c) Cert.KernelIdeal.main_arg2 (by decide) : Cert.KernelIdeal.Gen.W3 m ρ c (Proc.devRef .tc Cert.KernelIdeal.main_arg2) = Cert.KernelIdeal.Gen.W2 m ρ c (Proc.devRef .tc Cert.KernelIdeal.main_arg2))).trans (((Cert.KernelIdeal.Keep.hostOps0_1_keeps (Cert.KernelIdeal.Gen.W1 m ρ c) Cert.KernelIdeal.main_arg2 (by decide) : Cert.KernelIdeal.Gen.W2 m ρ c (Proc.devRef .tc Cert.KernelIdeal.main_arg2) = Cert.KernelIdeal.Gen.W1 m ρ c (Proc.devRef .tc Cert.KernelIdeal.main_arg2))).trans ((Cert.KernelIdeal.Keep.hostOps0_keeps (Cert.KernelIdeal.Gen.W0 m ρ c) Cert.KernelIdeal.main_arg2 (by decide) : Cert.KernelIdeal.Gen.W1 m ρ c (Proc.devRef .tc Cert.KernelIdeal.main_arg2) = Cert.KernelIdeal.Gen.W0 m ρ c (Proc.devRef .tc Cert.KernelIdeal.main_arg2)))))))))))).trans ((arg2_at0 m ρ m' c hag).trans (((Cert.ReferenceIdeal.Fold.opsD3_keeps (Cert.ReferenceIdeal.Fold.U9 m' c) Cert.ReferenceIdeal.main_arg2 (by decide) : Cert.ReferenceIdeal.Fold.U10 m' c (Proc.devRef .tc Cert.ReferenceIdeal.main_arg2) = Cert.ReferenceIdeal.Fold.U9 m' c (Proc.devRef .tc Cert.ReferenceIdeal.main_arg2))).trans (((Cert.ReferenceIdeal.Fold.opsB3_keeps (Cert.ReferenceIdeal.Fold.U8 m' c) Cert.ReferenceIdeal.main_arg2 (by decide) : Cert.ReferenceIdeal.Fold.U9 m' c (Proc.devRef .tc Cert.ReferenceIdeal.main_arg2) = Cert.ReferenceIdeal.Fold.U8 m' c (Proc.devRef .tc Cert.ReferenceIdeal.main_arg2))).trans (((Cert.ReferenceIdeal.Fold.opsD2_keeps (Cert.ReferenceIdeal.Fold.U7 m' c) Cert.ReferenceIdeal.main_arg2 (by decide) : Cert.ReferenceIdeal.Fold.U8 m' c (Proc.devRef .tc Cert.ReferenceIdeal.main_arg2) = Cert.ReferenceIdeal.Fold.U7 m' c (Proc.devRef .tc Cert.ReferenceIdeal.main_arg2))).trans (((Cert.ReferenceIdeal.Fold.opsB2_keeps (Cert.ReferenceIdeal.Fold.U6 m' c) Cert.ReferenceIdeal.main_arg2 (by decide) : Cert.ReferenceIdeal.Fold.U7 m' c (Proc.devRef .tc Cert.ReferenceIdeal.main_arg2) = Cert.ReferenceIdeal.Fold.U6 m' c (Proc.devRef .tc Cert.ReferenceIdeal.main_arg2))).trans (((Cert.ReferenceIdeal.Fold.opsD1_keeps (Cert.ReferenceIdeal.Fold.U5 m' c) Cert.ReferenceIdeal.main_arg2 (by decide) : Cert.ReferenceIdeal.Fold.U6 m' c (Proc.devRef .tc Cert.ReferenceIdeal.main_arg2) = Cert.ReferenceIdeal.Fold.U5 m' c (Proc.devRef .tc Cert.ReferenceIdeal.main_arg2))).trans (((Cert.ReferenceIdeal.Fold.opsB1_keeps (Cert.ReferenceIdeal.Fold.U4 m' c) Cert.ReferenceIdeal.main_arg2 (by decide) : Cert.ReferenceIdeal.Fold.U5 m' c (Proc.devRef .tc Cert.ReferenceIdeal.main_arg2) = Cert.ReferenceIdeal.Fold.U4 m' c (Proc.devRef .tc Cert.ReferenceIdeal.main_arg2))).trans (((Cert.ReferenceIdeal.Fold.opsD0_keeps (Cert.ReferenceIdeal.Fold.U3 m' c) Cert.ReferenceIdeal.main_arg2 (by decide) : Cert.ReferenceIdeal.Fold.U4 m' c (Proc.devRef .tc Cert.ReferenceIdeal.main_arg2) = Cert.ReferenceIdeal.Fold.U3 m' c (Proc.devRef .tc Cert.ReferenceIdeal.main_arg2))).trans (((Cert.ReferenceIdeal.Fold.opsA2_keeps (Cert.ReferenceIdeal.Fold.U2 m' c) Cert.ReferenceIdeal.main_arg2 (by decide) : Cert.ReferenceIdeal.Fold.U3 m' c (Proc.devRef .tc Cert.ReferenceIdeal.main_arg2) = Cert.ReferenceIdeal.Fold.U2 m' c (Proc.devRef .tc Cert.ReferenceIdeal.main_arg2))).trans (((Cert.ReferenceIdeal.Fold.opsA1_keeps (Cert.ReferenceIdeal.Fold.U1 m' c) Cert.ReferenceIdeal.main_arg2 (by decide) : Cert.ReferenceIdeal.Fold.U2 m' c (Proc.devRef .tc Cert.ReferenceIdeal.main_arg2) = Cert.ReferenceIdeal.Fold.U1 m' c (Proc.devRef .tc Cert.ReferenceIdeal.main_arg2))).trans ((Cert.ReferenceIdeal.Fold.opsA0_keeps (Cert.ReferenceIdeal.Fold.U0 m' c) Cert.ReferenceIdeal.main_arg2 (by decide) : Cert.ReferenceIdeal.Fold.U1 m' c (Proc.devRef .tc Cert.ReferenceIdeal.main_arg2) = Cert.ReferenceIdeal.Fold.U0 m' c (Proc.devRef .tc Cert.ReferenceIdeal.main_arg2)))))))))))).symm)
theorem arg3_at10 (hag : Agrees m m' c) : (Cert.KernelIdeal.Gen.W10 m ρ c (Proc.devRef .tc Cert.KernelIdeal.main_arg3) : Arr ⟨1, ![2000]⟩ .i32) = Cert.ReferenceIdeal.Fold.U10 m' c (Proc.devRef .tc Cert.ReferenceIdeal.main_arg3) :=
  (((Cert.KernelIdeal.Gen.W10_of_ne m ρ c Cert.KernelIdeal.main_arg3 (by decide) : Cert.KernelIdeal.Gen.W10 m ρ c (Proc.devRef .tc Cert.KernelIdeal.main_arg3) = Cert.KernelIdeal.Gen.W9 m ρ c (Proc.devRef .tc Cert.KernelIdeal.main_arg3))).trans (((Cert.KernelIdeal.Keep.hostOps3_keeps (Cert.KernelIdeal.Gen.W8 m ρ c) Cert.KernelIdeal.main_arg3 (by decide) : Cert.KernelIdeal.Gen.W9 m ρ c (Proc.devRef .tc Cert.KernelIdeal.main_arg3) = Cert.KernelIdeal.Gen.W8 m ρ c (Proc.devRef .tc Cert.KernelIdeal.main_arg3))).trans (((Cert.KernelIdeal.Gen.W8_of_ne m ρ c Cert.KernelIdeal.main_arg3 (by decide) : Cert.KernelIdeal.Gen.W8 m ρ c (Proc.devRef .tc Cert.KernelIdeal.main_arg3) = Cert.KernelIdeal.Gen.W7 m ρ c (Proc.devRef .tc Cert.KernelIdeal.main_arg3))).trans (((Cert.KernelIdeal.Keep.hostOps2_keeps (Cert.KernelIdeal.Gen.W6 m ρ c) Cert.KernelIdeal.main_arg3 (by decide) : Cert.KernelIdeal.Gen.W7 m ρ c (Proc.devRef .tc Cert.KernelIdeal.main_arg3) = Cert.KernelIdeal.Gen.W6 m ρ c (Proc.devRef .tc Cert.KernelIdeal.main_arg3))).trans (((Cert.KernelIdeal.Gen.W6_of_ne m ρ c Cert.KernelIdeal.main_arg3 (by decide) : Cert.KernelIdeal.Gen.W6 m ρ c (Proc.devRef .tc Cert.KernelIdeal.main_arg3) = Cert.KernelIdeal.Gen.W5 m ρ c (Proc.devRef .tc Cert.KernelIdeal.main_arg3))).trans (((Cert.KernelIdeal.Keep.hostOps1_keeps (Cert.KernelIdeal.Gen.W4 m ρ c) Cert.KernelIdeal.main_arg3 (by decide) : Cert.KernelIdeal.Gen.W5 m ρ c (Proc.devRef .tc Cert.KernelIdeal.main_arg3) = Cert.KernelIdeal.Gen.W4 m ρ c (Proc.devRef .tc Cert.KernelIdeal.main_arg3))).trans (((Cert.KernelIdeal.Gen.W4_of_ne m ρ c Cert.KernelIdeal.main_arg3 (by decide) : Cert.KernelIdeal.Gen.W4 m ρ c (Proc.devRef .tc Cert.KernelIdeal.main_arg3) = Cert.KernelIdeal.Gen.W3 m ρ c (Proc.devRef .tc Cert.KernelIdeal.main_arg3))).trans (((Cert.KernelIdeal.Keep.hostOps0_2_keeps (Cert.KernelIdeal.Gen.W2 m ρ c) Cert.KernelIdeal.main_arg3 (by decide) : Cert.KernelIdeal.Gen.W3 m ρ c (Proc.devRef .tc Cert.KernelIdeal.main_arg3) = Cert.KernelIdeal.Gen.W2 m ρ c (Proc.devRef .tc Cert.KernelIdeal.main_arg3))).trans (((Cert.KernelIdeal.Keep.hostOps0_1_keeps (Cert.KernelIdeal.Gen.W1 m ρ c) Cert.KernelIdeal.main_arg3 (by decide) : Cert.KernelIdeal.Gen.W2 m ρ c (Proc.devRef .tc Cert.KernelIdeal.main_arg3) = Cert.KernelIdeal.Gen.W1 m ρ c (Proc.devRef .tc Cert.KernelIdeal.main_arg3))).trans ((Cert.KernelIdeal.Keep.hostOps0_keeps (Cert.KernelIdeal.Gen.W0 m ρ c) Cert.KernelIdeal.main_arg3 (by decide) : Cert.KernelIdeal.Gen.W1 m ρ c (Proc.devRef .tc Cert.KernelIdeal.main_arg3) = Cert.KernelIdeal.Gen.W0 m ρ c (Proc.devRef .tc Cert.KernelIdeal.main_arg3)))))))))))).trans ((arg3_at0 m ρ m' c hag).trans (((Cert.ReferenceIdeal.Fold.opsD3_keeps (Cert.ReferenceIdeal.Fold.U9 m' c) Cert.ReferenceIdeal.main_arg3 (by decide) : Cert.ReferenceIdeal.Fold.U10 m' c (Proc.devRef .tc Cert.ReferenceIdeal.main_arg3) = Cert.ReferenceIdeal.Fold.U9 m' c (Proc.devRef .tc Cert.ReferenceIdeal.main_arg3))).trans (((Cert.ReferenceIdeal.Fold.opsB3_keeps (Cert.ReferenceIdeal.Fold.U8 m' c) Cert.ReferenceIdeal.main_arg3 (by decide) : Cert.ReferenceIdeal.Fold.U9 m' c (Proc.devRef .tc Cert.ReferenceIdeal.main_arg3) = Cert.ReferenceIdeal.Fold.U8 m' c (Proc.devRef .tc Cert.ReferenceIdeal.main_arg3))).trans (((Cert.ReferenceIdeal.Fold.opsD2_keeps (Cert.ReferenceIdeal.Fold.U7 m' c) Cert.ReferenceIdeal.main_arg3 (by decide) : Cert.ReferenceIdeal.Fold.U8 m' c (Proc.devRef .tc Cert.ReferenceIdeal.main_arg3) = Cert.ReferenceIdeal.Fold.U7 m' c (Proc.devRef .tc Cert.ReferenceIdeal.main_arg3))).trans (((Cert.ReferenceIdeal.Fold.opsB2_keeps (Cert.ReferenceIdeal.Fold.U6 m' c) Cert.ReferenceIdeal.main_arg3 (by decide) : Cert.ReferenceIdeal.Fold.U7 m' c (Proc.devRef .tc Cert.ReferenceIdeal.main_arg3) = Cert.ReferenceIdeal.Fold.U6 m' c (Proc.devRef .tc Cert.ReferenceIdeal.main_arg3))).trans (((Cert.ReferenceIdeal.Fold.opsD1_keeps (Cert.ReferenceIdeal.Fold.U5 m' c) Cert.ReferenceIdeal.main_arg3 (by decide) : Cert.ReferenceIdeal.Fold.U6 m' c (Proc.devRef .tc Cert.ReferenceIdeal.main_arg3) = Cert.ReferenceIdeal.Fold.U5 m' c (Proc.devRef .tc Cert.ReferenceIdeal.main_arg3))).trans (((Cert.ReferenceIdeal.Fold.opsB1_keeps (Cert.ReferenceIdeal.Fold.U4 m' c) Cert.ReferenceIdeal.main_arg3 (by decide) : Cert.ReferenceIdeal.Fold.U5 m' c (Proc.devRef .tc Cert.ReferenceIdeal.main_arg3) = Cert.ReferenceIdeal.Fold.U4 m' c (Proc.devRef .tc Cert.ReferenceIdeal.main_arg3))).trans (((Cert.ReferenceIdeal.Fold.opsD0_keeps (Cert.ReferenceIdeal.Fold.U3 m' c) Cert.ReferenceIdeal.main_arg3 (by decide) : Cert.ReferenceIdeal.Fold.U4 m' c (Proc.devRef .tc Cert.ReferenceIdeal.main_arg3) = Cert.ReferenceIdeal.Fold.U3 m' c (Proc.devRef .tc Cert.ReferenceIdeal.main_arg3))).trans (((Cert.ReferenceIdeal.Fold.opsA2_keeps (Cert.ReferenceIdeal.Fold.U2 m' c) Cert.ReferenceIdeal.main_arg3 (by decide) : Cert.ReferenceIdeal.Fold.U3 m' c (Proc.devRef .tc Cert.ReferenceIdeal.main_arg3) = Cert.ReferenceIdeal.Fold.U2 m' c (Proc.devRef .tc Cert.ReferenceIdeal.main_arg3))).trans (((Cert.ReferenceIdeal.Fold.opsA1_keeps (Cert.ReferenceIdeal.Fold.U1 m' c) Cert.ReferenceIdeal.main_arg3 (by decide) : Cert.ReferenceIdeal.Fold.U2 m' c (Proc.devRef .tc Cert.ReferenceIdeal.main_arg3) = Cert.ReferenceIdeal.Fold.U1 m' c (Proc.devRef .tc Cert.ReferenceIdeal.main_arg3))).trans ((Cert.ReferenceIdeal.Fold.opsA0_keeps (Cert.ReferenceIdeal.Fold.U0 m' c) Cert.ReferenceIdeal.main_arg3 (by decide) : Cert.ReferenceIdeal.Fold.U1 m' c (Proc.devRef .tc Cert.ReferenceIdeal.main_arg3) = Cert.ReferenceIdeal.Fold.U0 m' c (Proc.devRef .tc Cert.ReferenceIdeal.main_arg3)))))))))))).symm)
theorem arg9_at10 (hag : Agrees m m' c) : (Cert.KernelIdeal.Gen.W10 m ρ c (Proc.devRef .tc Cert.KernelIdeal.main_arg9) : Arr ⟨1, ![128]⟩ .f32) = Cert.ReferenceIdeal.Fold.U10 m' c (Proc.devRef .tc Cert.ReferenceIdeal.main_arg9) :=
  (((Cert.KernelIdeal.Gen.W10_of_ne m ρ c Cert.KernelIdeal.main_arg9 (by decide) : Cert.KernelIdeal.Gen.W10 m ρ c (Proc.devRef .tc Cert.KernelIdeal.main_arg9) = Cert.KernelIdeal.Gen.W9 m ρ c (Proc.devRef .tc Cert.KernelIdeal.main_arg9))).trans (((Cert.KernelIdeal.Keep.hostOps3_keeps (Cert.KernelIdeal.Gen.W8 m ρ c) Cert.KernelIdeal.main_arg9 (by decide) : Cert.KernelIdeal.Gen.W9 m ρ c (Proc.devRef .tc Cert.KernelIdeal.main_arg9) = Cert.KernelIdeal.Gen.W8 m ρ c (Proc.devRef .tc Cert.KernelIdeal.main_arg9))).trans (((Cert.KernelIdeal.Gen.W8_of_ne m ρ c Cert.KernelIdeal.main_arg9 (by decide) : Cert.KernelIdeal.Gen.W8 m ρ c (Proc.devRef .tc Cert.KernelIdeal.main_arg9) = Cert.KernelIdeal.Gen.W7 m ρ c (Proc.devRef .tc Cert.KernelIdeal.main_arg9))).trans (((Cert.KernelIdeal.Keep.hostOps2_keeps (Cert.KernelIdeal.Gen.W6 m ρ c) Cert.KernelIdeal.main_arg9 (by decide) : Cert.KernelIdeal.Gen.W7 m ρ c (Proc.devRef .tc Cert.KernelIdeal.main_arg9) = Cert.KernelIdeal.Gen.W6 m ρ c (Proc.devRef .tc Cert.KernelIdeal.main_arg9))).trans (((Cert.KernelIdeal.Gen.W6_of_ne m ρ c Cert.KernelIdeal.main_arg9 (by decide) : Cert.KernelIdeal.Gen.W6 m ρ c (Proc.devRef .tc Cert.KernelIdeal.main_arg9) = Cert.KernelIdeal.Gen.W5 m ρ c (Proc.devRef .tc Cert.KernelIdeal.main_arg9))).trans (((Cert.KernelIdeal.Keep.hostOps1_keeps (Cert.KernelIdeal.Gen.W4 m ρ c) Cert.KernelIdeal.main_arg9 (by decide) : Cert.KernelIdeal.Gen.W5 m ρ c (Proc.devRef .tc Cert.KernelIdeal.main_arg9) = Cert.KernelIdeal.Gen.W4 m ρ c (Proc.devRef .tc Cert.KernelIdeal.main_arg9))).trans (((Cert.KernelIdeal.Gen.W4_of_ne m ρ c Cert.KernelIdeal.main_arg9 (by decide) : Cert.KernelIdeal.Gen.W4 m ρ c (Proc.devRef .tc Cert.KernelIdeal.main_arg9) = Cert.KernelIdeal.Gen.W3 m ρ c (Proc.devRef .tc Cert.KernelIdeal.main_arg9))).trans (((Cert.KernelIdeal.Keep.hostOps0_2_keeps (Cert.KernelIdeal.Gen.W2 m ρ c) Cert.KernelIdeal.main_arg9 (by decide) : Cert.KernelIdeal.Gen.W3 m ρ c (Proc.devRef .tc Cert.KernelIdeal.main_arg9) = Cert.KernelIdeal.Gen.W2 m ρ c (Proc.devRef .tc Cert.KernelIdeal.main_arg9))).trans (((Cert.KernelIdeal.Keep.hostOps0_1_keeps (Cert.KernelIdeal.Gen.W1 m ρ c) Cert.KernelIdeal.main_arg9 (by decide) : Cert.KernelIdeal.Gen.W2 m ρ c (Proc.devRef .tc Cert.KernelIdeal.main_arg9) = Cert.KernelIdeal.Gen.W1 m ρ c (Proc.devRef .tc Cert.KernelIdeal.main_arg9))).trans ((Cert.KernelIdeal.Keep.hostOps0_keeps (Cert.KernelIdeal.Gen.W0 m ρ c) Cert.KernelIdeal.main_arg9 (by decide) : Cert.KernelIdeal.Gen.W1 m ρ c (Proc.devRef .tc Cert.KernelIdeal.main_arg9) = Cert.KernelIdeal.Gen.W0 m ρ c (Proc.devRef .tc Cert.KernelIdeal.main_arg9)))))))))))).trans ((arg9_at0 m ρ m' c hag).trans (((Cert.ReferenceIdeal.Fold.opsD3_keeps (Cert.ReferenceIdeal.Fold.U9 m' c) Cert.ReferenceIdeal.main_arg9 (by decide) : Cert.ReferenceIdeal.Fold.U10 m' c (Proc.devRef .tc Cert.ReferenceIdeal.main_arg9) = Cert.ReferenceIdeal.Fold.U9 m' c (Proc.devRef .tc Cert.ReferenceIdeal.main_arg9))).trans (((Cert.ReferenceIdeal.Fold.opsB3_keeps (Cert.ReferenceIdeal.Fold.U8 m' c) Cert.ReferenceIdeal.main_arg9 (by decide) : Cert.ReferenceIdeal.Fold.U9 m' c (Proc.devRef .tc Cert.ReferenceIdeal.main_arg9) = Cert.ReferenceIdeal.Fold.U8 m' c (Proc.devRef .tc Cert.ReferenceIdeal.main_arg9))).trans (((Cert.ReferenceIdeal.Fold.opsD2_keeps (Cert.ReferenceIdeal.Fold.U7 m' c) Cert.ReferenceIdeal.main_arg9 (by decide) : Cert.ReferenceIdeal.Fold.U8 m' c (Proc.devRef .tc Cert.ReferenceIdeal.main_arg9) = Cert.ReferenceIdeal.Fold.U7 m' c (Proc.devRef .tc Cert.ReferenceIdeal.main_arg9))).trans (((Cert.ReferenceIdeal.Fold.opsB2_keeps (Cert.ReferenceIdeal.Fold.U6 m' c) Cert.ReferenceIdeal.main_arg9 (by decide) : Cert.ReferenceIdeal.Fold.U7 m' c (Proc.devRef .tc Cert.ReferenceIdeal.main_arg9) = Cert.ReferenceIdeal.Fold.U6 m' c (Proc.devRef .tc Cert.ReferenceIdeal.main_arg9))).trans (((Cert.ReferenceIdeal.Fold.opsD1_keeps (Cert.ReferenceIdeal.Fold.U5 m' c) Cert.ReferenceIdeal.main_arg9 (by decide) : Cert.ReferenceIdeal.Fold.U6 m' c (Proc.devRef .tc Cert.ReferenceIdeal.main_arg9) = Cert.ReferenceIdeal.Fold.U5 m' c (Proc.devRef .tc Cert.ReferenceIdeal.main_arg9))).trans (((Cert.ReferenceIdeal.Fold.opsB1_keeps (Cert.ReferenceIdeal.Fold.U4 m' c) Cert.ReferenceIdeal.main_arg9 (by decide) : Cert.ReferenceIdeal.Fold.U5 m' c (Proc.devRef .tc Cert.ReferenceIdeal.main_arg9) = Cert.ReferenceIdeal.Fold.U4 m' c (Proc.devRef .tc Cert.ReferenceIdeal.main_arg9))).trans (((Cert.ReferenceIdeal.Fold.opsD0_keeps (Cert.ReferenceIdeal.Fold.U3 m' c) Cert.ReferenceIdeal.main_arg9 (by decide) : Cert.ReferenceIdeal.Fold.U4 m' c (Proc.devRef .tc Cert.ReferenceIdeal.main_arg9) = Cert.ReferenceIdeal.Fold.U3 m' c (Proc.devRef .tc Cert.ReferenceIdeal.main_arg9))).trans (((Cert.ReferenceIdeal.Fold.opsA2_keeps (Cert.ReferenceIdeal.Fold.U2 m' c) Cert.ReferenceIdeal.main_arg9 (by decide) : Cert.ReferenceIdeal.Fold.U3 m' c (Proc.devRef .tc Cert.ReferenceIdeal.main_arg9) = Cert.ReferenceIdeal.Fold.U2 m' c (Proc.devRef .tc Cert.ReferenceIdeal.main_arg9))).trans (((Cert.ReferenceIdeal.Fold.opsA1_keeps (Cert.ReferenceIdeal.Fold.U1 m' c) Cert.ReferenceIdeal.main_arg9 (by decide) : Cert.ReferenceIdeal.Fold.U2 m' c (Proc.devRef .tc Cert.ReferenceIdeal.main_arg9) = Cert.ReferenceIdeal.Fold.U1 m' c (Proc.devRef .tc Cert.ReferenceIdeal.main_arg9))).trans ((Cert.ReferenceIdeal.Fold.opsA0_keeps (Cert.ReferenceIdeal.Fold.U0 m' c) Cert.ReferenceIdeal.main_arg9 (by decide) : Cert.ReferenceIdeal.Fold.U1 m' c (Proc.devRef .tc Cert.ReferenceIdeal.main_arg9) = Cert.ReferenceIdeal.Fold.U0 m' c (Proc.devRef .tc Cert.ReferenceIdeal.main_arg9)))))))))))).symm)
theorem arg11_at10 (hag : Agrees m m' c) : (Cert.KernelIdeal.Gen.W10 m ρ c (Proc.devRef .tc Cert.KernelIdeal.main_arg11) : Arr ⟨1, ![2]⟩ .f32) = Cert.ReferenceIdeal.Fold.U10 m' c (Proc.devRef .tc Cert.ReferenceIdeal.main_arg11) :=
  (((Cert.KernelIdeal.Gen.W10_of_ne m ρ c Cert.KernelIdeal.main_arg11 (by decide) : Cert.KernelIdeal.Gen.W10 m ρ c (Proc.devRef .tc Cert.KernelIdeal.main_arg11) = Cert.KernelIdeal.Gen.W9 m ρ c (Proc.devRef .tc Cert.KernelIdeal.main_arg11))).trans (((Cert.KernelIdeal.Keep.hostOps3_keeps (Cert.KernelIdeal.Gen.W8 m ρ c) Cert.KernelIdeal.main_arg11 (by decide) : Cert.KernelIdeal.Gen.W9 m ρ c (Proc.devRef .tc Cert.KernelIdeal.main_arg11) = Cert.KernelIdeal.Gen.W8 m ρ c (Proc.devRef .tc Cert.KernelIdeal.main_arg11))).trans (((Cert.KernelIdeal.Gen.W8_of_ne m ρ c Cert.KernelIdeal.main_arg11 (by decide) : Cert.KernelIdeal.Gen.W8 m ρ c (Proc.devRef .tc Cert.KernelIdeal.main_arg11) = Cert.KernelIdeal.Gen.W7 m ρ c (Proc.devRef .tc Cert.KernelIdeal.main_arg11))).trans (((Cert.KernelIdeal.Keep.hostOps2_keeps (Cert.KernelIdeal.Gen.W6 m ρ c) Cert.KernelIdeal.main_arg11 (by decide) : Cert.KernelIdeal.Gen.W7 m ρ c (Proc.devRef .tc Cert.KernelIdeal.main_arg11) = Cert.KernelIdeal.Gen.W6 m ρ c (Proc.devRef .tc Cert.KernelIdeal.main_arg11))).trans (((Cert.KernelIdeal.Gen.W6_of_ne m ρ c Cert.KernelIdeal.main_arg11 (by decide) : Cert.KernelIdeal.Gen.W6 m ρ c (Proc.devRef .tc Cert.KernelIdeal.main_arg11) = Cert.KernelIdeal.Gen.W5 m ρ c (Proc.devRef .tc Cert.KernelIdeal.main_arg11))).trans (((Cert.KernelIdeal.Keep.hostOps1_keeps (Cert.KernelIdeal.Gen.W4 m ρ c) Cert.KernelIdeal.main_arg11 (by decide) : Cert.KernelIdeal.Gen.W5 m ρ c (Proc.devRef .tc Cert.KernelIdeal.main_arg11) = Cert.KernelIdeal.Gen.W4 m ρ c (Proc.devRef .tc Cert.KernelIdeal.main_arg11))).trans (((Cert.KernelIdeal.Gen.W4_of_ne m ρ c Cert.KernelIdeal.main_arg11 (by decide) : Cert.KernelIdeal.Gen.W4 m ρ c (Proc.devRef .tc Cert.KernelIdeal.main_arg11) = Cert.KernelIdeal.Gen.W3 m ρ c (Proc.devRef .tc Cert.KernelIdeal.main_arg11))).trans (((Cert.KernelIdeal.Keep.hostOps0_2_keeps (Cert.KernelIdeal.Gen.W2 m ρ c) Cert.KernelIdeal.main_arg11 (by decide) : Cert.KernelIdeal.Gen.W3 m ρ c (Proc.devRef .tc Cert.KernelIdeal.main_arg11) = Cert.KernelIdeal.Gen.W2 m ρ c (Proc.devRef .tc Cert.KernelIdeal.main_arg11))).trans (((Cert.KernelIdeal.Keep.hostOps0_1_keeps (Cert.KernelIdeal.Gen.W1 m ρ c) Cert.KernelIdeal.main_arg11 (by decide) : Cert.KernelIdeal.Gen.W2 m ρ c (Proc.devRef .tc Cert.KernelIdeal.main_arg11) = Cert.KernelIdeal.Gen.W1 m ρ c (Proc.devRef .tc Cert.KernelIdeal.main_arg11))).trans ((Cert.KernelIdeal.Keep.hostOps0_keeps (Cert.KernelIdeal.Gen.W0 m ρ c) Cert.KernelIdeal.main_arg11 (by decide) : Cert.KernelIdeal.Gen.W1 m ρ c (Proc.devRef .tc Cert.KernelIdeal.main_arg11) = Cert.KernelIdeal.Gen.W0 m ρ c (Proc.devRef .tc Cert.KernelIdeal.main_arg11)))))))))))).trans ((arg11_at0 m ρ m' c hag).trans (((Cert.ReferenceIdeal.Fold.opsD3_keeps (Cert.ReferenceIdeal.Fold.U9 m' c) Cert.ReferenceIdeal.main_arg11 (by decide) : Cert.ReferenceIdeal.Fold.U10 m' c (Proc.devRef .tc Cert.ReferenceIdeal.main_arg11) = Cert.ReferenceIdeal.Fold.U9 m' c (Proc.devRef .tc Cert.ReferenceIdeal.main_arg11))).trans (((Cert.ReferenceIdeal.Fold.opsB3_keeps (Cert.ReferenceIdeal.Fold.U8 m' c) Cert.ReferenceIdeal.main_arg11 (by decide) : Cert.ReferenceIdeal.Fold.U9 m' c (Proc.devRef .tc Cert.ReferenceIdeal.main_arg11) = Cert.ReferenceIdeal.Fold.U8 m' c (Proc.devRef .tc Cert.ReferenceIdeal.main_arg11))).trans (((Cert.ReferenceIdeal.Fold.opsD2_keeps (Cert.ReferenceIdeal.Fold.U7 m' c) Cert.ReferenceIdeal.main_arg11 (by decide) : Cert.ReferenceIdeal.Fold.U8 m' c (Proc.devRef .tc Cert.ReferenceIdeal.main_arg11) = Cert.ReferenceIdeal.Fold.U7 m' c (Proc.devRef .tc Cert.ReferenceIdeal.main_arg11))).trans (((Cert.ReferenceIdeal.Fold.opsB2_keeps (Cert.ReferenceIdeal.Fold.U6 m' c) Cert.ReferenceIdeal.main_arg11 (by decide) : Cert.ReferenceIdeal.Fold.U7 m' c (Proc.devRef .tc Cert.ReferenceIdeal.main_arg11) = Cert.ReferenceIdeal.Fold.U6 m' c (Proc.devRef .tc Cert.ReferenceIdeal.main_arg11))).trans (((Cert.ReferenceIdeal.Fold.opsD1_keeps (Cert.ReferenceIdeal.Fold.U5 m' c) Cert.ReferenceIdeal.main_arg11 (by decide) : Cert.ReferenceIdeal.Fold.U6 m' c (Proc.devRef .tc Cert.ReferenceIdeal.main_arg11) = Cert.ReferenceIdeal.Fold.U5 m' c (Proc.devRef .tc Cert.ReferenceIdeal.main_arg11))).trans (((Cert.ReferenceIdeal.Fold.opsB1_keeps (Cert.ReferenceIdeal.Fold.U4 m' c) Cert.ReferenceIdeal.main_arg11 (by decide) : Cert.ReferenceIdeal.Fold.U5 m' c (Proc.devRef .tc Cert.ReferenceIdeal.main_arg11) = Cert.ReferenceIdeal.Fold.U4 m' c (Proc.devRef .tc Cert.ReferenceIdeal.main_arg11))).trans (((Cert.ReferenceIdeal.Fold.opsD0_keeps (Cert.ReferenceIdeal.Fold.U3 m' c) Cert.ReferenceIdeal.main_arg11 (by decide) : Cert.ReferenceIdeal.Fold.U4 m' c (Proc.devRef .tc Cert.ReferenceIdeal.main_arg11) = Cert.ReferenceIdeal.Fold.U3 m' c (Proc.devRef .tc Cert.ReferenceIdeal.main_arg11))).trans (((Cert.ReferenceIdeal.Fold.opsA2_keeps (Cert.ReferenceIdeal.Fold.U2 m' c) Cert.ReferenceIdeal.main_arg11 (by decide) : Cert.ReferenceIdeal.Fold.U3 m' c (Proc.devRef .tc Cert.ReferenceIdeal.main_arg11) = Cert.ReferenceIdeal.Fold.U2 m' c (Proc.devRef .tc Cert.ReferenceIdeal.main_arg11))).trans (((Cert.ReferenceIdeal.Fold.opsA1_keeps (Cert.ReferenceIdeal.Fold.U1 m' c) Cert.ReferenceIdeal.main_arg11 (by decide) : Cert.ReferenceIdeal.Fold.U2 m' c (Proc.devRef .tc Cert.ReferenceIdeal.main_arg11) = Cert.ReferenceIdeal.Fold.U1 m' c (Proc.devRef .tc Cert.ReferenceIdeal.main_arg11))).trans ((Cert.ReferenceIdeal.Fold.opsA0_keeps (Cert.ReferenceIdeal.Fold.U0 m' c) Cert.ReferenceIdeal.main_arg11 (by decide) : Cert.ReferenceIdeal.Fold.U1 m' c (Proc.devRef .tc Cert.ReferenceIdeal.main_arg11) = Cert.ReferenceIdeal.Fold.U0 m' c (Proc.devRef .tc Cert.ReferenceIdeal.main_arg11)))))))))))).symm)
theorem arg8_at11 (hag : Agrees m m' c) : (Cert.KernelIdeal.Gen.W11 m ρ c (Proc.devRef .tc Cert.KernelIdeal.main_arg8) : Cert.Gcn.Mat 128 128) = Cert.ReferenceIdeal.Fold.U11 m' c (Proc.devRef .tc Cert.ReferenceIdeal.main_arg8) :=
  (((Cert.KernelIdeal.Keep.hostOps4_keeps (Cert.KernelIdeal.Gen.W10 m ρ c) Cert.KernelIdeal.main_arg8 (by decide) : Cert.KernelIdeal.Gen.W11 m ρ c (Proc.devRef .tc Cert.KernelIdeal.main_arg8) = Cert.KernelIdeal.Gen.W10 m ρ c (Proc.devRef .tc Cert.KernelIdeal.main_arg8))).trans (((Cert.KernelIdeal.Gen.W10_of_ne m ρ c Cert.KernelIdeal.main_arg8 (by decide) : Cert.KernelIdeal.Gen.W10 m ρ c (Proc.devRef .tc Cert.KernelIdeal.main_arg8) = Cert.KernelIdeal.Gen.W9 m ρ c (Proc.devRef .tc Cert.KernelIdeal.main_arg8))).trans (((Cert.KernelIdeal.Keep.hostOps3_keeps (Cert.KernelIdeal.Gen.W8 m ρ c) Cert.KernelIdeal.main_arg8 (by decide) : Cert.KernelIdeal.Gen.W9 m ρ c (Proc.devRef .tc Cert.KernelIdeal.main_arg8) = Cert.KernelIdeal.Gen.W8 m ρ c (Proc.devRef .tc Cert.KernelIdeal.main_arg8))).trans (((Cert.KernelIdeal.Gen.W8_of_ne m ρ c Cert.KernelIdeal.main_arg8 (by decide) : Cert.KernelIdeal.Gen.W8 m ρ c (Proc.devRef .tc Cert.KernelIdeal.main_arg8) = Cert.KernelIdeal.Gen.W7 m ρ c (Proc.devRef .tc Cert.KernelIdeal.main_arg8))).trans (((Cert.KernelIdeal.Keep.hostOps2_keeps (Cert.KernelIdeal.Gen.W6 m ρ c) Cert.KernelIdeal.main_arg8 (by decide) : Cert.KernelIdeal.Gen.W7 m ρ c (Proc.devRef .tc Cert.KernelIdeal.main_arg8) = Cert.KernelIdeal.Gen.W6 m ρ c (Proc.devRef .tc Cert.KernelIdeal.main_arg8))).trans (((Cert.KernelIdeal.Gen.W6_of_ne m ρ c Cert.KernelIdeal.main_arg8 (by decide) : Cert.KernelIdeal.Gen.W6 m ρ c (Proc.devRef .tc Cert.KernelIdeal.main_arg8) = Cert.KernelIdeal.Gen.W5 m ρ c (Proc.devRef .tc Cert.KernelIdeal.main_arg8))).trans (((Cert.KernelIdeal.Keep.hostOps1_keeps (Cert.KernelIdeal.Gen.W4 m ρ c) Cert.KernelIdeal.main_arg8 (by decide) : Cert.KernelIdeal.Gen.W5 m ρ c (Proc.devRef .tc Cert.KernelIdeal.main_arg8) = Cert.KernelIdeal.Gen.W4 m ρ c (Proc.devRef .tc Cert.KernelIdeal.main_arg8))).trans (((Cert.KernelIdeal.Gen.W4_of_ne m ρ c Cert.KernelIdeal.main_arg8 (by decide) : Cert.KernelIdeal.Gen.W4 m ρ c (Proc.devRef .tc Cert.KernelIdeal.main_arg8) = Cert.KernelIdeal.Gen.W3 m ρ c (Proc.devRef .tc Cert.KernelIdeal.main_arg8))).trans (((Cert.KernelIdeal.Keep.hostOps0_2_keeps (Cert.KernelIdeal.Gen.W2 m ρ c) Cert.KernelIdeal.main_arg8 (by decide) : Cert.KernelIdeal.Gen.W3 m ρ c (Proc.devRef .tc Cert.KernelIdeal.main_arg8) = Cert.KernelIdeal.Gen.W2 m ρ c (Proc.devRef .tc Cert.KernelIdeal.main_arg8))).trans (((Cert.KernelIdeal.Keep.hostOps0_1_keeps (Cert.KernelIdeal.Gen.W1 m ρ c) Cert.KernelIdeal.main_arg8 (by decide) : Cert.KernelIdeal.Gen.W2 m ρ c (Proc.devRef .tc Cert.KernelIdeal.main_arg8) = Cert.KernelIdeal.Gen.W1 m ρ c (Proc.devRef .tc Cert.KernelIdeal.main_arg8))).trans ((Cert.KernelIdeal.Keep.hostOps0_keeps (Cert.KernelIdeal.Gen.W0 m ρ c) Cert.KernelIdeal.main_arg8 (by decide) : Cert.KernelIdeal.Gen.W1 m ρ c (Proc.devRef .tc Cert.KernelIdeal.main_arg8) = Cert.KernelIdeal.Gen.W0 m ρ c (Proc.devRef .tc Cert.KernelIdeal.main_arg8))))))))))))).trans ((arg8_at0 m ρ m' c hag).trans (((Cert.ReferenceIdeal.Fold.opsB4_keeps (Cert.ReferenceIdeal.Fold.U10 m' c) Cert.ReferenceIdeal.main_arg8 (by decide) : Cert.ReferenceIdeal.Fold.U11 m' c (Proc.devRef .tc Cert.ReferenceIdeal.main_arg8) = Cert.ReferenceIdeal.Fold.U10 m' c (Proc.devRef .tc Cert.ReferenceIdeal.main_arg8))).trans (((Cert.ReferenceIdeal.Fold.opsD3_keeps (Cert.ReferenceIdeal.Fold.U9 m' c) Cert.ReferenceIdeal.main_arg8 (by decide) : Cert.ReferenceIdeal.Fold.U10 m' c (Proc.devRef .tc Cert.ReferenceIdeal.main_arg8) = Cert.ReferenceIdeal.Fold.U9 m' c (Proc.devRef .tc Cert.ReferenceIdeal.main_arg8))).trans (((Cert.ReferenceIdeal.Fold.opsB3_keeps (Cert.ReferenceIdeal.Fold.U8 m' c) Cert.ReferenceIdeal.main_arg8 (by decide) : Cert.ReferenceIdeal.Fold.U9 m' c (Proc.devRef .tc Cert.ReferenceIdeal.main_arg8) = Cert.ReferenceIdeal.Fold.U8 m' c (Proc.devRef .tc Cert.ReferenceIdeal.main_arg8))).trans (((Cert.ReferenceIdeal.Fold.opsD2_keeps (Cert.ReferenceIdeal.Fold.U7 m' c) Cert.ReferenceIdeal.main_arg8 (by decide) : Cert.ReferenceIdeal.Fold.U8 m' c (Proc.devRef .tc Cert.ReferenceIdeal.main_arg8) = Cert.ReferenceIdeal.Fold.U7 m' c (Proc.devRef .tc Cert.ReferenceIdeal.main_arg8))).trans (((Cert.ReferenceIdeal.Fold.opsB2_keeps (Cert.ReferenceIdeal.Fold.U6 m' c) Cert.ReferenceIdeal.main_arg8 (by decide) : Cert.ReferenceIdeal.Fold.U7 m' c (Proc.devRef .tc Cert.ReferenceIdeal.main_arg8) = Cert.ReferenceIdeal.Fold.U6 m' c (Proc.devRef .tc Cert.ReferenceIdeal.main_arg8))).trans (((Cert.ReferenceIdeal.Fold.opsD1_keeps (Cert.ReferenceIdeal.Fold.U5 m' c) Cert.ReferenceIdeal.main_arg8 (by decide) : Cert.ReferenceIdeal.Fold.U6 m' c (Proc.devRef .tc Cert.ReferenceIdeal.main_arg8) = Cert.ReferenceIdeal.Fold.U5 m' c (Proc.devRef .tc Cert.ReferenceIdeal.main_arg8))).trans (((Cert.ReferenceIdeal.Fold.opsB1_keeps (Cert.ReferenceIdeal.Fold.U4 m' c) Cert.ReferenceIdeal.main_arg8 (by decide) : Cert.ReferenceIdeal.Fold.U5 m' c (Proc.devRef .tc Cert.ReferenceIdeal.main_arg8) = Cert.ReferenceIdeal.Fold.U4 m' c (Proc.devRef .tc Cert.ReferenceIdeal.main_arg8))).trans (((Cert.ReferenceIdeal.Fold.opsD0_keeps (Cert.ReferenceIdeal.Fold.U3 m' c) Cert.ReferenceIdeal.main_arg8 (by decide) : Cert.ReferenceIdeal.Fold.U4 m' c (Proc.devRef .tc Cert.ReferenceIdeal.main_arg8) = Cert.ReferenceIdeal.Fold.U3 m' c (Proc.devRef .tc Cert.ReferenceIdeal.main_arg8))).trans (((Cert.ReferenceIdeal.Fold.opsA2_keeps (Cert.ReferenceIdeal.Fold.U2 m' c) Cert.ReferenceIdeal.main_arg8 (by decide) : Cert.ReferenceIdeal.Fold.U3 m' c (Proc.devRef .tc Cert.ReferenceIdeal.main_arg8) = Cert.ReferenceIdeal.Fold.U2 m' c (Proc.devRef .tc Cert.ReferenceIdeal.main_arg8))).trans (((Cert.ReferenceIdeal.Fold.opsA1_keeps (Cert.ReferenceIdeal.Fold.U1 m' c) Cert.ReferenceIdeal.main_arg8 (by decide) : Cert.ReferenceIdeal.Fold.U2 m' c (Proc.devRef .tc Cert.ReferenceIdeal.main_arg8) = Cert.ReferenceIdeal.Fold.U1 m' c (Proc.devRef .tc Cert.ReferenceIdeal.main_arg8))).trans ((Cert.ReferenceIdeal.Fold.opsA0_keeps (Cert.ReferenceIdeal.Fold.U0 m' c) Cert.ReferenceIdeal.main_arg8 (by decide) : Cert.ReferenceIdeal.Fold.U1 m' c (Proc.devRef .tc Cert.ReferenceIdeal.main_arg8) = Cert.ReferenceIdeal.Fold.U0 m' c (Proc.devRef .tc Cert.ReferenceIdeal.main_arg8))))))))))))).symm)
theorem arg9_at11 (hag : Agrees m m' c) : (Cert.KernelIdeal.Gen.W11 m ρ c (Proc.devRef .tc Cert.KernelIdeal.main_arg9) : Arr ⟨1, ![128]⟩ .f32) = Cert.ReferenceIdeal.Fold.U11 m' c (Proc.devRef .tc Cert.ReferenceIdeal.main_arg9) :=
  (((Cert.KernelIdeal.Keep.hostOps4_keeps (Cert.KernelIdeal.Gen.W10 m ρ c) Cert.KernelIdeal.main_arg9 (by decide) : Cert.KernelIdeal.Gen.W11 m ρ c (Proc.devRef .tc Cert.KernelIdeal.main_arg9) = Cert.KernelIdeal.Gen.W10 m ρ c (Proc.devRef .tc Cert.KernelIdeal.main_arg9))).trans (((Cert.KernelIdeal.Gen.W10_of_ne m ρ c Cert.KernelIdeal.main_arg9 (by decide) : Cert.KernelIdeal.Gen.W10 m ρ c (Proc.devRef .tc Cert.KernelIdeal.main_arg9) = Cert.KernelIdeal.Gen.W9 m ρ c (Proc.devRef .tc Cert.KernelIdeal.main_arg9))).trans (((Cert.KernelIdeal.Keep.hostOps3_keeps (Cert.KernelIdeal.Gen.W8 m ρ c) Cert.KernelIdeal.main_arg9 (by decide) : Cert.KernelIdeal.Gen.W9 m ρ c (Proc.devRef .tc Cert.KernelIdeal.main_arg9) = Cert.KernelIdeal.Gen.W8 m ρ c (Proc.devRef .tc Cert.KernelIdeal.main_arg9))).trans (((Cert.KernelIdeal.Gen.W8_of_ne m ρ c Cert.KernelIdeal.main_arg9 (by decide) : Cert.KernelIdeal.Gen.W8 m ρ c (Proc.devRef .tc Cert.KernelIdeal.main_arg9) = Cert.KernelIdeal.Gen.W7 m ρ c (Proc.devRef .tc Cert.KernelIdeal.main_arg9))).trans (((Cert.KernelIdeal.Keep.hostOps2_keeps (Cert.KernelIdeal.Gen.W6 m ρ c) Cert.KernelIdeal.main_arg9 (by decide) : Cert.KernelIdeal.Gen.W7 m ρ c (Proc.devRef .tc Cert.KernelIdeal.main_arg9) = Cert.KernelIdeal.Gen.W6 m ρ c (Proc.devRef .tc Cert.KernelIdeal.main_arg9))).trans (((Cert.KernelIdeal.Gen.W6_of_ne m ρ c Cert.KernelIdeal.main_arg9 (by decide) : Cert.KernelIdeal.Gen.W6 m ρ c (Proc.devRef .tc Cert.KernelIdeal.main_arg9) = Cert.KernelIdeal.Gen.W5 m ρ c (Proc.devRef .tc Cert.KernelIdeal.main_arg9))).trans (((Cert.KernelIdeal.Keep.hostOps1_keeps (Cert.KernelIdeal.Gen.W4 m ρ c) Cert.KernelIdeal.main_arg9 (by decide) : Cert.KernelIdeal.Gen.W5 m ρ c (Proc.devRef .tc Cert.KernelIdeal.main_arg9) = Cert.KernelIdeal.Gen.W4 m ρ c (Proc.devRef .tc Cert.KernelIdeal.main_arg9))).trans (((Cert.KernelIdeal.Gen.W4_of_ne m ρ c Cert.KernelIdeal.main_arg9 (by decide) : Cert.KernelIdeal.Gen.W4 m ρ c (Proc.devRef .tc Cert.KernelIdeal.main_arg9) = Cert.KernelIdeal.Gen.W3 m ρ c (Proc.devRef .tc Cert.KernelIdeal.main_arg9))).trans (((Cert.KernelIdeal.Keep.hostOps0_2_keeps (Cert.KernelIdeal.Gen.W2 m ρ c) Cert.KernelIdeal.main_arg9 (by decide) : Cert.KernelIdeal.Gen.W3 m ρ c (Proc.devRef .tc Cert.KernelIdeal.main_arg9) = Cert.KernelIdeal.Gen.W2 m ρ c (Proc.devRef .tc Cert.KernelIdeal.main_arg9))).trans (((Cert.KernelIdeal.Keep.hostOps0_1_keeps (Cert.KernelIdeal.Gen.W1 m ρ c) Cert.KernelIdeal.main_arg9 (by decide) : Cert.KernelIdeal.Gen.W2 m ρ c (Proc.devRef .tc Cert.KernelIdeal.main_arg9) = Cert.KernelIdeal.Gen.W1 m ρ c (Proc.devRef .tc Cert.KernelIdeal.main_arg9))).trans ((Cert.KernelIdeal.Keep.hostOps0_keeps (Cert.KernelIdeal.Gen.W0 m ρ c) Cert.KernelIdeal.main_arg9 (by decide) : Cert.KernelIdeal.Gen.W1 m ρ c (Proc.devRef .tc Cert.KernelIdeal.main_arg9) = Cert.KernelIdeal.Gen.W0 m ρ c (Proc.devRef .tc Cert.KernelIdeal.main_arg9))))))))))))).trans ((arg9_at0 m ρ m' c hag).trans (((Cert.ReferenceIdeal.Fold.opsB4_keeps (Cert.ReferenceIdeal.Fold.U10 m' c) Cert.ReferenceIdeal.main_arg9 (by decide) : Cert.ReferenceIdeal.Fold.U11 m' c (Proc.devRef .tc Cert.ReferenceIdeal.main_arg9) = Cert.ReferenceIdeal.Fold.U10 m' c (Proc.devRef .tc Cert.ReferenceIdeal.main_arg9))).trans (((Cert.ReferenceIdeal.Fold.opsD3_keeps (Cert.ReferenceIdeal.Fold.U9 m' c) Cert.ReferenceIdeal.main_arg9 (by decide) : Cert.ReferenceIdeal.Fold.U10 m' c (Proc.devRef .tc Cert.ReferenceIdeal.main_arg9) = Cert.ReferenceIdeal.Fold.U9 m' c (Proc.devRef .tc Cert.ReferenceIdeal.main_arg9))).trans (((Cert.ReferenceIdeal.Fold.opsB3_keeps (Cert.ReferenceIdeal.Fold.U8 m' c) Cert.ReferenceIdeal.main_arg9 (by decide) : Cert.ReferenceIdeal.Fold.U9 m' c (Proc.devRef .tc Cert.ReferenceIdeal.main_arg9) = Cert.ReferenceIdeal.Fold.U8 m' c (Proc.devRef .tc Cert.ReferenceIdeal.main_arg9))).trans (((Cert.ReferenceIdeal.Fold.opsD2_keeps (Cert.ReferenceIdeal.Fold.U7 m' c) Cert.ReferenceIdeal.main_arg9 (by decide) : Cert.ReferenceIdeal.Fold.U8 m' c (Proc.devRef .tc Cert.ReferenceIdeal.main_arg9) = Cert.ReferenceIdeal.Fold.U7 m' c (Proc.devRef .tc Cert.ReferenceIdeal.main_arg9))).trans (((Cert.ReferenceIdeal.Fold.opsB2_keeps (Cert.ReferenceIdeal.Fold.U6 m' c) Cert.ReferenceIdeal.main_arg9 (by decide) : Cert.ReferenceIdeal.Fold.U7 m' c (Proc.devRef .tc Cert.ReferenceIdeal.main_arg9) = Cert.ReferenceIdeal.Fold.U6 m' c (Proc.devRef .tc Cert.ReferenceIdeal.main_arg9))).trans (((Cert.ReferenceIdeal.Fold.opsD1_keeps (Cert.ReferenceIdeal.Fold.U5 m' c) Cert.ReferenceIdeal.main_arg9 (by decide) : Cert.ReferenceIdeal.Fold.U6 m' c (Proc.devRef .tc Cert.ReferenceIdeal.main_arg9) = Cert.ReferenceIdeal.Fold.U5 m' c (Proc.devRef .tc Cert.ReferenceIdeal.main_arg9))).trans (((Cert.ReferenceIdeal.Fold.opsB1_keeps (Cert.ReferenceIdeal.Fold.U4 m' c) Cert.ReferenceIdeal.main_arg9 (by decide) : Cert.ReferenceIdeal.Fold.U5 m' c (Proc.devRef .tc Cert.ReferenceIdeal.main_arg9) = Cert.ReferenceIdeal.Fold.U4 m' c (Proc.devRef .tc Cert.ReferenceIdeal.main_arg9))).trans (((Cert.ReferenceIdeal.Fold.opsD0_keeps (Cert.ReferenceIdeal.Fold.U3 m' c) Cert.ReferenceIdeal.main_arg9 (by decide) : Cert.ReferenceIdeal.Fold.U4 m' c (Proc.devRef .tc Cert.ReferenceIdeal.main_arg9) = Cert.ReferenceIdeal.Fold.U3 m' c (Proc.devRef .tc Cert.ReferenceIdeal.main_arg9))).trans (((Cert.ReferenceIdeal.Fold.opsA2_keeps (Cert.ReferenceIdeal.Fold.U2 m' c) Cert.ReferenceIdeal.main_arg9 (by decide) : Cert.ReferenceIdeal.Fold.U3 m' c (Proc.devRef .tc Cert.ReferenceIdeal.main_arg9) = Cert.ReferenceIdeal.Fold.U2 m' c (Proc.devRef .tc Cert.ReferenceIdeal.main_arg9))).trans (((Cert.ReferenceIdeal.Fold.opsA1_keeps (Cert.ReferenceIdeal.Fold.U1 m' c) Cert.ReferenceIdeal.main_arg9 (by decide) : Cert.ReferenceIdeal.Fold.U2 m' c (Proc.devRef .tc Cert.ReferenceIdeal.main_arg9) = Cert.ReferenceIdeal.Fold.U1 m' c (Proc.devRef .tc Cert.ReferenceIdeal.main_arg9))).trans ((Cert.ReferenceIdeal.Fold.opsA0_keeps (Cert.ReferenceIdeal.Fold.U0 m' c) Cert.ReferenceIdeal.main_arg9 (by decide) : Cert.ReferenceIdeal.Fold.U1 m' c (Proc.devRef .tc Cert.ReferenceIdeal.main_arg9) = Cert.ReferenceIdeal.Fold.U0 m' c (Proc.devRef .tc Cert.ReferenceIdeal.main_arg9))))))))))))).symm)
theorem arg10_at11 (hag : Agrees m m' c) : (Cert.KernelIdeal.Gen.W11 m ρ c (Proc.devRef .tc Cert.KernelIdeal.main_arg10) : Cert.Gcn.Mat 128 2) = Cert.ReferenceIdeal.Fold.U11 m' c (Proc.devRef .tc Cert.ReferenceIdeal.main_arg10) :=
  (((Cert.KernelIdeal.Keep.hostOps4_keeps (Cert.KernelIdeal.Gen.W10 m ρ c) Cert.KernelIdeal.main_arg10 (by decide) : Cert.KernelIdeal.Gen.W11 m ρ c (Proc.devRef .tc Cert.KernelIdeal.main_arg10) = Cert.KernelIdeal.Gen.W10 m ρ c (Proc.devRef .tc Cert.KernelIdeal.main_arg10))).trans (((Cert.KernelIdeal.Gen.W10_of_ne m ρ c Cert.KernelIdeal.main_arg10 (by decide) : Cert.KernelIdeal.Gen.W10 m ρ c (Proc.devRef .tc Cert.KernelIdeal.main_arg10) = Cert.KernelIdeal.Gen.W9 m ρ c (Proc.devRef .tc Cert.KernelIdeal.main_arg10))).trans (((Cert.KernelIdeal.Keep.hostOps3_keeps (Cert.KernelIdeal.Gen.W8 m ρ c) Cert.KernelIdeal.main_arg10 (by decide) : Cert.KernelIdeal.Gen.W9 m ρ c (Proc.devRef .tc Cert.KernelIdeal.main_arg10) = Cert.KernelIdeal.Gen.W8 m ρ c (Proc.devRef .tc Cert.KernelIdeal.main_arg10))).trans (((Cert.KernelIdeal.Gen.W8_of_ne m ρ c Cert.KernelIdeal.main_arg10 (by decide) : Cert.KernelIdeal.Gen.W8 m ρ c (Proc.devRef .tc Cert.KernelIdeal.main_arg10) = Cert.KernelIdeal.Gen.W7 m ρ c (Proc.devRef .tc Cert.KernelIdeal.main_arg10))).trans (((Cert.KernelIdeal.Keep.hostOps2_keeps (Cert.KernelIdeal.Gen.W6 m ρ c) Cert.KernelIdeal.main_arg10 (by decide) : Cert.KernelIdeal.Gen.W7 m ρ c (Proc.devRef .tc Cert.KernelIdeal.main_arg10) = Cert.KernelIdeal.Gen.W6 m ρ c (Proc.devRef .tc Cert.KernelIdeal.main_arg10))).trans (((Cert.KernelIdeal.Gen.W6_of_ne m ρ c Cert.KernelIdeal.main_arg10 (by decide) : Cert.KernelIdeal.Gen.W6 m ρ c (Proc.devRef .tc Cert.KernelIdeal.main_arg10) = Cert.KernelIdeal.Gen.W5 m ρ c (Proc.devRef .tc Cert.KernelIdeal.main_arg10))).trans (((Cert.KernelIdeal.Keep.hostOps1_keeps (Cert.KernelIdeal.Gen.W4 m ρ c) Cert.KernelIdeal.main_arg10 (by decide) : Cert.KernelIdeal.Gen.W5 m ρ c (Proc.devRef .tc Cert.KernelIdeal.main_arg10) = Cert.KernelIdeal.Gen.W4 m ρ c (Proc.devRef .tc Cert.KernelIdeal.main_arg10))).trans (((Cert.KernelIdeal.Gen.W4_of_ne m ρ c Cert.KernelIdeal.main_arg10 (by decide) : Cert.KernelIdeal.Gen.W4 m ρ c (Proc.devRef .tc Cert.KernelIdeal.main_arg10) = Cert.KernelIdeal.Gen.W3 m ρ c (Proc.devRef .tc Cert.KernelIdeal.main_arg10))).trans (((Cert.KernelIdeal.Keep.hostOps0_2_keeps (Cert.KernelIdeal.Gen.W2 m ρ c) Cert.KernelIdeal.main_arg10 (by decide) : Cert.KernelIdeal.Gen.W3 m ρ c (Proc.devRef .tc Cert.KernelIdeal.main_arg10) = Cert.KernelIdeal.Gen.W2 m ρ c (Proc.devRef .tc Cert.KernelIdeal.main_arg10))).trans (((Cert.KernelIdeal.Keep.hostOps0_1_keeps (Cert.KernelIdeal.Gen.W1 m ρ c) Cert.KernelIdeal.main_arg10 (by decide) : Cert.KernelIdeal.Gen.W2 m ρ c (Proc.devRef .tc Cert.KernelIdeal.main_arg10) = Cert.KernelIdeal.Gen.W1 m ρ c (Proc.devRef .tc Cert.KernelIdeal.main_arg10))).trans ((Cert.KernelIdeal.Keep.hostOps0_keeps (Cert.KernelIdeal.Gen.W0 m ρ c) Cert.KernelIdeal.main_arg10 (by decide) : Cert.KernelIdeal.Gen.W1 m ρ c (Proc.devRef .tc Cert.KernelIdeal.main_arg10) = Cert.KernelIdeal.Gen.W0 m ρ c (Proc.devRef .tc Cert.KernelIdeal.main_arg10))))))))))))).trans ((arg10_at0 m ρ m' c hag).trans (((Cert.ReferenceIdeal.Fold.opsB4_keeps (Cert.ReferenceIdeal.Fold.U10 m' c) Cert.ReferenceIdeal.main_arg10 (by decide) : Cert.ReferenceIdeal.Fold.U11 m' c (Proc.devRef .tc Cert.ReferenceIdeal.main_arg10) = Cert.ReferenceIdeal.Fold.U10 m' c (Proc.devRef .tc Cert.ReferenceIdeal.main_arg10))).trans (((Cert.ReferenceIdeal.Fold.opsD3_keeps (Cert.ReferenceIdeal.Fold.U9 m' c) Cert.ReferenceIdeal.main_arg10 (by decide) : Cert.ReferenceIdeal.Fold.U10 m' c (Proc.devRef .tc Cert.ReferenceIdeal.main_arg10) = Cert.ReferenceIdeal.Fold.U9 m' c (Proc.devRef .tc Cert.ReferenceIdeal.main_arg10))).trans (((Cert.ReferenceIdeal.Fold.opsB3_keeps (Cert.ReferenceIdeal.Fold.U8 m' c) Cert.ReferenceIdeal.main_arg10 (by decide) : Cert.ReferenceIdeal.Fold.U9 m' c (Proc.devRef .tc Cert.ReferenceIdeal.main_arg10) = Cert.ReferenceIdeal.Fold.U8 m' c (Proc.devRef .tc Cert.ReferenceIdeal.main_arg10))).trans (((Cert.ReferenceIdeal.Fold.opsD2_keeps (Cert.ReferenceIdeal.Fold.U7 m' c) Cert.ReferenceIdeal.main_arg10 (by decide) : Cert.ReferenceIdeal.Fold.U8 m' c (Proc.devRef .tc Cert.ReferenceIdeal.main_arg10) = Cert.ReferenceIdeal.Fold.U7 m' c (Proc.devRef .tc Cert.ReferenceIdeal.main_arg10))).trans (((Cert.ReferenceIdeal.Fold.opsB2_keeps (Cert.ReferenceIdeal.Fold.U6 m' c) Cert.ReferenceIdeal.main_arg10 (by decide) : Cert.ReferenceIdeal.Fold.U7 m' c (Proc.devRef .tc Cert.ReferenceIdeal.main_arg10) = Cert.ReferenceIdeal.Fold.U6 m' c (Proc.devRef .tc Cert.ReferenceIdeal.main_arg10))).trans (((Cert.ReferenceIdeal.Fold.opsD1_keeps (Cert.ReferenceIdeal.Fold.U5 m' c) Cert.ReferenceIdeal.main_arg10 (by decide) : Cert.ReferenceIdeal.Fold.U6 m' c (Proc.devRef .tc Cert.ReferenceIdeal.main_arg10) = Cert.ReferenceIdeal.Fold.U5 m' c (Proc.devRef .tc Cert.ReferenceIdeal.main_arg10))).trans (((Cert.ReferenceIdeal.Fold.opsB1_keeps (Cert.ReferenceIdeal.Fold.U4 m' c) Cert.ReferenceIdeal.main_arg10 (by decide) : Cert.ReferenceIdeal.Fold.U5 m' c (Proc.devRef .tc Cert.ReferenceIdeal.main_arg10) = Cert.ReferenceIdeal.Fold.U4 m' c (Proc.devRef .tc Cert.ReferenceIdeal.main_arg10))).trans (((Cert.ReferenceIdeal.Fold.opsD0_keeps (Cert.ReferenceIdeal.Fold.U3 m' c) Cert.ReferenceIdeal.main_arg10 (by decide) : Cert.ReferenceIdeal.Fold.U4 m' c (Proc.devRef .tc Cert.ReferenceIdeal.main_arg10) = Cert.ReferenceIdeal.Fold.U3 m' c (Proc.devRef .tc Cert.ReferenceIdeal.main_arg10))).trans (((Cert.ReferenceIdeal.Fold.opsA2_keeps (Cert.ReferenceIdeal.Fold.U2 m' c) Cert.ReferenceIdeal.main_arg10 (by decide) : Cert.ReferenceIdeal.Fold.U3 m' c (Proc.devRef .tc Cert.ReferenceIdeal.main_arg10) = Cert.ReferenceIdeal.Fold.U2 m' c (Proc.devRef .tc Cert.ReferenceIdeal.main_arg10))).trans (((Cert.ReferenceIdeal.Fold.opsA1_keeps (Cert.ReferenceIdeal.Fold.U1 m' c) Cert.ReferenceIdeal.main_arg10 (by decide) : Cert.ReferenceIdeal.Fold.U2 m' c (Proc.devRef .tc Cert.ReferenceIdeal.main_arg10) = Cert.ReferenceIdeal.Fold.U1 m' c (Proc.devRef .tc Cert.ReferenceIdeal.main_arg10))).trans ((Cert.ReferenceIdeal.Fold.opsA0_keeps (Cert.ReferenceIdeal.Fold.U0 m' c) Cert.ReferenceIdeal.main_arg10 (by decide) : Cert.ReferenceIdeal.Fold.U1 m' c (Proc.devRef .tc Cert.ReferenceIdeal.main_arg10) = Cert.ReferenceIdeal.Fold.U0 m' c (Proc.devRef .tc Cert.ReferenceIdeal.main_arg10))))))))))))).symm)
theorem arg11_at11 (hag : Agrees m m' c) : (Cert.KernelIdeal.Gen.W11 m ρ c (Proc.devRef .tc Cert.KernelIdeal.main_arg11) : Arr ⟨1, ![2]⟩ .f32) = Cert.ReferenceIdeal.Fold.U11 m' c (Proc.devRef .tc Cert.ReferenceIdeal.main_arg11) :=
  (((Cert.KernelIdeal.Keep.hostOps4_keeps (Cert.KernelIdeal.Gen.W10 m ρ c) Cert.KernelIdeal.main_arg11 (by decide) : Cert.KernelIdeal.Gen.W11 m ρ c (Proc.devRef .tc Cert.KernelIdeal.main_arg11) = Cert.KernelIdeal.Gen.W10 m ρ c (Proc.devRef .tc Cert.KernelIdeal.main_arg11))).trans (((Cert.KernelIdeal.Gen.W10_of_ne m ρ c Cert.KernelIdeal.main_arg11 (by decide) : Cert.KernelIdeal.Gen.W10 m ρ c (Proc.devRef .tc Cert.KernelIdeal.main_arg11) = Cert.KernelIdeal.Gen.W9 m ρ c (Proc.devRef .tc Cert.KernelIdeal.main_arg11))).trans (((Cert.KernelIdeal.Keep.hostOps3_keeps (Cert.KernelIdeal.Gen.W8 m ρ c) Cert.KernelIdeal.main_arg11 (by decide) : Cert.KernelIdeal.Gen.W9 m ρ c (Proc.devRef .tc Cert.KernelIdeal.main_arg11) = Cert.KernelIdeal.Gen.W8 m ρ c (Proc.devRef .tc Cert.KernelIdeal.main_arg11))).trans (((Cert.KernelIdeal.Gen.W8_of_ne m ρ c Cert.KernelIdeal.main_arg11 (by decide) : Cert.KernelIdeal.Gen.W8 m ρ c (Proc.devRef .tc Cert.KernelIdeal.main_arg11) = Cert.KernelIdeal.Gen.W7 m ρ c (Proc.devRef .tc Cert.KernelIdeal.main_arg11))).trans (((Cert.KernelIdeal.Keep.hostOps2_keeps (Cert.KernelIdeal.Gen.W6 m ρ c) Cert.KernelIdeal.main_arg11 (by decide) : Cert.KernelIdeal.Gen.W7 m ρ c (Proc.devRef .tc Cert.KernelIdeal.main_arg11) = Cert.KernelIdeal.Gen.W6 m ρ c (Proc.devRef .tc Cert.KernelIdeal.main_arg11))).trans (((Cert.KernelIdeal.Gen.W6_of_ne m ρ c Cert.KernelIdeal.main_arg11 (by decide) : Cert.KernelIdeal.Gen.W6 m ρ c (Proc.devRef .tc Cert.KernelIdeal.main_arg11) = Cert.KernelIdeal.Gen.W5 m ρ c (Proc.devRef .tc Cert.KernelIdeal.main_arg11))).trans (((Cert.KernelIdeal.Keep.hostOps1_keeps (Cert.KernelIdeal.Gen.W4 m ρ c) Cert.KernelIdeal.main_arg11 (by decide) : Cert.KernelIdeal.Gen.W5 m ρ c (Proc.devRef .tc Cert.KernelIdeal.main_arg11) = Cert.KernelIdeal.Gen.W4 m ρ c (Proc.devRef .tc Cert.KernelIdeal.main_arg11))).trans (((Cert.KernelIdeal.Gen.W4_of_ne m ρ c Cert.KernelIdeal.main_arg11 (by decide) : Cert.KernelIdeal.Gen.W4 m ρ c (Proc.devRef .tc Cert.KernelIdeal.main_arg11) = Cert.KernelIdeal.Gen.W3 m ρ c (Proc.devRef .tc Cert.KernelIdeal.main_arg11))).trans (((Cert.KernelIdeal.Keep.hostOps0_2_keeps (Cert.KernelIdeal.Gen.W2 m ρ c) Cert.KernelIdeal.main_arg11 (by decide) : Cert.KernelIdeal.Gen.W3 m ρ c (Proc.devRef .tc Cert.KernelIdeal.main_arg11) = Cert.KernelIdeal.Gen.W2 m ρ c (Proc.devRef .tc Cert.KernelIdeal.main_arg11))).trans (((Cert.KernelIdeal.Keep.hostOps0_1_keeps (Cert.KernelIdeal.Gen.W1 m ρ c) Cert.KernelIdeal.main_arg11 (by decide) : Cert.KernelIdeal.Gen.W2 m ρ c (Proc.devRef .tc Cert.KernelIdeal.main_arg11) = Cert.KernelIdeal.Gen.W1 m ρ c (Proc.devRef .tc Cert.KernelIdeal.main_arg11))).trans ((Cert.KernelIdeal.Keep.hostOps0_keeps (Cert.KernelIdeal.Gen.W0 m ρ c) Cert.KernelIdeal.main_arg11 (by decide) : Cert.KernelIdeal.Gen.W1 m ρ c (Proc.devRef .tc Cert.KernelIdeal.main_arg11) = Cert.KernelIdeal.Gen.W0 m ρ c (Proc.devRef .tc Cert.KernelIdeal.main_arg11))))))))))))).trans ((arg11_at0 m ρ m' c hag).trans (((Cert.ReferenceIdeal.Fold.opsB4_keeps (Cert.ReferenceIdeal.Fold.U10 m' c) Cert.ReferenceIdeal.main_arg11 (by decide) : Cert.ReferenceIdeal.Fold.U11 m' c (Proc.devRef .tc Cert.ReferenceIdeal.main_arg11) = Cert.ReferenceIdeal.Fold.U10 m' c (Proc.devRef .tc Cert.ReferenceIdeal.main_arg11))).trans (((Cert.ReferenceIdeal.Fold.opsD3_keeps (Cert.ReferenceIdeal.Fold.U9 m' c) Cert.ReferenceIdeal.main_arg11 (by decide) : Cert.ReferenceIdeal.Fold.U10 m' c (Proc.devRef .tc Cert.ReferenceIdeal.main_arg11) = Cert.ReferenceIdeal.Fold.U9 m' c (Proc.devRef .tc Cert.ReferenceIdeal.main_arg11))).trans (((Cert.ReferenceIdeal.Fold.opsB3_keeps (Cert.ReferenceIdeal.Fold.U8 m' c) Cert.ReferenceIdeal.main_arg11 (by decide) : Cert.ReferenceIdeal.Fold.U9 m' c (Proc.devRef .tc Cert.ReferenceIdeal.main_arg11) = Cert.ReferenceIdeal.Fold.U8 m' c (Proc.devRef .tc Cert.ReferenceIdeal.main_arg11))).trans (((Cert.ReferenceIdeal.Fold.opsD2_keeps (Cert.ReferenceIdeal.Fold.U7 m' c) Cert.ReferenceIdeal.main_arg11 (by decide) : Cert.ReferenceIdeal.Fold.U8 m' c (Proc.devRef .tc Cert.ReferenceIdeal.main_arg11) = Cert.ReferenceIdeal.Fold.U7 m' c (Proc.devRef .tc Cert.ReferenceIdeal.main_arg11))).trans (((Cert.ReferenceIdeal.Fold.opsB2_keeps (Cert.ReferenceIdeal.Fold.U6 m' c) Cert.ReferenceIdeal.main_arg11 (by decide) : Cert.ReferenceIdeal.Fold.U7 m' c (Proc.devRef .tc Cert.ReferenceIdeal.main_arg11) = Cert.ReferenceIdeal.Fold.U6 m' c (Proc.devRef .tc Cert.ReferenceIdeal.main_arg11))).trans (((Cert.ReferenceIdeal.Fold.opsD1_keeps (Cert.ReferenceIdeal.Fold.U5 m' c) Cert.ReferenceIdeal.main_arg11 (by decide) : Cert.ReferenceIdeal.Fold.U6 m' c (Proc.devRef .tc Cert.ReferenceIdeal.main_arg11) = Cert.ReferenceIdeal.Fold.U5 m' c (Proc.devRef .tc Cert.ReferenceIdeal.main_arg11))).trans (((Cert.ReferenceIdeal.Fold.opsB1_keeps (Cert.ReferenceIdeal.Fold.U4 m' c) Cert.ReferenceIdeal.main_arg11 (by decide) : Cert.ReferenceIdeal.Fold.U5 m' c (Proc.devRef .tc Cert.ReferenceIdeal.main_arg11) = Cert.ReferenceIdeal.Fold.U4 m' c (Proc.devRef .tc Cert.ReferenceIdeal.main_arg11))).trans (((Cert.ReferenceIdeal.Fold.opsD0_keeps (Cert.ReferenceIdeal.Fold.U3 m' c) Cert.ReferenceIdeal.main_arg11 (by decide) : Cert.ReferenceIdeal.Fold.U4 m' c (Proc.devRef .tc Cert.ReferenceIdeal.main_arg11) = Cert.ReferenceIdeal.Fold.U3 m' c (Proc.devRef .tc Cert.ReferenceIdeal.main_arg11))).trans (((Cert.ReferenceIdeal.Fold.opsA2_keeps (Cert.ReferenceIdeal.Fold.U2 m' c) Cert.ReferenceIdeal.main_arg11 (by decide) : Cert.ReferenceIdeal.Fold.U3 m' c (Proc.devRef .tc Cert.ReferenceIdeal.main_arg11) = Cert.ReferenceIdeal.Fold.U2 m' c (Proc.devRef .tc Cert.ReferenceIdeal.main_arg11))).trans (((Cert.ReferenceIdeal.Fold.opsA1_keeps (Cert.ReferenceIdeal.Fold.U1 m' c) Cert.ReferenceIdeal.main_arg11 (by decide) : Cert.ReferenceIdeal.Fold.U2 m' c (Proc.devRef .tc Cert.ReferenceIdeal.main_arg11) = Cert.ReferenceIdeal.Fold.U1 m' c (Proc.devRef .tc Cert.ReferenceIdeal.main_arg11))).trans ((Cert.ReferenceIdeal.Fold.opsA0_keeps (Cert.ReferenceIdeal.Fold.U0 m' c) Cert.ReferenceIdeal.main_arg11 (by decide) : Cert.ReferenceIdeal.Fold.U1 m' c (Proc.devRef .tc Cert.ReferenceIdeal.main_arg11) = Cert.ReferenceIdeal.Fold.U0 m' c (Proc.devRef .tc Cert.ReferenceIdeal.main_arg11))))))))))))).symm)

/-! ## Buffers computed once and read again later -/

/-- Both sides still hold at boundary 4 what they held of it at boundary 3. -/
theorem v3_at4 (h : (Cert.KernelIdeal.Gen.W3 m ρ c (Proc.devRef .tc Cert.KernelIdeal.main_v3) : Arr ⟨1, ![1700000]⟩ .i32) = Cert.ReferenceIdeal.Fold.U3 m' c (Proc.devRef .tc Cert.ReferenceIdeal.main_v3)) : (Cert.KernelIdeal.Gen.W4 m ρ c (Proc.devRef .tc Cert.KernelIdeal.main_v3) : Arr ⟨1, ![1700000]⟩ .i32) = Cert.ReferenceIdeal.Fold.U4 m' c (Proc.devRef .tc Cert.ReferenceIdeal.main_v3) :=
  ((Cert.KernelIdeal.Gen.W4_of_ne m ρ c Cert.KernelIdeal.main_v3 (by decide) : Cert.KernelIdeal.Gen.W4 m ρ c (Proc.devRef .tc Cert.KernelIdeal.main_v3) = Cert.KernelIdeal.Gen.W3 m ρ c (Proc.devRef .tc Cert.KernelIdeal.main_v3))).trans (h.trans ((Cert.ReferenceIdeal.Fold.opsD0_keeps (Cert.ReferenceIdeal.Fold.U3 m' c) Cert.ReferenceIdeal.main_v3 (by decide) : Cert.ReferenceIdeal.Fold.U4 m' c (Proc.devRef .tc Cert.ReferenceIdeal.main_v3) = Cert.ReferenceIdeal.Fold.U3 m' c (Proc.devRef .tc Cert.ReferenceIdeal.main_v3))).symm)
/-- Both sides still hold at boundary 6 what they held of it at boundary 3. -/
theorem v3_at6 (h : (Cert.KernelIdeal.Gen.W3 m ρ c (Proc.devRef .tc Cert.KernelIdeal.main_v3) : Arr ⟨1, ![1700000]⟩ .i32) = Cert.ReferenceIdeal.Fold.U3 m' c (Proc.devRef .tc Cert.ReferenceIdeal.main_v3)) : (Cert.KernelIdeal.Gen.W6 m ρ c (Proc.devRef .tc Cert.KernelIdeal.main_v3) : Arr ⟨1, ![1700000]⟩ .i32) = Cert.ReferenceIdeal.Fold.U6 m' c (Proc.devRef .tc Cert.ReferenceIdeal.main_v3) :=
  (((Cert.KernelIdeal.Gen.W6_of_ne m ρ c Cert.KernelIdeal.main_v3 (by decide) : Cert.KernelIdeal.Gen.W6 m ρ c (Proc.devRef .tc Cert.KernelIdeal.main_v3) = Cert.KernelIdeal.Gen.W5 m ρ c (Proc.devRef .tc Cert.KernelIdeal.main_v3))).trans (((Cert.KernelIdeal.Keep.hostOps1_keeps (Cert.KernelIdeal.Gen.W4 m ρ c) Cert.KernelIdeal.main_v3 (by decide) : Cert.KernelIdeal.Gen.W5 m ρ c (Proc.devRef .tc Cert.KernelIdeal.main_v3) = Cert.KernelIdeal.Gen.W4 m ρ c (Proc.devRef .tc Cert.KernelIdeal.main_v3))).trans ((Cert.KernelIdeal.Gen.W4_of_ne m ρ c Cert.KernelIdeal.main_v3 (by decide) : Cert.KernelIdeal.Gen.W4 m ρ c (Proc.devRef .tc Cert.KernelIdeal.main_v3) = Cert.KernelIdeal.Gen.W3 m ρ c (Proc.devRef .tc Cert.KernelIdeal.main_v3))))).trans (h.trans (((Cert.ReferenceIdeal.Fold.opsD1_keeps (Cert.ReferenceIdeal.Fold.U5 m' c) Cert.ReferenceIdeal.main_v3 (by decide) : Cert.ReferenceIdeal.Fold.U6 m' c (Proc.devRef .tc Cert.ReferenceIdeal.main_v3) = Cert.ReferenceIdeal.Fold.U5 m' c (Proc.devRef .tc Cert.ReferenceIdeal.main_v3))).trans (((Cert.ReferenceIdeal.Fold.opsB1_keeps (Cert.ReferenceIdeal.Fold.U4 m' c) Cert.ReferenceIdeal.main_v3 (by decide) : Cert.ReferenceIdeal.Fold.U5 m' c (Proc.devRef .tc Cert.ReferenceIdeal.main_v3) = Cert.ReferenceIdeal.Fold.U4 m' c (Proc.devRef .tc Cert.ReferenceIdeal.main_v3))).trans ((Cert.ReferenceIdeal.Fold.opsD0_keeps (Cert.ReferenceIdeal.Fold.U3 m' c) Cert.ReferenceIdeal.main_v3 (by decide) : Cert.ReferenceIdeal.Fold.U4 m' c (Proc.devRef .tc Cert.ReferenceIdeal.main_v3) = Cert.ReferenceIdeal.Fold.U3 m' c (Proc.devRef .tc Cert.ReferenceIdeal.main_v3))))).symm)
/-- Both sides still hold at boundary 8 what they held of it at boundary 3. -/
theorem v3_at8 (h : (Cert.KernelIdeal.Gen.W3 m ρ c (Proc.devRef .tc Cert.KernelIdeal.main_v3) : Arr ⟨1, ![1700000]⟩ .i32) = Cert.ReferenceIdeal.Fold.U3 m' c (Proc.devRef .tc Cert.ReferenceIdeal.main_v3)) : (Cert.KernelIdeal.Gen.W8 m ρ c (Proc.devRef .tc Cert.KernelIdeal.main_v3) : Arr ⟨1, ![1700000]⟩ .i32) = Cert.ReferenceIdeal.Fold.U8 m' c (Proc.devRef .tc Cert.ReferenceIdeal.main_v3) :=
  (((Cert.KernelIdeal.Gen.W8_of_ne m ρ c Cert.KernelIdeal.main_v3 (by decide) : Cert.KernelIdeal.Gen.W8 m ρ c (Proc.devRef .tc Cert.KernelIdeal.main_v3) = Cert.KernelIdeal.Gen.W7 m ρ c (Proc.devRef .tc Cert.KernelIdeal.main_v3))).trans (((Cert.KernelIdeal.Keep.hostOps2_keeps (Cert.KernelIdeal.Gen.W6 m ρ c) Cert.KernelIdeal.main_v3 (by decide) : Cert.KernelIdeal.Gen.W7 m ρ c (Proc.devRef .tc Cert.KernelIdeal.main_v3) = Cert.KernelIdeal.Gen.W6 m ρ c (Proc.devRef .tc Cert.KernelIdeal.main_v3))).trans (((Cert.KernelIdeal.Gen.W6_of_ne m ρ c Cert.KernelIdeal.main_v3 (by decide) : Cert.KernelIdeal.Gen.W6 m ρ c (Proc.devRef .tc Cert.KernelIdeal.main_v3) = Cert.KernelIdeal.Gen.W5 m ρ c (Proc.devRef .tc Cert.KernelIdeal.main_v3))).trans (((Cert.KernelIdeal.Keep.hostOps1_keeps (Cert.KernelIdeal.Gen.W4 m ρ c) Cert.KernelIdeal.main_v3 (by decide) : Cert.KernelIdeal.Gen.W5 m ρ c (Proc.devRef .tc Cert.KernelIdeal.main_v3) = Cert.KernelIdeal.Gen.W4 m ρ c (Proc.devRef .tc Cert.KernelIdeal.main_v3))).trans ((Cert.KernelIdeal.Gen.W4_of_ne m ρ c Cert.KernelIdeal.main_v3 (by decide) : Cert.KernelIdeal.Gen.W4 m ρ c (Proc.devRef .tc Cert.KernelIdeal.main_v3) = Cert.KernelIdeal.Gen.W3 m ρ c (Proc.devRef .tc Cert.KernelIdeal.main_v3))))))).trans (h.trans (((Cert.ReferenceIdeal.Fold.opsD2_keeps (Cert.ReferenceIdeal.Fold.U7 m' c) Cert.ReferenceIdeal.main_v3 (by decide) : Cert.ReferenceIdeal.Fold.U8 m' c (Proc.devRef .tc Cert.ReferenceIdeal.main_v3) = Cert.ReferenceIdeal.Fold.U7 m' c (Proc.devRef .tc Cert.ReferenceIdeal.main_v3))).trans (((Cert.ReferenceIdeal.Fold.opsB2_keeps (Cert.ReferenceIdeal.Fold.U6 m' c) Cert.ReferenceIdeal.main_v3 (by decide) : Cert.ReferenceIdeal.Fold.U7 m' c (Proc.devRef .tc Cert.ReferenceIdeal.main_v3) = Cert.ReferenceIdeal.Fold.U6 m' c (Proc.devRef .tc Cert.ReferenceIdeal.main_v3))).trans (((Cert.ReferenceIdeal.Fold.opsD1_keeps (Cert.ReferenceIdeal.Fold.U5 m' c) Cert.ReferenceIdeal.main_v3 (by decide) : Cert.ReferenceIdeal.Fold.U6 m' c (Proc.devRef .tc Cert.ReferenceIdeal.main_v3) = Cert.ReferenceIdeal.Fold.U5 m' c (Proc.devRef .tc Cert.ReferenceIdeal.main_v3))).trans (((Cert.ReferenceIdeal.Fold.opsB1_keeps (Cert.ReferenceIdeal.Fold.U4 m' c) Cert.ReferenceIdeal.main_v3 (by decide) : Cert.ReferenceIdeal.Fold.U5 m' c (Proc.devRef .tc Cert.ReferenceIdeal.main_v3) = Cert.ReferenceIdeal.Fold.U4 m' c (Proc.devRef .tc Cert.ReferenceIdeal.main_v3))).trans ((Cert.ReferenceIdeal.Fold.opsD0_keeps (Cert.ReferenceIdeal.Fold.U3 m' c) Cert.ReferenceIdeal.main_v3 (by decide) : Cert.ReferenceIdeal.Fold.U4 m' c (Proc.devRef .tc Cert.ReferenceIdeal.main_v3) = Cert.ReferenceIdeal.Fold.U3 m' c (Proc.devRef .tc Cert.ReferenceIdeal.main_v3))))))).symm)
/-- Both sides still hold at boundary 10 what they held of it at boundary 3. -/
theorem v3_at10 (h : (Cert.KernelIdeal.Gen.W3 m ρ c (Proc.devRef .tc Cert.KernelIdeal.main_v3) : Arr ⟨1, ![1700000]⟩ .i32) = Cert.ReferenceIdeal.Fold.U3 m' c (Proc.devRef .tc Cert.ReferenceIdeal.main_v3)) : (Cert.KernelIdeal.Gen.W10 m ρ c (Proc.devRef .tc Cert.KernelIdeal.main_v3) : Arr ⟨1, ![1700000]⟩ .i32) = Cert.ReferenceIdeal.Fold.U10 m' c (Proc.devRef .tc Cert.ReferenceIdeal.main_v3) :=
  (((Cert.KernelIdeal.Gen.W10_of_ne m ρ c Cert.KernelIdeal.main_v3 (by decide) : Cert.KernelIdeal.Gen.W10 m ρ c (Proc.devRef .tc Cert.KernelIdeal.main_v3) = Cert.KernelIdeal.Gen.W9 m ρ c (Proc.devRef .tc Cert.KernelIdeal.main_v3))).trans (((Cert.KernelIdeal.Keep.hostOps3_keeps (Cert.KernelIdeal.Gen.W8 m ρ c) Cert.KernelIdeal.main_v3 (by decide) : Cert.KernelIdeal.Gen.W9 m ρ c (Proc.devRef .tc Cert.KernelIdeal.main_v3) = Cert.KernelIdeal.Gen.W8 m ρ c (Proc.devRef .tc Cert.KernelIdeal.main_v3))).trans (((Cert.KernelIdeal.Gen.W8_of_ne m ρ c Cert.KernelIdeal.main_v3 (by decide) : Cert.KernelIdeal.Gen.W8 m ρ c (Proc.devRef .tc Cert.KernelIdeal.main_v3) = Cert.KernelIdeal.Gen.W7 m ρ c (Proc.devRef .tc Cert.KernelIdeal.main_v3))).trans (((Cert.KernelIdeal.Keep.hostOps2_keeps (Cert.KernelIdeal.Gen.W6 m ρ c) Cert.KernelIdeal.main_v3 (by decide) : Cert.KernelIdeal.Gen.W7 m ρ c (Proc.devRef .tc Cert.KernelIdeal.main_v3) = Cert.KernelIdeal.Gen.W6 m ρ c (Proc.devRef .tc Cert.KernelIdeal.main_v3))).trans (((Cert.KernelIdeal.Gen.W6_of_ne m ρ c Cert.KernelIdeal.main_v3 (by decide) : Cert.KernelIdeal.Gen.W6 m ρ c (Proc.devRef .tc Cert.KernelIdeal.main_v3) = Cert.KernelIdeal.Gen.W5 m ρ c (Proc.devRef .tc Cert.KernelIdeal.main_v3))).trans (((Cert.KernelIdeal.Keep.hostOps1_keeps (Cert.KernelIdeal.Gen.W4 m ρ c) Cert.KernelIdeal.main_v3 (by decide) : Cert.KernelIdeal.Gen.W5 m ρ c (Proc.devRef .tc Cert.KernelIdeal.main_v3) = Cert.KernelIdeal.Gen.W4 m ρ c (Proc.devRef .tc Cert.KernelIdeal.main_v3))).trans ((Cert.KernelIdeal.Gen.W4_of_ne m ρ c Cert.KernelIdeal.main_v3 (by decide) : Cert.KernelIdeal.Gen.W4 m ρ c (Proc.devRef .tc Cert.KernelIdeal.main_v3) = Cert.KernelIdeal.Gen.W3 m ρ c (Proc.devRef .tc Cert.KernelIdeal.main_v3))))))))).trans (h.trans (((Cert.ReferenceIdeal.Fold.opsD3_keeps (Cert.ReferenceIdeal.Fold.U9 m' c) Cert.ReferenceIdeal.main_v3 (by decide) : Cert.ReferenceIdeal.Fold.U10 m' c (Proc.devRef .tc Cert.ReferenceIdeal.main_v3) = Cert.ReferenceIdeal.Fold.U9 m' c (Proc.devRef .tc Cert.ReferenceIdeal.main_v3))).trans (((Cert.ReferenceIdeal.Fold.opsB3_keeps (Cert.ReferenceIdeal.Fold.U8 m' c) Cert.ReferenceIdeal.main_v3 (by decide) : Cert.ReferenceIdeal.Fold.U9 m' c (Proc.devRef .tc Cert.ReferenceIdeal.main_v3) = Cert.ReferenceIdeal.Fold.U8 m' c (Proc.devRef .tc Cert.ReferenceIdeal.main_v3))).trans (((Cert.ReferenceIdeal.Fold.opsD2_keeps (Cert.ReferenceIdeal.Fold.U7 m' c) Cert.ReferenceIdeal.main_v3 (by decide) : Cert.ReferenceIdeal.Fold.U8 m' c (Proc.devRef .tc Cert.ReferenceIdeal.main_v3) = Cert.ReferenceIdeal.Fold.U7 m' c (Proc.devRef .tc Cert.ReferenceIdeal.main_v3))).trans (((Cert.ReferenceIdeal.Fold.opsB2_keeps (Cert.ReferenceIdeal.Fold.U6 m' c) Cert.ReferenceIdeal.main_v3 (by decide) : Cert.ReferenceIdeal.Fold.U7 m' c (Proc.devRef .tc Cert.ReferenceIdeal.main_v3) = Cert.ReferenceIdeal.Fold.U6 m' c (Proc.devRef .tc Cert.ReferenceIdeal.main_v3))).trans (((Cert.ReferenceIdeal.Fold.opsD1_keeps (Cert.ReferenceIdeal.Fold.U5 m' c) Cert.ReferenceIdeal.main_v3 (by decide) : Cert.ReferenceIdeal.Fold.U6 m' c (Proc.devRef .tc Cert.ReferenceIdeal.main_v3) = Cert.ReferenceIdeal.Fold.U5 m' c (Proc.devRef .tc Cert.ReferenceIdeal.main_v3))).trans (((Cert.ReferenceIdeal.Fold.opsB1_keeps (Cert.ReferenceIdeal.Fold.U4 m' c) Cert.ReferenceIdeal.main_v3 (by decide) : Cert.ReferenceIdeal.Fold.U5 m' c (Proc.devRef .tc Cert.ReferenceIdeal.main_v3) = Cert.ReferenceIdeal.Fold.U4 m' c (Proc.devRef .tc Cert.ReferenceIdeal.main_v3))).trans ((Cert.ReferenceIdeal.Fold.opsD0_keeps (Cert.ReferenceIdeal.Fold.U3 m' c) Cert.ReferenceIdeal.main_v3 (by decide) : Cert.ReferenceIdeal.Fold.U4 m' c (Proc.devRef .tc Cert.ReferenceIdeal.main_v3) = Cert.ReferenceIdeal.Fold.U3 m' c (Proc.devRef .tc Cert.ReferenceIdeal.main_v3))))))))).symm)
/-- Both sides still hold at boundary 4 what they held of it at boundary 3. -/
theorem v6_at4 (h : (Cert.KernelIdeal.Gen.W3 m ρ c (Proc.devRef .tc Cert.KernelIdeal.main_v6) : Arr ⟨1, ![1700000]⟩ .i32) = Cert.ReferenceIdeal.Fold.U3 m' c (Proc.devRef .tc Cert.ReferenceIdeal.main_v6)) : (Cert.KernelIdeal.Gen.W4 m ρ c (Proc.devRef .tc Cert.KernelIdeal.main_v6) : Arr ⟨1, ![1700000]⟩ .i32) = Cert.ReferenceIdeal.Fold.U4 m' c (Proc.devRef .tc Cert.ReferenceIdeal.main_v6) :=
  ((Cert.KernelIdeal.Gen.W4_of_ne m ρ c Cert.KernelIdeal.main_v6 (by decide) : Cert.KernelIdeal.Gen.W4 m ρ c (Proc.devRef .tc Cert.KernelIdeal.main_v6) = Cert.KernelIdeal.Gen.W3 m ρ c (Proc.devRef .tc Cert.KernelIdeal.main_v6))).trans (h.trans ((Cert.ReferenceIdeal.Fold.opsD0_keeps (Cert.ReferenceIdeal.Fold.U3 m' c) Cert.ReferenceIdeal.main_v6 (by decide) : Cert.ReferenceIdeal.Fold.U4 m' c (Proc.devRef .tc Cert.ReferenceIdeal.main_v6) = Cert.ReferenceIdeal.Fold.U3 m' c (Proc.devRef .tc Cert.ReferenceIdeal.main_v6))).symm)
/-- Both sides still hold at boundary 6 what they held of it at boundary 3. -/
theorem v6_at6 (h : (Cert.KernelIdeal.Gen.W3 m ρ c (Proc.devRef .tc Cert.KernelIdeal.main_v6) : Arr ⟨1, ![1700000]⟩ .i32) = Cert.ReferenceIdeal.Fold.U3 m' c (Proc.devRef .tc Cert.ReferenceIdeal.main_v6)) : (Cert.KernelIdeal.Gen.W6 m ρ c (Proc.devRef .tc Cert.KernelIdeal.main_v6) : Arr ⟨1, ![1700000]⟩ .i32) = Cert.ReferenceIdeal.Fold.U6 m' c (Proc.devRef .tc Cert.ReferenceIdeal.main_v6) :=
  (((Cert.KernelIdeal.Gen.W6_of_ne m ρ c Cert.KernelIdeal.main_v6 (by decide) : Cert.KernelIdeal.Gen.W6 m ρ c (Proc.devRef .tc Cert.KernelIdeal.main_v6) = Cert.KernelIdeal.Gen.W5 m ρ c (Proc.devRef .tc Cert.KernelIdeal.main_v6))).trans (((Cert.KernelIdeal.Keep.hostOps1_keeps (Cert.KernelIdeal.Gen.W4 m ρ c) Cert.KernelIdeal.main_v6 (by decide) : Cert.KernelIdeal.Gen.W5 m ρ c (Proc.devRef .tc Cert.KernelIdeal.main_v6) = Cert.KernelIdeal.Gen.W4 m ρ c (Proc.devRef .tc Cert.KernelIdeal.main_v6))).trans ((Cert.KernelIdeal.Gen.W4_of_ne m ρ c Cert.KernelIdeal.main_v6 (by decide) : Cert.KernelIdeal.Gen.W4 m ρ c (Proc.devRef .tc Cert.KernelIdeal.main_v6) = Cert.KernelIdeal.Gen.W3 m ρ c (Proc.devRef .tc Cert.KernelIdeal.main_v6))))).trans (h.trans (((Cert.ReferenceIdeal.Fold.opsD1_keeps (Cert.ReferenceIdeal.Fold.U5 m' c) Cert.ReferenceIdeal.main_v6 (by decide) : Cert.ReferenceIdeal.Fold.U6 m' c (Proc.devRef .tc Cert.ReferenceIdeal.main_v6) = Cert.ReferenceIdeal.Fold.U5 m' c (Proc.devRef .tc Cert.ReferenceIdeal.main_v6))).trans (((Cert.ReferenceIdeal.Fold.opsB1_keeps (Cert.ReferenceIdeal.Fold.U4 m' c) Cert.ReferenceIdeal.main_v6 (by decide) : Cert.ReferenceIdeal.Fold.U5 m' c (Proc.devRef .tc Cert.ReferenceIdeal.main_v6) = Cert.ReferenceIdeal.Fold.U4 m' c (Proc.devRef .tc Cert.ReferenceIdeal.main_v6))).trans ((Cert.ReferenceIdeal.Fold.opsD0_keeps (Cert.ReferenceIdeal.Fold.U3 m' c) Cert.ReferenceIdeal.main_v6 (by decide) : Cert.ReferenceIdeal.Fold.U4 m' c (Proc.devRef .tc Cert.ReferenceIdeal.main_v6) = Cert.ReferenceIdeal.Fold.U3 m' c (Proc.devRef .tc Cert.ReferenceIdeal.main_v6))))).symm)
/-- Both sides still hold at boundary 8 what they held of it at boundary 3. -/
theorem v6_at8 (h : (Cert.KernelIdeal.Gen.W3 m ρ c (Proc.devRef .tc Cert.KernelIdeal.main_v6) : Arr ⟨1, ![1700000]⟩ .i32) = Cert.ReferenceIdeal.Fold.U3 m' c (Proc.devRef .tc Cert.ReferenceIdeal.main_v6)) : (Cert.KernelIdeal.Gen.W8 m ρ c (Proc.devRef .tc Cert.KernelIdeal.main_v6) : Arr ⟨1, ![1700000]⟩ .i32) = Cert.ReferenceIdeal.Fold.U8 m' c (Proc.devRef .tc Cert.ReferenceIdeal.main_v6) :=
  (((Cert.KernelIdeal.Gen.W8_of_ne m ρ c Cert.KernelIdeal.main_v6 (by decide) : Cert.KernelIdeal.Gen.W8 m ρ c (Proc.devRef .tc Cert.KernelIdeal.main_v6) = Cert.KernelIdeal.Gen.W7 m ρ c (Proc.devRef .tc Cert.KernelIdeal.main_v6))).trans (((Cert.KernelIdeal.Keep.hostOps2_keeps (Cert.KernelIdeal.Gen.W6 m ρ c) Cert.KernelIdeal.main_v6 (by decide) : Cert.KernelIdeal.Gen.W7 m ρ c (Proc.devRef .tc Cert.KernelIdeal.main_v6) = Cert.KernelIdeal.Gen.W6 m ρ c (Proc.devRef .tc Cert.KernelIdeal.main_v6))).trans (((Cert.KernelIdeal.Gen.W6_of_ne m ρ c Cert.KernelIdeal.main_v6 (by decide) : Cert.KernelIdeal.Gen.W6 m ρ c (Proc.devRef .tc Cert.KernelIdeal.main_v6) = Cert.KernelIdeal.Gen.W5 m ρ c (Proc.devRef .tc Cert.KernelIdeal.main_v6))).trans (((Cert.KernelIdeal.Keep.hostOps1_keeps (Cert.KernelIdeal.Gen.W4 m ρ c) Cert.KernelIdeal.main_v6 (by decide) : Cert.KernelIdeal.Gen.W5 m ρ c (Proc.devRef .tc Cert.KernelIdeal.main_v6) = Cert.KernelIdeal.Gen.W4 m ρ c (Proc.devRef .tc Cert.KernelIdeal.main_v6))).trans ((Cert.KernelIdeal.Gen.W4_of_ne m ρ c Cert.KernelIdeal.main_v6 (by decide) : Cert.KernelIdeal.Gen.W4 m ρ c (Proc.devRef .tc Cert.KernelIdeal.main_v6) = Cert.KernelIdeal.Gen.W3 m ρ c (Proc.devRef .tc Cert.KernelIdeal.main_v6))))))).trans (h.trans (((Cert.ReferenceIdeal.Fold.opsD2_keeps (Cert.ReferenceIdeal.Fold.U7 m' c) Cert.ReferenceIdeal.main_v6 (by decide) : Cert.ReferenceIdeal.Fold.U8 m' c (Proc.devRef .tc Cert.ReferenceIdeal.main_v6) = Cert.ReferenceIdeal.Fold.U7 m' c (Proc.devRef .tc Cert.ReferenceIdeal.main_v6))).trans (((Cert.ReferenceIdeal.Fold.opsB2_keeps (Cert.ReferenceIdeal.Fold.U6 m' c) Cert.ReferenceIdeal.main_v6 (by decide) : Cert.ReferenceIdeal.Fold.U7 m' c (Proc.devRef .tc Cert.ReferenceIdeal.main_v6) = Cert.ReferenceIdeal.Fold.U6 m' c (Proc.devRef .tc Cert.ReferenceIdeal.main_v6))).trans (((Cert.ReferenceIdeal.Fold.opsD1_keeps (Cert.ReferenceIdeal.Fold.U5 m' c) Cert.ReferenceIdeal.main_v6 (by decide) : Cert.ReferenceIdeal.Fold.U6 m' c (Proc.devRef .tc Cert.ReferenceIdeal.main_v6) = Cert.ReferenceIdeal.Fold.U5 m' c (Proc.devRef .tc Cert.ReferenceIdeal.main_v6))).trans (((Cert.ReferenceIdeal.Fold.opsB1_keeps (Cert.ReferenceIdeal.Fold.U4 m' c) Cert.ReferenceIdeal.main_v6 (by decide) : Cert.ReferenceIdeal.Fold.U5 m' c (Proc.devRef .tc Cert.ReferenceIdeal.main_v6) = Cert.ReferenceIdeal.Fold.U4 m' c (Proc.devRef .tc Cert.ReferenceIdeal.main_v6))).trans ((Cert.ReferenceIdeal.Fold.opsD0_keeps (Cert.ReferenceIdeal.Fold.U3 m' c) Cert.ReferenceIdeal.main_v6 (by decide) : Cert.ReferenceIdeal.Fold.U4 m' c (Proc.devRef .tc Cert.ReferenceIdeal.main_v6) = Cert.ReferenceIdeal.Fold.U3 m' c (Proc.devRef .tc Cert.ReferenceIdeal.main_v6))))))).symm)
/-- Both sides still hold at boundary 10 what they held of it at boundary 3. -/
theorem v6_at10 (h : (Cert.KernelIdeal.Gen.W3 m ρ c (Proc.devRef .tc Cert.KernelIdeal.main_v6) : Arr ⟨1, ![1700000]⟩ .i32) = Cert.ReferenceIdeal.Fold.U3 m' c (Proc.devRef .tc Cert.ReferenceIdeal.main_v6)) : (Cert.KernelIdeal.Gen.W10 m ρ c (Proc.devRef .tc Cert.KernelIdeal.main_v6) : Arr ⟨1, ![1700000]⟩ .i32) = Cert.ReferenceIdeal.Fold.U10 m' c (Proc.devRef .tc Cert.ReferenceIdeal.main_v6) :=
  (((Cert.KernelIdeal.Gen.W10_of_ne m ρ c Cert.KernelIdeal.main_v6 (by decide) : Cert.KernelIdeal.Gen.W10 m ρ c (Proc.devRef .tc Cert.KernelIdeal.main_v6) = Cert.KernelIdeal.Gen.W9 m ρ c (Proc.devRef .tc Cert.KernelIdeal.main_v6))).trans (((Cert.KernelIdeal.Keep.hostOps3_keeps (Cert.KernelIdeal.Gen.W8 m ρ c) Cert.KernelIdeal.main_v6 (by decide) : Cert.KernelIdeal.Gen.W9 m ρ c (Proc.devRef .tc Cert.KernelIdeal.main_v6) = Cert.KernelIdeal.Gen.W8 m ρ c (Proc.devRef .tc Cert.KernelIdeal.main_v6))).trans (((Cert.KernelIdeal.Gen.W8_of_ne m ρ c Cert.KernelIdeal.main_v6 (by decide) : Cert.KernelIdeal.Gen.W8 m ρ c (Proc.devRef .tc Cert.KernelIdeal.main_v6) = Cert.KernelIdeal.Gen.W7 m ρ c (Proc.devRef .tc Cert.KernelIdeal.main_v6))).trans (((Cert.KernelIdeal.Keep.hostOps2_keeps (Cert.KernelIdeal.Gen.W6 m ρ c) Cert.KernelIdeal.main_v6 (by decide) : Cert.KernelIdeal.Gen.W7 m ρ c (Proc.devRef .tc Cert.KernelIdeal.main_v6) = Cert.KernelIdeal.Gen.W6 m ρ c (Proc.devRef .tc Cert.KernelIdeal.main_v6))).trans (((Cert.KernelIdeal.Gen.W6_of_ne m ρ c Cert.KernelIdeal.main_v6 (by decide) : Cert.KernelIdeal.Gen.W6 m ρ c (Proc.devRef .tc Cert.KernelIdeal.main_v6) = Cert.KernelIdeal.Gen.W5 m ρ c (Proc.devRef .tc Cert.KernelIdeal.main_v6))).trans (((Cert.KernelIdeal.Keep.hostOps1_keeps (Cert.KernelIdeal.Gen.W4 m ρ c) Cert.KernelIdeal.main_v6 (by decide) : Cert.KernelIdeal.Gen.W5 m ρ c (Proc.devRef .tc Cert.KernelIdeal.main_v6) = Cert.KernelIdeal.Gen.W4 m ρ c (Proc.devRef .tc Cert.KernelIdeal.main_v6))).trans ((Cert.KernelIdeal.Gen.W4_of_ne m ρ c Cert.KernelIdeal.main_v6 (by decide) : Cert.KernelIdeal.Gen.W4 m ρ c (Proc.devRef .tc Cert.KernelIdeal.main_v6) = Cert.KernelIdeal.Gen.W3 m ρ c (Proc.devRef .tc Cert.KernelIdeal.main_v6))))))))).trans (h.trans (((Cert.ReferenceIdeal.Fold.opsD3_keeps (Cert.ReferenceIdeal.Fold.U9 m' c) Cert.ReferenceIdeal.main_v6 (by decide) : Cert.ReferenceIdeal.Fold.U10 m' c (Proc.devRef .tc Cert.ReferenceIdeal.main_v6) = Cert.ReferenceIdeal.Fold.U9 m' c (Proc.devRef .tc Cert.ReferenceIdeal.main_v6))).trans (((Cert.ReferenceIdeal.Fold.opsB3_keeps (Cert.ReferenceIdeal.Fold.U8 m' c) Cert.ReferenceIdeal.main_v6 (by decide) : Cert.ReferenceIdeal.Fold.U9 m' c (Proc.devRef .tc Cert.ReferenceIdeal.main_v6) = Cert.ReferenceIdeal.Fold.U8 m' c (Proc.devRef .tc Cert.ReferenceIdeal.main_v6))).trans (((Cert.ReferenceIdeal.Fold.opsD2_keeps (Cert.ReferenceIdeal.Fold.U7 m' c) Cert.ReferenceIdeal.main_v6 (by decide) : Cert.ReferenceIdeal.Fold.U8 m' c (Proc.devRef .tc Cert.ReferenceIdeal.main_v6) = Cert.ReferenceIdeal.Fold.U7 m' c (Proc.devRef .tc Cert.ReferenceIdeal.main_v6))).trans (((Cert.ReferenceIdeal.Fold.opsB2_keeps (Cert.ReferenceIdeal.Fold.U6 m' c) Cert.ReferenceIdeal.main_v6 (by decide) : Cert.ReferenceIdeal.Fold.U7 m' c (Proc.devRef .tc Cert.ReferenceIdeal.main_v6) = Cert.ReferenceIdeal.Fold.U6 m' c (Proc.devRef .tc Cert.ReferenceIdeal.main_v6))).trans (((Cert.ReferenceIdeal.Fold.opsD1_keeps (Cert.ReferenceIdeal.Fold.U5 m' c) Cert.ReferenceIdeal.main_v6 (by decide) : Cert.ReferenceIdeal.Fold.U6 m' c (Proc.devRef .tc Cert.ReferenceIdeal.main_v6) = Cert.ReferenceIdeal.Fold.U5 m' c (Proc.devRef .tc Cert.ReferenceIdeal.main_v6))).trans (((Cert.ReferenceIdeal.Fold.opsB1_keeps (Cert.ReferenceIdeal.Fold.U4 m' c) Cert.ReferenceIdeal.main_v6 (by decide) : Cert.ReferenceIdeal.Fold.U5 m' c (Proc.devRef .tc Cert.ReferenceIdeal.main_v6) = Cert.ReferenceIdeal.Fold.U4 m' c (Proc.devRef .tc Cert.ReferenceIdeal.main_v6))).trans ((Cert.ReferenceIdeal.Fold.opsD0_keeps (Cert.ReferenceIdeal.Fold.U3 m' c) Cert.ReferenceIdeal.main_v6 (by decide) : Cert.ReferenceIdeal.Fold.U4 m' c (Proc.devRef .tc Cert.ReferenceIdeal.main_v6) = Cert.ReferenceIdeal.Fold.U3 m' c (Proc.devRef .tc Cert.ReferenceIdeal.main_v6))))))))).symm)
/-- Both sides still hold at boundary 4 what they held of it at boundary 3. -/
theorem v29_at4 (h : (Cert.KernelIdeal.Gen.W3 m ρ c (Proc.devRef .tc Cert.KernelIdeal.main_v29) : Arr ⟨1, ![1700000]⟩ .f32) = Cert.ReferenceIdeal.Fold.U3 m' c (Proc.devRef .tc Cert.ReferenceIdeal.main_v29)) : (Cert.KernelIdeal.Gen.W4 m ρ c (Proc.devRef .tc Cert.KernelIdeal.main_v29) : Arr ⟨1, ![1700000]⟩ .f32) = Cert.ReferenceIdeal.Fold.U4 m' c (Proc.devRef .tc Cert.ReferenceIdeal.main_v29) :=
  ((Cert.KernelIdeal.Gen.W4_of_ne m ρ c Cert.KernelIdeal.main_v29 (by decide) : Cert.KernelIdeal.Gen.W4 m ρ c (Proc.devRef .tc Cert.KernelIdeal.main_v29) = Cert.KernelIdeal.Gen.W3 m ρ c (Proc.devRef .tc Cert.KernelIdeal.main_v29))).trans (h.trans ((Cert.ReferenceIdeal.Fold.opsD0_keeps (Cert.ReferenceIdeal.Fold.U3 m' c) Cert.ReferenceIdeal.main_v29 (by decide) : Cert.ReferenceIdeal.Fold.U4 m' c (Proc.devRef .tc Cert.ReferenceIdeal.main_v29) = Cert.ReferenceIdeal.Fold.U3 m' c (Proc.devRef .tc Cert.ReferenceIdeal.main_v29))).symm)
/-- Both sides still hold at boundary 6 what they held of it at boundary 3. -/
theorem v29_at6 (h : (Cert.KernelIdeal.Gen.W3 m ρ c (Proc.devRef .tc Cert.KernelIdeal.main_v29) : Arr ⟨1, ![1700000]⟩ .f32) = Cert.ReferenceIdeal.Fold.U3 m' c (Proc.devRef .tc Cert.ReferenceIdeal.main_v29)) : (Cert.KernelIdeal.Gen.W6 m ρ c (Proc.devRef .tc Cert.KernelIdeal.main_v29) : Arr ⟨1, ![1700000]⟩ .f32) = Cert.ReferenceIdeal.Fold.U6 m' c (Proc.devRef .tc Cert.ReferenceIdeal.main_v29) :=
  (((Cert.KernelIdeal.Gen.W6_of_ne m ρ c Cert.KernelIdeal.main_v29 (by decide) : Cert.KernelIdeal.Gen.W6 m ρ c (Proc.devRef .tc Cert.KernelIdeal.main_v29) = Cert.KernelIdeal.Gen.W5 m ρ c (Proc.devRef .tc Cert.KernelIdeal.main_v29))).trans (((Cert.KernelIdeal.Keep.hostOps1_keeps (Cert.KernelIdeal.Gen.W4 m ρ c) Cert.KernelIdeal.main_v29 (by decide) : Cert.KernelIdeal.Gen.W5 m ρ c (Proc.devRef .tc Cert.KernelIdeal.main_v29) = Cert.KernelIdeal.Gen.W4 m ρ c (Proc.devRef .tc Cert.KernelIdeal.main_v29))).trans ((Cert.KernelIdeal.Gen.W4_of_ne m ρ c Cert.KernelIdeal.main_v29 (by decide) : Cert.KernelIdeal.Gen.W4 m ρ c (Proc.devRef .tc Cert.KernelIdeal.main_v29) = Cert.KernelIdeal.Gen.W3 m ρ c (Proc.devRef .tc Cert.KernelIdeal.main_v29))))).trans (h.trans (((Cert.ReferenceIdeal.Fold.opsD1_keeps (Cert.ReferenceIdeal.Fold.U5 m' c) Cert.ReferenceIdeal.main_v29 (by decide) : Cert.ReferenceIdeal.Fold.U6 m' c (Proc.devRef .tc Cert.ReferenceIdeal.main_v29) = Cert.ReferenceIdeal.Fold.U5 m' c (Proc.devRef .tc Cert.ReferenceIdeal.main_v29))).trans (((Cert.ReferenceIdeal.Fold.opsB1_keeps (Cert.ReferenceIdeal.Fold.U4 m' c) Cert.ReferenceIdeal.main_v29 (by decide) : Cert.ReferenceIdeal.Fold.U5 m' c (Proc.devRef .tc Cert.ReferenceIdeal.main_v29) = Cert.ReferenceIdeal.Fold.U4 m' c (Proc.devRef .tc Cert.ReferenceIdeal.main_v29))).trans ((Cert.ReferenceIdeal.Fold.opsD0_keeps (Cert.ReferenceIdeal.Fold.U3 m' c) Cert.ReferenceIdeal.main_v29 (by decide) : Cert.ReferenceIdeal.Fold.U4 m' c (Proc.devRef .tc Cert.ReferenceIdeal.main_v29) = Cert.ReferenceIdeal.Fold.U3 m' c (Proc.devRef .tc Cert.ReferenceIdeal.main_v29))))).symm)
/-- Both sides still hold at boundary 8 what they held of it at boundary 3. -/
theorem v29_at8 (h : (Cert.KernelIdeal.Gen.W3 m ρ c (Proc.devRef .tc Cert.KernelIdeal.main_v29) : Arr ⟨1, ![1700000]⟩ .f32) = Cert.ReferenceIdeal.Fold.U3 m' c (Proc.devRef .tc Cert.ReferenceIdeal.main_v29)) : (Cert.KernelIdeal.Gen.W8 m ρ c (Proc.devRef .tc Cert.KernelIdeal.main_v29) : Arr ⟨1, ![1700000]⟩ .f32) = Cert.ReferenceIdeal.Fold.U8 m' c (Proc.devRef .tc Cert.ReferenceIdeal.main_v29) :=
  (((Cert.KernelIdeal.Gen.W8_of_ne m ρ c Cert.KernelIdeal.main_v29 (by decide) : Cert.KernelIdeal.Gen.W8 m ρ c (Proc.devRef .tc Cert.KernelIdeal.main_v29) = Cert.KernelIdeal.Gen.W7 m ρ c (Proc.devRef .tc Cert.KernelIdeal.main_v29))).trans (((Cert.KernelIdeal.Keep.hostOps2_keeps (Cert.KernelIdeal.Gen.W6 m ρ c) Cert.KernelIdeal.main_v29 (by decide) : Cert.KernelIdeal.Gen.W7 m ρ c (Proc.devRef .tc Cert.KernelIdeal.main_v29) = Cert.KernelIdeal.Gen.W6 m ρ c (Proc.devRef .tc Cert.KernelIdeal.main_v29))).trans (((Cert.KernelIdeal.Gen.W6_of_ne m ρ c Cert.KernelIdeal.main_v29 (by decide) : Cert.KernelIdeal.Gen.W6 m ρ c (Proc.devRef .tc Cert.KernelIdeal.main_v29) = Cert.KernelIdeal.Gen.W5 m ρ c (Proc.devRef .tc Cert.KernelIdeal.main_v29))).trans (((Cert.KernelIdeal.Keep.hostOps1_keeps (Cert.KernelIdeal.Gen.W4 m ρ c) Cert.KernelIdeal.main_v29 (by decide) : Cert.KernelIdeal.Gen.W5 m ρ c (Proc.devRef .tc Cert.KernelIdeal.main_v29) = Cert.KernelIdeal.Gen.W4 m ρ c (Proc.devRef .tc Cert.KernelIdeal.main_v29))).trans ((Cert.KernelIdeal.Gen.W4_of_ne m ρ c Cert.KernelIdeal.main_v29 (by decide) : Cert.KernelIdeal.Gen.W4 m ρ c (Proc.devRef .tc Cert.KernelIdeal.main_v29) = Cert.KernelIdeal.Gen.W3 m ρ c (Proc.devRef .tc Cert.KernelIdeal.main_v29))))))).trans (h.trans (((Cert.ReferenceIdeal.Fold.opsD2_keeps (Cert.ReferenceIdeal.Fold.U7 m' c) Cert.ReferenceIdeal.main_v29 (by decide) : Cert.ReferenceIdeal.Fold.U8 m' c (Proc.devRef .tc Cert.ReferenceIdeal.main_v29) = Cert.ReferenceIdeal.Fold.U7 m' c (Proc.devRef .tc Cert.ReferenceIdeal.main_v29))).trans (((Cert.ReferenceIdeal.Fold.opsB2_keeps (Cert.ReferenceIdeal.Fold.U6 m' c) Cert.ReferenceIdeal.main_v29 (by decide) : Cert.ReferenceIdeal.Fold.U7 m' c (Proc.devRef .tc Cert.ReferenceIdeal.main_v29) = Cert.ReferenceIdeal.Fold.U6 m' c (Proc.devRef .tc Cert.ReferenceIdeal.main_v29))).trans (((Cert.ReferenceIdeal.Fold.opsD1_keeps (Cert.ReferenceIdeal.Fold.U5 m' c) Cert.ReferenceIdeal.main_v29 (by decide) : Cert.ReferenceIdeal.Fold.U6 m' c (Proc.devRef .tc Cert.ReferenceIdeal.main_v29) = Cert.ReferenceIdeal.Fold.U5 m' c (Proc.devRef .tc Cert.ReferenceIdeal.main_v29))).trans (((Cert.ReferenceIdeal.Fold.opsB1_keeps (Cert.ReferenceIdeal.Fold.U4 m' c) Cert.ReferenceIdeal.main_v29 (by decide) : Cert.ReferenceIdeal.Fold.U5 m' c (Proc.devRef .tc Cert.ReferenceIdeal.main_v29) = Cert.ReferenceIdeal.Fold.U4 m' c (Proc.devRef .tc Cert.ReferenceIdeal.main_v29))).trans ((Cert.ReferenceIdeal.Fold.opsD0_keeps (Cert.ReferenceIdeal.Fold.U3 m' c) Cert.ReferenceIdeal.main_v29 (by decide) : Cert.ReferenceIdeal.Fold.U4 m' c (Proc.devRef .tc Cert.ReferenceIdeal.main_v29) = Cert.ReferenceIdeal.Fold.U3 m' c (Proc.devRef .tc Cert.ReferenceIdeal.main_v29))))))).symm)
/-- Both sides still hold at boundary 10 what they held of it at boundary 3. -/
theorem v29_at10 (h : (Cert.KernelIdeal.Gen.W3 m ρ c (Proc.devRef .tc Cert.KernelIdeal.main_v29) : Arr ⟨1, ![1700000]⟩ .f32) = Cert.ReferenceIdeal.Fold.U3 m' c (Proc.devRef .tc Cert.ReferenceIdeal.main_v29)) : (Cert.KernelIdeal.Gen.W10 m ρ c (Proc.devRef .tc Cert.KernelIdeal.main_v29) : Arr ⟨1, ![1700000]⟩ .f32) = Cert.ReferenceIdeal.Fold.U10 m' c (Proc.devRef .tc Cert.ReferenceIdeal.main_v29) :=
  (((Cert.KernelIdeal.Gen.W10_of_ne m ρ c Cert.KernelIdeal.main_v29 (by decide) : Cert.KernelIdeal.Gen.W10 m ρ c (Proc.devRef .tc Cert.KernelIdeal.main_v29) = Cert.KernelIdeal.Gen.W9 m ρ c (Proc.devRef .tc Cert.KernelIdeal.main_v29))).trans (((Cert.KernelIdeal.Keep.hostOps3_keeps (Cert.KernelIdeal.Gen.W8 m ρ c) Cert.KernelIdeal.main_v29 (by decide) : Cert.KernelIdeal.Gen.W9 m ρ c (Proc.devRef .tc Cert.KernelIdeal.main_v29) = Cert.KernelIdeal.Gen.W8 m ρ c (Proc.devRef .tc Cert.KernelIdeal.main_v29))).trans (((Cert.KernelIdeal.Gen.W8_of_ne m ρ c Cert.KernelIdeal.main_v29 (by decide) : Cert.KernelIdeal.Gen.W8 m ρ c (Proc.devRef .tc Cert.KernelIdeal.main_v29) = Cert.KernelIdeal.Gen.W7 m ρ c (Proc.devRef .tc Cert.KernelIdeal.main_v29))).trans (((Cert.KernelIdeal.Keep.hostOps2_keeps (Cert.KernelIdeal.Gen.W6 m ρ c) Cert.KernelIdeal.main_v29 (by decide) : Cert.KernelIdeal.Gen.W7 m ρ c (Proc.devRef .tc Cert.KernelIdeal.main_v29) = Cert.KernelIdeal.Gen.W6 m ρ c (Proc.devRef .tc Cert.KernelIdeal.main_v29))).trans (((Cert.KernelIdeal.Gen.W6_of_ne m ρ c Cert.KernelIdeal.main_v29 (by decide) : Cert.KernelIdeal.Gen.W6 m ρ c (Proc.devRef .tc Cert.KernelIdeal.main_v29) = Cert.KernelIdeal.Gen.W5 m ρ c (Proc.devRef .tc Cert.KernelIdeal.main_v29))).trans (((Cert.KernelIdeal.Keep.hostOps1_keeps (Cert.KernelIdeal.Gen.W4 m ρ c) Cert.KernelIdeal.main_v29 (by decide) : Cert.KernelIdeal.Gen.W5 m ρ c (Proc.devRef .tc Cert.KernelIdeal.main_v29) = Cert.KernelIdeal.Gen.W4 m ρ c (Proc.devRef .tc Cert.KernelIdeal.main_v29))).trans ((Cert.KernelIdeal.Gen.W4_of_ne m ρ c Cert.KernelIdeal.main_v29 (by decide) : Cert.KernelIdeal.Gen.W4 m ρ c (Proc.devRef .tc Cert.KernelIdeal.main_v29) = Cert.KernelIdeal.Gen.W3 m ρ c (Proc.devRef .tc Cert.KernelIdeal.main_v29))))))))).trans (h.trans (((Cert.ReferenceIdeal.Fold.opsD3_keeps (Cert.ReferenceIdeal.Fold.U9 m' c) Cert.ReferenceIdeal.main_v29 (by decide) : Cert.ReferenceIdeal.Fold.U10 m' c (Proc.devRef .tc Cert.ReferenceIdeal.main_v29) = Cert.ReferenceIdeal.Fold.U9 m' c (Proc.devRef .tc Cert.ReferenceIdeal.main_v29))).trans (((Cert.ReferenceIdeal.Fold.opsB3_keeps (Cert.ReferenceIdeal.Fold.U8 m' c) Cert.ReferenceIdeal.main_v29 (by decide) : Cert.ReferenceIdeal.Fold.U9 m' c (Proc.devRef .tc Cert.ReferenceIdeal.main_v29) = Cert.ReferenceIdeal.Fold.U8 m' c (Proc.devRef .tc Cert.ReferenceIdeal.main_v29))).trans (((Cert.ReferenceIdeal.Fold.opsD2_keeps (Cert.ReferenceIdeal.Fold.U7 m' c) Cert.ReferenceIdeal.main_v29 (by decide) : Cert.ReferenceIdeal.Fold.U8 m' c (Proc.devRef .tc Cert.ReferenceIdeal.main_v29) = Cert.ReferenceIdeal.Fold.U7 m' c (Proc.devRef .tc Cert.ReferenceIdeal.main_v29))).trans (((Cert.ReferenceIdeal.Fold.opsB2_keeps (Cert.ReferenceIdeal.Fold.U6 m' c) Cert.ReferenceIdeal.main_v29 (by decide) : Cert.ReferenceIdeal.Fold.U7 m' c (Proc.devRef .tc Cert.ReferenceIdeal.main_v29) = Cert.ReferenceIdeal.Fold.U6 m' c (Proc.devRef .tc Cert.ReferenceIdeal.main_v29))).trans (((Cert.ReferenceIdeal.Fold.opsD1_keeps (Cert.ReferenceIdeal.Fold.U5 m' c) Cert.ReferenceIdeal.main_v29 (by decide) : Cert.ReferenceIdeal.Fold.U6 m' c (Proc.devRef .tc Cert.ReferenceIdeal.main_v29) = Cert.ReferenceIdeal.Fold.U5 m' c (Proc.devRef .tc Cert.ReferenceIdeal.main_v29))).trans (((Cert.ReferenceIdeal.Fold.opsB1_keeps (Cert.ReferenceIdeal.Fold.U4 m' c) Cert.ReferenceIdeal.main_v29 (by decide) : Cert.ReferenceIdeal.Fold.U5 m' c (Proc.devRef .tc Cert.ReferenceIdeal.main_v29) = Cert.ReferenceIdeal.Fold.U4 m' c (Proc.devRef .tc Cert.ReferenceIdeal.main_v29))).trans ((Cert.ReferenceIdeal.Fold.opsD0_keeps (Cert.ReferenceIdeal.Fold.U3 m' c) Cert.ReferenceIdeal.main_v29 (by decide) : Cert.ReferenceIdeal.Fold.U4 m' c (Proc.devRef .tc Cert.ReferenceIdeal.main_v29) = Cert.ReferenceIdeal.Fold.U3 m' c (Proc.devRef .tc Cert.ReferenceIdeal.main_v29))))))))).symm)
/-- Both sides still hold at boundary 6 what they held of it at boundary 5. -/
theorem v50_at6 (h : (Cert.KernelIdeal.Gen.W5 m ρ c (Proc.devRef .tc Cert.KernelIdeal.main_v50) : Arr ⟨1, ![128]⟩ .f32) = Cert.ReferenceIdeal.Fold.U5 m' c (Proc.devRef .tc Cert.ReferenceIdeal.main_v50)) : (Cert.KernelIdeal.Gen.W6 m ρ c (Proc.devRef .tc Cert.KernelIdeal.main_v50) : Arr ⟨1, ![128]⟩ .f32) = Cert.ReferenceIdeal.Fold.U6 m' c (Proc.devRef .tc Cert.ReferenceIdeal.main_v50) :=
  ((Cert.KernelIdeal.Gen.W6_of_ne m ρ c Cert.KernelIdeal.main_v50 (by decide) : Cert.KernelIdeal.Gen.W6 m ρ c (Proc.devRef .tc Cert.KernelIdeal.main_v50) = Cert.KernelIdeal.Gen.W5 m ρ c (Proc.devRef .tc Cert.KernelIdeal.main_v50))).trans (h.trans ((Cert.ReferenceIdeal.Fold.opsD1_keeps (Cert.ReferenceIdeal.Fold.U5 m' c) Cert.ReferenceIdeal.main_v50 (by decide) : Cert.ReferenceIdeal.Fold.U6 m' c (Proc.devRef .tc Cert.ReferenceIdeal.main_v50) = Cert.ReferenceIdeal.Fold.U5 m' c (Proc.devRef .tc Cert.ReferenceIdeal.main_v50))).symm)
/-- Both sides still hold at boundary 8 what they held of it at boundary 7. -/
theorem v71_at8 (h : (Cert.KernelIdeal.Gen.W7 m ρ c (Proc.devRef .tc Cert.KernelIdeal.main_v71) : Arr ⟨1, ![128]⟩ .f32) = Cert.ReferenceIdeal.Fold.U7 m' c (Proc.devRef .tc Cert.ReferenceIdeal.main_v71)) : (Cert.KernelIdeal.Gen.W8 m ρ c (Proc.devRef .tc Cert.KernelIdeal.main_v71) : Arr ⟨1, ![128]⟩ .f32) = Cert.ReferenceIdeal.Fold.U8 m' c (Proc.devRef .tc Cert.ReferenceIdeal.main_v71) :=
  ((Cert.KernelIdeal.Gen.W8_of_ne m ρ c Cert.KernelIdeal.main_v71 (by decide) : Cert.KernelIdeal.Gen.W8 m ρ c (Proc.devRef .tc Cert.KernelIdeal.main_v71) = Cert.KernelIdeal.Gen.W7 m ρ c (Proc.devRef .tc Cert.KernelIdeal.main_v71))).trans (h.trans ((Cert.ReferenceIdeal.Fold.opsD2_keeps (Cert.ReferenceIdeal.Fold.U7 m' c) Cert.ReferenceIdeal.main_v71 (by decide) : Cert.ReferenceIdeal.Fold.U8 m' c (Proc.devRef .tc Cert.ReferenceIdeal.main_v71) = Cert.ReferenceIdeal.Fold.U7 m' c (Proc.devRef .tc Cert.ReferenceIdeal.main_v71))).symm)
/-- Both sides still hold at boundary 10 what they held of it at boundary 9. -/
theorem v92_at10 (h : (Cert.KernelIdeal.Gen.W9 m ρ c (Proc.devRef .tc Cert.KernelIdeal.main_v92) : Arr ⟨1, ![128]⟩ .f32) = Cert.ReferenceIdeal.Fold.U9 m' c (Proc.devRef .tc Cert.ReferenceIdeal.main_v92)) : (Cert.KernelIdeal.Gen.W10 m ρ c (Proc.devRef .tc Cert.KernelIdeal.main_v92) : Arr ⟨1, ![128]⟩ .f32) = Cert.ReferenceIdeal.Fold.U10 m' c (Proc.devRef .tc Cert.ReferenceIdeal.main_v92) :=
  ((Cert.KernelIdeal.Gen.W10_of_ne m ρ c Cert.KernelIdeal.main_v92 (by decide) : Cert.KernelIdeal.Gen.W10 m ρ c (Proc.devRef .tc Cert.KernelIdeal.main_v92) = Cert.KernelIdeal.Gen.W9 m ρ c (Proc.devRef .tc Cert.KernelIdeal.main_v92))).trans (h.trans ((Cert.ReferenceIdeal.Fold.opsD3_keeps (Cert.ReferenceIdeal.Fold.U9 m' c) Cert.ReferenceIdeal.main_v92 (by decide) : Cert.ReferenceIdeal.Fold.U10 m' c (Proc.devRef .tc Cert.ReferenceIdeal.main_v92) = Cert.ReferenceIdeal.Fold.U9 m' c (Proc.devRef .tc Cert.ReferenceIdeal.main_v92))).symm)

end Cert.Gcn.Carry

end
-- ==== Proof.DenseHost.lean ====
/-
  The reference's dense products, read entry by entry.

  At the extended reals the host's `dot_general` with one contracted axis is the plain sum over that axis of the
  products of the two operands' entries: entry (r, c) of `x · W` is `∑ q, x(r, q) · W(q, c)`.
-/
import proofs.«144633_j4887672783292_1_alg».proof.ReferenceIdeal
import proofs.«144633_j4887672783292_1_alg».proof.Proof.Gen.ReferenceIdeal
import proofs.«144633_j4887672783292_1_alg».proof.Proof.Spec
import Idealize.ShloMosaic.Lib.ValueIdx
import Idealize.ShloMosaic.PureOps.Ideal.Laws

noncomputable section

namespace Cert.ReferenceIdeal.Dense

open Cert.ReferenceIdeal Cert.ReferenceIdeal.Gen Idealize.ShloMosaic Idealize.ShloMosaic.ValueIdx

/-- The first layer's product as the reference states it is the sum over the two input features. -/
theorem dot_in (x : FVec Ideal S100000x2 .f32) (w : FVec Ideal S2x128 .f32) :
    (Host.dotGeneral dot_S100000x2_S2x128_S100000x128_1_0_0_1_n_n none x w : Cert.Gcn.Mat 100000 128) = Cert.Gcn.prodIn x w := by
  funext i
  simp only [Host.dotGeneral]
  rw [Ideal.dotGeneral_apply, ← Equiv.sum_comp (contrEquiv1 dot_S100000x2_S2x128_S100000x128_1_0_0_1_n_n 2 rfl rfl).symm]
  show _ = ∑ q : Fin 2, x (ix2 (Cert.Gcn.row i) q) * w (ix2 q (Cert.Gcn.col i))
  refine Finset.sum_congr rfl fun k _ => ?_
  have hk := contrEquiv1_symm_val dot_S100000x2_S2x128_S100000x128_1_0_0_1_n_n 2 rfl rfl k
  -- the left operand is read at the entry's row and the summed index, the right one at the summed index and the entry's column
  have el : dot_S100000x2_S2x128_S100000x128_1_0_0_1_n_n.lhsIdx i ((contrEquiv1 dot_S100000x2_S2x128_S100000x128_1_0_0_1_n_n 2 rfl rfl).symm k) = ix2 (Cert.Gcn.row i) k := funext fun a => Fin.ext (by
    match a with
    | ⟨0, _⟩ =>
      show (dot_S100000x2_S2x128_S100000x128_1_0_0_1_n_n.lhsIdx i _ 0).val = (i 0).val
      unfold DotDims.lhsIdx
      rw [dif_neg (show ¬(0 : Fin S100000x2.rank) ∈ dot_S100000x2_S2x128_S100000x128_1_0_0_1_n_n.lhsBatch by decide), dif_pos (show (0 : Fin S100000x2.rank) ∈ dot_S100000x2_S2x128_S100000x128_1_0_0_1_n_n.lhsNonContracting by decide)]
      rfl
    | ⟨1, _⟩ => exact (dot_S100000x2_S2x128_S100000x128_1_0_0_1_n_n.lhsIdx_val_of_single rfl i _).trans hk)
  have er : dot_S100000x2_S2x128_S100000x128_1_0_0_1_n_n.rhsIdx i ((contrEquiv1 dot_S100000x2_S2x128_S100000x128_1_0_0_1_n_n 2 rfl rfl).symm k) = ix2 k (Cert.Gcn.col i) := funext fun a => Fin.ext (by
    match a with
    | ⟨0, _⟩ => exact (dot_S100000x2_S2x128_S100000x128_1_0_0_1_n_n.rhsIdx_val_of_single rfl i _).trans hk
    | ⟨1, _⟩ =>
      show (dot_S100000x2_S2x128_S100000x128_1_0_0_1_n_n.rhsIdx i _ 1).val = (i 1).val
      unfold DotDims.rhsIdx
      rw [dif_neg (show ¬(1 : Fin S2x128.rank) ∈ dot_S100000x2_S2x128_S100000x128_1_0_0_1_n_n.rhsBatch by decide), dif_pos (show (1 : Fin S2x128.rank) ∈ dot_S100000x2_S2x128_S100000x128_1_0_0_1_n_n.rhsNonContracting by decide)]
      rfl)
  rw [el, er]

/-- A later layer's product as the reference states it is the sum over the 128 hidden features. -/
theorem dot_hid (x : FVec Ideal S100000x128 .f32) (w : FVec Ideal S128x128 .f32) :
    (Host.dotGeneral dot_S100000x128_S128x128_S100000x128_1_0_0_1_n_n none x w : Cert.Gcn.Mat 100000 128) = Cert.Gcn.prodHid x w := by
  funext i
  simp only [Host.dotGeneral]
  rw [Ideal.dotGeneral_apply, ← Equiv.sum_comp (contrEquiv1 dot_S100000x128_S128x128_S100000x128_1_0_0_1_n_n 128 rfl rfl).symm]
  show _ = ∑ q : Fin 128, x (ix2 (Cert.Gcn.row i) q) * w (ix2 q (Cert.Gcn.col i))
  refine Finset.sum_congr rfl fun k _ => ?_
  have hk := contrEquiv1_symm_val dot_S100000x128_S128x128_S100000x128_1_0_0_1_n_n 128 rfl rfl k
  -- the left operand is read at the entry's row and the summed index, the right one at the summed index and the entry's column
  have el : dot_S100000x128_S128x128_S100000x128_1_0_0_1_n_n.lhsIdx i ((contrEquiv1 dot_S100000x128_S128x128_S100000x128_1_0_0_1_n_n 128 rfl rfl).symm k) = ix2 (Cert.Gcn.row i) k := funext fun a => Fin.ext (by
    match a with
    | ⟨0, _⟩ =>
      show (dot_S100000x128_S128x128_S100000x128_1_0_0_1_n_n.lhsIdx i _ 0).val = (i 0).val
      unfold DotDims.lhsIdx
      rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
      rfl
    | ⟨1, _⟩ => exact (dot_S100000x128_S128x128_S100000x128_1_0_0_1_n_n.lhsIdx_val_of_single rfl i _).trans hk)
  have er : dot_S100000x128_S128x128_S100000x128_1_0_0_1_n_n.rhsIdx i ((contrEquiv1 dot_S100000x128_S128x128_S100000x128_1_0_0_1_n_n 128 rfl rfl).symm k) = ix2 k (Cert.Gcn.col i) := funext fun a => Fin.ext (by
    match a with
    | ⟨0, _⟩ => exact (dot_S100000x128_S128x128_S100000x128_1_0_0_1_n_n.rhsIdx_val_of_single rfl i _).trans hk
    | ⟨1, _⟩ =>
      show (dot_S100000x128_S128x128_S100000x128_1_0_0_1_n_n.rhsIdx i _ 1).val = (i 1).val
      unfold DotDims.rhsIdx
      rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
      rfl)
  rw [el, er]

end Cert.ReferenceIdeal.Dense

end
-- ==== Proof.StretchEdges.lean ====
/-
  The two programs' first stretches agree.

  Before the first dense product both programs build, from the edge list alone, the source and destination of
  every edge with the self loops appended, the in-degree of every node (a sum of ones over incoming edges), its
  reciprocal square root where it is positive, and each edge's weight: that value at the edge's source times
  that at its destination. Both programs apply the same operations in the same order, so from launch memories
  that agree on the edge list the three arrays that later stretches read — sources, destinations, weights — are
  equal: each side's fold is opened to the tree of its operations and the two trees are one.
-/
import proofs.«144633_j4887672783292_1_alg».proof.Proof.Gen.KernelIdeal.Frame
import proofs.«144633_j4887672783292_1_alg».proof.Proof.RefRun
import proofs.«144633_j4887672783292_1_alg».proof.Proof.Spec

set_option maxRecDepth 16384

noncomputable section

namespace Cert.Gcn.Edges

open Idealize.ShloMosaic Idealize.ShloMosaic.TcCoe Idealize.SL.Sem Idealize.ShloMosaic.StableHlo

/-- An array of the given shape and element type, at the extended reals. -/
abbrev Arr (s : Shape) (e : EltTy) : Type := (⟨s, e⟩ : BufTy).Contents (Elt Ideal)

/-- The edge sources, self loops appended. -/
theorem sources (V : Valuation Cert.KernelIdeal.τ Cert.KernelIdeal.sig (Elt Ideal)) (V' : Valuation Cert.ReferenceIdeal.τ Cert.ReferenceIdeal.sig (Elt Ideal))
    (h_arg1 : (V (Proc.devRef .tc Cert.KernelIdeal.main_arg1) : Arr ⟨2, ![2, 1600000]⟩ .i32) = V' (Proc.devRef .tc Cert.ReferenceIdeal.main_arg1)) :
    (after (Cert.KernelIdeal.Gen.hostOps0_2 (F := Ideal)) (after (Cert.KernelIdeal.Gen.hostOps0_1 (F := Ideal)) (after (Cert.KernelIdeal.Gen.hostOps0 (F := Ideal)) V)) (Proc.devRef .tc Cert.KernelIdeal.main_v3) : Arr ⟨1, ![1700000]⟩ .i32)
      = after (Cert.ReferenceIdeal.Fold.opsA2 (F := Ideal)) (after (Cert.ReferenceIdeal.Fold.opsA1 (F := Ideal)) (after (Cert.ReferenceIdeal.Fold.opsA0 (F := Ideal)) V')) (Proc.devRef .tc Cert.ReferenceIdeal.main_v3) := by
  after_results_simp
  -- under the pair a concatenation takes, the one-pass opening stops; the operations' result lemmas finish it
  repeat (first
    | rw [reshape_result] | rw [unary_result] | rw [nullary_result] | rw [binary_result] | rw [ternary_result]
    | (rw [reshape_result_ne]; rotate_left; decide) | (rw [unary_result_ne]; rotate_left; decide)
    | (rw [nullary_result_ne]; rotate_left; decide) | (rw [binary_result_ne]; rotate_left; decide)
    | (rw [ternary_result_ne]; rotate_left; decide))
  rw [h_arg1]
  rfl

/-- The edge destinations, self loops appended. -/
theorem destinations (V : Valuation Cert.KernelIdeal.τ Cert.KernelIdeal.sig (Elt Ideal)) (V' : Valuation Cert.ReferenceIdeal.τ Cert.ReferenceIdeal.sig (Elt Ideal))
    (h_arg1 : (V (Proc.devRef .tc Cert.KernelIdeal.main_arg1) : Arr ⟨2, ![2, 1600000]⟩ .i32) = V' (Proc.devRef .tc Cert.ReferenceIdeal.main_arg1)) :
    (after (Cert.KernelIdeal.Gen.hostOps0_2 (F := Ideal)) (after (Cert.KernelIdeal.Gen.hostOps0_1 (F := Ideal)) (after (Cert.KernelIdeal.Gen.hostOps0 (F := Ideal)) V)) (Proc.devRef .tc Cert.KernelIdeal.main_v6) : Arr ⟨1, ![1700000]⟩ .i32)
      = after (Cert.ReferenceIdeal.Fold.opsA2 (F := Ideal)) (after (Cert.ReferenceIdeal.Fold.opsA1 (F := Ideal)) (after (Cert.ReferenceIdeal.Fold.opsA0 (F := Ideal)) V')) (Proc.devRef .tc Cert.ReferenceIdeal.main_v6) := by
  after_results_simp
  -- under the pair a concatenation takes, the one-pass opening stops; the operations' result lemmas finish it
  repeat (first
    | rw [reshape_result] | rw [unary_result] | rw [nullary_result] | rw [binary_result] | rw [ternary_result]
    | (rw [reshape_result_ne]; rotate_left; decide) | (rw [unary_result_ne]; rotate_left; decide)
    | (rw [nullary_result_ne]; rotate_left; decide) | (rw [binary_result_ne]; rotate_left; decide)
    | (rw [ternary_result_ne]; rotate_left; decide))
  rw [h_arg1]
  rfl

set_option maxHeartbeats 8000000 in
/-- The edge weights: the guarded reciprocal square root of the in-degree at the source times that at the destination. -/
theorem weights (V : Valuation Cert.KernelIdeal.τ Cert.KernelIdeal.sig (Elt Ideal)) (V' : Valuation Cert.ReferenceIdeal.τ Cert.ReferenceIdeal.sig (Elt Ideal))
    (h_arg1 : (V (Proc.devRef .tc Cert.KernelIdeal.main_arg1) : Arr ⟨2, ![2, 1600000]⟩ .i32) = V' (Proc.devRef .tc Cert.ReferenceIdeal.main_arg1)) :
    (after (Cert.KernelIdeal.Gen.hostOps0_2 (F := Ideal)) (after (Cert.KernelIdeal.Gen.hostOps0_1 (F := Ideal)) (after (Cert.KernelIdeal.Gen.hostOps0 (F := Ideal)) V)) (Proc.devRef .tc Cert.KernelIdeal.main_v29) : Arr ⟨1, ![1700000]⟩ .f32)
      = after (Cert.ReferenceIdeal.Fold.opsA2 (F := Ideal)) (after (Cert.ReferenceIdeal.Fold.opsA1 (F := Ideal)) (after (Cert.ReferenceIdeal.Fold.opsA0 (F := Ideal)) V')) (Proc.devRef .tc Cert.ReferenceIdeal.main_v29) := by
  after_results_simp
  -- under the pair a concatenation takes, the one-pass opening stops; the operations' result lemmas finish it
  repeat (first
    | rw [reshape_result] | rw [unary_result] | rw [nullary_result] | rw [binary_result] | rw [ternary_result]
    | (rw [reshape_result_ne]; rotate_left; decide) | (rw [unary_result_ne]; rotate_left; decide)
    | (rw [nullary_result_ne]; rotate_left; decide) | (rw [binary_result_ne]; rotate_left; decide)
    | (rw [ternary_result_ne]; rotate_left; decide))
  rw [h_arg1]
  rfl

end Cert.Gcn.Edges

end
-- ==== Proof.StretchLayers.lean ====
/-
  The two programs' layer stretches agree.

  After a layer's dense product `h`, both programs gather `h` at every edge's source, scale the gathered row by the
  edge's weight, add it into the row of the edge's destination, and add the layer's bias to every row; then they
  cut the next layer's weight matrix and bias out of the stacked arguments. The operations are the same on both
  sides, so from boundaries that agree on what the stretch reads — the product, the edge sources, destinations and
  weights, the bias, the stacked weights and biases — the stretch's results agree.
-/
import proofs.«144633_j4887672783292_1_alg».proof.Proof.Gen.KernelIdeal.Frame
import proofs.«144633_j4887672783292_1_alg».proof.Proof.RefRun
import proofs.«144633_j4887672783292_1_alg».proof.Proof.Spec

set_option maxRecDepth 16384

noncomputable section

namespace Cert.Gcn.Layers

open Idealize.ShloMosaic Idealize.ShloMosaic.TcCoe Idealize.SL.Sem Idealize.ShloMosaic.StableHlo

/-- An array of the given shape and element type, at the extended reals. -/
abbrev Arr (s : Shape) (e : EltTy) : Type := (⟨s, e⟩ : BufTy).Contents (Elt Ideal)

/-- The first layer's output: the edge sum of its dense product, plus its bias. -/
theorem aggregate1 (V : Valuation Cert.KernelIdeal.τ Cert.KernelIdeal.sig (Elt Ideal)) (V' : Valuation Cert.ReferenceIdeal.τ Cert.ReferenceIdeal.sig (Elt Ideal))
    (h_v30 : (V (Proc.devRef .tc Cert.KernelIdeal.main_v30) : Cert.Gcn.Mat 100000 128) = V' (Proc.devRef .tc Cert.ReferenceIdeal.main_v30))
    (h_v3 : (V (Proc.devRef .tc Cert.KernelIdeal.main_v3) : Arr ⟨1, ![1700000]⟩ .i32) = V' (Proc.devRef .tc Cert.ReferenceIdeal.main_v3))
    (h_v6 : (V (Proc.devRef .tc Cert.KernelIdeal.main_v6) : Arr ⟨1, ![1700000]⟩ .i32) = V' (Proc.devRef .tc Cert.ReferenceIdeal.main_v6))
    (h_v29 : (V (Proc.devRef .tc Cert.KernelIdeal.main_v29) : Arr ⟨1, ![1700000]⟩ .f32) = V' (Proc.devRef .tc Cert.ReferenceIdeal.main_v29))
    (h_arg5 : (V (Proc.devRef .tc Cert.KernelIdeal.main_arg5) : Arr ⟨1, ![128]⟩ .f32) = V' (Proc.devRef .tc Cert.ReferenceIdeal.main_arg5)) :
    (after (Cert.KernelIdeal.Gen.hostOps1 (F := Ideal)) V (Proc.devRef .tc Cert.KernelIdeal.main_v46) : Cert.Gcn.Mat 100000 128)
      = after (Cert.ReferenceIdeal.Fold.opsB1 (F := Ideal)) V' (Proc.devRef .tc Cert.ReferenceIdeal.main_v46) := by
  after_results_simp
  rw [h_v30, h_v3, h_v6, h_v29, h_arg5]
  rfl

/-- The second layer's weight matrix, cut out of the stacked weights. -/
theorem nextWeights1 (V : Valuation Cert.KernelIdeal.τ Cert.KernelIdeal.sig (Elt Ideal)) (V' : Valuation Cert.ReferenceIdeal.τ Cert.ReferenceIdeal.sig (Elt Ideal))
    (h_arg6 : (V (Proc.devRef .tc Cert.KernelIdeal.main_arg6) : Arr ⟨3, ![3, 128, 128]⟩ .f32) = V' (Proc.devRef .tc Cert.ReferenceIdeal.main_arg6)) :
    (after (Cert.KernelIdeal.Gen.hostOps1 (F := Ideal)) V (Proc.devRef .tc Cert.KernelIdeal.main_v48) : Cert.Gcn.Mat 128 128)
      = after (Cert.ReferenceIdeal.Fold.opsB1 (F := Ideal)) V' (Proc.devRef .tc Cert.ReferenceIdeal.main_v48) := by
  after_results_simp
  rw [h_arg6]
  rfl

/-- The second layer's bias, cut out of the stacked biases. -/
theorem nextBias1 (V : Valuation Cert.KernelIdeal.τ Cert.KernelIdeal.sig (Elt Ideal)) (V' : Valuation Cert.ReferenceIdeal.τ Cert.ReferenceIdeal.sig (Elt Ideal))
    (h_arg7 : (V (Proc.devRef .tc Cert.KernelIdeal.main_arg7) : Arr ⟨2, ![3, 128]⟩ .f32) = V' (Proc.devRef .tc Cert.ReferenceIdeal.main_arg7)) :
    (after (Cert.KernelIdeal.Gen.hostOps1 (F := Ideal)) V (Proc.devRef .tc Cert.KernelIdeal.main_v50) : Arr ⟨1, ![128]⟩ .f32)
      = after (Cert.ReferenceIdeal.Fold.opsB1 (F := Ideal)) V' (Proc.devRef .tc Cert.ReferenceIdeal.main_v50) := by
  after_results_simp
  rw [h_arg7]
  rfl

/-- The second layer's output: the edge sum of its dense product, plus its bias. -/
theorem aggregate2 (V : Valuation Cert.KernelIdeal.τ Cert.KernelIdeal.sig (Elt Ideal)) (V' : Valuation Cert.ReferenceIdeal.τ Cert.ReferenceIdeal.sig (Elt Ideal))
    (h_v51 : (V (Proc.devRef .tc Cert.KernelIdeal.main_v51) : Cert.Gcn.Mat 100000 128) = V' (Proc.devRef .tc Cert.ReferenceIdeal.main_v51))
    (h_v3 : (V (Proc.devRef .tc Cert.KernelIdeal.main_v3) : Arr ⟨1, ![1700000]⟩ .i32) = V' (Proc.devRef .tc Cert.ReferenceIdeal.main_v3))
    (h_v6 : (V (Proc.devRef .tc Cert.KernelIdeal.main_v6) : Arr ⟨1, ![1700000]⟩ .i32) = V' (Proc.devRef .tc Cert.ReferenceIdeal.main_v6))
    (h_v29 : (V (Proc.devRef .tc Cert.KernelIdeal.main_v29) : Arr ⟨1, ![1700000]⟩ .f32) = V' (Proc.devRef .tc Cert.ReferenceIdeal.main_v29))
    (h_v50 : (V (Proc.devRef .tc Cert.KernelIdeal.main_v50) : Arr ⟨1, ![128]⟩ .f32) = V' (Proc.devRef .tc Cert.ReferenceIdeal.main_v50)) :
    (after (Cert.KernelIdeal.Gen.hostOps2 (F := Ideal)) V (Proc.devRef .tc Cert.KernelIdeal.main_v67) : Cert.Gcn.Mat 100000 128)
      = after (Cert.ReferenceIdeal.Fold.opsB2 (F := Ideal)) V' (Proc.devRef .tc Cert.ReferenceIdeal.main_v67) := by
  after_results_simp
  rw [h_v51, h_v3, h_v6, h_v29, h_v50]
  rfl

/-- The third layer's weight matrix, cut out of the stacked weights. -/
theorem nextWeights2 (V : Valuation Cert.KernelIdeal.τ Cert.KernelIdeal.sig (Elt Ideal)) (V' : Valuation Cert.ReferenceIdeal.τ Cert.ReferenceIdeal.sig (Elt Ideal))
    (h_arg6 : (V (Proc.devRef .tc Cert.KernelIdeal.main_arg6) : Arr ⟨3, ![3, 128, 128]⟩ .f32) = V' (Proc.devRef .tc Cert.ReferenceIdeal.main_arg6)) :
    (after (Cert.KernelIdeal.Gen.hostOps2 (F := Ideal)) V (Proc.devRef .tc Cert.KernelIdeal.main_v69) : Cert.Gcn.Mat 128 128)
      = after (Cert.ReferenceIdeal.Fold.opsB2 (F := Ideal)) V' (Proc.devRef .tc Cert.ReferenceIdeal.main_v69) := by
  after_results_simp
  rw [h_arg6]
  rfl

/-- The third layer's bias, cut out of the stacked biases. -/
theorem nextBias2 (V : Valuation Cert.KernelIdeal.τ Cert.KernelIdeal.sig (Elt Ideal)) (V' : Valuation Cert.ReferenceIdeal.τ Cert.ReferenceIdeal.sig (Elt Ideal))
    (h_arg7 : (V (Proc.devRef .tc Cert.KernelIdeal.main_arg7) : Arr ⟨2, ![3, 128]⟩ .f32) = V' (Proc.devRef .tc Cert.ReferenceIdeal.main_arg7)) :
    (after (Cert.KernelIdeal.Gen.hostOps2 (F := Ideal)) V (Proc.devRef .tc Cert.KernelIdeal.main_v71) : Arr ⟨1, ![128]⟩ .f32)
      = after (Cert.ReferenceIdeal.Fold.opsB2 (F := Ideal)) V' (Proc.devRef .tc Cert.ReferenceIdeal.main_v71) := by
  after_results_simp
  rw [h_arg7]
  rfl

/-- The third layer's output: the edge sum of its dense product, plus its bias. -/
theorem aggregate3 (V : Valuation Cert.KernelIdeal.τ Cert.KernelIdeal.sig (Elt Ideal)) (V' : Valuation Cert.ReferenceIdeal.τ Cert.ReferenceIdeal.sig (Elt Ideal))
    (h_v72 : (V (Proc.devRef .tc Cert.KernelIdeal.main_v72) : Cert.Gcn.Mat 100000 128) = V' (Proc.devRef .tc Cert.ReferenceIdeal.main_v72))
    (h_v3 : (V (Proc.devRef .tc Cert.KernelIdeal.main_v3) : Arr ⟨1, ![1700000]⟩ .i32) = V' (Proc.devRef .tc Cert.ReferenceIdeal.main_v3))
    (h_v6 : (V (Proc.devRef .tc Cert.KernelIdeal.main_v6) : Arr ⟨1, ![1700000]⟩ .i32) = V' (Proc.devRef .tc Cert.ReferenceIdeal.main_v6))
    (h_v29 : (V (Proc.devRef .tc Cert.KernelIdeal.main_v29) : Arr ⟨1, ![1700000]⟩ .f32) = V' (Proc.devRef .tc Cert.ReferenceIdeal.main_v29))
    (h_v71 : (V (Proc.devRef .tc Cert.KernelIdeal.main_v71) : Arr ⟨1, ![128]⟩ .f32) = V' (Proc.devRef .tc Cert.ReferenceIdeal.main_v71)) :
    (after (Cert.KernelIdeal.Gen.hostOps3 (F := Ideal)) V (Proc.devRef .tc Cert.KernelIdeal.main_v88) : Cert.Gcn.Mat 100000 128)
      = after (Cert.ReferenceIdeal.Fold.opsB3 (F := Ideal)) V' (Proc.devRef .tc Cert.ReferenceIdeal.main_v88) := by
  after_results_simp
  rw [h_v72, h_v3, h_v6, h_v29, h_v71]
  rfl

/-- The fourth layer's weight matrix, cut out of the stacked weights. -/
theorem nextWeights3 (V : Valuation Cert.KernelIdeal.τ Cert.KernelIdeal.sig (Elt Ideal)) (V' : Valuation Cert.ReferenceIdeal.τ Cert.ReferenceIdeal.sig (Elt Ideal))
    (h_arg6 : (V (Proc.devRef .tc Cert.KernelIdeal.main_arg6) : Arr ⟨3, ![3, 128, 128]⟩ .f32) = V' (Proc.devRef .tc Cert.ReferenceIdeal.main_arg6)) :
    (after (Cert.KernelIdeal.Gen.hostOps3 (F := Ideal)) V (Proc.devRef .tc Cert.KernelIdeal.main_v90) : Cert.Gcn.Mat 128 128)
      = after (Cert.ReferenceIdeal.Fold.opsB3 (F := Ideal)) V' (Proc.devRef .tc Cert.ReferenceIdeal.main_v90) := by
  after_results_simp
  rw [h_arg6]
  rfl

/-- The fourth layer's bias, cut out of the stacked biases. -/
theorem nextBias3 (V : Valuation Cert.KernelIdeal.τ Cert.KernelIdeal.sig (Elt Ideal)) (V' : Valuation Cert.ReferenceIdeal.τ Cert.ReferenceIdeal.sig (Elt Ideal))
    (h_arg7 : (V (Proc.devRef .tc Cert.KernelIdeal.main_arg7) : Arr ⟨2, ![3, 128]⟩ .f32) = V' (Proc.devRef .tc Cert.ReferenceIdeal.main_arg7)) :
    (after (Cert.KernelIdeal.Gen.hostOps3 (F := Ideal)) V (Proc.devRef .tc Cert.KernelIdeal.main_v92) : Arr ⟨1, ![128]⟩ .f32)
      = after (Cert.ReferenceIdeal.Fold.opsB3 (F := Ideal)) V' (Proc.devRef .tc Cert.ReferenceIdeal.main_v92) := by
  after_results_simp
  rw [h_arg7]
  rfl

end Cert.Gcn.Layers

end
-- ==== Proof.StretchPool.lean ====
/-
  The two programs' last stretch agrees.

  After the fourth layer's dense product both programs form the layer's output as before, sum the node rows of
  each subgraph, and sum the subgraph rows of each graph: the 64 pooled rows the perceptron reads.
-/
import proofs.«144633_j4887672783292_1_alg».proof.Proof.Gen.KernelIdeal.Frame
import proofs.«144633_j4887672783292_1_alg».proof.Proof.RefRun
import proofs.«144633_j4887672783292_1_alg».proof.Proof.Spec

set_option maxRecDepth 16384

noncomputable section

namespace Cert.Gcn.Pool

open Idealize.ShloMosaic Idealize.ShloMosaic.TcCoe Idealize.SL.Sem Idealize.ShloMosaic.StableHlo

/-- An array of the given shape and element type, at the extended reals. -/
abbrev Arr (s : Shape) (e : EltTy) : Type := (⟨s, e⟩ : BufTy).Contents (Elt Ideal)

/-- The 64 pooled graph rows: the fourth layer's output summed per subgraph, then per graph. -/
theorem pooled (V : Valuation Cert.KernelIdeal.τ Cert.KernelIdeal.sig (Elt Ideal)) (V' : Valuation Cert.ReferenceIdeal.τ Cert.ReferenceIdeal.sig (Elt Ideal))
    (h_v93 : (V (Proc.devRef .tc Cert.KernelIdeal.main_v93) : Cert.Gcn.Mat 100000 128) = V' (Proc.devRef .tc Cert.ReferenceIdeal.main_v93))
    (h_v3 : (V (Proc.devRef .tc Cert.KernelIdeal.main_v3) : Arr ⟨1, ![1700000]⟩ .i32) = V' (Proc.devRef .tc Cert.ReferenceIdeal.main_v3))
    (h_v6 : (V (Proc.devRef .tc Cert.KernelIdeal.main_v6) : Arr ⟨1, ![1700000]⟩ .i32) = V' (Proc.devRef .tc Cert.ReferenceIdeal.main_v6))
    (h_v29 : (V (Proc.devRef .tc Cert.KernelIdeal.main_v29) : Arr ⟨1, ![1700000]⟩ .f32) = V' (Proc.devRef .tc Cert.ReferenceIdeal.main_v29))
    (h_v92 : (V (Proc.devRef .tc Cert.KernelIdeal.main_v92) : Arr ⟨1, ![128]⟩ .f32) = V' (Proc.devRef .tc Cert.ReferenceIdeal.main_v92))
    (h_arg2 : (V (Proc.devRef .tc Cert.KernelIdeal.main_arg2) : Arr ⟨1, ![100000]⟩ .i32) = V' (Proc.devRef .tc Cert.ReferenceIdeal.main_arg2))
    (h_arg3 : (V (Proc.devRef .tc Cert.KernelIdeal.main_arg3) : Arr ⟨1, ![2000]⟩ .i32) = V' (Proc.devRef .tc Cert.ReferenceIdeal.main_arg3)) :
    (after (Cert.KernelIdeal.Gen.hostOps4 (F := Ideal)) V (Proc.devRef .tc Cert.KernelIdeal.main_v115) : Cert.Gcn.Mat 64 128)
      = after (Cert.ReferenceIdeal.Fold.opsB4 (F := Ideal)) V' (Proc.devRef .tc Cert.ReferenceIdeal.main_v115) := by
  after_results_simp
  rw [h_v93, h_v3, h_v6, h_v29, h_v92, h_arg2, h_arg3]
  rfl

end Cert.Gcn.Pool

end
-- ==== Proof.DenseRegion0.lean ====
/-
  The first layer's dense product, as one launch computes it.

  The launch walks the 100000 node rows in 20 blocks of 5000. At each block it multiplies the block's 5000 × 2
  features by the whole 2 × 128 weight matrix on the matrix unit, into a zero accumulator, after a change of float
  format that is the identity on the extended reals, and writes the 5000 × 128 result back as the same rows of the
  output array. An entry of the output therefore depends on one row of the features and one column of the
  weights only, and since every row lies in exactly one block, the output array is the whole product.
-/
import proofs.«144633_j4887672783292_1_alg».proof.Proof.Gen.KernelIdeal.Frame
import proofs.«144633_j4887672783292_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

/-! ## The product of one block -/

/-- The matrix unit's dimension numbers for a 5000 × 2 block against the 2 × 128 weights. -/
abbrev dims0 : DotDims S5000x2 S2x128 S5000x128 := dot_S5000x2_S2x128_S5000x128_1_0_0_1_n_n

/-- The left operand is read at the result's row … -/
theorem lhs0_row (i : S5000x128.Idx) (q : dims0.contr.Idx) : (dims0.lhsIdx i q 0).val = (i 0).val := by
  unfold DotDims.lhsIdx
  rw [dif_neg (show ¬(0 : Fin S5000x2.rank) ∈ dims0.lhsBatch by decide),
    dif_pos (show (0 : Fin S5000x2.rank) ∈ dims0.lhsNonContracting by decide)]
  rfl

/-- … and at the contracted position; -/
theorem lhs0_col (i : S5000x128.Idx) (q : dims0.contr.Idx) : (dims0.lhsIdx i q 1).val = (q ⟨0, by decide⟩).val :=
  dims0.lhsIdx_val_of_single rfl i q

/-- the right operand at the contracted position … -/
theorem rhs0_row (i : S5000x128.Idx) (q : dims0.contr.Idx) : (dims0.rhsIdx i q 0).val = (q ⟨0, by decide⟩).val :=
  dims0.rhsIdx_val_of_single rfl i q

/-- … and at the result's column. -/
theorem rhs0_col (i : S5000x128.Idx) (q : dims0.contr.Idx) : (dims0.rhsIdx i q 1).val = (i 1).val := by
  unfold DotDims.rhsIdx
  rw [dif_neg (show ¬(1 : Fin S2x128.rank) ∈ dims0.rhsBatch by decide),
    dif_pos (show (1 : Fin S2x128.rank) ∈ dims0.rhsNonContracting by decide)]
  rfl

/-- What the body stores, entry by entry: the change of format is the identity and the accumulator is zero, so the
    entry at row `r` and column `c` is the sum over the two features of the block's row `r` against the weights'
    column `c`. -/
theorem block0_apply (x : Vec Ideal S5000x2 .f32) (w : Vec Ideal S2x128 .f32) (r : Fin 5000) (c : Fin 128) :
    k0_pay1 (F := Ideal) x w (ix2 r c) = ∑ q : Fin 2, x (ix2 r q) * w (ix2 q c) := by
  unfold k0_pay1
  refine (Ideal.matmul_constant_zero_apply dims0 none _ _ (ix2 r c)).trans ?_
  rw [← Equiv.sum_comp (contrEquiv1 dims0 2 rfl rfl).symm]
  refine Finset.sum_congr rfl fun k _ => ?_
  have hk := contrEquiv1_symm_val dims0 2 rfl rfl k
  have el : dims0.lhsIdx (ix2 r c) ((contrEquiv1 dims0 2 rfl rfl).symm k) = ix2 r k := funext fun a => Fin.ext (by
    match a with
    | ⟨0, _⟩ => exact lhs0_row _ _
    | ⟨1, _⟩ => exact (lhs0_col _ _).trans hk)
  have er : dims0.rhsIdx (ix2 r c) ((contrEquiv1 dims0 2 rfl rfl).symm k) = ix2 k c := funext fun a => Fin.ext (by
    match a with
    | ⟨0, _⟩ => exact (rhs0_row _ _).trans hk
    | ⟨1, _⟩ => exact rhs0_col _ _)
  rw [el, er]
  rfl

/-- The same against whole matrices: if row `r` of the block holds row `R` of a 100000 × 2 matrix and the weights'
    block holds the weight matrix's column, the entry is the whole product's entry at row `R`. The rows and columns
    are those of the two indices `J` (in the block) and `I` (in the array). -/
theorem block0_entry (X : Cert.Gcn.Mat 100000 2) (Wt : Cert.Gcn.Mat 2 128)
    (x : Vec Ideal S5000x2 .f32) (w : Vec Ideal S2x128 .f32) (J : S5000x128.Idx) (I : S100000x128.Idx)
    (hx : ∀ q : Fin 2, x (ix2 (Cert.Gcn.row J) q) = X (ix2 (Cert.Gcn.row I) q))
    (hw : ∀ q : Fin 2, w (ix2 q (Cert.Gcn.col J)) = Wt (ix2 q (Cert.Gcn.col I))) :
    k0_pay1 (F := Ideal) x w J = Cert.Gcn.prodIn X Wt I :=
  (congrArg (k0_pay1 (F := Ideal) x w) (Cert.Gcn.eq_row_col J)).trans
    ((block0_apply x w (Cert.Gcn.row J) (Cert.Gcn.col J)).trans
      (Finset.sum_congr rfl fun q _ => by rw [hx q, hw q]))

/-! ## From blocks to the array -/

/-- The body reads and writes its blocks from the origin. -/
theorem origin0 : (![0, 0] : Fin 2 → Nat) = fun _ => 0 := funext fun a => by fin_cases a <;> rfl

/-- The three windows' block indices at a grid point: the features' and the result's blocks are the point's own
    (block `t` is rows `5000 t … 5000 t + 4999`), the weights' block is always the whole matrix. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- WHAT A GRID POINT WRITES BACK: block `t` of the whole product. The features' block at the point is rows
    `5000 t …` of the features, the weights' block is the weight matrix, and the result's block is the same rows of the
    output, so entry by entry the block's product is the whole product's entry at the row the block's row stands for. -/
theorem written0 (c : Dev nD) (t : Fin cfg0.N) :
    (dat0 (F := Ideal) V c).flushed 2 t
      = ((cfg0.win 2).blk t).view.read (Elt Ideal)
          (Cert.Gcn.prodIn (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero origin0]
  simp only [View.ld_unit_zero (S := S5000x2) origin0, View.ld_unit_zero (S := S2x128) origin0]
  obtain ⟨e00, e01, e10, e11, e20, e21⟩ := index0 t
  funext j
  have hj0 : (j 0).val < 5000 := (j 0).isLt
  have hj1 : (j 1).val < 128 := (j 1).isLt
  refine block0_entry (V c (Pipeline.arrRef spec0 0)) (V c (Pipeline.arrRef spec0 1)) (iblk0 V c 0 t) (iblk0 V c 1 t)
    ((cfg0.win 2).xinj (grid0.coords t) j) (((cfg0.win 2).blk t).view.emb j) (fun q => ?_) (fun q => ?_)
  · show (V c (Pipeline.arrRef spec0 0) : S100000x2.Idx → EReal)
        (((cfg0.win 0).blk t).view.emb (ix2 (Cert.Gcn.row ((cfg0.win 2).xinj (grid0.coords t) j)) q)) = _
    refine congrArg (V c (Pipeline.arrRef spec0 0) : S100000x2.Idx → EReal) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 2 + 1 * q.val = q.val
      omega
  · show (V c (Pipeline.arrRef spec0 1) : S2x128.Idx → EReal)
        (((cfg0.win 1).blk t).view.emb (ix2 q (Cert.Gcn.col ((cfg0.win 2).xinj (grid0.coords t) j)))) = _
    refine congrArg (V c (Pipeline.arrRef spec0 1) : S2x128.Idx → EReal) (funext fun a => Fin.ext ?_)
    match a with
    | ⟨0, _⟩ =>
      show win0_1.index t (0 : Fin 2) * 2 + 1 * q.val = q.val
      omega
    | ⟨1, _⟩ =>
      show win0_1.index t (1 : Fin 2) * 128 + 1 * (j 1).val = win0_2.index t (1 : Fin 2) * 128 + 1 * (j 1).val
      omega

/-- Every row lies in a block that is written back: row `r` in block `r / 5000`. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e20, e21⟩ := index0 t
  refine ⟨t, flush0_2 t, ?_⟩
  show i ∈ ((View.whole main_v30).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- THE LAUNCH'S RESULT: the output array ends holding the whole product of the two arrays the launch finds. -/
theorem region0 (c : Dev nD) :
    (dat0 (F := Ideal) V c).arrAt 2 cfg0.N
      = Cert.Gcn.prodIn (V c (Pipeline.arrRef spec0 0)) (V c (Pipeline.arrRef spec0 1)) :=
  (dat0 (F := Ideal) V c).arrAt_eq_of_cover 2
    (Cert.Gcn.prodIn (V c (Pipeline.arrRef spec0 0)) (V c (Pipeline.arrRef spec0 1)))
    (fun t _ => written0 V c t) covered0

end Cert.KernelIdeal.Dense

end
-- ==== Proof.DenseRegion1.lean ====
/-
  A later layer's dense product, as one launch computes it (the second of the four launches of this kind).

  The launch walks the 100000 node rows in 20 blocks of 5000. At each block it multiplies the block's 5000 × 128
  features by the whole 128 × 128 weight matrix on the matrix unit, into a zero accumulator, after a reshaping to the
  same shape and a change of float format that are both the identity on the extended reals, and writes the
  5000 × 128 result back as the same rows of the output array. An entry of the output therefore depends on one row
  of the features and one column of the weights only, and since every row lies in exactly one block, the output
  array is the whole product.
-/
import proofs.«144633_j4887672783292_1_alg».proof.Proof.Gen.KernelIdeal.Frame
import proofs.«144633_j4887672783292_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

/-! ## The product of one block -/

/-- The matrix unit's dimension numbers for a 5000 × 128 block against the 128 × 128 weights. -/
abbrev dims1 : DotDims S5000x128 S128x128 S5000x128 := dot_S5000x128_S128x128_S5000x128_1_0_0_1_n_n

/-- The left operand is read at the result's row … -/
theorem lhs1_row (i : S5000x128.Idx) (q : dims1.contr.Idx) : (dims1.lhsIdx i q 0).val = (i 0).val := by
  unfold DotDims.lhsIdx
  rw [dif_neg (show ¬(0 : Fin S5000x128.rank) ∈ dims1.lhsBatch by decide),
    dif_pos (show (0 : Fin S5000x128.rank) ∈ dims1.lhsNonContracting by decide)]
  rfl

/-- … and at the contracted position; -/
theorem lhs1_col (i : S5000x128.Idx) (q : dims1.contr.Idx) : (dims1.lhsIdx i q 1).val = (q ⟨0, by decide⟩).val :=
  dims1.lhsIdx_val_of_single rfl i q

/-- the right operand at the contracted position … -/
theorem rhs1_row (i : S5000x128.Idx) (q : dims1.contr.Idx) : (dims1.rhsIdx i q 0).val = (q ⟨0, by decide⟩).val :=
  dims1.rhsIdx_val_of_single rfl i q

/-- … and at the result's column. -/
theorem rhs1_col (i : S5000x128.Idx) (q : dims1.contr.Idx) : (dims1.rhsIdx i q 1).val = (i 1).val := by
  unfold DotDims.rhsIdx
  rw [dif_neg (show ¬(1 : Fin S128x128.rank) ∈ dims1.rhsBatch by decide),
    dif_pos (show (1 : Fin S128x128.rank) ∈ dims1.rhsNonContracting by decide)]
  rfl

/-- What the body stores, entry by entry: the reshaping to the same shape and the change of format are the identity
    and the accumulator is zero, so the entry at row `r` and column `c` is the sum over the 128 features of the
    block's row `r` against the weights' column `c`. -/
theorem block1_apply (x : Vec Ideal S5000x128 .f32) (w : Vec Ideal S128x128 .f32) (r : Fin 5000) (c : Fin 128) :
    k1_pay1 (F := Ideal) x w (ix2 r c) = ∑ q : Fin 128, x (ix2 r q) * w (ix2 q c) := by
  unfold k1_pay1
  refine (Ideal.matmul_constant_zero_apply dims1 none _ _ (ix2 r c)).trans ?_
  rw [← Equiv.sum_comp (contrEquiv1 dims1 128 rfl rfl).symm]
  refine Finset.sum_congr rfl fun k _ => ?_
  have hk := contrEquiv1_symm_val dims1 128 rfl rfl k
  have el : dims1.lhsIdx (ix2 r c) ((contrEquiv1 dims1 128 rfl rfl).symm k) = ix2 r k := funext fun a => Fin.ext (by
    match a with
    | ⟨0, _⟩ => exact lhs1_row _ _
    | ⟨1, _⟩ => exact (lhs1_col _ _).trans hk)
  have er : dims1.rhsIdx (ix2 r c) ((contrEquiv1 dims1 128 rfl rfl).symm k) = ix2 k c := funext fun a => Fin.ext (by
    match a with
    | ⟨0, _⟩ => exact (rhs1_row _ _).trans hk
    | ⟨1, _⟩ => exact rhs1_col _ _)
  rw [el, er]
  show shapeCast S5000x128 x shapeCasts_S5000x128_S5000x128 (ix2 r k) * shapeCast S128x128 w shapeCasts_S128x128_S128x128 (ix2 k c) = _
  rw [shapeCast_self, shapeCast_self]

/-- The same against whole matrices: if row `r` of the block holds row `R` of a 100000 × 128 matrix and the weights'
    block holds the weight matrix's column, the entry is the whole product's entry at row `R`. The rows and columns
    are those of the two indices `J` (in the block) and `I` (in the array). -/
theorem block1_entry (X : Cert.Gcn.Mat 100000 128) (Wt : Cert.Gcn.Mat 128 128)
    (x : Vec Ideal S5000x128 .f32) (w : Vec Ideal S128x128 .f32) (J : S5000x128.Idx) (I : S100000x128.Idx)
    (hx : ∀ q : Fin 128, x (ix2 (Cert.Gcn.row J) q) = X (ix2 (Cert.Gcn.row I) q))
    (hw : ∀ q : Fin 128, w (ix2 q (Cert.Gcn.col J)) = Wt (ix2 q (Cert.Gcn.col I))) :
    k1_pay1 (F := Ideal) x w J = Cert.Gcn.prodHid X Wt I :=
  (congrArg (k1_pay1 (F := Ideal) x w) (Cert.Gcn.eq_row_col J)).trans
    ((block1_apply x w (Cert.Gcn.row J) (Cert.Gcn.col J)).trans
      (Finset.sum_congr rfl fun q _ => by rw [hx q, hw q]))

/-! ## From blocks to the array -/

/-- The body reads and writes its blocks from the origin. -/
theorem origin1 : (![0, 0] : Fin 2 → Nat) = fun _ => 0 := funext fun a => by fin_cases a <;> rfl

/-- The three windows' block indices at a grid point: the features' and the result's blocks are the point's own
    (block `t` is rows `5000 t … 5000 t + 4999`), the weights' block is always the whole matrix. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

-- reading an array's contents as a function of a literal index type unfolds the array's entry in the program's
-- table of buffers, once for every place the contents are named
set_option maxHeartbeats 1000000 in
/-- WHAT A GRID POINT WRITES BACK: block `t` of the whole product. The features' block at the point is rows
    `5000 t …` of the features, the weights' block is the weight matrix, and the result's block is the same rows of the
    output, so entry by entry the block's product is the whole product's entry at the row the block's row stands for. -/
theorem written1 (c : Dev nD) (t : Fin cfg1.N) :
    (dat1 (F := Ideal) V c).flushed 2 t
      = ((cfg1.win 2).blk t).view.read (Elt Ideal)
          (Cert.Gcn.prodHid (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero origin1]
  simp only [View.ld_unit_zero (S := S5000x128) origin1, View.ld_unit_zero (S := S128x128) origin1]
  obtain ⟨e00, e01, e10, e11, e20, e21⟩ := index1 t
  funext j
  have hj0 : (j 0).val < 5000 := (j 0).isLt
  have hj1 : (j 1).val < 128 := (j 1).isLt
  refine block1_entry (V c (Pipeline.arrRef spec1 0)) (V c (Pipeline.arrRef spec1 1)) (iblk1 V c 0 t) (iblk1 V c 1 t)
    ((cfg1.win 2).xinj (grid1.coords t) j) (((cfg1.win 2).blk t).view.emb j) (fun q => ?_) (fun q => ?_)
  · show (V c (Pipeline.arrRef spec1 0) : S100000x128.Idx → EReal)
        (((cfg1.win 0).blk t).view.emb (ix2 (Cert.Gcn.row ((cfg1.win 2).xinj (grid1.coords t) j)) q)) = _
    refine congrArg (V c (Pipeline.arrRef spec1 0) : S100000x128.Idx → EReal) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * q.val = q.val
      omega
  · show (V c (Pipeline.arrRef spec1 1) : S128x128.Idx → EReal)
        (((cfg1.win 1).blk t).view.emb (ix2 q (Cert.Gcn.col ((cfg1.win 2).xinj (grid1.coords t) j)))) = _
    refine congrArg (V c (Pipeline.arrRef spec1 1) : S128x128.Idx → EReal) (funext fun a => Fin.ext ?_)
    match a with
    | ⟨0, _⟩ =>
      show win1_1.index t (0 : Fin 2) * 128 + 1 * q.val = q.val
      omega
    | ⟨1, _⟩ =>
      show win1_1.index t (1 : Fin 2) * 128 + 1 * (j 1).val = win1_2.index t (1 : Fin 2) * 128 + 1 * (j 1).val
      omega

/-- Every row lies in a block that is written back: row `r` in block `r / 5000`. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, e20, e21⟩ := index1 t
  refine ⟨t, flush1_2 t, ?_⟩
  show i ∈ ((View.whole main_v51).slice (win1_2.rect t)).set
  rw [View.set_slice_whole, Rect.mem_set_unit]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- THE LAUNCH'S RESULT: the output array ends holding the whole product of the two arrays the launch finds. -/
theorem region1 (c : Dev nD) :
    (dat1 (F := Ideal) V c).arrAt 2 cfg1.N
      = Cert.Gcn.prodHid (V c (Pipeline.arrRef spec1 0)) (V c (Pipeline.arrRef spec1 1)) :=
  (dat1 (F := Ideal) V c).arrAt_eq_of_cover 2
    (Cert.Gcn.prodHid (V c (Pipeline.arrRef spec1 0)) (V c (Pipeline.arrRef spec1 1)))
    (fun t _ => written1 V c t) covered1

end Cert.KernelIdeal.Dense

end
-- ==== Proof.DenseRegion2.lean ====
/-
  A later layer's dense product, as one launch computes it (the third of the four launches of this kind).

  The launch walks the 100000 node rows in 20 blocks of 5000. At each block it multiplies the block's 5000 × 128
  features by the whole 128 × 128 weight matrix on the matrix unit, into a zero accumulator, after a reshaping to the
  same shape and a change of float format that are both the identity on the extended reals, and writes the
  5000 × 128 result back as the same rows of the output array. An entry of the output therefore depends on one row
  of the features and one column of the weights only, and since every row lies in exactly one block, the output
  array is the whole product.
-/
import proofs.«144633_j4887672783292_1_alg».proof.Proof.Gen.KernelIdeal.Frame
import proofs.«144633_j4887672783292_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

/-! ## The product of one block -/

/-- The matrix unit's dimension numbers for a 5000 × 128 block against the 128 × 128 weights. -/
abbrev dims2 : DotDims S5000x128 S128x128 S5000x128 := dot_S5000x128_S128x128_S5000x128_1_0_0_1_n_n

/-- The left operand is read at the result's row … -/
theorem lhs2_row (i : S5000x128.Idx) (q : dims2.contr.Idx) : (dims2.lhsIdx i q 0).val = (i 0).val := by
  unfold DotDims.lhsIdx
  rw [dif_neg (show ¬(0 : Fin S5000x128.rank) ∈ dims2.lhsBatch by decide),
    dif_pos (show (0 : Fin S5000x128.rank) ∈ dims2.lhsNonContracting by decide)]
  rfl

/-- … and at the contracted position; -/
theorem lhs2_col (i : S5000x128.Idx) (q : dims2.contr.Idx) : (dims2.lhsIdx i q 1).val = (q ⟨0, by decide⟩).val :=
  dims2.lhsIdx_val_of_single rfl i q

/-- the right operand at the contracted position … -/
theorem rhs2_row (i : S5000x128.Idx) (q : dims2.contr.Idx) : (dims2.rhsIdx i q 0).val = (q ⟨0, by decide⟩).val :=
  dims2.rhsIdx_val_of_single rfl i q

/-- … and at the result's column. -/
theorem rhs2_col (i : S5000x128.Idx) (q : dims2.contr.Idx) : (dims2.rhsIdx i q 1).val = (i 1).val := by
  unfold DotDims.rhsIdx
  rw [dif_neg (show ¬(1 : Fin S128x128.rank) ∈ dims2.rhsBatch by decide),
    dif_pos (show (1 : Fin S128x128.rank) ∈ dims2.rhsNonContracting by decide)]
  rfl

/-- What the body stores, entry by entry: the reshaping to the same shape and the change of format are the identity
    and the accumulator is zero, so the entry at row `r` and column `c` is the sum over the 128 features of the
    block's row `r` against the weights' column `c`. -/
theorem block2_apply (x : Vec Ideal S5000x128 .f32) (w : Vec Ideal S128x128 .f32) (r : Fin 5000) (c : Fin 128) :
    k2_pay1 (F := Ideal) x w (ix2 r c) = ∑ q : Fin 128, x (ix2 r q) * w (ix2 q c) := by
  unfold k2_pay1
  refine (Ideal.matmul_constant_zero_apply dims2 none _ _ (ix2 r c)).trans ?_
  rw [← Equiv.sum_comp (contrEquiv1 dims2 128 rfl rfl).symm]
  refine Finset.sum_congr rfl fun k _ => ?_
  have hk := contrEquiv1_symm_val dims2 128 rfl rfl k
  have el : dims2.lhsIdx (ix2 r c) ((contrEquiv1 dims2 128 rfl rfl).symm k) = ix2 r k := funext fun a => Fin.ext (by
    match a with
    | ⟨0, _⟩ => exact lhs2_row _ _
    | ⟨1, _⟩ => exact (lhs2_col _ _).trans hk)
  have er : dims2.rhsIdx (ix2 r c) ((contrEquiv1 dims2 128 rfl rfl).symm k) = ix2 k c := funext fun a => Fin.ext (by
    match a with
    | ⟨0, _⟩ => exact (rhs2_row _ _).trans hk
    | ⟨1, _⟩ => exact rhs2_col _ _)
  rw [el, er]
  show shapeCast S5000x128 x shapeCasts_S5000x128_S5000x128 (ix2 r k) * shapeCast S128x128 w shapeCasts_S128x128_S128x128 (ix2 k c) = _
  rw [shapeCast_self, shapeCast_self]

/-- The same against whole matrices: if row `r` of the block holds row `R` of a 100000 × 128 matrix and the weights'
    block holds the weight matrix's column, the entry is the whole product's entry at row `R`. The rows and columns
    are those of the two indices `J` (in the block) and `I` (in the array). -/
theorem block2_entry (X : Cert.Gcn.Mat 100000 128) (Wt : Cert.Gcn.Mat 128 128)
    (x : Vec Ideal S5000x128 .f32) (w : Vec Ideal S128x128 .f32) (J : S5000x128.Idx) (I : S100000x128.Idx)
    (hx : ∀ q : Fin 128, x (ix2 (Cert.Gcn.row J) q) = X (ix2 (Cert.Gcn.row I) q))
    (hw : ∀ q : Fin 128, w (ix2 q (Cert.Gcn.col J)) = Wt (ix2 q (Cert.Gcn.col I))) :
    k2_pay1 (F := Ideal) x w J = Cert.Gcn.prodHid X Wt I :=
  (congrArg (k2_pay1 (F := Ideal) x w) (Cert.Gcn.eq_row_col J)).trans
    ((block2_apply x w (Cert.Gcn.row J) (Cert.Gcn.col J)).trans
      (Finset.sum_congr rfl fun q _ => by rw [hx q, hw q]))

/-! ## From blocks to the array -/

/-- The body reads and writes its blocks from the origin. -/
theorem origin2 : (![0, 0] : Fin 2 → Nat) = fun _ => 0 := funext fun a => by fin_cases a <;> rfl

/-- The three windows' block indices at a grid point: the features' and the result's blocks are the point's own
    (block `t` is rows `5000 t … 5000 t + 4999`), the weights' block is always the whole matrix. -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

-- reading an array's contents as a function of a literal index type unfolds the array's entry in the program's
-- table of buffers, once for every place the contents are named
set_option maxHeartbeats 1000000 in
/-- WHAT A GRID POINT WRITES BACK: block `t` of the whole product. The features' block at the point is rows
    `5000 t …` of the features, the weights' block is the weight matrix, and the result's block is the same rows of the
    output, so entry by entry the block's product is the whole product's entry at the row the block's row stands for. -/
theorem written2 (c : Dev nD) (t : Fin cfg2.N) :
    (dat2 (F := Ideal) V c).flushed 2 t
      = ((cfg2.win 2).blk t).view.read (Elt Ideal)
          (Cert.Gcn.prodHid (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero origin2]
  simp only [View.ld_unit_zero (S := S5000x128) origin2, View.ld_unit_zero (S := S128x128) origin2]
  obtain ⟨e00, e01, e10, e11, e20, e21⟩ := index2 t
  funext j
  have hj0 : (j 0).val < 5000 := (j 0).isLt
  have hj1 : (j 1).val < 128 := (j 1).isLt
  refine block2_entry (V c (Pipeline.arrRef spec2 0)) (V c (Pipeline.arrRef spec2 1)) (iblk2 V c 0 t) (iblk2 V c 1 t)
    ((cfg2.win 2).xinj (grid2.coords t) j) (((cfg2.win 2).blk t).view.emb j) (fun q => ?_) (fun q => ?_)
  · show (V c (Pipeline.arrRef spec2 0) : S100000x128.Idx → EReal)
        (((cfg2.win 0).blk t).view.emb (ix2 (Cert.Gcn.row ((cfg2.win 2).xinj (grid2.coords t) j)) q)) = _
    refine congrArg (V c (Pipeline.arrRef spec2 0) : S100000x128.Idx → EReal) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * q.val = q.val
      omega
  · show (V c (Pipeline.arrRef spec2 1) : S128x128.Idx → EReal)
        (((cfg2.win 1).blk t).view.emb (ix2 q (Cert.Gcn.col ((cfg2.win 2).xinj (grid2.coords t) j)))) = _
    refine congrArg (V c (Pipeline.arrRef spec2 1) : S128x128.Idx → EReal) (funext fun a => Fin.ext ?_)
    match a with
    | ⟨0, _⟩ =>
      show win2_1.index t (0 : Fin 2) * 128 + 1 * q.val = q.val
      omega
    | ⟨1, _⟩ =>
      show win2_1.index t (1 : Fin 2) * 128 + 1 * (j 1).val = win2_2.index t (1 : Fin 2) * 128 + 1 * (j 1).val
      omega

/-- Every row lies in a block that is written back: row `r` in block `r / 5000`. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, e20, e21⟩ := index2 t
  refine ⟨t, flush2_2 t, ?_⟩
  show i ∈ ((View.whole main_v72).slice (win2_2.rect t)).set
  rw [View.set_slice_whole, Rect.mem_set_unit]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- THE LAUNCH'S RESULT: the output array ends holding the whole product of the two arrays the launch finds. -/
theorem region2 (c : Dev nD) :
    (dat2 (F := Ideal) V c).arrAt 2 cfg2.N
      = Cert.Gcn.prodHid (V c (Pipeline.arrRef spec2 0)) (V c (Pipeline.arrRef spec2 1)) :=
  (dat2 (F := Ideal) V c).arrAt_eq_of_cover 2
    (Cert.Gcn.prodHid (V c (Pipeline.arrRef spec2 0)) (V c (Pipeline.arrRef spec2 1)))
    (fun t _ => written2 V c t) covered2

end Cert.KernelIdeal.Dense

end
-- ==== Proof.DenseRegion3.lean ====
/-
  A later layer's dense product, as one launch computes it (the fourth of the four launches of this kind).

  The launch walks the 100000 node rows in 20 blocks of 5000. At each block it multiplies the block's 5000 × 128
  features by the whole 128 × 128 weight matrix on the matrix unit, into a zero accumulator, after a reshaping to the
  same shape and a change of float format that are both the identity on the extended reals, and writes the
  5000 × 128 result back as the same rows of the output array. An entry of the output therefore depends on one row
  of the features and one column of the weights only, and since every row lies in exactly one block, the output
  array is the whole product.
-/
import proofs.«144633_j4887672783292_1_alg».proof.Proof.Gen.KernelIdeal.Frame
import proofs.«144633_j4887672783292_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

/-! ## The product of one block -/

/-- The matrix unit's dimension numbers for a 5000 × 128 block against the 128 × 128 weights. -/
abbrev dims3 : DotDims S5000x128 S128x128 S5000x128 := dot_S5000x128_S128x128_S5000x128_1_0_0_1_n_n

/-- The left operand is read at the result's row … -/
theorem lhs3_row (i : S5000x128.Idx) (q : dims3.contr.Idx) : (dims3.lhsIdx i q 0).val = (i 0).val := by
  unfold DotDims.lhsIdx
  rw [dif_neg (show ¬(0 : Fin S5000x128.rank) ∈ dims3.lhsBatch by decide),
    dif_pos (show (0 : Fin S5000x128.rank) ∈ dims3.lhsNonContracting by decide)]
  rfl

/-- … and at the contracted position; -/
theorem lhs3_col (i : S5000x128.Idx) (q : dims3.contr.Idx) : (dims3.lhsIdx i q 1).val = (q ⟨0, by decide⟩).val :=
  dims3.lhsIdx_val_of_single rfl i q

/-- the right operand at the contracted position … -/
theorem rhs3_row (i : S5000x128.Idx) (q : dims3.contr.Idx) : (dims3.rhsIdx i q 0).val = (q ⟨0, by decide⟩).val :=
  dims3.rhsIdx_val_of_single rfl i q

/-- … and at the result's column. -/
theorem rhs3_col (i : S5000x128.Idx) (q : dims3.contr.Idx) : (dims3.rhsIdx i q 1).val = (i 1).val := by
  unfold DotDims.rhsIdx
  rw [dif_neg (show ¬(1 : Fin S128x128.rank) ∈ dims3.rhsBatch by decide),
    dif_pos (show (1 : Fin S128x128.rank) ∈ dims3.rhsNonContracting by decide)]
  rfl

/-- What the body stores, entry by entry: the reshaping to the same shape and the change of format are the identity
    and the accumulator is zero, so the entry at row `r` and column `c` is the sum over the 128 features of the
    block's row `r` against the weights' column `c`. -/
theorem block3_apply (x : Vec Ideal S5000x128 .f32) (w : Vec Ideal S128x128 .f32) (r : Fin 5000) (c : Fin 128) :
    k3_pay1 (F := Ideal) x w (ix2 r c) = ∑ q : Fin 128, x (ix2 r q) * w (ix2 q c) := by
  unfold k3_pay1
  refine (Ideal.matmul_constant_zero_apply dims3 none _ _ (ix2 r c)).trans ?_
  rw [← Equiv.sum_comp (contrEquiv1 dims3 128 rfl rfl).symm]
  refine Finset.sum_congr rfl fun k _ => ?_
  have hk := contrEquiv1_symm_val dims3 128 rfl rfl k
  have el : dims3.lhsIdx (ix2 r c) ((contrEquiv1 dims3 128 rfl rfl).symm k) = ix2 r k := funext fun a => Fin.ext (by
    match a with
    | ⟨0, _⟩ => exact lhs3_row _ _
    | ⟨1, _⟩ => exact (lhs3_col _ _).trans hk)
  have er : dims3.rhsIdx (ix2 r c) ((contrEquiv1 dims3 128 rfl rfl).symm k) = ix2 k c := funext fun a => Fin.ext (by
    match a with
    | ⟨0, _⟩ => exact (rhs3_row _ _).trans hk
    | ⟨1, _⟩ => exact rhs3_col _ _)
  rw [el, er]
  show shapeCast S5000x128 x shapeCasts_S5000x128_S5000x128 (ix2 r k) * shapeCast S128x128 w shapeCasts_S128x128_S128x128 (ix2 k c) = _
  rw [shapeCast_self, shapeCast_self]

/-- The same against whole matrices: if row `r` of the block holds row `R` of a 100000 × 128 matrix and the weights'
    block holds the weight matrix's column, the entry is the whole product's entry at row `R`. The rows and columns
    are those of the two indices `J` (in the block) and `I` (in the array). -/
theorem block3_entry (X : Cert.Gcn.Mat 100000 128) (Wt : Cert.Gcn.Mat 128 128)
    (x : Vec Ideal S5000x128 .f32) (w : Vec Ideal S128x128 .f32) (J : S5000x128.Idx) (I : S100000x128.Idx)
    (hx : ∀ q : Fin 128, x (ix2 (Cert.Gcn.row J) q) = X (ix2 (Cert.Gcn.row I) q))
    (hw : ∀ q : Fin 128, w (ix2 q (Cert.Gcn.col J)) = Wt (ix2 q (Cert.Gcn.col I))) :
    k3_pay1 (F := Ideal) x w J = Cert.Gcn.prodHid X Wt I :=
  (congrArg (k3_pay1 (F := Ideal) x w) (Cert.Gcn.eq_row_col J)).trans
    ((block3_apply x w (Cert.Gcn.row J) (Cert.Gcn.col J)).trans
      (Finset.sum_congr rfl fun q _ => by rw [hx q, hw q]))

/-! ## From blocks to the array -/

/-- The body reads and writes its blocks from the origin. -/
theorem origin3 : (![0, 0] : Fin 2 → Nat) = fun _ => 0 := funext fun a => by fin_cases a <;> rfl

/-- The three windows' block indices at a grid point: the features' and the result's blocks are the point's own
    (block `t` is rows `5000 t … 5000 t + 4999`), the weights' block is always the whole matrix. -/
theorem index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

-- reading an array's contents as a function of a literal index type unfolds the array's entry in the program's
-- table of buffers, once for every place the contents are named
set_option maxHeartbeats 1000000 in
/-- WHAT A GRID POINT WRITES BACK: block `t` of the whole product. The features' block at the point is rows
    `5000 t …` of the features, the weights' block is the weight matrix, and the result's block is the same rows of the
    output, so entry by entry the block's product is the whole product's entry at the row the block's row stands for. -/
theorem written3 (c : Dev nD) (t : Fin cfg3.N) :
    (dat3 (F := Ideal) V c).flushed 2 t
      = ((cfg3.win 2).blk t).view.read (Elt Ideal)
          (Cert.Gcn.prodHid (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero origin3]
  simp only [View.ld_unit_zero (S := S5000x128) origin3, View.ld_unit_zero (S := S128x128) origin3]
  obtain ⟨e00, e01, e10, e11, e20, e21⟩ := index3 t
  funext j
  have hj0 : (j 0).val < 5000 := (j 0).isLt
  have hj1 : (j 1).val < 128 := (j 1).isLt
  refine block3_entry (V c (Pipeline.arrRef spec3 0)) (V c (Pipeline.arrRef spec3 1)) (iblk3 V c 0 t) (iblk3 V c 1 t)
    ((cfg3.win 2).xinj (grid3.coords t) j) (((cfg3.win 2).blk t).view.emb j) (fun q => ?_) (fun q => ?_)
  · show (V c (Pipeline.arrRef spec3 0) : S100000x128.Idx → EReal)
        (((cfg3.win 0).blk t).view.emb (ix2 (Cert.Gcn.row ((cfg3.win 2).xinj (grid3.coords t) j)) q)) = _
    refine congrArg (V c (Pipeline.arrRef spec3 0) : S100000x128.Idx → EReal) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * q.val = q.val
      omega
  · show (V c (Pipeline.arrRef spec3 1) : S128x128.Idx → EReal)
        (((cfg3.win 1).blk t).view.emb (ix2 q (Cert.Gcn.col ((cfg3.win 2).xinj (grid3.coords t) j)))) = _
    refine congrArg (V c (Pipeline.arrRef spec3 1) : S128x128.Idx → EReal) (funext fun a => Fin.ext ?_)
    match a with
    | ⟨0, _⟩ =>
      show win3_1.index t (0 : Fin 2) * 128 + 1 * q.val = q.val
      omega
    | ⟨1, _⟩ =>
      show win3_1.index t (1 : Fin 2) * 128 + 1 * (j 1).val = win3_2.index t (1 : Fin 2) * 128 + 1 * (j 1).val
      omega

/-- Every row lies in a block that is written back: row `r` in block `r / 5000`. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, -, e20, e21⟩ := index3 t
  refine ⟨t, flush3_2 t, ?_⟩
  show i ∈ ((View.whole main_v93).slice (win3_2.rect t)).set
  rw [View.set_slice_whole, Rect.mem_set_unit]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- THE LAUNCH'S RESULT: the output array ends holding the whole product of the two arrays the launch finds. -/
theorem region3 (c : Dev nD) :
    (dat3 (F := Ideal) V c).arrAt 2 cfg3.N
      = Cert.Gcn.prodHid (V c (Pipeline.arrRef spec3 0)) (V c (Pipeline.arrRef spec3 1)) :=
  (dat3 (F := Ideal) V c).arrAt_eq_of_cover 2
    (Cert.Gcn.prodHid (V c (Pipeline.arrRef spec3 0)) (V c (Pipeline.arrRef spec3 1)))
    (fun t _ => written3 V c t) covered3

end Cert.KernelIdeal.Dense

end
-- ==== Proof.PerceptronRegion.lean ====
/-
  The perceptron launch, read as mathematics.

  The launch has one grid point and each of its six windows is a whole array, so its result array ends holding its
  payload applied to the five operand arrays as the region finds them. Entry by entry the payload is the perceptron of
  the specification: each of its two products is the sum over the 128 shared coordinates of the entries' products
  (the change of float format is the identity on the extended reals and the accumulator is zero), each bias row is
  repeated over the 64 rows, the maximum with zero is the hidden layer's, and the two reductions over the two columns of
  a row are the larger of the row's two scores (the fold starts at `-∞`) and the sum of the two exponentials.
-/
import proofs.«144633_j4887672783292_1_alg».proof.Proof.Gen.KernelIdeal.Frame
import proofs.«144633_j4887672783292_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Perceptron

open Idealize.ShloMosaic Idealize.ShloMosaic.ValueIdx Idealize.ShloMosaic.TcCoe Idealize.SL.Sem
open Idealize.ShloMosaic.Pipeline (Dat)
open Cert.KernelIdeal Cert.KernelIdeal.Gen

/-- The first product of the perceptron read at an entry: the sum over the 128 shared coordinates. -/
theorem matmulHid_apply {φ₁ φ₂ : FTy} (A : FVec Ideal S64x128 φ₁) (B : FVec Ideal S128x128 φ₂) (r : Fin 64) (c : Fin 128) :
    matmul dot_S64x128_S128x128_S64x128_1_0_0_1_n_n none A B (constant S64x128 .f32 0x00000000#32) (ix2 r c)
      = ∑ q : Fin 128, A (ix2 r q) * B (ix2 q c) := by
  show FloatOps.matmul _ none A B _ (ix2 r c) = _
  rw [Ideal.matmul_constant_zero_apply,
    ← Equiv.sum_comp (contrEquiv1 dot_S64x128_S128x128_S64x128_1_0_0_1_n_n 128 rfl rfl).symm]
  refine Finset.sum_congr rfl fun q _ => ?_
  have cq := contrEquiv1_symm_val dot_S64x128_S128x128_S64x128_1_0_0_1_n_n 128 rfl rfl q
  have hl : dot_S64x128_S128x128_S64x128_1_0_0_1_n_n.lhsIdx (ix2 r c) ((contrEquiv1 _ 128 rfl rfl).symm q) = ix2 r q := by
    funext ax; apply Fin.ext
    match ax with
    | ⟨0, _⟩ => simp [DotDims.lhsIdx, dot_S64x128_S128x128_S64x128_1_0_0_1_n_n]; rfl
    | ⟨1, _⟩ => simp [DotDims.lhsIdx, dot_S64x128_S128x128_S64x128_1_0_0_1_n_n]; exact cq
  have hr : dot_S64x128_S128x128_S64x128_1_0_0_1_n_n.rhsIdx (ix2 r c) ((contrEquiv1 _ 128 rfl rfl).symm q) = ix2 q c := by
    funext ax; apply Fin.ext
    match ax with
    | ⟨0, _⟩ => simp [DotDims.rhsIdx, dot_S64x128_S128x128_S64x128_1_0_0_1_n_n]; exact cq
    | ⟨1, _⟩ => simp [DotDims.rhsIdx, dot_S64x128_S128x128_S64x128_1_0_0_1_n_n]; rfl
  rw [hl, hr]

/-- The second product of the perceptron read at an entry: the sum over the 128 hidden coordinates. -/
theorem matmulOut_apply {φ₁ φ₂ : FTy} (A : FVec Ideal S64x128 φ₁) (B : FVec Ideal S128x2 φ₂) (r : Fin 64) (c : Fin 2) :
    matmul dot_S64x128_S128x2_S64x2_1_0_0_1_n_n none A B (constant S64x2 .f32 0x00000000#32) (ix2 r c)
      = ∑ q : Fin 128, A (ix2 r q) * B (ix2 q c) := by
  show FloatOps.matmul _ none A B _ (ix2 r c) = _
  rw [Ideal.matmul_constant_zero_apply,
    ← Equiv.sum_comp (contrEquiv1 dot_S64x128_S128x2_S64x2_1_0_0_1_n_n 128 rfl rfl).symm]
  refine Finset.sum_congr rfl fun q _ => ?_
  have cq := contrEquiv1_symm_val dot_S64x128_S128x2_S64x2_1_0_0_1_n_n 128 rfl rfl q
  have hl : dot_S64x128_S128x2_S64x2_1_0_0_1_n_n.lhsIdx (ix2 r c) ((contrEquiv1 _ 128 rfl rfl).symm q) = ix2 r q := by
    funext ax; apply Fin.ext
    match ax with
    | ⟨0, _⟩ => simp [DotDims.lhsIdx, dot_S64x128_S128x2_S64x2_1_0_0_1_n_n]; rfl
    | ⟨1, _⟩ => simp [DotDims.lhsIdx, dot_S64x128_S128x2_S64x2_1_0_0_1_n_n]; exact cq
  have hr : dot_S64x128_S128x2_S64x2_1_0_0_1_n_n.rhsIdx (ix2 r c) ((contrEquiv1 _ 128 rfl rfl).symm q) = ix2 q c := by
    funext ax; apply Fin.ext
    match ax with
    | ⟨0, _⟩ => simp [DotDims.rhsIdx, dot_S64x128_S128x2_S64x2_1_0_0_1_n_n]; exact cq
    | ⟨1, _⟩ => simp [DotDims.rhsIdx, dot_S64x128_S128x2_S64x2_1_0_0_1_n_n]; rfl
  rw [hl, hr]

/-- The word the maximum is folded from is `-∞`. -/
theorem ofBits_negInf : Ideal.ofBits .f32 0xFF800000#32 = ⊥ := by
  simp [Ideal.ofBits, Ideal.ieee]

/-- The fold of `max` from `-∞` over two values is the larger of the two. -/
theorem fold_max_bot_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- Over a row `r` of a 64 × 2 array, the index with column `k` inserted is `(r, k)`. -/
theorem lift_row (r : Fin 64) (k : Fin 2) : reduces_S64x2_S64.lift (ix1 r) k = ix2 r k := by
  funext a; apply Fin.ext
  match a with
  | ⟨0, _⟩ => rfl
  | ⟨1, _⟩ => rfl

/-- A row's larger entry: the maximum over the two columns, taken from `-∞`. -/
theorem rowMax_apply (src : FVec Ideal S64x2 .f32) (r : Fin 64) (hφ : FKind.Formats .f32)
    (hacc : (0xFF800000#32 : BitVec FTy.f32.bits) = 0xFF800000#32) :
    multiReduction .maximumf [1] S64 src 0xFF800000#32 reduces_S64x2_S64 hφ hacc (ix1 r)
      = max (src (ix2 r 0)) (src (ix2 r 1)) := by
  refine (Ideal.multiReduction_maximumf_single src 0xFF800000#32 reduces_S64x2_S64 hφ hacc (ix1 r)).trans ?_
  have hf : (fun k : Fin 2 => src (reduces_S64x2_S64.lift (ix1 r) k)) = fun k => src (ix2 r k) :=
    funext fun k => congrArg src (lift_row r k)
  refine (congrArg₂ (fun b (g : Fin 2 → EReal) => (Finset.univ : Finset (Fin 2)).fold max b g) ofBits_negInf hf).trans ?_
  exact fold_max_bot_two _

/-- A row's sum over the two columns. -/
theorem rowSum_apply (src : FVec Ideal S64x2 .f32) (r : Fin 64) (hφ : FKind.Formats .f32)
    (hacc : (0x00000000#32 : BitVec FTy.f32.bits) = 0x00000000#32) :
    multiReduction .add [1] S64 src 0x00000000#32 reduces_S64x2_S64 hφ hacc (ix1 r)
      = src (ix2 r 0) + src (ix2 r 1) := by
  refine (Ideal.multiReduction_add_single src 0x00000000#32 reduces_S64x2_S64 hφ hacc (ix1 r)).trans ?_
  have hf : (fun k : Fin 2 => src (reduces_S64x2_S64.lift (ix1 r) k)) = fun k => src (ix2 r k) :=
    funext fun k => congrArg src (lift_row r k)
  refine (congrArg (fun g : Fin 2 → EReal => ∑ k : Fin 2, g k) hf).trans ?_
  exact Fin.sum_univ_two _

/-- The hidden layer's bias, one row, repeated over the 64 rows. -/
theorem biasHid_apply (v : FVec Ideal S1x128 .f32) (r : Fin 64) (c : Fin 128) :
    broadcastTo S64x128 v broadcasts_S1x128_S64x128 (ix2 r c) = v (ix2 0 c) := by
  refine broadcastTo_apply v _ (ix2 r c) (ix2 0 c) fun a => ?_
  match a with
  | ⟨0, _⟩ => rfl
  | ⟨1, _⟩ => rfl

/-- The output layer's bias, one row, repeated over the 64 rows. -/
theorem biasOut_apply (v : FVec Ideal S1x2 .f32) (r : Fin 64) (c : Fin 2) :
    broadcastTo S64x2 v broadcasts_S1x2_S64x2 (ix2 r c) = v (ix2 0 c) := by
  refine broadcastTo_apply v _ (ix2 r c) (ix2 0 c) fun a => ?_
  match a with
  | ⟨0, _⟩ => rfl
  | ⟨1, _⟩ => rfl

/-- A column repeated over the two columns. -/
theorem colBroadcast_apply (u : FVec Ideal S64x1 .f32) (r : Fin 64) (c : Fin 2) :
    broadcastTo S64x2 u broadcasts_S64x1_S64x2 (ix2 r c) = u (ix2 r 0) := by
  refine broadcastTo_apply u _ (ix2 r c) (ix2 r 0) fun a => ?_
  match a with
  | ⟨0, _⟩ => rfl
  | ⟨1, _⟩ => rfl

/-- A vector of 64 entries seen as a column. -/
theorem colCast_apply (w : FVec Ideal S64 .f32) (r : Fin 64) :
    shapeCast S64x1 w shapeCasts_S64_S64x1 (ix2 r 0) = w (ix1 r) := by
  refine shapeCast_apply w _ (ix2 r 0) (ix1 r) ?_
  rw [Shape.rowMajor_val_one, Shape.rowMajor_val_two]
  show r.val = r.val * 1 + 0
  omega

/-- The exponential of a vector at an index. -/
theorem exp_apply {s : Shape} (x : FVec Ideal s .f32) (i : s.Idx) : exp x i = Ideal.exp (x i) := rfl
/-- The logarithm of a vector at an index. -/
theorem log_apply {s : Shape} (x : FVec Ideal s .f32) (i : s.Idx) : log x i = Ideal.log (x i) := rfl
/-- The zero word is the extended real zero. -/
theorem scalar_zero : (Scalar.ofBits .f32 0x00000000#32 : Ideal .f32) = 0 := Ideal.ofBits_zero_f32

/-- The launch's payload is the perceptron of its five operands: entry by entry, the two products are the sums over
    the shared coordinate, each bias row is repeated over the rows, and the two reductions run over the two columns
    of the entry's row. -/
theorem payload_eq (x0 : Vec Ideal S64x128 .f32) (x3 : Vec Ideal S128x128 .f32) (x6 : Vec Ideal S1x128 .f32)
    (x13 : Vec Ideal S128x2 .f32) (x16 : Vec Ideal S1x2 .f32) :
    k4_pay1 (F := Ideal) x0 x3 x6 x13 x16
      = Cert.Gcn.perceptron Ideal.exp Ideal.log x0 x3 (fun q => x6 (ix2 0 q)) x13 (fun q => x16 (ix2 0 q)) := by
  funext i
  obtain ⟨r, c, rfl⟩ : ∃ (r : Fin 64) (c : Fin 2), i = ix2 r c := ⟨_, _, Cert.Gcn.eq_row_col i⟩
  unfold k4_pay1
  -- the last subtraction, down to the row's sum of exponentials
  simp only [subf_apply, colBroadcast_apply, log_apply, colCast_apply]
  rw [rowSum_apply]
  -- the shifted scores, down to the row's maximum
  simp only [exp_apply, subf_apply, colBroadcast_apply, colCast_apply]
  rw [rowMax_apply]
  -- the scores and the hidden layer
  simp only [addf_apply, matmulOut_apply, biasOut_apply, shapeCast_self, truncf_apply, maximumf_apply, matmulHid_apply,
    biasHid_apply, broadcast_apply, scalar_zero]
  rfl

/-! ## The launch: one grid point, every window the whole array -/

section Launch

variable (V : (c : Dev nD) → (b : Ref sig .tc) → Buf (Elt Ideal) ((c : Thread nD τ).loc b))

theorem offsets_zero : (![0, 0] : Fin 2 → Nat) = fun _ => 0 := funext fun a => by fin_cases a <;> rfl

/-- At the one grid point each window's block is its whole array: reading through the block reads the array. -/
theorem read_blk0 (f) : (win4_0.blk t4_0).view.read (Elt Ideal) f = f :=
  Memref.read_access_unit_zero (Elt Ideal) main_v115 (funext fun a => by fin_cases a <;> decide) (fun a => by fin_cases a <;> decide) f
theorem read_blk1 (f) : (win4_1.blk t4_0).view.read (Elt Ideal) f = f :=
  Memref.read_access_unit_zero (Elt Ideal) main_arg8 (funext fun a => by fin_cases a <;> decide) (fun a => by fin_cases a <;> decide) f
theorem read_blk2 (f) : (win4_2.blk t4_0).view.read (Elt Ideal) f = f :=
  Memref.read_access_unit_zero (Elt Ideal) main_v116 (funext fun a => by fin_cases a <;> decide) (fun a => by fin_cases a <;> decide) f
theorem read_blk3 (f) : (win4_3.blk t4_0).view.read (Elt Ideal) f = f :=
  Memref.read_access_unit_zero (Elt Ideal) main_arg10 (funext fun a => by fin_cases a <;> decide) (fun a => by fin_cases a <;> decide) f
theorem read_blk4 (f) : (win4_4.blk t4_0).view.read (Elt Ideal) f = f :=
  Memref.read_access_unit_zero (Elt Ideal) main_v117 (funext fun a => by fin_cases a <;> decide) (fun a => by fin_cases a <;> decide) f
theorem read_blk5 (f) : (win4_5.blk t4_0).view.read (Elt Ideal) f = f :=
  Memref.read_access_unit_zero (Elt Ideal) main_v118 (funext fun a => by fin_cases a <;> decide) (fun a => by fin_cases a <;> decide) f

/-- The perceptron of the launch's five operand arrays as the region finds them. -/
abbrev result (c : Dev nD) : Buf (Elt Ideal) ((c : Thread nD τ).loc main_v118) :=
  Cert.Gcn.perceptron Ideal.exp Ideal.log (V c main_v115) (V c main_arg8)
    (fun q => (V c main_v116 : Cert.Gcn.Mat 1 128) (ix2 0 q)) (V c main_arg10)
    (fun q => (V c main_v117 : Cert.Gcn.Mat 1 2) (ix2 0 q))

/-- What the one point writes back is the perceptron of the operand arrays. -/
theorem flushed_eq (c : Dev nD) (t : Fin cfg4.N) :
    (dat4 (F := Ideal) V c).flushed 5 t = ((cfg4.win 5).blk t).view.read (Elt Ideal) (result V c) := by
  obtain rfl : t = t4_0 := fin_N4 t
  show (cfg4.win 5).cut (grid4.coords t4_0) ((dat4 (F := Ideal) V c).after 5 t4_0) = _
  rw [after4_5]
  unfold out4_5
  rw [View.canon_unit_zero offsets_zero, View.ld_unit_zero (S := S64x128) offsets_zero,
    View.ld_unit_zero (S := S128x128) offsets_zero, View.ld_unit_zero (S := S1x128) offsets_zero,
    View.ld_unit_zero (S := S128x2) offsets_zero, View.ld_unit_zero (S := S1x2) offsets_zero]
  show (cfg4.win 5).cut (grid4.coords t4_0) (k4_pay1 ((win4_0.blk t4_0).view.read (Elt Ideal) (V c main_v115))
      ((win4_1.blk t4_0).view.read (Elt Ideal) (V c main_arg8))
      ((win4_2.blk t4_0).view.read (Elt Ideal) (V c main_v116))
      ((win4_3.blk t4_0).view.read (Elt Ideal) (V c main_arg10))
      ((win4_4.blk t4_0).view.read (Elt Ideal) (V c main_v117))) = (win4_5.blk t4_0).view.read (Elt Ideal) (result V c)
  rw [read_blk0, read_blk1, read_blk2, read_blk3, read_blk4, read_blk5, payload_eq]
  rfl

/-- The launch leaves its result array holding the perceptron of its five operand arrays: its one point's block covers
    the array. -/
theorem region4 (c : Dev nD) :
    ((dat4 (F := Ideal) V c).arrAt 5 cfg4.N : Cert.Gcn.Mat 64 2)
      = Cert.Gcn.perceptron Ideal.exp Ideal.log (V c main_v115) (V c main_arg8)
          (fun q => (V c main_v116 : Cert.Gcn.Mat 1 128) (ix2 0 q)) (V c main_arg10)
          (fun q => (V c main_v117 : Cert.Gcn.Mat 1 2) (ix2 0 q)) :=
  (dat4 (F := Ideal) V c).arrAt_eq_of_cover 5 (result V c) (fun t _ => flushed_eq V c t) fun i =>
    ⟨t4_0, flush4_5 t4_0, by
      show i ∈ ((View.whole main_v118).slice (win4_5.rect t4_0)).set
      rw [View.set_slice_whole, Rect.mem_set_unit]
      intro a
      have h0 : (i 0 : Nat) < 64 := (i 0).isLt
      have h1 : (i 1 : Nat) < 2 := (i 1).isLt
      match a with
      | ⟨0, _⟩ =>
        show win4_5.index t4_0 0 * win4_5.size 0 ≤ (i 0 : Nat)
          ∧ (i 0 : Nat) < win4_5.index t4_0 0 * win4_5.size 0 + win4_5.xsize (grid4.coords t4_0) 0
        rw [show win4_5.index t4_0 0 * win4_5.size 0 = 0 from by decide +kernel,
          show win4_5.xsize (grid4.coords t4_0) 0 = 64 from by decide +kernel]
        omega
      | ⟨1, _⟩ =>
        show win4_5.index t4_0 1 * win4_5.size 1 ≤ (i 1 : Nat)
          ∧ (i 1 : Nat) < win4_5.index t4_0 1 * win4_5.size 1 + win4_5.xsize (grid4.coords t4_0) 1
        rw [show win4_5.index t4_0 1 * win4_5.size 1 = 0 from by decide +kernel,
          show win4_5.xsize (grid4.coords t4_0) 1 = 2 from by decide +kernel]
        omega⟩

end Launch

end Cert.KernelIdeal.Perceptron

end
-- ==== Proof.PerceptronHost.lean ====
/-
  The reference's perceptron, read as mathematics.

  The reference computes the perceptron by a dozen whole-array operations: two products, each followed by its bias made
  a row and repeated over the 64 rows; a maximum with a zero array between them; then the log-softmax over the two
  columns, whose two reductions over a row start from `-∞` and from zero and are made columns and repeated over the
  two columns before they are subtracted. They are restated here as one function of the five operand arrays, in four
  stages, and read entry by entry: each product is the sum over the 128 shared coordinates, each repeated array reads
  the entry it repeats, and a row's reductions are the larger of its two scores and the sum of the two exponentials,
  which is the specification's perceptron.
-/
import proofs.«144633_j4887672783292_1_alg».proof.Proof.Gen.ReferenceIdeal
import proofs.«144633_j4887672783292_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Perceptron

open Idealize.ShloMosaic Idealize.ShloMosaic.ValueIdx
open Cert.ReferenceIdeal Cert.ReferenceIdeal.Facts₀

/-- The hidden layer as the reference states it: the product, the bias made a row and repeated over the rows, the
    maximum with a zero array. -/
def hostHidden (h : FVec Ideal S64x128 .f32) (w1 : FVec Ideal S128x128 .f32) (b1 : FVec Ideal S128 .f32) :
    FVec Ideal S64x128 .f32 :=
  maximumf
    (addf (Host.dotGeneral dot_S64x128_S128x128_S64x128_1_0_0_1_n_n none h w1)
      (broadcastInDim S64x128 ![0, 1] bcast_S1x128_S64x128_0_1 (broadcastInDim S1x128 ![1] bcast_S128_S1x128_1 b1)))
    (broadcastInDim S64x128 ![] bcast_S_S64x128 (constant (F := Ideal) S_ .f32 0x00000000#32))

/-- The two class scores as the reference states them: the product and the bias made a row and repeated. -/
def hostScores (y : FVec Ideal S64x128 .f32) (w2 : FVec Ideal S128x2 .f32) (b2 : FVec Ideal S2 .f32) :
    FVec Ideal S64x2 .f32 :=
  addf (Host.dotGeneral dot_S64x128_S128x2_S64x2_1_0_0_1_n_n none y w2)
    (broadcastInDim S64x2 ![0, 1] bcast_S1x2_S64x2_0_1 (broadcastInDim S1x2 ![1] bcast_S2_S1x2_1 b2))

/-- The scores less their row's maximum as the reference states them: the maximum over the columns from `-∞`, the
    maximum with a `-∞` array, made a column and repeated over the two columns, subtracted. -/
def hostShifted (s : FVec Ideal S64x2 .f32) : FVec Ideal S64x2 .f32 :=
  subf s
    (broadcastInDim S64x2 ![0, 1] bcast_S64x1_S64x2_0_1
      (broadcastInDim S64x1 ![0] bcast_S64_S64x1_0
        (maximumf (broadcastInDim S64 ![] bcast_S_S64 (constant (F := Ideal) S_ .f32 0xFF800000#32))
          (Host.reduce (FloatOps.maximumf (F := Ideal) (φ := .f32)) s (constant (F := Ideal) S_ .f32 0xFF800000#32)
            reducesTo_S64x2_S64_d1 h_S_))))

/-- The log-softmax as the reference states it: the shifted scores less the logarithm of the row sum, from zero, of
    their exponentials, made a column and repeated over the two columns. -/
def hostLogSoftmax (s : FVec Ideal S64x2 .f32) : FVec Ideal S64x2 .f32 :=
  subf (hostShifted s)
    (broadcastInDim S64x2 ![0, 1] bcast_S64x1_S64x2_0_1
      (Host.log
        (broadcastInDim S64x1 ![0] bcast_S64_S64x1_0
          (Host.reduceAdd (Host.exp (hostShifted s)) (constant (F := Ideal) S_ .f32 0x00000000#32)
            reducesTo_S64x2_S64_d1 h_S_))))

/-- The perceptron as the reference states it, operation by operation. -/
def hostPerceptron (h : FVec Ideal S64x128 .f32) (w1 : FVec Ideal S128x128 .f32) (b1 : FVec Ideal S128 .f32)
    (w2 : FVec Ideal S128x2 .f32) (b2 : FVec Ideal S2 .f32) : FVec Ideal S64x2 .f32 :=
  hostLogSoftmax (hostScores (hostHidden h w1 b1) w2 b2)

/-- The hidden layer's product at an entry: the sum over the 128 shared coordinates. -/
theorem dotHid_apply (A : FVec Ideal S64x128 .f32) (B : FVec Ideal S128x128 .f32) (r : Fin 64) (c : Fin 128) :
    Host.dotGeneral dot_S64x128_S128x128_S64x128_1_0_0_1_n_n none A B (ix2 r c)
      = ∑ q : Fin 128, A (ix2 r q) * B (ix2 q c) := by
  show FloatOps.dotGeneral _ none _ A B (ix2 r c) = _
  rw [Ideal.dotGeneral_apply,
    ← Equiv.sum_comp (contrEquiv1 dot_S64x128_S128x128_S64x128_1_0_0_1_n_n 128 rfl rfl).symm]
  refine Finset.sum_congr rfl fun q _ => ?_
  have cq := contrEquiv1_symm_val dot_S64x128_S128x128_S64x128_1_0_0_1_n_n 128 rfl rfl q
  have hl : dot_S64x128_S128x128_S64x128_1_0_0_1_n_n.lhsIdx (ix2 r c) ((contrEquiv1 _ 128 rfl rfl).symm q) = ix2 r q := by
    funext ax; apply Fin.ext
    match ax with
    | ⟨0, _⟩ => simp [DotDims.lhsIdx, dot_S64x128_S128x128_S64x128_1_0_0_1_n_n]; rfl
    | ⟨1, _⟩ => simp [DotDims.lhsIdx, dot_S64x128_S128x128_S64x128_1_0_0_1_n_n]; exact cq
  have hr : dot_S64x128_S128x128_S64x128_1_0_0_1_n_n.rhsIdx (ix2 r c) ((contrEquiv1 _ 128 rfl rfl).symm q) = ix2 q c := by
    funext ax; apply Fin.ext
    match ax with
    | ⟨0, _⟩ => simp [DotDims.rhsIdx, dot_S64x128_S128x128_S64x128_1_0_0_1_n_n]; exact cq
    | ⟨1, _⟩ => simp [DotDims.rhsIdx, dot_S64x128_S128x128_S64x128_1_0_0_1_n_n]; rfl
  rw [hl, hr]

/-- The output layer's product at an entry: the sum over the 128 hidden coordinates. -/
theorem dotOut_apply (A : FVec Ideal S64x128 .f32) (B : FVec Ideal S128x2 .f32) (r : Fin 64) (c : Fin 2) :
    Host.dotGeneral dot_S64x128_S128x2_S64x2_1_0_0_1_n_n none A B (ix2 r c)
      = ∑ q : Fin 128, A (ix2 r q) * B (ix2 q c) := by
  show FloatOps.dotGeneral _ none _ A B (ix2 r c) = _
  rw [Ideal.dotGeneral_apply,
    ← Equiv.sum_comp (contrEquiv1 dot_S64x128_S128x2_S64x2_1_0_0_1_n_n 128 rfl rfl).symm]
  refine Finset.sum_congr rfl fun q _ => ?_
  have cq := contrEquiv1_symm_val dot_S64x128_S128x2_S64x2_1_0_0_1_n_n 128 rfl rfl q
  have hl : dot_S64x128_S128x2_S64x2_1_0_0_1_n_n.lhsIdx (ix2 r c) ((contrEquiv1 _ 128 rfl rfl).symm q) = ix2 r q := by
    funext ax; apply Fin.ext
    match ax with
    | ⟨0, _⟩ => simp [DotDims.lhsIdx, dot_S64x128_S128x2_S64x2_1_0_0_1_n_n]; rfl
    | ⟨1, _⟩ => simp [DotDims.lhsIdx, dot_S64x128_S128x2_S64x2_1_0_0_1_n_n]; exact cq
  have hr : dot_S64x128_S128x2_S64x2_1_0_0_1_n_n.rhsIdx (ix2 r c) ((contrEquiv1 _ 128 rfl rfl).symm q) = ix2 q c := by
    funext ax; apply Fin.ext
    match ax with
    | ⟨0, _⟩ => simp [DotDims.rhsIdx, dot_S64x128_S128x2_S64x2_1_0_0_1_n_n]; exact cq
    | ⟨1, _⟩ => simp [DotDims.rhsIdx, dot_S64x128_S128x2_S64x2_1_0_0_1_n_n]; rfl
  rw [hl, hr]

/-- The hidden layer's bias, made a row and repeated over the 64 rows. -/
theorem biasHid_apply (b1 : FVec Ideal S128 .f32) (r : Fin 64) (c : Fin 128) :
    broadcastInDim S64x128 ![0, 1] bcast_S1x128_S64x128_0_1 (broadcastInDim S1x128 ![1] bcast_S128_S1x128_1 b1) (ix2 r c)
      = b1 (ix1 c) := by
  refine (broadcastInDim_apply _ _ _ (ix2 r c) (ix2 0 c) fun a => ?_).trans ?_
  · match a with
    | ⟨0, _⟩ => rfl
    | ⟨1, _⟩ => rfl
  · refine broadcastInDim_apply _ _ _ (ix2 0 c) (ix1 c) fun a => ?_
    match a with
    | ⟨0, _⟩ => rfl

/-- The output layer's bias, made a row and repeated over the 64 rows. -/
theorem biasOut_apply (b2 : FVec Ideal S2 .f32) (r : Fin 64) (c : Fin 2) :
    broadcastInDim S64x2 ![0, 1] bcast_S1x2_S64x2_0_1 (broadcastInDim S1x2 ![1] bcast_S2_S1x2_1 b2) (ix2 r c)
      = b2 (ix1 c) := by
  refine (broadcastInDim_apply _ _ _ (ix2 r c) (ix2 0 c) fun a => ?_).trans ?_
  · match a with
    | ⟨0, _⟩ => rfl
    | ⟨1, _⟩ => rfl
  · refine broadcastInDim_apply _ _ _ (ix2 0 c) (ix1 c) fun a => ?_
    match a with
    | ⟨0, _⟩ => rfl

/-- A scalar constant repeated over an array reads the constant's value everywhere. -/
theorem splat_apply {t : Shape} (dims : Fin S_.rank → Fin t.rank) (hb : S_.BroadcastsInDim t dims) (w : BitVec 32) (j : t.Idx) :
    broadcastInDim t dims hb (constant (F := Ideal) S_ .f32 w) j = Ideal.ofBits .f32 w := rfl

/-- A column repeated over the two columns. -/
theorem colOut_apply (u : FVec Ideal S64x1 .f32) (r : Fin 64) (c : Fin 2) :
    broadcastInDim S64x2 ![0, 1] bcast_S64x1_S64x2_0_1 u (ix2 r c) = u (ix2 r 0) := by
  refine broadcastInDim_apply _ _ _ (ix2 r c) (ix2 r 0) fun a => ?_
  match a with
  | ⟨0, _⟩ => rfl
  | ⟨1, _⟩ => rfl

/-- A vector of 64 entries made a column. -/
theorem colIn_apply (w : FVec Ideal S64 .f32) (r : Fin 64) :
    broadcastInDim S64x1 ![0] bcast_S64_S64x1_0 w (ix2 r 0) = w (ix1 r) := by
  refine broadcastInDim_apply _ _ _ (ix2 r 0) (ix1 r) fun a => ?_
  match a with
  | ⟨0, _⟩ => rfl

/-- The word the maximum is folded from is `-∞`. -/
theorem ofBits_negInf : Ideal.ofBits .f32 0xFF800000#32 = ⊥ := by
  simp [Ideal.ofBits, Ideal.ieee]

/-- The fold of `max` from `-∞` over two values is the larger of the two. -/
theorem fold_max_bot_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- The reduction over the columns drops axis 1 of a 64 × 2 array. -/
theorem reduces_cols : S64x2.Reduces [1] S64 := by decide

/-- Over a row `r` of a 64 × 2 array, the index with column `k` inserted is `(r, k)`. -/
theorem lift_row (r : Fin 64) (k : Fin 2) : reduces_cols.lift (ix1 r) k = ix2 r k := by
  funext a; apply Fin.ext
  match a with
  | ⟨0, _⟩ => rfl
  | ⟨1, _⟩ => rfl

/-- A row's larger entry: the maximum over the two columns, from `-∞`. -/
theorem rowMax_apply (src : FVec Ideal S64x2 .f32) (r : Fin 64) :
    Host.reduce (FloatOps.maximumf (F := Ideal) (φ := .f32)) src (constant (F := Ideal) S_ .f32 0xFF800000#32)
        reducesTo_S64x2_S64_d1 h_S_ (ix1 r)
      = max (src (ix2 r 0)) (src (ix2 r 1)) := by
  refine (Host.reduce_eq_fold_single _ src _ reducesTo_S64x2_S64_d1 reduces_cols h_S_ (ix1 r)).trans ?_
  have hf : (fun k : Fin 2 => src (reduces_cols.lift (ix1 r) k)) = fun k => src (ix2 r k) :=
    funext fun k => congrArg src (lift_row r k)
  refine (congrArg₂ (fun b (g : Fin 2 → EReal) => (Finset.univ : Finset (Fin 2)).fold max b g) ofBits_negInf hf).trans ?_
  exact fold_max_bot_two _

/-- A row's sum over the two columns, from zero. -/
theorem rowSum_apply (src : FVec Ideal S64x2 .f32) (r : Fin 64) :
    Host.reduceAdd src (constant (F := Ideal) S_ .f32 0x00000000#32) reducesTo_S64x2_S64_d1 h_S_ (ix1 r)
      = src (ix2 r 0) + src (ix2 r 1) := by
  show Ideal.hostReduceAdd reducesTo_S64x2_S64_d1 src (Ideal.ofBits .f32 0x00000000#32) (ix1 r) = _
  rw [Ideal.hostReduceAdd_single _ reduces_cols, Ideal.ofBits_zero_f32, zero_add]
  have hf : (fun k : Fin 2 => src (reduces_cols.lift (ix1 r) k)) = fun k => src (ix2 r k) :=
    funext fun k => congrArg src (lift_row r k)
  exact (congrArg (fun g : Fin 2 → EReal => ∑ k : Fin 2, g k) hf).trans (Fin.sum_univ_two _)

/-- The host's exponential of a vector at an index. -/
theorem hostExp_apply {s : Shape} (x : FVec Ideal s .f32) (i : s.Idx) : Host.exp x i = Ideal.exp (x i) := rfl
/-- The host's logarithm of a vector at an index. -/
theorem hostLog_apply {s : Shape} (x : FVec Ideal s .f32) (i : s.Idx) : Host.log x i = Ideal.log (x i) := rfl

theorem hostHidden_eq (h : FVec Ideal S64x128 .f32) (w1 : FVec Ideal S128x128 .f32) (b1 : FVec Ideal S128 .f32) :
    hostHidden h w1 b1 = Cert.Gcn.hidden h w1 (fun q => b1 (ix1 q)) := by
  funext i
  obtain ⟨r, c, rfl⟩ : ∃ (r : Fin 64) (c : Fin 128), i = ix2 r c := ⟨_, _, Cert.Gcn.eq_row_col i⟩
  unfold hostHidden Cert.Gcn.hidden
  rw [maximumf_apply, addf_apply, dotHid_apply, biasHid_apply, splat_apply, Ideal.ofBits_zero_f32]

theorem hostScores_eq (y : FVec Ideal S64x128 .f32) (w2 : FVec Ideal S128x2 .f32) (b2 : FVec Ideal S2 .f32) :
    hostScores y w2 b2 = Cert.Gcn.scores y w2 (fun q => b2 (ix1 q)) := by
  funext i
  obtain ⟨r, c, rfl⟩ : ∃ (r : Fin 64) (c : Fin 2), i = ix2 r c := ⟨_, _, Cert.Gcn.eq_row_col i⟩
  unfold hostScores Cert.Gcn.scores
  rw [addf_apply, dotOut_apply, biasOut_apply]

theorem hostShifted_eq (s : FVec Ideal S64x2 .f32) : hostShifted s = Cert.Gcn.shifted s := by
  funext i
  obtain ⟨r, c, rfl⟩ : ∃ (r : Fin 64) (c : Fin 2), i = ix2 r c := ⟨_, _, Cert.Gcn.eq_row_col i⟩
  unfold hostShifted Cert.Gcn.shifted
  rw [subf_apply, colOut_apply, colIn_apply, maximumf_apply, splat_apply, rowMax_apply, ofBits_negInf, max_bot_left]

theorem hostLogSoftmax_eq (s : FVec Ideal S64x2 .f32) :
    hostLogSoftmax s = Cert.Gcn.logSoftmax Ideal.exp Ideal.log s := by
  funext i
  obtain ⟨r, c, rfl⟩ : ∃ (r : Fin 64) (c : Fin 2), i = ix2 r c := ⟨_, _, Cert.Gcn.eq_row_col i⟩
  unfold hostLogSoftmax Cert.Gcn.logSoftmax
  rw [subf_apply, colOut_apply, hostLog_apply, colIn_apply, rowSum_apply, hostShifted_eq]
  rfl

/-- The reference's perceptron is the specification's. -/
theorem hostPerceptron_eq (h : FVec Ideal S64x128 .f32) (w1 : FVec Ideal S128x128 .f32) (b1 : FVec Ideal S128 .f32)
    (w2 : FVec Ideal S128x2 .f32) (b2 : FVec Ideal S2 .f32) :
    hostPerceptron h w1 b1 w2 b2
      = Cert.Gcn.perceptron Ideal.exp Ideal.log h w1 (fun q => b1 (ix1 q)) w2 (fun q => b2 (ix1 q)) := by
  unfold hostPerceptron Cert.Gcn.perceptron
  rw [hostHidden_eq, hostScores_eq, hostLogSoftmax_eq]

end Cert.ReferenceIdeal.Perceptron

end
-- ==== Proof.Bridge.lean ====
/-
  The two programs hold the same arrays at every boundary.

  Boundary by boundary, from launch memories that agree on the arguments: the edge sources, destinations and
  weights agree before the first dense product; each dense product agrees, because the tiled launch leaves in its
  output array exactly the whole product of the two arrays it finds (the rows of block `t` are rows
  `5000·t … 5000·t + 4999`, and the blocks cover all 100000 rows), which is what the reference's one
  `dot_general` is at the extended reals, where a change of float format is the identity and a sum does not
  depend on how it is tiled; each following stretch agrees, because both programs apply the same operations to
  arrays already known to agree; so the 64 pooled rows agree, and the perceptron's launch and the reference's
  dozen host operations are one function of them.
-/
import proofs.«144633_j4887672783292_1_alg».proof.Proof.Carry
import proofs.«144633_j4887672783292_1_alg».proof.Proof.DenseHost
import proofs.«144633_j4887672783292_1_alg».proof.Proof.StretchEdges
import proofs.«144633_j4887672783292_1_alg».proof.Proof.StretchLayers
import proofs.«144633_j4887672783292_1_alg».proof.Proof.StretchPool
import proofs.«144633_j4887672783292_1_alg».proof.Proof.DenseRegion0
import proofs.«144633_j4887672783292_1_alg».proof.Proof.DenseRegion1
import proofs.«144633_j4887672783292_1_alg».proof.Proof.DenseRegion2
import proofs.«144633_j4887672783292_1_alg».proof.Proof.DenseRegion3
import proofs.«144633_j4887672783292_1_alg».proof.Proof.PerceptronRegion
import proofs.«144633_j4887672783292_1_alg».proof.Proof.PerceptronHost

set_option maxRecDepth 16384

noncomputable section

namespace Cert.Gcn.Bridge

open Idealize.ShloMosaic Idealize.ShloMosaic.TcCoe Idealize.SL.Sem Idealize.ShloMosaic.StableHlo
open Cert.Gcn.Carry (Arr Agrees)

/-! ## The reference's dense products, read off its fold -/

/-- After the reference's first `dot_general` the product's buffer holds the whole product of the two operands' buffers. -/
theorem refProduct1 (V' : Valuation Cert.ReferenceIdeal.τ Cert.ReferenceIdeal.sig (Elt Ideal)) :
    (after (Cert.ReferenceIdeal.Fold.opsD0 (F := Ideal)) V' (Proc.devRef .tc Cert.ReferenceIdeal.main_v30) : Cert.Gcn.Mat 100000 128)
      = Cert.Gcn.prodIn (V' (Proc.devRef .tc Cert.ReferenceIdeal.main_arg0) : Cert.Gcn.Mat 100000 2) (V' (Proc.devRef .tc Cert.ReferenceIdeal.main_arg4) : Cert.Gcn.Mat 2 128) := by
  after_results_simp
  exact Cert.ReferenceIdeal.Dense.dot_in _ _

/-- After the reference's second `dot_general` the product's buffer holds the whole product of the two operands' buffers. -/
theorem refProduct2 (V' : Valuation Cert.ReferenceIdeal.τ Cert.ReferenceIdeal.sig (Elt Ideal)) :
    (after (Cert.ReferenceIdeal.Fold.opsD1 (F := Ideal)) V' (Proc.devRef .tc Cert.ReferenceIdeal.main_v51) : Cert.Gcn.Mat 100000 128)
      = Cert.Gcn.prodHid (V' (Proc.devRef .tc Cert.ReferenceIdeal.main_v46) : Cert.Gcn.Mat 100000 128) (V' (Proc.devRef .tc Cert.ReferenceIdeal.main_v48) : Cert.Gcn.Mat 128 128) := by
  after_results_simp
  exact Cert.ReferenceIdeal.Dense.dot_hid _ _

/-- After the reference's third `dot_general` the product's buffer holds the whole product of the two operands' buffers. -/
theorem refProduct3 (V' : Valuation Cert.ReferenceIdeal.τ Cert.ReferenceIdeal.sig (Elt Ideal)) :
    (after (Cert.ReferenceIdeal.Fold.opsD2 (F := Ideal)) V' (Proc.devRef .tc Cert.ReferenceIdeal.main_v72) : Cert.Gcn.Mat 100000 128)
      = Cert.Gcn.prodHid (V' (Proc.devRef .tc Cert.ReferenceIdeal.main_v67) : Cert.Gcn.Mat 100000 128) (V' (Proc.devRef .tc Cert.ReferenceIdeal.main_v69) : Cert.Gcn.Mat 128 128) := by
  after_results_simp
  exact Cert.ReferenceIdeal.Dense.dot_hid _ _

/-- After the reference's fourth `dot_general` the product's buffer holds the whole product of the two operands' buffers. -/
theorem refProduct4 (V' : Valuation Cert.ReferenceIdeal.τ Cert.ReferenceIdeal.sig (Elt Ideal)) :
    (after (Cert.ReferenceIdeal.Fold.opsD3 (F := Ideal)) V' (Proc.devRef .tc Cert.ReferenceIdeal.main_v93) : Cert.Gcn.Mat 100000 128)
      = Cert.Gcn.prodHid (V' (Proc.devRef .tc Cert.ReferenceIdeal.main_v88) : Cert.Gcn.Mat 100000 128) (V' (Proc.devRef .tc Cert.ReferenceIdeal.main_v90) : Cert.Gcn.Mat 128 128) := by
  after_results_simp
  exact Cert.ReferenceIdeal.Dense.dot_hid _ _

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## Before the first dense product -/

theorem sources3 (hag : Agrees m m' c) : (Cert.KernelIdeal.Gen.W3 m ρ c (Proc.devRef .tc Cert.KernelIdeal.main_v3) : Arr ⟨1, ![1700000]⟩ .i32) = Cert.ReferenceIdeal.Fold.U3 m' c (Proc.devRef .tc Cert.ReferenceIdeal.main_v3) :=
  Cert.Gcn.Edges.sources (Cert.KernelIdeal.Gen.W0 m ρ c) (Cert.ReferenceIdeal.Fold.U0 m' c) (Carry.arg1_at0 m ρ m' c hag)
theorem destinations3 (hag : Agrees m m' c) : (Cert.KernelIdeal.Gen.W3 m ρ c (Proc.devRef .tc Cert.KernelIdeal.main_v6) : Arr ⟨1, ![1700000]⟩ .i32) = Cert.ReferenceIdeal.Fold.U3 m' c (Proc.devRef .tc Cert.ReferenceIdeal.main_v6) :=
  Cert.Gcn.Edges.destinations (Cert.KernelIdeal.Gen.W0 m ρ c) (Cert.ReferenceIdeal.Fold.U0 m' c) (Carry.arg1_at0 m ρ m' c hag)
theorem weights3 (hag : Agrees m m' c) : (Cert.KernelIdeal.Gen.W3 m ρ c (Proc.devRef .tc Cert.KernelIdeal.main_v29) : Arr ⟨1, ![1700000]⟩ .f32) = Cert.ReferenceIdeal.Fold.U3 m' c (Proc.devRef .tc Cert.ReferenceIdeal.main_v29) :=
  Cert.Gcn.Edges.weights (Cert.KernelIdeal.Gen.W0 m ρ c) (Cert.ReferenceIdeal.Fold.U0 m' c) (Carry.arg1_at0 m ρ m' c hag)

/-! ## The four layers -/

/-- The first dense product agrees: the launch's output array is the whole product of the arrays it finds, and so is
    the reference's. -/
theorem product1 (hag : Agrees m m' c) : (Cert.KernelIdeal.Gen.W4 m ρ c (Proc.devRef .tc Cert.KernelIdeal.main_v30) : Cert.Gcn.Mat 100000 128) = Cert.ReferenceIdeal.Fold.U4 m' c (Proc.devRef .tc Cert.ReferenceIdeal.main_v30) := by
  have hK : (Cert.KernelIdeal.Gen.W4 m ρ c (Proc.devRef .tc Cert.KernelIdeal.main_v30) : Cert.Gcn.Mat 100000 128)
      = Cert.Gcn.prodIn (Cert.KernelIdeal.Gen.W3 m ρ c (Proc.devRef .tc Cert.KernelIdeal.main_arg0) : Cert.Gcn.Mat 100000 2) (Cert.KernelIdeal.Gen.W3 m ρ c (Proc.devRef .tc Cert.KernelIdeal.main_arg4) : Cert.Gcn.Mat 2 128) :=
    (Cert.KernelIdeal.Gen.W4_arr m ρ c 2).trans (Cert.KernelIdeal.Dense.region0 (Cert.KernelIdeal.Gen.V3 m ρ) c)
  have hR : (Cert.ReferenceIdeal.Fold.U4 m' c (Proc.devRef .tc Cert.ReferenceIdeal.main_v30) : Cert.Gcn.Mat 100000 128)
      = Cert.Gcn.prodIn (Cert.ReferenceIdeal.Fold.U3 m' c (Proc.devRef .tc Cert.ReferenceIdeal.main_arg0) : Cert.Gcn.Mat 100000 2) (Cert.ReferenceIdeal.Fold.U3 m' c (Proc.devRef .tc Cert.ReferenceIdeal.main_arg4) : Cert.Gcn.Mat 2 128) :=
    refProduct1 (Cert.ReferenceIdeal.Fold.U3 m' c)
  rw [hK, hR, Carry.arg0_at3 m ρ m' c hag, Carry.arg4_at3 m ρ m' c hag]

/-- After the first layer's stretch: its output, and the next layer's weights and bias. -/
theorem layer1 (hag : Agrees m m' c) : (Cert.KernelIdeal.Gen.W5 m ρ c (Proc.devRef .tc Cert.KernelIdeal.main_v46) : Cert.Gcn.Mat 100000 128) = Cert.ReferenceIdeal.Fold.U5 m' c (Proc.devRef .tc Cert.ReferenceIdeal.main_v46) :=
  Cert.Gcn.Layers.aggregate1 (Cert.KernelIdeal.Gen.W4 m ρ c) (Cert.ReferenceIdeal.Fold.U4 m' c) (product1 m ρ m' c hag)
    (Carry.v3_at4 m ρ m' c (sources3 m ρ m' c hag)) (Carry.v6_at4 m ρ m' c (destinations3 m ρ m' c hag)) (Carry.v29_at4 m ρ m' c (weights3 m ρ m' c hag)) (Carry.arg5_at4 m ρ m' c hag)
theorem layerWeights2 (hag : Agrees m m' c) : (Cert.KernelIdeal.Gen.W5 m ρ c (Proc.devRef .tc Cert.KernelIdeal.main_v48) : Cert.Gcn.Mat 128 128) = Cert.ReferenceIdeal.Fold.U5 m' c (Proc.devRef .tc Cert.ReferenceIdeal.main_v48) :=
  Cert.Gcn.Layers.nextWeights1 (Cert.KernelIdeal.Gen.W4 m ρ c) (Cert.ReferenceIdeal.Fold.U4 m' c) (Carry.arg6_at4 m ρ m' c hag)
theorem bias2 (hag : Agrees m m' c) : (Cert.KernelIdeal.Gen.W5 m ρ c (Proc.devRef .tc Cert.KernelIdeal.main_v50) : Arr ⟨1, ![128]⟩ .f32) = Cert.ReferenceIdeal.Fold.U5 m' c (Proc.devRef .tc Cert.ReferenceIdeal.main_v50) :=
  Cert.Gcn.Layers.nextBias1 (Cert.KernelIdeal.Gen.W4 m ρ c) (Cert.ReferenceIdeal.Fold.U4 m' c) (Carry.arg7_at4 m ρ m' c hag)

/-- The second dense product agrees: the launch's output array is the whole product of the arrays it finds, and so is
    the reference's. -/
theorem product2 (hag : Agrees m m' c) : (Cert.KernelIdeal.Gen.W6 m ρ c (Proc.devRef .tc Cert.KernelIdeal.main_v51) : Cert.Gcn.Mat 100000 128) = Cert.ReferenceIdeal.Fold.U6 m' c (Proc.devRef .tc Cert.ReferenceIdeal.main_v51) := by
  have hK : (Cert.KernelIdeal.Gen.W6 m ρ c (Proc.devRef .tc Cert.KernelIdeal.main_v51) : Cert.Gcn.Mat 100000 128)
      = Cert.Gcn.prodHid (Cert.KernelIdeal.Gen.W5 m ρ c (Proc.devRef .tc Cert.KernelIdeal.main_v46) : Cert.Gcn.Mat 100000 128) (Cert.KernelIdeal.Gen.W5 m ρ c (Proc.devRef .tc Cert.KernelIdeal.main_v48) : Cert.Gcn.Mat 128 128) :=
    (Cert.KernelIdeal.Gen.W6_arr m ρ c 2).trans (Cert.KernelIdeal.Dense.region1 (Cert.KernelIdeal.Gen.V5 m ρ) c)
  have hR : (Cert.ReferenceIdeal.Fold.U6 m' c (Proc.devRef .tc Cert.ReferenceIdeal.main_v51) : Cert.Gcn.Mat 100000 128)
      = Cert.Gcn.prodHid (Cert.ReferenceIdeal.Fold.U5 m' c (Proc.devRef .tc Cert.ReferenceIdeal.main_v46) : Cert.Gcn.Mat 100000 128) (Cert.ReferenceIdeal.Fold.U5 m' c (Proc.devRef .tc Cert.ReferenceIdeal.main_v48) : Cert.Gcn.Mat 128 128) :=
    refProduct2 (Cert.ReferenceIdeal.Fold.U5 m' c)
  rw [hK, hR, layer1 m ρ m' c hag, layerWeights2 m ρ m' c hag]

/-- After the second layer's stretch: its output, and the next layer's weights and bias. -/
theorem layer2 (hag : Agrees m m' c) : (Cert.KernelIdeal.Gen.W7 m ρ c (Proc.devRef .tc Cert.KernelIdeal.main_v67) : Cert.Gcn.Mat 100000 128) = Cert.ReferenceIdeal.Fold.U7 m' c (Proc.devRef .tc Cert.ReferenceIdeal.main_v67) :=
  Cert.Gcn.Layers.aggregate2 (Cert.KernelIdeal.Gen.W6 m ρ c) (Cert.ReferenceIdeal.Fold.U6 m' c) (product2 m ρ m' c hag)
    (Carry.v3_at6 m ρ m' c (sources3 m ρ m' c hag)) (Carry.v6_at6 m ρ m' c (destinations3 m ρ m' c hag)) (Carry.v29_at6 m ρ m' c (weights3 m ρ m' c hag)) (Carry.v50_at6 m ρ m' c (bias2 m ρ m' c hag))
theorem layerWeights3 (hag : Agrees m m' c) : (Cert.KernelIdeal.Gen.W7 m ρ c (Proc.devRef .tc Cert.KernelIdeal.main_v69) : Cert.Gcn.Mat 128 128) = Cert.ReferenceIdeal.Fold.U7 m' c (Proc.devRef .tc Cert.ReferenceIdeal.main_v69) :=
  Cert.Gcn.Layers.nextWeights2 (Cert.KernelIdeal.Gen.W6 m ρ c) (Cert.ReferenceIdeal.Fold.U6 m' c) (Carry.arg6_at6 m ρ m' c hag)
theorem bias3 (hag : Agrees m m' c) : (Cert.KernelIdeal.Gen.W7 m ρ c (Proc.devRef .tc Cert.KernelIdeal.main_v71) : Arr ⟨1, ![128]⟩ .f32) = Cert.ReferenceIdeal.Fold.U7 m' c (Proc.devRef .tc Cert.ReferenceIdeal.main_v71) :=
  Cert.Gcn.Layers.nextBias2 (Cert.KernelIdeal.Gen.W6 m ρ c) (Cert.ReferenceIdeal.Fold.U6 m' c) (Carry.arg7_at6 m ρ m' c hag)

/-- The third dense product agrees: the launch's output array is the whole product of the arrays it finds, and so is
    the reference's. -/
theorem product3 (hag : Agrees m m' c) : (Cert.KernelIdeal.Gen.W8 m ρ c (Proc.devRef .tc Cert.KernelIdeal.main_v72) : Cert.Gcn.Mat 100000 128) = Cert.ReferenceIdeal.Fold.U8 m' c (Proc.devRef .tc Cert.ReferenceIdeal.main_v72) := by
  have hK : (Cert.KernelIdeal.Gen.W8 m ρ c (Proc.devRef .tc Cert.KernelIdeal.main_v72) : Cert.Gcn.Mat 100000 128)
      = Cert.Gcn.prodHid (Cert.KernelIdeal.Gen.W7 m ρ c (Proc.devRef .tc Cert.KernelIdeal.main_v67) : Cert.Gcn.Mat 100000 128) (Cert.KernelIdeal.Gen.W7 m ρ c (Proc.devRef .tc Cert.KernelIdeal.main_v69) : Cert.Gcn.Mat 128 128) :=
    (Cert.KernelIdeal.Gen.W8_arr m ρ c 2).trans (Cert.KernelIdeal.Dense.region2 (Cert.KernelIdeal.Gen.V7 m ρ) c)
  have hR : (Cert.ReferenceIdeal.Fold.U8 m' c (Proc.devRef .tc Cert.ReferenceIdeal.main_v72) : Cert.Gcn.Mat 100000 128)
      = Cert.Gcn.prodHid (Cert.ReferenceIdeal.Fold.U7 m' c (Proc.devRef .tc Cert.ReferenceIdeal.main_v67) : Cert.Gcn.Mat 100000 128) (Cert.ReferenceIdeal.Fold.U7 m' c (Proc.devRef .tc Cert.ReferenceIdeal.main_v69) : Cert.Gcn.Mat 128 128) :=
    refProduct3 (Cert.ReferenceIdeal.Fold.U7 m' c)
  rw [hK, hR, layer2 m ρ m' c hag, layerWeights3 m ρ m' c hag]

/-- After the third layer's stretch: its output, and the next layer's weights and bias. -/
theorem layer3 (hag : Agrees m m' c) : (Cert.KernelIdeal.Gen.W9 m ρ c (Proc.devRef .tc Cert.KernelIdeal.main_v88) : Cert.Gcn.Mat 100000 128) = Cert.ReferenceIdeal.Fold.U9 m' c (Proc.devRef .tc Cert.ReferenceIdeal.main_v88) :=
  Cert.Gcn.Layers.aggregate3 (Cert.KernelIdeal.Gen.W8 m ρ c) (Cert.ReferenceIdeal.Fold.U8 m' c) (product3 m ρ m' c hag)
    (Carry.v3_at8 m ρ m' c (sources3 m ρ m' c hag)) (Carry.v6_at8 m ρ m' c (destinations3 m ρ m' c hag)) (Carry.v29_at8 m ρ m' c (weights3 m ρ m' c hag)) (Carry.v71_at8 m ρ m' c (bias3 m ρ m' c hag))
theorem layerWeights4 (hag : Agrees m m' c) : (Cert.KernelIdeal.Gen.W9 m ρ c (Proc.devRef .tc Cert.KernelIdeal.main_v90) : Cert.Gcn.Mat 128 128) = Cert.ReferenceIdeal.Fold.U9 m' c (Proc.devRef .tc Cert.ReferenceIdeal.main_v90) :=
  Cert.Gcn.Layers.nextWeights3 (Cert.KernelIdeal.Gen.W8 m ρ c) (Cert.ReferenceIdeal.Fold.U8 m' c) (Carry.arg6_at8 m ρ m' c hag)
theorem bias4 (hag : Agrees m m' c) : (Cert.KernelIdeal.Gen.W9 m ρ c (Proc.devRef .tc Cert.KernelIdeal.main_v92) : Arr ⟨1, ![128]⟩ .f32) = Cert.ReferenceIdeal.Fold.U9 m' c (Proc.devRef .tc Cert.ReferenceIdeal.main_v92) :=
  Cert.Gcn.Layers.nextBias3 (Cert.KernelIdeal.Gen.W8 m ρ c) (Cert.ReferenceIdeal.Fold.U8 m' c) (Carry.arg7_at8 m ρ m' c hag)

/-- The fourth dense product agrees: the launch's output array is the whole product of the arrays it finds, and so is
    the reference's. -/
theorem product4 (hag : Agrees m m' c) : (Cert.KernelIdeal.Gen.W10 m ρ c (Proc.devRef .tc Cert.KernelIdeal.main_v93) : Cert.Gcn.Mat 100000 128) = Cert.ReferenceIdeal.Fold.U10 m' c (Proc.devRef .tc Cert.ReferenceIdeal.main_v93) := by
  have hK : (Cert.KernelIdeal.Gen.W10 m ρ c (Proc.devRef .tc Cert.KernelIdeal.main_v93) : Cert.Gcn.Mat 100000 128)
      = Cert.Gcn.prodHid (Cert.KernelIdeal.Gen.W9 m ρ c (Proc.devRef .tc Cert.KernelIdeal.main_v88) : Cert.Gcn.Mat 100000 128) (Cert.KernelIdeal.Gen.W9 m ρ c (Proc.devRef .tc Cert.KernelIdeal.main_v90) : Cert.Gcn.Mat 128 128) :=
    (Cert.KernelIdeal.Gen.W10_arr m ρ c 2).trans (Cert.KernelIdeal.Dense.region3 (Cert.KernelIdeal.Gen.V9 m ρ) c)
  have hR : (Cert.ReferenceIdeal.Fold.U10 m' c (Proc.devRef .tc Cert.ReferenceIdeal.main_v93) : Cert.Gcn.Mat 100000 128)
      = Cert.Gcn.prodHid (Cert.ReferenceIdeal.Fold.U9 m' c (Proc.devRef .tc Cert.ReferenceIdeal.main_v88) : Cert.Gcn.Mat 100000 128) (Cert.ReferenceIdeal.Fold.U9 m' c (Proc.devRef .tc Cert.ReferenceIdeal.main_v90) : Cert.Gcn.Mat 128 128) :=
    refProduct4 (Cert.ReferenceIdeal.Fold.U9 m' c)
  rw [hK, hR, layer3 m ρ m' c hag, layerWeights4 m ρ m' c hag]

/-- The 64 pooled graph rows agree. -/
theorem pooled (hag : Agrees m m' c) : (Cert.KernelIdeal.Gen.W11 m ρ c (Proc.devRef .tc Cert.KernelIdeal.main_v115) : Cert.Gcn.Mat 64 128) = Cert.ReferenceIdeal.Fold.U11 m' c (Proc.devRef .tc Cert.ReferenceIdeal.main_v115) :=
  Cert.Gcn.Pool.pooled (Cert.KernelIdeal.Gen.W10 m ρ c) (Cert.ReferenceIdeal.Fold.U10 m' c) (product4 m ρ m' c hag)
    (Carry.v3_at10 m ρ m' c (sources3 m ρ m' c hag)) (Carry.v6_at10 m ρ m' c (destinations3 m ρ m' c hag)) (Carry.v29_at10 m ρ m' c (weights3 m ρ m' c hag))
    (Carry.v92_at10 m ρ m' c (bias4 m ρ m' c hag)) (Carry.arg2_at10 m ρ m' c hag) (Carry.arg3_at10 m ρ m' c hag)

/-! ## The perceptron -/

/-- The hidden layer's bias as the perceptron launch reads it: the kernel program reshapes the bias argument to one
    row, and that row's entries are the argument's. -/
theorem hiddenBiasRow (V : Valuation Cert.KernelIdeal.τ Cert.KernelIdeal.sig (Elt Ideal)) (q : Fin 128) :
    (after (Cert.KernelIdeal.Gen.hostOps4 (F := Ideal)) V (Proc.devRef .tc Cert.KernelIdeal.main_v116) : Cert.Gcn.Mat 1 128) (ValueIdx.ix2 0 q)
      = (V (Proc.devRef .tc Cert.KernelIdeal.main_arg9) : Arr ⟨1, ![128]⟩ .f32) (ValueIdx.ix1 q) := by
  after_results_simp
  exact (shapeCast_addUnit_apply ![128] _ _ (ValueIdx.ix2 0 q)).trans
    (congrArg _ (funext fun a => by match a with | ⟨0, _⟩ => rfl))

/-- The output layer's bias as the perceptron launch reads it. -/
theorem outputBiasRow (V : Valuation Cert.KernelIdeal.τ Cert.KernelIdeal.sig (Elt Ideal)) (q : Fin 2) :
    (after (Cert.KernelIdeal.Gen.hostOps4 (F := Ideal)) V (Proc.devRef .tc Cert.KernelIdeal.main_v117) : Cert.Gcn.Mat 1 2) (ValueIdx.ix2 0 q)
      = (V (Proc.devRef .tc Cert.KernelIdeal.main_arg11) : Arr ⟨1, ![2]⟩ .f32) (ValueIdx.ix1 q) := by
  after_results_simp
  exact (shapeCast_addUnit_apply ![2] _ _ (ValueIdx.ix2 0 q)).trans
    (congrArg _ (funext fun a => by match a with | ⟨0, _⟩ => rfl))

/-- The reference's last stretch is the perceptron of the pooled rows and the four perceptron arguments. -/
theorem refPerceptron (V' : Valuation Cert.ReferenceIdeal.τ Cert.ReferenceIdeal.sig (Elt Ideal)) :
    (after (Cert.ReferenceIdeal.Fold.opsM (F := Ideal)) V' (Proc.devRef .tc Cert.ReferenceIdeal.main_v125) : Cert.Gcn.Mat 64 2)
      = Cert.Gcn.perceptron Ideal.exp Ideal.log (V' (Proc.devRef .tc Cert.ReferenceIdeal.main_v115) : Cert.Gcn.Mat 64 128) (V' (Proc.devRef .tc Cert.ReferenceIdeal.main_arg8) : Cert.Gcn.Mat 128 128)
          (fun q => (V' (Proc.devRef .tc Cert.ReferenceIdeal.main_arg9) : Arr ⟨1, ![128]⟩ .f32) (ValueIdx.ix1 q)) (V' (Proc.devRef .tc Cert.ReferenceIdeal.main_arg10) : Cert.Gcn.Mat 128 2)
          (fun q => (V' (Proc.devRef .tc Cert.ReferenceIdeal.main_arg11) : Arr ⟨1, ![2]⟩ .f32) (ValueIdx.ix1 q)) := by
  after_results_simp
  exact Cert.ReferenceIdeal.Perceptron.hostPerceptron_eq _ _ _ _ _

/-- THE RESULTS AGREE: the kernel program's result array, the perceptron launch's output, is the reference's result. -/
theorem result (hag : Agrees m m' c) : (Cert.KernelIdeal.Gen.W12 m ρ c (Proc.devRef .tc Cert.KernelIdeal.main_v118) : Cert.Gcn.Mat 64 2) = Cert.ReferenceIdeal.Fold.U12 m' c (Proc.devRef .tc Cert.ReferenceIdeal.main_v125) := by
  have hK : (Cert.KernelIdeal.Gen.W12 m ρ c (Proc.devRef .tc Cert.KernelIdeal.main_v118) : Cert.Gcn.Mat 64 2)
      = Cert.Gcn.perceptron Ideal.exp Ideal.log (Cert.KernelIdeal.Gen.W11 m ρ c (Proc.devRef .tc Cert.KernelIdeal.main_v115) : Cert.Gcn.Mat 64 128) (Cert.KernelIdeal.Gen.W11 m ρ c (Proc.devRef .tc Cert.KernelIdeal.main_arg8) : Cert.Gcn.Mat 128 128)
          (fun q => (Cert.KernelIdeal.Gen.W11 m ρ c (Proc.devRef .tc Cert.KernelIdeal.main_v116) : Cert.Gcn.Mat 1 128) (ValueIdx.ix2 0 q)) (Cert.KernelIdeal.Gen.W11 m ρ c (Proc.devRef .tc Cert.KernelIdeal.main_arg10) : Cert.Gcn.Mat 128 2)
          (fun q => (Cert.KernelIdeal.Gen.W11 m ρ c (Proc.devRef .tc Cert.KernelIdeal.main_v117) : Cert.Gcn.Mat 1 2) (ValueIdx.ix2 0 q)) :=
    (Cert.KernelIdeal.Gen.W12_arr m ρ c 5).trans (Cert.KernelIdeal.Perceptron.region4 (Cert.KernelIdeal.Gen.V11 m ρ) c)
  have hR := refPerceptron (Cert.ReferenceIdeal.Fold.U11 m' c)
  have b1 : (fun q : Fin 128 => (Cert.KernelIdeal.Gen.W11 m ρ c (Proc.devRef .tc Cert.KernelIdeal.main_v116) : Cert.Gcn.Mat 1 128) (ValueIdx.ix2 0 q))
      = fun q => (Cert.ReferenceIdeal.Fold.U11 m' c (Proc.devRef .tc Cert.ReferenceIdeal.main_arg9) : Arr ⟨1, ![128]⟩ .f32) (ValueIdx.ix1 q) :=
    funext fun q => (hiddenBiasRow (Cert.KernelIdeal.Gen.W10 m ρ c) q).trans
      (congrFun ((Carry.arg9_at10 m ρ m' c hag).trans ((Cert.ReferenceIdeal.Fold.opsB4_keeps (Cert.ReferenceIdeal.Fold.U10 m' c) Cert.ReferenceIdeal.main_arg9 (by decide) : Cert.ReferenceIdeal.Fold.U11 m' c (Proc.devRef .tc Cert.ReferenceIdeal.main_arg9) = Cert.ReferenceIdeal.Fold.U10 m' c (Proc.devRef .tc Cert.ReferenceIdeal.main_arg9))).symm) (ValueIdx.ix1 q))
  have b2 : (fun q : Fin 2 => (Cert.KernelIdeal.Gen.W11 m ρ c (Proc.devRef .tc Cert.KernelIdeal.main_v117) : Cert.Gcn.Mat 1 2) (ValueIdx.ix2 0 q))
      = fun q => (Cert.ReferenceIdeal.Fold.U11 m' c (Proc.devRef .tc Cert.ReferenceIdeal.main_arg11) : Arr ⟨1, ![2]⟩ .f32) (ValueIdx.ix1 q) :=
    funext fun q => (outputBiasRow (Cert.KernelIdeal.Gen.W10 m ρ c) q).trans
      (congrFun ((Carry.arg11_at10 m ρ m' c hag).trans ((Cert.ReferenceIdeal.Fold.opsB4_keeps (Cert.ReferenceIdeal.Fold.U10 m' c) Cert.ReferenceIdeal.main_arg11 (by decide) : Cert.ReferenceIdeal.Fold.U11 m' c (Proc.devRef .tc Cert.ReferenceIdeal.main_arg11) = Cert.ReferenceIdeal.Fold.U10 m' c (Proc.devRef .tc Cert.ReferenceIdeal.main_arg11))).symm) (ValueIdx.ix1 q))
  have hR' : (Cert.ReferenceIdeal.Fold.U12 m' c (Proc.devRef .tc Cert.ReferenceIdeal.main_v125) : Cert.Gcn.Mat 64 2) = _ := hR
  rw [hK, hR', pooled m ρ m' c hag, Carry.arg8_at11 m ρ m' c hag, Carry.arg10_at11 m ρ m' c hag, b1, b2]

end Cert.Gcn.Bridge

end
-- ==== Proof.lean ====
/-
  A graph-convolution network on 100000 nodes and 1700000 edges (self loops included), four layers, pooled
  twice, then a two-layer perceptron with a log-softmax over two classes: the kernel program against its
  reference, over the extended reals.

  The two programs differ only in how they compute the dense products `x · W` and the perceptron. The kernel
  program runs each dense product as a launch over 20 blocks of 5000 rows, on the matrix unit after a change of
  float format, and the perceptron as one launch; the reference states each product as one `dot_general` and the
  perceptron as a dozen host operations. Over the extended reals a change of float format is the identity, a
  product into a zero accumulator is the plain sum of products, and a sum does not depend on its tiling; so each
  launch leaves in its output array the very function of its operand arrays that the reference's operation is.
  Everything else — the edge lists with their self loops, the in-degrees and edge weights, each layer's gather,
  scaling, scatter-add and bias, the two pooling sums — is the same sequence of operations in both programs, and
  is never opened: both programs' buffer contents are folds of their operations over the launch memory, and the two
  folds are compared one stretch at a time (`Cert.Gcn.Bridge.result`). No algebraic law beyond these is used, and
  none that needs the inputs to be finite: the precondition is never opened.

  The three frames: both kernel programs run without a fault and leave their arguments as launched (the launches'
  and host stretches' frame, at the word level and at the extended reals); the reference is a straight line of host
  operations none of which writes an argument. The idealized kernel program is the kernel program's own text read
  at the extended reals: no operation was rewritten, so nothing is owed for that step.
-/
import proofs.«144633_j4887672783292_1_alg».proof.Defs
import proofs.«144633_j4887672783292_1_alg».proof.Proof.Gen.Kernel
import proofs.«144633_j4887672783292_1_alg».proof.Proof.Gen.Kernel.Skeleton
import proofs.«144633_j4887672783292_1_alg».proof.Proof.Gen.Kernel.Launch
import proofs.«144633_j4887672783292_1_alg».proof.Proof.Gen.Kernel.Points
import proofs.«144633_j4887672783292_1_alg».proof.Proof.Gen.Kernel.Frame
import proofs.«144633_j4887672783292_1_alg».proof.Proof.Gen.KernelIdeal
import proofs.«144633_j4887672783292_1_alg».proof.Proof.Gen.KernelIdeal.Skeleton
import proofs.«144633_j4887672783292_1_alg».proof.Proof.Gen.KernelIdeal.Launch
import proofs.«144633_j4887672783292_1_alg».proof.Proof.Gen.KernelIdeal.Points
import proofs.«144633_j4887672783292_1_alg».proof.Proof.Gen.KernelIdeal.Frame
import proofs.«144633_j4887672783292_1_alg».proof.Proof.Gen.ReferenceIdeal
import proofs.«144633_j4887672783292_1_alg».proof.Proof.Gen.Pre_finite_inputs
import proofs.«144633_j4887672783292_1_alg».proof.Proof.KernelRun
import proofs.«144633_j4887672783292_1_alg».proof.Proof.RefArgs
import proofs.«144633_j4887672783292_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program, at the word level, runs without a fault and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is a straight line of host operations: it terminates, and no operation writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Fold.arg0_kept _ c),
     (h c Cert.ReferenceIdeal.main_arg1).trans (Cert.ReferenceIdeal.Fold.arg1_kept _ c),
     (h c Cert.ReferenceIdeal.main_arg2).trans (Cert.ReferenceIdeal.Fold.arg2_kept _ c),
     (h c Cert.ReferenceIdeal.main_arg3).trans (Cert.ReferenceIdeal.Fold.arg3_kept _ c),
     (h c Cert.ReferenceIdeal.main_arg4).trans (Cert.ReferenceIdeal.Fold.arg4_kept _ c),
     (h c Cert.ReferenceIdeal.main_arg5).trans (Cert.ReferenceIdeal.Fold.arg5_kept _ c),
     (h c Cert.ReferenceIdeal.main_arg6).trans (Cert.ReferenceIdeal.Fold.arg6_kept _ c),
     (h c Cert.ReferenceIdeal.main_arg7).trans (Cert.ReferenceIdeal.Fold.arg7_kept _ c),
     (h c Cert.ReferenceIdeal.main_arg8).trans (Cert.ReferenceIdeal.Fold.arg8_kept _ c),
     (h c Cert.ReferenceIdeal.main_arg9).trans (Cert.ReferenceIdeal.Fold.arg9_kept _ c),
     (h c Cert.ReferenceIdeal.main_arg10).trans (Cert.ReferenceIdeal.Fold.arg10_kept _ c),
     (h c Cert.ReferenceIdeal.main_arg11).trans (Cert.ReferenceIdeal.Fold.arg11_kept _ c)⟩)
    (Cert.ReferenceIdeal.Fold.run_fold (F := Ideal) m ρ)

/-- From memories that agree on the arguments both programs run and end with the same result array: the kernel
    program's is the last boundary's contents at the perceptron launch's output array, the reference's the fold
    of its line at its result buffer, and the two are equal. -/
theorem algebraic : Cert.algebraic_KernelIdeal_ReferenceIdeal := by
  intro m ρ m' ρ' _ hagree
  refine ⟨fun c => Cert.KernelIdeal.Gen.W12 m ρ c (Proc.devRef .tc Cert.KernelIdeal.main_v118),
    Cert.KernelIdeal.Whole.run_result (F := Ideal) m ρ, ?_⟩
  refine (θ_run Cert.ReferenceIdeal.defs _ _).mono (fun _ h c => ⟨?_,
     (h c Cert.ReferenceIdeal.main_arg0).trans (Cert.ReferenceIdeal.Fold.arg0_kept _ c),
     (h c Cert.ReferenceIdeal.main_arg1).trans (Cert.ReferenceIdeal.Fold.arg1_kept _ c),
     (h c Cert.ReferenceIdeal.main_arg2).trans (Cert.ReferenceIdeal.Fold.arg2_kept _ c),
     (h c Cert.ReferenceIdeal.main_arg3).trans (Cert.ReferenceIdeal.Fold.arg3_kept _ c),
     (h c Cert.ReferenceIdeal.main_arg4).trans (Cert.ReferenceIdeal.Fold.arg4_kept _ c),
     (h c Cert.ReferenceIdeal.main_arg5).trans (Cert.ReferenceIdeal.Fold.arg5_kept _ c),
     (h c Cert.ReferenceIdeal.main_arg6).trans (Cert.ReferenceIdeal.Fold.arg6_kept _ c),
     (h c Cert.ReferenceIdeal.main_arg7).trans (Cert.ReferenceIdeal.Fold.arg7_kept _ c),
     (h c Cert.ReferenceIdeal.main_arg8).trans (Cert.ReferenceIdeal.Fold.arg8_kept _ c),
     (h c Cert.ReferenceIdeal.main_arg9).trans (Cert.ReferenceIdeal.Fold.arg9_kept _ c),
     (h c Cert.ReferenceIdeal.main_arg10).trans (Cert.ReferenceIdeal.Fold.arg10_kept _ c),
     (h c Cert.ReferenceIdeal.main_arg11).trans (Cert.ReferenceIdeal.Fold.arg11_kept _ c)⟩)
    (Cert.ReferenceIdeal.Fold.run_fold (F := Ideal) m' ρ')
  exact (h c Cert.ReferenceIdeal.main_v125).trans
    ((congrFun (Cert.ReferenceIdeal.Fold.fold_eq m' c) (Proc.devRef .tc Cert.ReferenceIdeal.main_v125)).trans
      (Cert.Gcn.Bridge.result m ρ m' c (hagree c)).symm)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
